-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x3x128x128 : Shape := ⟨4, ![128, 3, 128, 128]⟩
abbrev S48x128 : Shape := ⟨2, ![48, 128]⟩
abbrev S1x128 : Shape := ⟨2, ![1, 128]⟩
abbrev S2048x128 : Shape := ⟨2, ![2048, 128]⟩
abbrev S1152x128 : Shape := ⟨2, ![1152, 128]⟩
abbrev S128x128 : Shape := ⟨2, ![128, 128]⟩
abbrev S_ : Shape := ⟨0, ![]⟩

class Facts : Prop where
  bcast_S_S128x3x128x128 : S_.BroadcastsInDim S128x3x128x128 (![] : Fin 0 → Fin S128x3x128x128.rank)
  reducesTo_S128x3x128x128_S_d0_1_2_3 : S128x3x128x128.ReducesTo [0, 1, 2, 3] S_
  h_S_ : 0 < S_.numel
  bcast_S_S48x128 : S_.BroadcastsInDim S48x128 (![] : Fin 0 → Fin S48x128.rank)
  reducesTo_S48x128_S_d0_1 : S48x128.ReducesTo [0, 1] S_
  bcast_S_S1x128 : S_.BroadcastsInDim S1x128 (![] : Fin 0 → Fin S1x128.rank)
  reducesTo_S1x128_S_d0_1 : S1x128.ReducesTo [0, 1] S_
  bcast_S_S2048x128 : S_.BroadcastsInDim S2048x128 (![] : Fin 0 → Fin S2048x128.rank)
  reducesTo_S2048x128_S_d0_1 : S2048x128.ReducesTo [0, 1] S_
  bcast_S_S1152x128 : S_.BroadcastsInDim S1152x128 (![] : Fin 0 → Fin S1152x128.rank)
  reducesTo_S1152x128_S_d0_1 : S1152x128.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg7 : FVec F S1152x128 .f32) (main_arg8 : FVec F S128x128 .f32) (main_arg9 : FVec F S1152x128 .f32) (main_arg10 : FVec F S128x128 .f32) (main_v33 : IVec S_ 1) : IVec S_ 1 :=
  let main_v34 : FVec F S1152x128 .f32 := Host.absf main_arg7
  let main_cst_12 : FVec F S_ .f32 := constant S_ .f32 0x7F800000#32
  let main_v35 : FVec F S1152x128 .f32 := broadcastInDim S1152x128 ![] bcast_S_S1152x128 main_cst_12
  let main_v36 : IVec S1152x128 1 := cmpf .olt main_v34 main_v35
  let main_c_13 : IVec S_ 1 := constantI S_ 1 1#1
  let main_v37 : IVec S_ 1 := (fun x v => Host.reduce IntOp.andi x v reducesTo_S1152x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1152x128 .f32 := Host.absf main_arg9
  let main_cst_16 : FVec F S_ .f32 := constant S_ .f32 0x7F800000#32
  let main_v45 : FVec F S1152x128 .f32 := broadcastInDim S1152x128 ![] bcast_S_S1152x128 main_cst_16
  let main_v46 : IVec S1152x128 1 := cmpf .olt main_v44 main_v45
  let main_c_17 : IVec S_ 1 := constantI S_ 1 1#1
  let main_v47 : IVec S_ 1 := (fun x v => Host.reduce IntOp.andi x v reducesTo_S1152x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg4 : FVec F S1x128 .f32) (main_arg5 : FVec F S2048x128 .f32) (main_arg6 : FVec F S1x128 .f32) (main_arg7 : FVec F S1152x128 .f32) (main_arg8 : FVec F S128x128 .f32) (main_arg9 : FVec F S1152x128 .f32) (main_arg10 : FVec F S128x128 .f32) (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S2048x128 .f32 := Host.absf main_arg5
  let main_cst_8 : FVec F S_ .f32 := constant S_ .f32 0x7F800000#32
  let main_v25 : FVec F S2048x128 .f32 := broadcastInDim S2048x128 ![] bcast_S_S2048x128 main_cst_8
  let main_v26 : IVec S2048x128 1 := cmpf .olt main_v24 main_v25
  let main_c_9 : IVec S_ 1 := constantI S_ 1 1#1
  let main_v27 : IVec S_ 1 := (fun x v => Host.reduce IntOp.andi x v reducesTo_S2048x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S128x3x128x128 .f32) (main_arg1 : FVec F S48x128 .f32) (main_arg2 : FVec F S1x128 .f32) (main_arg3 : FVec F S2048x128 .f32) (main_arg4 : FVec F S1x128 .f32) (main_arg5 : FVec F S2048x128 .f32) (main_arg6 : FVec F S1x128 .f32) (main_arg7 : FVec F S1152x128 .f32) (main_arg8 : FVec F S128x128 .f32) (main_arg9 : FVec F S1152x128 .f32) (main_arg10 : FVec F S128x128 .f32) : IVec S_ 1 :=
  let main_v0 : FVec F S128x3x128x128 .f32 := Host.absf main_arg0
  let main_cst : FVec F S_ .f32 := constant S_ .f32 0x7F800000#32
  let main_v1 : FVec F S128x3x128x128 .f32 := broadcastInDim S128x3x128x128 ![] bcast_S_S128x3x128x128 main_cst
  let main_v2 : IVec S128x3x128x128 1 := cmpf .olt main_v0 main_v1
  let main_c : IVec S_ 1 := constantI S_ 1 1#1
  let main_v3 : IVec S_ 1 := (fun x v => Host.reduce IntOp.andi x v reducesTo_S128x3x128x128_S_d0_1_2_3 h_S_) main_v2 main_c
  let main_v4 : FVec F S48x128 .f32 := Host.absf main_arg1
  let main_cst_0 : FVec F S_ .f32 := constant S_ .f32 0x7F800000#32
  let main_v5 : FVec F S48x128 .f32 := broadcastInDim S48x128 ![] bcast_S_S48x128 main_cst_0
  let main_v6 : IVec S48x128 1 := cmpf .olt main_v4 main_v5
  let main_c_1 : IVec S_ 1 := constantI S_ 1 1#1
  let main_v7 : IVec S_ 1 := (fun x v => Host.reduce IntOp.andi x v reducesTo_S48x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_arg4 main_arg5 main_arg6 main_arg7 main_arg8 main_arg9 main_arg10 main_v13 main_v16
-- ==== Kernel.lean ====
abbrev S128x3x128x128 : Shape := ⟨4, ![128, 3, 128, 128]⟩
abbrev S48x128 : Shape := ⟨2, ![48, 128]⟩
abbrev S1x128 : Shape := ⟨2, ![1, 128]⟩
abbrev S2048x128 : Shape := ⟨2, ![2048, 128]⟩
abbrev S1152x128 : Shape := ⟨2, ![1152, 128]⟩
abbrev S128x128 : Shape := ⟨2, ![128, 128]⟩
abbrev S128x128x128x3 : Shape := ⟨4, ![128, 128, 128, 3]⟩
abbrev S_ : Shape := ⟨0, ![]⟩
abbrev S128x130x130x3 : Shape := ⟨4, ![128, 130, 130, 3]⟩
abbrev S128x65x2x65x2x3 : Shape := ⟨6, ![128, 65, 2, 65, 2, 3]⟩
abbrev S128x65x65x2x2x3 : Shape := ⟨6, ![128, 65, 65, 2, 2, 3]⟩
abbrev S128x65x65x12 : Shape := ⟨4, ![128, 65, 65, 12]⟩
abbrev S4x512x128 : Shape := ⟨3, ![4, 512, 128]⟩
abbrev S9x128x128 : Shape := ⟨3, ![9, 128, 128]⟩
abbrev S128x64x64x128 : Shape := ⟨4, ![128, 64, 64, 128]⟩
abbrev S2x65x65x12 : Shape := ⟨4, ![2, 65, 65, 12]⟩
abbrev S2x64x64x128 : Shape := ⟨4, ![2, 64, 64, 128]⟩
abbrev S2x64x64x12 : Shape := ⟨4, ![2, 64, 64, 12]⟩
abbrev S8192x12 : Shape := ⟨2, ![8192, 12]⟩
abbrev S8192x48 : Shape := ⟨2, ![8192, 48]⟩
abbrev S8192x128 : Shape := ⟨2, ![8192, 128]⟩
abbrev S128x66x66x128 : Shape := ⟨4, ![128, 66, 66, 128]⟩
abbrev S128x33x2x33x2x128 : Shape := ⟨6, ![128, 33, 2, 33, 2, 128]⟩
abbrev S128x33x33x2x2x128 : Shape := ⟨6, ![128, 33, 33, 2, 2, 128]⟩
abbrev S128x33x33x512 : Shape := ⟨4, ![128, 33, 33, 512]⟩
abbrev S128x32x32x128 : Shape := ⟨4, ![128, 32, 32, 128]⟩
abbrev S4x33x33x512 : Shape := ⟨4, ![4, 33, 33, 512]⟩
abbrev S4x32x32x128 : Shape := ⟨4, ![4, 32, 32, 128]⟩
abbrev S4x32x32x512 : Shape := ⟨4, ![4, 32, 32, 512]⟩
abbrev S4096x512 : Shape := ⟨2, ![4096, 512]⟩
abbrev S1x512x128 : Shape := ⟨3, ![1, 512, 128]⟩
abbrev S512x128 : Shape := ⟨2, ![512, 128]⟩
abbrev S4096x128 : Shape := ⟨2, ![4096, 128]⟩
abbrev S128x34x34x128 : Shape := ⟨4, ![128, 34, 34, 128]⟩
abbrev S128x17x2x17x2x128 : Shape := ⟨6, ![128, 17, 2, 17, 2, 128]⟩
abbrev S128x17x17x2x2x128 : Shape := ⟨6, ![128, 17, 17, 2, 2, 128]⟩
abbrev S128x17x17x512 : Shape := ⟨4, ![128, 17, 17, 512]⟩
abbrev S128x16x16x128 : Shape := ⟨4, ![128, 16, 16, 128]⟩
abbrev S8x17x17x512 : Shape := ⟨4, ![8, 17, 17, 512]⟩
abbrev S8x16x16x128 : Shape := ⟨4, ![8, 16, 16, 128]⟩
abbrev S8x18x18x128 : Shape := ⟨4, ![8, 18, 18, 128]⟩
abbrev S8x16x16x512 : Shape := ⟨4, ![8, 16, 16, 512]⟩
abbrev S2048x512 : Shape := ⟨2, ![2048, 512]⟩
abbrev S8x16x18x128 : Shape := ⟨4, ![8, 16, 18, 128]⟩
abbrev S1x128x128 : Shape := ⟨3, ![1, 128, 128]⟩
abbrev S128x128x16x16 : Shape := ⟨4, ![128, 128, 16, 16]⟩

abbrev nBuf : Space → Nat
  | .hbm => 46
  | .vmem => 23
  | .smem => 0
  | _ => 0

abbrev bufTy : (tb : Table) → Fin (tcTables nBuf tb) → BufTy
  | .hbm, ⟨0, _⟩ => ⟨S128x3x128x128, .f32⟩
  | .hbm, ⟨1, _⟩ => ⟨S48x128, .f32⟩
  | .hbm, ⟨2, _⟩ => ⟨S1x128, .f32⟩
  | .hbm, ⟨3, _⟩ => ⟨S2048x128, .f32⟩
  | .hbm, ⟨4, _⟩ => ⟨S1x128, .f32⟩
  | .hbm, ⟨5, _⟩ => ⟨S2048x128, .f32⟩
  | .hbm, ⟨6, _⟩ => ⟨S1x128, .f32⟩
  | .hbm, ⟨7, _⟩ => ⟨S1152x128, .f32⟩
  | .hbm, ⟨8, _⟩ => ⟨S128x128, .f32⟩
  | .hbm, ⟨9, _⟩ => ⟨S1152x128, .f32⟩
  | .hbm, ⟨10, _⟩ => ⟨S128x128, .f32⟩
  | .hbm, ⟨11, _⟩ => ⟨S128x128x128x3, .f32⟩
  | .hbm, ⟨12, _⟩ => ⟨S_, .i32⟩
  | .hbm, ⟨13, _⟩ => ⟨S_, .f32⟩
  | .hbm, ⟨14, _⟩ => ⟨S128x130x130x3, .f32⟩
  | .hbm, ⟨15, _⟩ => ⟨S128x65x2x65x2x3, .f32⟩
  | .hbm, ⟨16, _⟩ => ⟨S128x65x65x2x2x3, .f32⟩
  | .hbm, ⟨17, _⟩ => ⟨S128x65x65x12, .f32⟩
  | .hbm, ⟨18, _⟩ => ⟨S128x65x65x12, .bf16⟩
  | .hbm, ⟨19, _⟩ => ⟨S48x128, .bf16⟩
  | .hbm, ⟨20, _⟩ => ⟨S2048x128, .bf16⟩
  | .hbm, ⟨21, _⟩ => ⟨S4x512x128, .bf16⟩
  | .hbm, ⟨22, _⟩ => ⟨S2048x128, .bf16⟩
  | .hbm, ⟨23, _⟩ => ⟨S4x512x128, .bf16⟩
  | .hbm, ⟨24, _⟩ => ⟨S1152x128, .bf16⟩
  | .hbm, ⟨25, _⟩ => ⟨S9x128x128, .bf16⟩
  | .hbm, ⟨26, _⟩ => ⟨S128x128, .bf16⟩
  | .hbm, ⟨27, _⟩ => ⟨S1152x128, .bf16⟩
  | .hbm, ⟨28, _⟩ => ⟨S9x128x128, .bf16⟩
  | .hbm, ⟨29, _⟩ => ⟨S128x128, .bf16⟩
  | .hbm, ⟨30, _⟩ => ⟨S128x64x64x128, .bf16⟩
  | .hbm, ⟨31, _⟩ => ⟨S_, .i32⟩
  | .hbm, ⟨32, _⟩ => ⟨S_, .bf16⟩
  | .hbm, ⟨33, _⟩ => ⟨S128x66x66x128, .bf16⟩
  | .hbm, ⟨34, _⟩ => ⟨S128x33x2x33x2x128, .bf16⟩
  | .hbm, ⟨35, _⟩ => ⟨S128x33x33x2x2x128, .bf16⟩
  | .hbm, ⟨36, _⟩ => ⟨S128x33x33x512, .bf16⟩
  | .hbm, ⟨37, _⟩ => ⟨S128x32x32x128, .bf16⟩
  | .hbm, ⟨38, _⟩ => ⟨S_, .i32⟩
  | .hbm, ⟨39, _⟩ => ⟨S_, .bf16⟩
  | .hbm, ⟨40, _⟩ => ⟨S128x34x34x128, .bf16⟩
  | .hbm, ⟨41, _⟩ => ⟨S128x17x2x17x2x128, .bf16⟩
  | .hbm, ⟨42, _⟩ => ⟨S128x17x17x2x2x128, .bf16⟩
  | .hbm, ⟨43, _⟩ => ⟨S128x17x17x512, .bf16⟩
  | .hbm, ⟨44, _⟩ => ⟨S128x16x16x128, .f32⟩
  | .hbm, ⟨45, _⟩ => ⟨S128x128x16x16, .f32⟩
  | .local _ .vmem, ⟨0, _⟩ => ⟨S2x65x65x12, .bf16⟩
  | .local _ .vmem, ⟨1, _⟩ => ⟨S2x65x65x12, .bf16⟩
  | .local _ .vmem, ⟨2, _⟩ => ⟨S48x128, .bf16⟩
  | .local _ .vmem, ⟨3, _⟩ => ⟨S1x128, .f32⟩
  | .local _ .vmem, ⟨4, _⟩ => ⟨S2x64x64x128, .bf16⟩
  | .local _ .vmem, ⟨5, _⟩ => ⟨S2x64x64x128, .bf16⟩
  | .local _ .vmem, ⟨6, _⟩ => ⟨S4x33x33x512, .bf16⟩
  | .local _ .vmem, ⟨7, _⟩ => ⟨S4x33x33x512, .bf16⟩
  | .local _ .vmem, ⟨8, _⟩ => ⟨S4x512x128, .bf16⟩
  | .local _ .vmem, ⟨9, _⟩ => ⟨S1x128, .f32⟩
  | .local _ .vmem, ⟨10, _⟩ => ⟨S4x32x32x128, .bf16⟩
  | .local _ .vmem, ⟨11, _⟩ => ⟨S4x32x32x128, .bf16⟩
  | .local _ .vmem, ⟨12, _⟩ => ⟨S8x17x17x512, .bf16⟩
  | .local _ .vmem, ⟨13, _⟩ => ⟨S8x17x17x512, .bf16⟩
  | .local _ .vmem, ⟨14, _⟩ => ⟨S4x512x128, .bf16⟩
  | .local _ .vmem, ⟨15, _⟩ => ⟨S1x128, .f32⟩
  | .local _ .vmem, ⟨16, _⟩ => ⟨S9x128x128, .bf16⟩
  | .local _ .vmem, ⟨17, _⟩ => ⟨S128x128, .bf16⟩
  | .local _ .vmem, ⟨18, _⟩ => ⟨S9x128x128, .bf16⟩
  | .local _ .vmem, ⟨19, _⟩ => ⟨S128x128, .bf16⟩
  | .local _ .vmem, ⟨20, _⟩ => ⟨S8x16x16x128, .f32⟩
  | .local _ .vmem, ⟨21, _⟩ => ⟨S8x16x16x128, .f32⟩
  | .local _ .vmem, ⟨22, _⟩ => ⟨S8x18x18x128, .bf16⟩
  | _, _ => ⟨S128x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_call2_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x65x65x12 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x33x33x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x512x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x32x32x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S8x17x17x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x512x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S9x128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S9x128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8x16x16x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S128x3x128x128_S128x128x128x3_0_2_3_1 : S128x3x128x128.Transposes [0, 2, 3, 1] S128x128x128x3
  pads_S128x128x128x3_S128x130x130x3_000_110_110_000 : S128x128x128x3.Pads (![0, 1, 1, 0] : Fin 4 → Nat) ![0, 1, 1, 0] ![0, 0, 0, 0] S128x130x130x3
  h_S_ : 0 < S_.numel
  shapeCasts_S128x130x130x3_S128x65x2x65x2x3 : S128x130x130x3.ShapeCasts S128x65x2x65x2x3
  transposes_S128x65x2x65x2x3_S128x65x65x2x2x3_0_1_3_2_4_5 : S128x65x2x65x2x3.Transposes [0, 1, 3, 2, 4, 5] S128x65x65x2x2x3
  shapeCasts_S128x65x65x2x2x3_S128x65x65x12 : S128x65x65x2x2x3.ShapeCasts S128x65x65x12
  bitsLt_bf16_f32 : FTy.bits .bf16 < FTy.bits .f32
  shapeCasts_S2048x128_S4x512x128 : S2048x128.ShapeCasts S4x512x128
  shapeCasts_S1152x128_S9x128x128 : S1152x128.ShapeCasts S9x128x128
  inb_S2x65x65x12_S2x65x65x12_0_0_0_0 : ∀ a, (![0, 0, 0, 0] : Fin 4 → Nat) a + S2x65x65x12.size a ≤ S2x65x65x12.size a
  h_S2x65x65x12 : 0 < S2x65x65x12.numel
  shapeCasts_S2x65x65x12_S2x65x65x12 : S2x65x65x12.ShapeCasts S2x65x65x12
  slices_S2x65x65x12_o0_0_0_0_S2x64x64x12 : S2x65x65x12.Slices ![0, 0, 0, 0] S2x64x64x12
  shapeCasts_S2x64x64x12_S8192x12 : S2x64x64x12.ShapeCasts S8192x12
  slices_S2x65x65x12_o0_0_1_0_S2x64x64x12 : S2x65x65x12.Slices ![0, 0, 1, 0] S2x64x64x12
  slices_S2x65x65x12_o0_1_0_0_S2x64x64x12 : S2x65x65x12.Slices ![0, 1, 0, 0] S2x64x64x12
  slices_S2x65x65x12_o0_1_1_0_S2x64x64x12 : S2x65x65x12.Slices ![0, 1, 1, 0] S2x64x64x12
  concatenates_S8192x12_S8192x12_S8192x12_S8192x12_S8192x48_d1 : Shape.Concatenates [S8192x12, S8192x12, S8192x12, S8192x12] S8192x48 1
  inb_S48x128_S48x128_0_0 : ∀ a, (![0, 0] : Fin 2 → Nat) a + S48x128.size a ≤ S48x128.size a
  h_S48x128 : 0 < S48x128.numel
  shapeCasts_S48x128_S48x128 : S48x128.ShapeCasts S48x128
  inb_S1x128_S1x128_0_0 : ∀ a, (![0, 0] : Fin 2 → Nat) a + S1x128.size a ≤ S1x128.size a
  h_S1x128 : 0 < S1x128.numel
  broadcasts_S1x128_S8192x128 : S1x128.Broadcasts S8192x128
  shapeCasts_S8192x128_S2x64x64x128 : S8192x128.ShapeCasts S2x64x64x128
  inb_S2x64x64x128_S2x64x64x128_0_0_0_0 : ∀ a, (![0, 0, 0, 0] : Fin 4 → Nat) a + S2x64x64x128.size a ≤ S2x64x64x128.size a
  h_S2x64x64x128 : 0 < S2x64x64x128.numel
  packedbf16_S2x64x64x128_S2x64x64x128_0_0_0_0 : (Rect.unit (s := S2x64x64x128) ![0, 0, 0, 0] S2x64x64x128.size inb_S2x64x64x128_S2x64x64x128_0_0_0_0).PackedRows (EltTy.packing .bf16)
  pads_S128x64x64x128_S128x66x66x128_000_110_110_000 : S128x64x64x128.Pads (![0, 1, 1, 0] : Fin 4 → Nat) ![0, 1, 1, 0] ![0, 0, 0, 0] S128x66x66x128
  shapeCasts_S128x66x66x128_S128x33x2x33x2x128 : S128x66x66x128.ShapeCasts S128x33x2x33x2x128
  transposes_S128x33x2x33x2x128_S128x33x33x2x2x128_0_1_3_2_4_5 : S128x33x2x33x2x128.Transposes [0, 1, 3, 2, 4, 5] S128x33x33x2x2x128
  shapeCasts_S128x33x33x2x2x128_S128x33x33x512 : S128x33x33x2x2x128.ShapeCasts S128x33x33x512
  inb_S4x33x33x512_S4x33x33x512_0_0_0_0 : ∀ a, (![0, 0, 0, 0] : Fin 4 → Nat) a + S4x33x33x512.size a ≤ S4x33x33x512.size a
  h_S4x33x33x512 : 0 < S4x33x33x512.numel
  shapeCasts_S4x33x33x512_S4x33x33x512 : S4x33x33x512.ShapeCasts S4x33x33x512
  slices_S4x33x33x512_o0_0_0_0_S4x32x32x512 : S4x33x33x512.Slices ![0, 0, 0, 0] S4x32x32x512
  shapeCasts_S4x32x32x512_S4096x512 : S4x32x32x512.ShapeCasts S4096x512
  inb_S4x512x128_S1x512x128_0_0_0 : ∀ a, (![0, 0, 0] : Fin 3 → Nat) a + S1x512x128.size a ≤ S4x512x128.size a
  h_S1x512x128 : 0 < S1x512x128.numel
  shapeCasts_S1x512x128_S512x128 : S1x512x128.ShapeCasts S512x128
  broadcasts_S1x128_S4096x128 : S1x128.Broadcasts S4096x128
  slices_S4x33x33x512_o0_0_1_0_S4x32x32x512 : S4x33x33x512.Slices ![0, 0, 1, 0] S4x32x32x512
  inb_S4x512x128_S1x512x128_1_0_0 : ∀ a, (![1, 0, 0] : Fin 3 → Nat) a + S1x512x128.size a ≤ S4x512x128.size a
  slices_S4x33x33x512_o0_1_0_0_S4x32x32x512 : S4x33x33x512.Slices ![0, 1, 0, 0] S4x32x32x512
  inb_S4x512x128_S1x512x128_2_0_0 : ∀ a, (![2, 0, 0] : Fin 3 → Nat) a + S1x512x128.size a ≤ S4x512x128.size a
  slices_S4x33x33x512_o0_1_1_0_S4x32x32x512 : S4x33x33x512.Slices ![0, 1, 1, 0] S4x32x32x512
  inb_S4x512x128_S1x512x128_3_0_0 : ∀ a, (![3, 0, 0] : Fin 3 → Nat) a + S1x512x128.size a ≤ S4x512x128.size a
  shapeCasts_S4096x128_S4x32x32x128 : S4096x128.ShapeCasts S4x32x32x128
  inb_S4x32x32x128_S4x32x32x128_0_0_0_0 : ∀ a, (![0, 0, 0, 0] : Fin 4 → Nat) a + S4x32x32x128.size a ≤ S4x32x32x128.size a
  h_S4x32x32x128 : 0 < S4x32x32x128.numel
  packedbf16_S4x32x32x128_S4x32x32x128_0_0_0_0 : (Rect.unit (s := S4x32x32x128) ![0, 0, 0, 0] S4x32x32x128.size inb_S4x32x32x128_S4x32x32x128_0_0_0_0).PackedRows (EltTy.packing .bf16)
  pads_S128x32x32x128_S128x34x34x128_000_110_110_000 : S128x32x32x128.Pads (![0, 1, 1, 0] : Fin 4 → Nat) ![0, 1, 1, 0] ![0, 0, 0, 0] S128x34x34x128
  shapeCasts_S128x34x34x128_S128x17x2x17x2x128 : S128x34x34x128.ShapeCasts S128x17x2x17x2x128
  transposes_S128x17x2x17x2x128_S128x17x17x2x2x128_0_1_3_2_4_5 : S128x17x2x17x2x128.Transposes [0, 1, 3, 2, 4, 5] S128x17x17x2x2x128
  shapeCasts_S128x17x17x2x2x128_S128x17x17x512 : S128x17x17x2x2x128.ShapeCasts S128x17x17x512
  inb_S8x17x17x512_S8x17x17x512_0_0_0_0 : ∀ a, (![0, 0, 0, 0] : Fin 4 → Nat) a + S8x17x17x512.size a ≤ S8x17x17x512.size a
  h_S8x17x17x512 : 0 < S8x17x17x512.numel
  shapeCasts_S8x17x17x512_S8x17x17x512 : S8x17x17x512.ShapeCasts S8x17x17x512
  slices_S8x17x17x512_o0_0_0_0_S8x16x16x512 : S8x17x17x512.Slices ![0, 0, 0, 0] S8x16x16x512
  shapeCasts_S8x16x16x512_S2048x512 : S8x16x16x512.ShapeCasts S2048x512
  broadcasts_S1x128_S2048x128 : S1x128.Broadcasts S2048x128
  slices_S8x17x17x512_o0_0_1_0_S8x16x16x512 : S8x17x17x512.Slices ![0, 0, 1, 0] S8x16x16x512
  slices_S8x17x17x512_o0_1_0_0_S8x16x16x512 : S8x17x17x512.Slices ![0, 1, 0, 0] S8x16x16x512
  slices_S8x17x17x512_o0_1_1_0_S8x16x16x512 : S8x17x17x512.Slices ![0, 1, 1, 0] S8x16x16x512
  inb_S8x18x18x128_S8x18x18x128_0_0_0_0 : ∀ a, (![0, 0, 0, 0] : Fin 4 → Nat) a + S8x18x18x128.size a ≤ S8x18x18x128.size a
  h_S8x18x18x128 : 0 < S8x18x18x128.numel
  shapeCasts_S8x18x18x128_S8x18x18x128 : S8x18x18x128.ShapeCasts S8x18x18x128
  packedbf16_S8x18x18x128_S8x18x18x128_0_0_0_0 : (Rect.unit (s := S8x18x18x128) ![0, 0, 0, 0] S8x18x18x128.size inb_S8x18x18x128_S8x18x18x128_0_0_0_0).PackedRows (EltTy.packing .bf16)
  shapeCasts_S2048x128_S8x16x16x128 : S2048x128.ShapeCasts S8x16x16x128
  inb_S8x18x18x128_S8x16x16x128_0_1_1_0 : ∀ a, (![0, 1, 1, 0] : Fin 4 → Nat) a + S8x16x16x128.size a ≤ S8x18x18x128.size a
  h_S8x16x16x128 : 0 < S8x16x16x128.numel
  shapeCasts_S8x16x16x128_S8x16x16x128 : S8x16x16x128.ShapeCasts S8x16x16x128
  inb_S8x18x18x128_S8x16x18x128_0_1_0_0 : ∀ a, (![0, 1, 0, 0] : Fin 4 → Nat) a + S8x16x18x128.size a ≤ S8x18x18x128.size a
  h_S8x16x18x128 : 0 < S8x16x18x128.numel
  slices_S8x16x18x128_S8x16x16x128_0_0_1_0 : S8x16x18x128.Slices ![0, 0, 1, 0] S8x16x16x128
  packedbf16_S8x18x18x128_S8x16x18x128_0_1_0_0 : (Rect.unit (s := S8x18x18x128) ![0, 1, 0, 0] S8x16x18x128.size inb_S8x18x18x128_S8x16x18x128_0_1_0_0).PackedRows (EltTy.packing .bf16)
  slices_S8x18x18x128_o0_0_0_0_S8x16x16x128 : S8x18x18x128.Slices ![0, 0, 0, 0] S8x16x16x128
  shapeCasts_S8x16x16x128_S2048x128 : S8x16x16x128.ShapeCasts S2048x128
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  slices_S8x18x18x128_o0_0_1_0_S8x16x16x128 : S8x18x18x128.Slices ![0, 0, 1, 0] S8x16x16x128
  inb_S9x128x128_S1x128x128_1_0_0 : ∀ a, (![1, 0, 0] : Fin 3 → Nat) a + S1x128x128.size a ≤ S9x128x128.size a
  slices_S8x18x18x128_o0_0_2_0_S8x16x16x128 : S8x18x18x128.Slices ![0, 0, 2, 0] S8x16x16x128
  inb_S9x128x128_S1x128x128_2_0_0 : ∀ a, (![2, 0, 0] : Fin 3 → Nat) a + S1x128x128.size a ≤ S9x128x128.size a
  slices_S8x18x18x128_o0_1_0_0_S8x16x16x128 : S8x18x18x128.Slices ![0, 1, 0, 0] S8x16x16x128
  inb_S9x128x128_S1x128x128_3_0_0 : ∀ a, (![3, 0, 0] : Fin 3 → Nat) a + S1x128x128.size a ≤ S9x128x128.size a
  slices_S8x18x18x128_o0_1_1_0_S8x16x16x128 : S8x18x18x128.Slices ![0, 1, 1, 0] S8x16x16x128
  inb_S9x128x128_S1x128x128_4_0_0 : ∀ a, (![4, 0, 0] : Fin 3 → Nat) a + S1x128x128.size a ≤ S9x128x128.size a
  slices_S8x18x18x128_o0_1_2_0_S8x16x16x128 : S8x18x18x128.Slices ![0, 1, 2, 0] S8x16x16x128
  inb_S9x128x128_S1x128x128_5_0_0 : ∀ a, (![5, 0, 0] : Fin 3 → Nat) a + S1x128x128.size a ≤ S9x128x128.size a
  slices_S8x18x18x128_o0_2_0_0_S8x16x16x128 : S8x18x18x128.Slices ![0, 2, 0, 0] S8x16x16x128
  inb_S9x128x128_S1x128x128_6_0_0 : ∀ a, (![6, 0, 0] : Fin 3 → Nat) a + S1x128x128.size a ≤ S9x128x128.size a
  slices_S8x18x18x128_o0_2_1_0_S8x16x16x128 : S8x18x18x128.Slices ![0, 2, 1, 0] S8x16x16x128
  inb_S9x128x128_S1x128x128_7_0_0 : ∀ a, (![7, 0, 0] : Fin 3 → Nat) a + S1x128x128.size a ≤ S9x128x128.size a
  slices_S8x18x18x128_o0_2_2_0_S8x16x16x128 : S8x18x18x128.Slices ![0, 2, 2, 0] S8x16x16x128
  inb_S9x128x128_S1x128x128_8_0_0 : ∀ a, (![8, 0, 0] : Fin 3 → Nat) a + S1x128x128.size a ≤ S9x128x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x16x16x128_S8x16x16x128_0_0_0_0 : ∀ a, (![0, 0, 0, 0] : Fin 4 → Nat) a + S8x16x16x128.size a ≤ S8x16x16x128.size a
  transposes_S128x16x16x128_S128x128x16x16_0_3_1_2 : S128x16x16x128.Transposes [0, 3, 1, 2] S128x128x16x16
  dot_S8192x48_S48x128_S8192x128_1_0_0_1_n_n_wf : DotDims.WF S8192x48 S48x128 S8192x128 [1] [0] [0] [1] [] []
  dot_S4096x512_S512x128_S4096x128_1_0_0_1_n_n_wf : DotDims.WF S4096x512 S512x128 S4096x128 [1] [0] [0] [1] [] []
  dot_S2048x512_S512x128_S2048x128_1_0_0_1_n_n_wf : DotDims.WF S2048x512 S512x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x65x65x12.size a ≤ S128x65x65x12.size a
  hwx0_0 : ∀ i : grid0.Coords, EltTy.bits .bf16 = 32 ∨ (Rect.block (s := S128x65x65x12) S2x65x65x12.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .bf16 = 32 ∨ (Rect.block (s := S48x128) S48x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x64x64x128.size a ≤ S128x64x64x128.size a
  hwx0_3 : ∀ i : grid0.Coords, EltTy.bits .bf16 = 32 ∨ (Rect.block (s := S128x64x64x128) S2x64x64x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x33x33x512.size a ≤ S128x33x33x512.size a
  hwx1_0 : ∀ i : grid1.Coords, EltTy.bits .bf16 = 32 ∨ (Rect.block (s := S128x33x33x512) S4x33x33x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x512x128.size a ≤ S4x512x128.size a
  hwx1_1 : ∀ i : grid1.Coords, EltTy.bits .bf16 = 32 ∨ (Rect.block (s := S4x512x128) S4x512x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x32x32x128.size a ≤ S128x32x32x128.size a
  hwx1_3 : ∀ i : grid1.Coords, EltTy.bits .bf16 = 32 ∨ (Rect.block (s := S128x32x32x128) S4x32x32x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x17x17x512.size a ≤ S128x17x17x512.size a
  hwx2_0 : ∀ i : grid2.Coords, EltTy.bits .bf16 = 32 ∨ (Rect.block (s := S128x17x17x512) S8x17x17x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x512x128.size a ≤ S4x512x128.size a
  hwx2_1 : ∀ i : grid2.Coords, EltTy.bits .bf16 = 32 ∨ (Rect.block (s := S4x512x128) S4x512x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x128x128.size a ≤ S9x128x128.size a
  hwx2_3 : ∀ i : grid2.Coords, EltTy.bits .bf16 = 32 ∨ (Rect.block (s := S9x128x128) S9x128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S9x128x128.size a ≤ S9x128x128.size a
  hwx2_5 : ∀ i : grid2.Coords, EltTy.bits .bf16 = 32 ∨ (Rect.block (s := S9x128x128) S9x128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x16x16x128.size a ≤ S128x16x16x128.size a
  hwx2_7 : ∀ i : grid2.Coords, EltTy.bits .f32 = 32 ∨ (Rect.block (s := S128x16x16x128) S8x16x16x128.size (cc2_transform_7 i) (hinb2_7 i)).WholeWords (EltTy.packing .f32)

variable [Facts₀]

def dot_S8192x48_S48x128_S8192x128_1_0_0_1_n_n : DotDims S8192x48 S48x128 S8192x128 where
  lhsContracting := [1]
  rhsContracting := [0]
  lhsNonContracting := [0]
  rhsNonContracting := [1]
  lhsBatch := []
  rhsBatch := []
  wf := dot_S8192x48_S48x128_S8192x128_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v5) S2x65x65x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S48x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2x64x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S4x33x33x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4x512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S4x32x32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S8x17x17x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S4x512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S9x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S9x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S8x16x16x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S128x3x128x128 : Shape := ⟨4, ![128, 3, 128, 128]⟩
abbrev S48x128 : Shape := ⟨2, ![48, 128]⟩
abbrev S1x128 : Shape := ⟨2, ![1, 128]⟩
abbrev S2048x128 : Shape := ⟨2, ![2048, 128]⟩
abbrev S1152x128 : Shape := ⟨2, ![1152, 128]⟩
abbrev S128x128 : Shape := ⟨2, ![128, 128]⟩
abbrev S128x128x128x3 : Shape := ⟨4, ![128, 128, 128, 3]⟩
abbrev S_ : Shape := ⟨0, ![]⟩
abbrev S128x130x130x3 : Shape := ⟨4, ![128, 130, 130, 3]⟩
abbrev S128x65x2x65x2x3 : Shape := ⟨6, ![128, 65, 2, 65, 2, 3]⟩
abbrev S128x65x65x2x2x3 : Shape := ⟨6, ![128, 65, 65, 2, 2, 3]⟩
abbrev S128x65x65x12 : Shape := ⟨4, ![128, 65, 65, 12]⟩
abbrev S128x64x64x128 : Shape := ⟨4, ![128, 64, 64, 128]⟩
abbrev S1x65x65x12 : Shape := ⟨4, ![1, 65, 65, 12]⟩
abbrev S1x64x64x128 : Shape := ⟨4, ![1, 64, 64, 128]⟩
abbrev S65x65x12 : Shape := ⟨3, ![65, 65, 12]⟩
abbrev S64x64x12 : Shape := ⟨3, ![64, 64, 12]⟩
abbrev S4096x12 : Shape := ⟨2, ![4096, 12]⟩
abbrev S4096x48 : Shape := ⟨2, ![4096, 48]⟩
abbrev S4096x128 : Shape := ⟨2, ![4096, 128]⟩
abbrev S128x66x66x128 : Shape := ⟨4, ![128, 66, 66, 128]⟩
abbrev S128x33x2x33x2x128 : Shape := ⟨6, ![128, 33, 2, 33, 2, 128]⟩
abbrev S128x33x33x2x2x128 : Shape := ⟨6, ![128, 33, 33, 2, 2, 128]⟩
abbrev S128x33x33x512 : Shape := ⟨4, ![128, 33, 33, 512]⟩
abbrev S128x32x32x128 : Shape := ⟨4, ![128, 32, 32, 128]⟩
abbrev S1x33x33x512 : Shape := ⟨4, ![1, 33, 33, 512]⟩
abbrev S1x32x32x128 : Shape := ⟨4, ![1, 32, 32, 128]⟩
abbrev S33x33x512 : Shape := ⟨3, ![33, 33, 512]⟩
abbrev S32x32x512 : Shape := ⟨3, ![32, 32, 512]⟩
abbrev S1024x512 : Shape := ⟨2, ![1024, 512]⟩
abbrev S1024x2048 : Shape := ⟨2, ![1024, 2048]⟩
abbrev S1024x128 : Shape := ⟨2, ![1024, 128]⟩
abbrev S128x34x34x128 : Shape := ⟨4, ![128, 34, 34, 128]⟩
abbrev S128x17x2x17x2x128 : Shape := ⟨6, ![128, 17, 2, 17, 2, 128]⟩
abbrev S128x17x17x2x2x128 : Shape := ⟨6, ![128, 17, 17, 2, 2, 128]⟩
abbrev S128x17x17x512 : Shape := ⟨4, ![128, 17, 17, 512]⟩
abbrev S128x16x16x128 : Shape := ⟨4, ![128, 16, 16, 128]⟩
abbrev S1x17x17x512 : Shape := ⟨4, ![1, 17, 17, 512]⟩
abbrev S1x16x16x128 : Shape := ⟨4, ![1, 16, 16, 128]⟩
abbrev S17x17x512 : Shape := ⟨3, ![17, 17, 512]⟩
abbrev S16x16x512 : Shape := ⟨3, ![16, 16, 512]⟩
abbrev S256x512 : Shape := ⟨2, ![256, 512]⟩
abbrev S256x2048 : Shape := ⟨2, ![256, 2048]⟩
abbrev S256x128 : Shape := ⟨2, ![256, 128]⟩
abbrev S128x18x18x128 : Shape := ⟨4, ![128, 18, 18, 128]⟩
abbrev S1x18x18x128 : Shape := ⟨4, ![1, 18, 18, 128]⟩
abbrev S18x18x128 : Shape := ⟨3, ![18, 18, 128]⟩
abbrev S16x16x128 : Shape := ⟨3, ![16, 16, 128]⟩
abbrev S256x1152 : Shape := ⟨2, ![256, 1152]⟩
abbrev S128x128x16x16 : Shape := ⟨4, ![128, 128, 16, 16]⟩

abbrev nBuf : Space → Nat
  | .hbm => 42
  | .vmem => 30
  | .smem => 0
  | _ => 0

abbrev bufTy : (tb : Table) → Fin (tcTables nBuf tb) → BufTy
  | .hbm, ⟨0, _⟩ => ⟨S128x3x128x128, .f32⟩
  | .hbm, ⟨1, _⟩ => ⟨S48x128, .f32⟩
  | .hbm, ⟨2, _⟩ => ⟨S1x128, .f32⟩
  | .hbm, ⟨3, _⟩ => ⟨S2048x128, .f32⟩
  | .hbm, ⟨4, _⟩ => ⟨S1x128, .f32⟩
  | .hbm, ⟨5, _⟩ => ⟨S2048x128, .f32⟩
  | .hbm, ⟨6, _⟩ => ⟨S1x128, .f32⟩
  | .hbm, ⟨7, _⟩ => ⟨S1152x128, .f32⟩
  | .hbm, ⟨8, _⟩ => ⟨S128x128, .f32⟩
  | .hbm, ⟨9, _⟩ => ⟨S1152x128, .f32⟩
  | .hbm, ⟨10, _⟩ => ⟨S128x128, .f32⟩
  | .hbm, ⟨11, _⟩ => ⟨S128x128x128x3, .f32⟩
  | .hbm, ⟨12, _⟩ => ⟨S_, .i32⟩
  | .hbm, ⟨13, _⟩ => ⟨S_, .f32⟩
  | .hbm, ⟨14, _⟩ => ⟨S128x130x130x3, .f32⟩
  | .hbm, ⟨15, _⟩ => ⟨S128x65x2x65x2x3, .f32⟩
  | .hbm, ⟨16, _⟩ => ⟨S128x65x65x2x2x3, .f32⟩
  | .hbm, ⟨17, _⟩ => ⟨S128x65x65x12, .f32⟩
  | .hbm, ⟨18, _⟩ => ⟨S128x64x64x128, .f32⟩
  | .hbm, ⟨19, _⟩ => ⟨S_, .i32⟩
  | .hbm, ⟨20, _⟩ => ⟨S_, .f32⟩
  | .hbm, ⟨21, _⟩ => ⟨S128x66x66x128, .f32⟩
  | .hbm, ⟨22, _⟩ => ⟨S128x33x2x33x2x128, .f32⟩
  | .hbm, ⟨23, _⟩ => ⟨S128x33x33x2x2x128, .f32⟩
  | .hbm, ⟨24, _⟩ => ⟨S128x33x33x512, .f32⟩
  | .hbm, ⟨25, _⟩ => ⟨S128x32x32x128, .f32⟩
  | .hbm, ⟨26, _⟩ => ⟨S_, .i32⟩
  | .hbm, ⟨27, _⟩ => ⟨S_, .f32⟩
  | .hbm, ⟨28, _⟩ => ⟨S128x34x34x128, .f32⟩
  | .hbm, ⟨29, _⟩ => ⟨S128x17x2x17x2x128, .f32⟩
  | .hbm, ⟨30, _⟩ => ⟨S128x17x17x2x2x128, .f32⟩
  | .hbm, ⟨31, _⟩ => ⟨S128x17x17x512, .f32⟩
  | .hbm, ⟨32, _⟩ => ⟨S128x16x16x128, .f32⟩
  | .hbm, ⟨33, _⟩ => ⟨S_, .i32⟩
  | .hbm, ⟨34, _⟩ => ⟨S_, .f32⟩
  | .hbm, ⟨35, _⟩ => ⟨S128x18x18x128, .f32⟩
  | .hbm, ⟨36, _⟩ => ⟨S128x16x16x128, .f32⟩
  | .hbm, ⟨37, _⟩ => ⟨S_, .i32⟩
  | .hbm, ⟨38, _⟩ => ⟨S_, .f32⟩
  | .hbm, ⟨39, _⟩ => ⟨S128x18x18x128, .f32⟩
  | .hbm, ⟨40, _⟩ => ⟨S128x16x16x128, .f32⟩
  | .hbm, ⟨41, _⟩ => ⟨S128x128x16x16, .f32⟩
  | .local _ .vmem, ⟨0, _⟩ => ⟨S1x65x65x12, .f32⟩
  | .local _ .vmem, ⟨1, _⟩ => ⟨S1x65x65x12, .f32⟩
  | .local _ .vmem, ⟨2, _⟩ => ⟨S48x128, .f32⟩
  | .local _ .vmem, ⟨3, _⟩ => ⟨S1x128, .f32⟩
  | .local _ .vmem, ⟨4, _⟩ => ⟨S1x64x64x128, .f32⟩
  | .local _ .vmem, ⟨5, _⟩ => ⟨S1x64x64x128, .f32⟩
  | .local _ .vmem, ⟨6, _⟩ => ⟨S1x33x33x512, .f32⟩
  | .local _ .vmem, ⟨7, _⟩ => ⟨S1x33x33x512, .f32⟩
  | .local _ .vmem, ⟨8, _⟩ => ⟨S2048x128, .f32⟩
  | .local _ .vmem, ⟨9, _⟩ => ⟨S1x128, .f32⟩
  | .local _ .vmem, ⟨10, _⟩ => ⟨S1x32x32x128, .f32⟩
  | .local _ .vmem, ⟨11, _⟩ => ⟨S1x32x32x128, .f32⟩
  | .local _ .vmem, ⟨12, _⟩ => ⟨S1x17x17x512, .f32⟩
  | .local _ .vmem, ⟨13, _⟩ => ⟨S1x17x17x512, .f32⟩
  | .local _ .vmem, ⟨14, _⟩ => ⟨S2048x128, .f32⟩
  | .local _ .vmem, ⟨15, _⟩ => ⟨S1x128, .f32⟩
  | .local _ .vmem, ⟨16, _⟩ => ⟨S1x16x16x128, .f32⟩
  | .local _ .vmem, ⟨17, _⟩ => ⟨S1x16x16x128, .f32⟩
  | .local _ .vmem, ⟨18, _⟩ => ⟨S1x18x18x128, .f32⟩
  | .local _ .vmem, ⟨19, _⟩ => ⟨S1x18x18x128, .f32⟩
  | .local _ .vmem, ⟨20, _⟩ => ⟨S1152x128, .f32⟩
  | .local _ .vmem, ⟨21, _⟩ => ⟨S128x128, .f32⟩
  | .local _ .vmem, ⟨22, _⟩ => ⟨S1x16x16x128, .f32⟩
  | .local _ .vmem, ⟨23, _⟩ => ⟨S1x16x16x128, .f32⟩
  | .local _ .vmem, ⟨24, _⟩ => ⟨S1x18x18x128, .f32⟩
  | .local _ .vmem, ⟨25, _⟩ => ⟨S1x18x18x128, .f32⟩
  | .local _ .vmem, ⟨26, _⟩ => ⟨S1152x128, .f32⟩
  | .local _ .vmem, ⟨27, _⟩ => ⟨S128x128, .f32⟩
  | .local _ .vmem, ⟨28, _⟩ => ⟨S1x16x16x128, .f32⟩
  | .local _ .vmem, ⟨29, _⟩ => ⟨S1x16x16x128, .f32⟩
  | _, _ => ⟨S128x3x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_2 : Ref sig .tc := ⟨.hbm, 33, rfl⟩
abbrev main_call3_v0 : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_call4_v0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x65x65x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x33x33x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x32x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![128], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x17x17x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x16x16x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![128], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x18x18x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1152x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x16x16x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![128], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x18x18x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1152x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1x16x16x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S128x3x128x128_S128x128x128x3_0_2_3_1 : S128x3x128x128.Transposes [0, 2, 3, 1] S128x128x128x3
  pads_S128x128x128x3_S128x130x130x3_000_110_110_000 : S128x128x128x3.Pads (![0, 1, 1, 0] : Fin 4 → Nat) ![0, 1, 1, 0] ![0, 0, 0, 0] S128x130x130x3
  h_S_ : 0 < S_.numel
  shapeCasts_S128x130x130x3_S128x65x2x65x2x3 : S128x130x130x3.ShapeCasts S128x65x2x65x2x3
  transposes_S128x65x2x65x2x3_S128x65x65x2x2x3_0_1_3_2_4_5 : S128x65x2x65x2x3.Transposes [0, 1, 3, 2, 4, 5] S128x65x65x2x2x3
  shapeCasts_S128x65x65x2x2x3_S128x65x65x12 : S128x65x65x2x2x3.ShapeCasts S128x65x65x12
  inb_S1x65x65x12_S1x65x65x12_0_0_0_0 : ∀ a, (![0, 0, 0, 0] : Fin 4 → Nat) a + S1x65x65x12.size a ≤ S1x65x65x12.size a
  h_S1x65x65x12 : 0 < S1x65x65x12.numel
  shapeCasts_S1x65x65x12_S65x65x12 : S1x65x65x12.ShapeCasts S65x65x12
  slices_S65x65x12_o0_0_0_S64x64x12 : S65x65x12.Slices ![0, 0, 0] S64x64x12
  shapeCasts_S64x64x12_S4096x12 : S64x64x12.ShapeCasts S4096x12
  slices_S65x65x12_o0_1_0_S64x64x12 : S65x65x12.Slices ![0, 1, 0] S64x64x12
  slices_S65x65x12_o1_0_0_S64x64x12 : S65x65x12.Slices ![1, 0, 0] S64x64x12
  slices_S65x65x12_o1_1_0_S64x64x12 : S65x65x12.Slices ![1, 1, 0] S64x64x12
  concatenates_S4096x12_S4096x12_S4096x12_S4096x12_S4096x48_d1 : Shape.Concatenates [S4096x12, S4096x12, S4096x12, S4096x12] S4096x48 1
  inb_S48x128_S48x128_0_0 : ∀ a, (![0, 0] : Fin 2 → Nat) a + S48x128.size a ≤ S48x128.size a
  h_S48x128 : 0 < S48x128.numel
  inb_S1x128_S1x128_0_0 : ∀ a, (![0, 0] : Fin 2 → Nat) a + S1x128.size a ≤ S1x128.size a
  h_S1x128 : 0 < S1x128.numel
  broadcasts_S1x128_S4096x128 : S1x128.Broadcasts S4096x128
  shapeCasts_S4096x128_S1x64x64x128 : S4096x128.ShapeCasts S1x64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  pads_S128x64x64x128_S128x66x66x128_000_110_110_000 : S128x64x64x128.Pads (![0, 1, 1, 0] : Fin 4 → Nat) ![0, 1, 1, 0] ![0, 0, 0, 0] S128x66x66x128
  shapeCasts_S128x66x66x128_S128x33x2x33x2x128 : S128x66x66x128.ShapeCasts S128x33x2x33x2x128
  transposes_S128x33x2x33x2x128_S128x33x33x2x2x128_0_1_3_2_4_5 : S128x33x2x33x2x128.Transposes [0, 1, 3, 2, 4, 5] S128x33x33x2x2x128
  shapeCasts_S128x33x33x2x2x128_S128x33x33x512 : S128x33x33x2x2x128.ShapeCasts S128x33x33x512
  inb_S1x33x33x512_S1x33x33x512_0_0_0_0 : ∀ a, (![0, 0, 0, 0] : Fin 4 → Nat) a + S1x33x33x512.size a ≤ S1x33x33x512.size a
  h_S1x33x33x512 : 0 < S1x33x33x512.numel
  shapeCasts_S1x33x33x512_S33x33x512 : S1x33x33x512.ShapeCasts S33x33x512
  slices_S33x33x512_o0_0_0_S32x32x512 : S33x33x512.Slices ![0, 0, 0] S32x32x512
  shapeCasts_S32x32x512_S1024x512 : S32x32x512.ShapeCasts S1024x512
  slices_S33x33x512_o0_1_0_S32x32x512 : S33x33x512.Slices ![0, 1, 0] S32x32x512
  slices_S33x33x512_o1_0_0_S32x32x512 : S33x33x512.Slices ![1, 0, 0] S32x32x512
  slices_S33x33x512_o1_1_0_S32x32x512 : S33x33x512.Slices ![1, 1, 0] S32x32x512
  concatenates_S1024x512_S1024x512_S1024x512_S1024x512_S1024x2048_d1 : Shape.Concatenates [S1024x512, S1024x512, S1024x512, S1024x512] S1024x2048 1
  inb_S2048x128_S2048x128_0_0 : ∀ a, (![0, 0] : Fin 2 → Nat) a + S2048x128.size a ≤ S2048x128.size a
  h_S2048x128 : 0 < S2048x128.numel
  broadcasts_S1x128_S1024x128 : S1x128.Broadcasts S1024x128
  shapeCasts_S1024x128_S1x32x32x128 : S1024x128.ShapeCasts S1x32x32x128
  inb_S1x32x32x128_S1x32x32x128_0_0_0_0 : ∀ a, (![0, 0, 0, 0] : Fin 4 → Nat) a + S1x32x32x128.size a ≤ S1x32x32x128.size a
  h_S1x32x32x128 : 0 < S1x32x32x128.numel
  pads_S128x32x32x128_S128x34x34x128_000_110_110_000 : S128x32x32x128.Pads (![0, 1, 1, 0] : Fin 4 → Nat) ![0, 1, 1, 0] ![0, 0, 0, 0] S128x34x34x128
  shapeCasts_S128x34x34x128_S128x17x2x17x2x128 : S128x34x34x128.ShapeCasts S128x17x2x17x2x128
  transposes_S128x17x2x17x2x128_S128x17x17x2x2x128_0_1_3_2_4_5 : S128x17x2x17x2x128.Transposes [0, 1, 3, 2, 4, 5] S128x17x17x2x2x128
  shapeCasts_S128x17x17x2x2x128_S128x17x17x512 : S128x17x17x2x2x128.ShapeCasts S128x17x17x512
  inb_S1x17x17x512_S1x17x17x512_0_0_0_0 : ∀ a, (![0, 0, 0, 0] : Fin 4 → Nat) a + S1x17x17x512.size a ≤ S1x17x17x512.size a
  h_S1x17x17x512 : 0 < S1x17x17x512.numel
  shapeCasts_S1x17x17x512_S17x17x512 : S1x17x17x512.ShapeCasts S17x17x512
  slices_S17x17x512_o0_0_0_S16x16x512 : S17x17x512.Slices ![0, 0, 0] S16x16x512
  shapeCasts_S16x16x512_S256x512 : S16x16x512.ShapeCasts S256x512
  slices_S17x17x512_o0_1_0_S16x16x512 : S17x17x512.Slices ![0, 1, 0] S16x16x512
  slices_S17x17x512_o1_0_0_S16x16x512 : S17x17x512.Slices ![1, 0, 0] S16x16x512
  slices_S17x17x512_o1_1_0_S16x16x512 : S17x17x512.Slices ![1, 1, 0] S16x16x512
  concatenates_S256x512_S256x512_S256x512_S256x512_S256x2048_d1 : Shape.Concatenates [S256x512, S256x512, S256x512, S256x512] S256x2048 1
  broadcasts_S1x128_S256x128 : S1x128.Broadcasts S256x128
  shapeCasts_S256x128_S1x16x16x128 : S256x128.ShapeCasts S1x16x16x128
  inb_S1x16x16x128_S1x16x16x128_0_0_0_0 : ∀ a, (![0, 0, 0, 0] : Fin 4 → Nat) a + S1x16x16x128.size a ≤ S1x16x16x128.size a
  h_S1x16x16x128 : 0 < S1x16x16x128.numel
  pads_S128x16x16x128_S128x18x18x128_000_110_110_000 : S128x16x16x128.Pads (![0, 1, 1, 0] : Fin 4 → Nat) ![0, 1, 1, 0] ![0, 0, 0, 0] S128x18x18x128
  inb_S1x18x18x128_S1x18x18x128_0_0_0_0 : ∀ a, (![0, 0, 0, 0] : Fin 4 → Nat) a + S1x18x18x128.size a ≤ S1x18x18x128.size a
  h_S1x18x18x128 : 0 < S1x18x18x128.numel
  shapeCasts_S1x18x18x128_S18x18x128 : S1x18x18x128.ShapeCasts S18x18x128
  slices_S18x18x128_o0_0_0_S16x16x128 : S18x18x128.Slices ![0, 0, 0] S16x16x128
  shapeCasts_S16x16x128_S256x128 : S16x16x128.ShapeCasts S256x128
  slices_S18x18x128_o0_1_0_S16x16x128 : S18x18x128.Slices ![0, 1, 0] S16x16x128
  slices_S18x18x128_o0_2_0_S16x16x128 : S18x18x128.Slices ![0, 2, 0] S16x16x128
  slices_S18x18x128_o1_0_0_S16x16x128 : S18x18x128.Slices ![1, 0, 0] S16x16x128
  slices_S18x18x128_o1_1_0_S16x16x128 : S18x18x128.Slices ![1, 1, 0] S16x16x128
  slices_S18x18x128_o1_2_0_S16x16x128 : S18x18x128.Slices ![1, 2, 0] S16x16x128
  slices_S18x18x128_o2_0_0_S16x16x128 : S18x18x128.Slices ![2, 0, 0] S16x16x128
  slices_S18x18x128_o2_1_0_S16x16x128 : S18x18x128.Slices ![2, 1, 0] S16x16x128
  slices_S18x18x128_o2_2_0_S16x16x128 : S18x18x128.Slices ![2, 2, 0] S16x16x128
  concatenates_S256x128_S256x128_S256x128_S256x128_S256x128_S256x128_S256x128_S256x128_S256x128_S256x1152_d1 : Shape.Concatenates [S256x128, S256x128, S256x128, S256x128, S256x128, S256x128, S256x128, S256x128, S256x128] S256x1152 1
  inb_S1152x128_S1152x128_0_0 : ∀ a, (![0, 0] : Fin 2 → Nat) a + S1152x128.size a ≤ S1152x128.size a
  h_S1152x128 : 0 < S1152x128.numel
  inb_S128x128_S128x128_0_0 : ∀ a, (![0, 0] : Fin 2 → Nat) a + S128x128.size a ≤ S128x128.size a
  h_S128x128 : 0 < S128x128.numel
  transposes_S128x16x16x128_S128x128x16x16_0_3_1_2 : S128x16x16x128.Transposes [0, 3, 1, 2] S128x128x16x16
  dot_S4096x48_S48x128_S4096x128_1_0_0_1_n_n_wf : DotDims.WF S4096x48 S48x128 S4096x128 [1] [0] [0] [1] [] []
  dot_S1024x2048_S2048x128_S1024x128_1_0_0_1_n_n_wf : DotDims.WF S1024x2048 S2048x128 S1024x128 [1] [0] [0] [1] [] []
  dot_S256x2048_S2048x128_S256x128_1_0_0_1_n_n_wf : DotDims.WF S256x2048 S2048x128 S256x128 [1] [0] [0] [1] [] []
  dot_S256x1152_S1152x128_S256x128_1_0_0_1_n_n_wf : DotDims.WF S256x1152 S1152x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x65x65x12.size a ≤ S128x65x65x12.size a
  hwx0_0 : ∀ i : grid0.Coords, EltTy.bits .f32 = 32 ∨ (Rect.block (s := S128x65x65x12) S1x65x65x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .f32 = 32 ∨ (Rect.block (s := S48x128) S48x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x128.size a ≤ S128x64x64x128.size a
  hwx0_3 : ∀ i : grid0.Coords, EltTy.bits .f32 = 32 ∨ (Rect.block (s := S128x64x64x128) S1x64x64x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x33x33x512.size a ≤ S128x33x33x512.size a
  hwx1_0 : ∀ i : grid1.Coords, EltTy.bits .f32 = 32 ∨ (Rect.block (s := S128x33x33x512) S1x33x33x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S2048x128.size a
  hwx1_1 : ∀ i : grid1.Coords, EltTy.bits .f32 = 32 ∨ (Rect.block (s := S2048x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x32x128.size a ≤ S128x32x32x128.size a
  hwx1_3 : ∀ i : grid1.Coords, EltTy.bits .f32 = 32 ∨ (Rect.block (s := S128x32x32x128) S1x32x32x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x17x17x512.size a ≤ S128x17x17x512.size a
  hwx2_0 : ∀ i : grid2.Coords, EltTy.bits .f32 = 32 ∨ (Rect.block (s := S128x17x17x512) S1x17x17x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S2048x128.size a
  hwx2_1 : ∀ i : grid2.Coords, EltTy.bits .f32 = 32 ∨ (Rect.block (s := S2048x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x16x128.size a ≤ S128x16x16x128.size a
  hwx2_3 : ∀ i : grid2.Coords, EltTy.bits .f32 = 32 ∨ (Rect.block (s := S128x16x16x128) S1x16x16x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x18x18x128.size a ≤ S128x18x18x128.size a
  hwx3_0 : ∀ i : grid3.Coords, EltTy.bits .f32 = 32 ∨ (Rect.block (s := S128x18x18x128) S1x18x18x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1152x128.size a ≤ S1152x128.size a
  hwx3_1 : ∀ i : grid3.Coords, EltTy.bits .f32 = 32 ∨ (Rect.block (s := S1152x128) S1152x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x16x16x128.size a ≤ S128x16x16x128.size a
  hwx3_3 : ∀ i : grid3.Coords, EltTy.bits .f32 = 32 ∨ (Rect.block (s := S128x16x16x128) S1x16x16x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x18x18x128.size a ≤ S128x18x18x128.size a
  hwx4_0 : ∀ i : grid4.Coords, EltTy.bits .f32 = 32 ∨ (Rect.block (s := S128x18x18x128) S1x18x18x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1152x128.size a ≤ S1152x128.size a
  hwx4_1 : ∀ i : grid4.Coords, EltTy.bits .f32 = 32 ∨ (Rect.block (s := S1152x128) S1152x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x16x16x128.size a ≤ S128x16x16x128.size a
  hwx4_3 : ∀ i : grid4.Coords, EltTy.bits .f32 = 32 ∨ (Rect.block (s := S128x16x16x128) S1x16x16x128.size (cc4_transform_3 i) (hinb4_3 i)).WholeWords (EltTy.packing .f32)

variable [Facts₀]

def dot_S4096x48_S48x128_S4096x128_1_0_0_1_n_n : DotDims S4096x48 S48x128 S4096x128 where
  lhsContracting := [1]
  rhsContracting := [0]
  lhsNonContracting := [0]
  rhsNonContracting := [1]
  lhsBatch := []
  rhsBatch := []
  wf := dot_S4096x48_S48x128_S4096x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x1152_S1152x128_S256x128_1_0_0_1_n_n : DotDims S256x1152 S1152x128 S256x128 where
  lhsContracting := [1]
  rhsContracting := [0]
  lhsNonContracting := [0]
  rhsNonContracting := [1]
  lhsBatch := []
  rhsBatch := []
  wf := dot_S256x1152_S1152x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v4) S1x65x65x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S48x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64x64x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1x33x33x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2048x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x32x32x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S1x17x17x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S2048x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1x16x16x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S1x18x18x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S1152x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x16x16x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v18) S1x18x18x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S1152x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S1x16x16x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== Proof.BFrame0.lean ====
/-
  The first convolution's pipeline at one grid point, for any float instance and any contents V of the arrays the region is entered with.
  The body loads its three input windows' buffers whole — a block of two space-to-depth images, the weight, the bias —, computes, and
  stores the output window's buffer whole. So after the body the input buffers hold what they held and the output buffer holds the body's
  value on the three loaded blocks (out0_3); an input window's buffer holds its block of the array at every point, fetched there or not.
  From this: the pipeline's proof data (what each window's buffer holds after the body, point by point) and the body's obligation at a
  symbolic point.
-/
import proofs.«119654_g2000206494441110_pallasbulk_512_2_alg».proof.Proof.Gen.Kernel.Launch
import proofs.«119654_g2000206494441110_pallasbulk_512_2_alg».proof.Proof.Gen.Kernel.Skeleton
import proofs.«119654_g2000206494441110_pallasbulk_512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles below have extents in the thousands along their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the body `cc0__conv1_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2x65x65x12 := Rect.unit (s := S2x65x65x12) ![0, 0, 0, 0] S2x65x65x12.size inb_S2x65x65x12_S2x65x65x12_0_0_0_0
abbrev r0_1 : Rect S48x128 := Rect.unit (s := S48x128) ![0, 0] S48x128.size inb_S48x128_S48x128_0_0
abbrev r0_2 : Rect S1x128 := Rect.unit (s := S1x128) ![0, 0] S1x128.size inb_S1x128_S1x128_0_0
abbrev r0_3 : Rect S2x64x64x128 := Rect.unit (s := S2x64x64x128) ![0, 0, 0, 0] S2x64x64x128.size inb_S2x64x64x128_S2x64x64x128_0_0_0_0

/-! ## What the body leaves in the output window's buffer -/

/-- Window 3's staging buffer after the body, from the input windows' blocks: its one store as a piece, whose
    payload is the skeleton's. -/
def out0_3 (x0 : Vec F S2x65x65x12 .bf16) (x1 : Vec F S48x128 .bf16) (x2 : Vec F S1x128 .f32) : Vec F S2x64x64x128 .bf16 :=
  View.canon [⟨r0_3, k0_pay1 (View.ld x0 r0_0) (View.ld x1 r0_1) (View.ld x2 r0_2)⟩]

/-- Its one store is the whole buffer (checked by evaluation), so it covers it. -/
theorem cover0_3 (p0 : Vec F S2x64x64x128 .bf16) (y : S2x64x64x128.Idx) :
    ∃ pc ∈ ([⟨r0_3, p0⟩] : List (View.Piece (Elt F) S2x64x64x128 .bf16)), y ∈ pc.1.set :=
  View.cover_of_tiled [⟨r0_3, p0⟩] S2x64x64x128.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which is run operation by operation. The body reads the output buffer once before it stores it (the
    store is of packed rows); the value read is not used, so the buffer's contents before the store do not matter. -/
theorem sound_kernel0 (c : Dev nD) (E : Set ℕ) (i : grid0.Coords) (arg1 : Memref sig .tc .vmem S2x65x65x12 .bf16) (harg1 : arg1.IsWhole) (arg2 : Memref sig .tc .vmem S48x128 .bf16) (harg2 : arg2.IsWhole) (arg3 : Memref sig .tc .vmem S1x128 .f32) (harg3 : arg3.IsWhole) (arg4 : Memref sig .tc .vmem S2x64x64x128 .bf16) (harg4 : arg4.IsWhole)
    (x0 : Vec F S2x65x65x12 .bf16) (x1 : Vec F S48x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv1_body i arg1 harg1 arg2 harg2 arg3 harg3 arg4 harg4) K := by
  simp only [cc0__conv1_body_eq_skeleton]; unfold cc0__conv1_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BFrame1.lean ====
/-
  The second convolution's pipeline at one grid point, for any float instance and any contents V of the arrays the region is entered with.
  The body loads the block of four space-to-depth images and the bias whole and the [4, 512, 128] weight slab by slab, four loads through
  the rectangles at offsets (p, 0, 0); it computes and stores the output window's buffer whole. After the body the input buffers hold what
  they held and the output buffer holds the body's value on the loaded blocks (out1_3). From this: the pipeline's proof data and the
  body's obligation at a symbolic point.
-/
import proofs.«119654_g2000206494441110_pallasbulk_512_2_alg».proof.Proof.Gen.Kernel.Launch
import proofs.«119654_g2000206494441110_pallasbulk_512_2_alg».proof.Proof.Gen.Kernel.Skeleton
import proofs.«119654_g2000206494441110_pallasbulk_512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles below have extents in the thousands along their long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the body `cc1__conv2_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4x33x33x512 := Rect.unit (s := S4x33x33x512) ![0, 0, 0, 0] S4x33x33x512.size inb_S4x33x33x512_S4x33x33x512_0_0_0_0
-- the weight window is read through four rectangles, one per tap of the 2×2 convolution
abbrev r1_1a : Rect S4x512x128 := Rect.unit (s := S4x512x128) ![0, 0, 0] S1x512x128.size inb_S4x512x128_S1x512x128_0_0_0
abbrev r1_1b : Rect S4x512x128 := Rect.unit (s := S4x512x128) ![1, 0, 0] S1x512x128.size inb_S4x512x128_S1x512x128_1_0_0
abbrev r1_1c : Rect S4x512x128 := Rect.unit (s := S4x512x128) ![2, 0, 0] S1x512x128.size inb_S4x512x128_S1x512x128_2_0_0
abbrev r1_1d : Rect S4x512x128 := Rect.unit (s := S4x512x128) ![3, 0, 0] S1x512x128.size inb_S4x512x128_S1x512x128_3_0_0
abbrev r1_2 : Rect S1x128 := Rect.unit (s := S1x128) ![0, 0] S1x128.size inb_S1x128_S1x128_0_0
abbrev r1_3 : Rect S4x32x32x128 := Rect.unit (s := S4x32x32x128) ![0, 0, 0, 0] S4x32x32x128.size inb_S4x32x32x128_S4x32x32x128_0_0_0_0

/-! ## What the body leaves in the output window's buffer -/

/-- Window 3's staging buffer after the body, from the input windows' blocks: its one store as a piece, whose
    payload is the skeleton's, over the image block, the bias and the four taps' weights. -/
def out1_3 (x0 : Vec F S4x33x33x512 .bf16) (x1 : Vec F S4x512x128 .bf16) (x2 : Vec F S1x128 .f32) : Vec F S4x32x32x128 .bf16 :=
  View.canon [⟨r1_3, k1_pay1 (View.ld x0 r1_0) (View.ld x2 r1_2) (View.ld x1 r1_1a) (View.ld x1 r1_1b) (View.ld x1 r1_1c) (View.ld x1 r1_1d)⟩]

/-- Its one store is the whole buffer (checked by evaluation), so it covers it. -/
theorem cover1_3 (p0 : Vec F S4x32x32x128 .bf16) (y : S4x32x32x128.Idx) :
    ∃ pc ∈ ([⟨r1_3, p0⟩] : List (View.Piece (Elt F) S4x32x32x128 .bf16)), y ∈ pc.1.set :=
  View.cover_of_tiled [⟨r1_3, p0⟩] S4x32x32x128.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, which is run operation by operation. The body reads the output buffer once before it stores it (the
    store is of packed rows); the value read is not used, so the buffer's contents before the store do not matter. -/
theorem sound_kernel1 (c : Dev nD) (E : Set ℕ) (i : grid1.Coords) (arg1 : Memref sig .tc .vmem S4x33x33x512 .bf16) (harg1 : arg1.IsWhole) (arg2 : Memref sig .tc .vmem S4x512x128 .bf16) (harg2 : arg2.IsWhole) (arg3 : Memref sig .tc .vmem S1x128 .f32) (harg3 : arg3.IsWhole) (arg4 : Memref sig .tc .vmem S4x32x32x128 .bf16) (harg4 : arg4.IsWhole)
    (x0 : Vec F S4x33x33x512 .bf16) (x1 : Vec F S4x512x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__conv2_body i arg1 harg1 arg2 harg2 arg3 harg3 arg4 harg4) K := by
  simp only [cc1__conv2_body_eq_skeleton]; unfold cc1__conv2_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BFrame2.lean ====
/-
  The fused tail's pipeline at one grid point, for any float instance and any contents V of the arrays the region is entered with.
  Seven input windows (a block of eight space-to-depth images, the third convolution's weight in four slabs and its bias, and for each of
  the two residual layers a 3×3 weight in nine slabs and a 1×1 weight) and one output window. The body also owns a scratch of shape
  [8, 18, 18, 128]: it first stores the scratch whole with zeros, and for each residual layer overwrites the interior of rows 1..16 (a load
  of those rows, the 16×16 interior replaced, the rows stored back) and loads the scratch whole. Nothing is read from the scratch before
  the zeroing store of the same point, so nothing is carried from one point to the next: the scratch stays inside the region's
  invariant, at some contents, and the output buffer after the body is a function of the seven loaded blocks alone (out2_7; the two
  scratch read-backs are scr2_a and scr2_b).
-/
import proofs.«119654_g2000206494441110_pallasbulk_512_2_alg».proof.Proof.Gen.Kernel.Launch
import proofs.«119654_g2000206494441110_pallasbulk_512_2_alg».proof.Proof.Gen.Kernel.Skeleton
import proofs.«119654_g2000206494441110_pallasbulk_512_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when the region is entered: the parameter the region's half is stated at
variable (V : (c : Dev nD) → (b : Ref sig .tc) → Buf (Elt F) ((c : Thread nD τ).loc b))

/-! # REGION 2 of @main: custom_call 2, `cc2__tail_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): the window is uncut and
    never idle, so an unfetched point finds the block the last fetch left, and the index has not moved since. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): the window is uncut and
    never idle, so an unfetched point finds the block the last fetch left, and the index has not moved since. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): the window is uncut and
    never idle, so an unfetched point finds the block the last fetch left, and the index has not moved since. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): the window is uncut and
    never idle, so an unfetched point finds the block the last fetch left, and the index has not moved since. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): the window is uncut and
    never idle, so an unfetched point finds the block the last fetch left, and the index has not moved since. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): the window is uncut and
    never idle, so an unfetched point finds the block the last fetch left, and the index has not moved since. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): the window is uncut and
    never idle, so an unfetched point finds the block the last fetch left, and the index has not moved since. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8x17x17x512 := Rect.unit (s := S8x17x17x512) ![0, 0, 0, 0] S8x17x17x512.size inb_S8x17x17x512_S8x17x17x512_0_0_0_0
abbrev r2_1_0 : Rect S4x512x128 := Rect.unit (s := S4x512x128) ![0, 0, 0] S1x512x128.size inb_S4x512x128_S1x512x128_0_0_0
abbrev r2_1_1 : Rect S4x512x128 := Rect.unit (s := S4x512x128) ![1, 0, 0] S1x512x128.size inb_S4x512x128_S1x512x128_1_0_0
abbrev r2_1_2 : Rect S4x512x128 := Rect.unit (s := S4x512x128) ![2, 0, 0] S1x512x128.size inb_S4x512x128_S1x512x128_2_0_0
abbrev r2_1_3 : Rect S4x512x128 := Rect.unit (s := S4x512x128) ![3, 0, 0] S1x512x128.size inb_S4x512x128_S1x512x128_3_0_0
abbrev r2_2 : Rect S1x128 := Rect.unit (s := S1x128) ![0, 0] S1x128.size inb_S1x128_S1x128_0_0
-- the nine taps of a 3×3 weight array (windows 3 and 5 have the same shape)
abbrev r2_3_0 : Rect S9x128x128 := Rect.unit (s := S9x128x128) ![0, 0, 0] S1x128x128.size inb_S9x128x128_S1x128x128_0_0_0
abbrev r2_3_1 : Rect S9x128x128 := Rect.unit (s := S9x128x128) ![1, 0, 0] S1x128x128.size inb_S9x128x128_S1x128x128_1_0_0
abbrev r2_3_2 : Rect S9x128x128 := Rect.unit (s := S9x128x128) ![2, 0, 0] S1x128x128.size inb_S9x128x128_S1x128x128_2_0_0
abbrev r2_3_3 : Rect S9x128x128 := Rect.unit (s := S9x128x128) ![3, 0, 0] S1x128x128.size inb_S9x128x128_S1x128x128_3_0_0
abbrev r2_3_4 : Rect S9x128x128 := Rect.unit (s := S9x128x128) ![4, 0, 0] S1x128x128.size inb_S9x128x128_S1x128x128_4_0_0
abbrev r2_3_5 : Rect S9x128x128 := Rect.unit (s := S9x128x128) ![5, 0, 0] S1x128x128.size inb_S9x128x128_S1x128x128_5_0_0
abbrev r2_3_6 : Rect S9x128x128 := Rect.unit (s := S9x128x128) ![6, 0, 0] S1x128x128.size inb_S9x128x128_S1x128x128_6_0_0
abbrev r2_3_7 : Rect S9x128x128 := Rect.unit (s := S9x128x128) ![7, 0, 0] S1x128x128.size inb_S9x128x128_S1x128x128_7_0_0
abbrev r2_3_8 : Rect S9x128x128 := Rect.unit (s := S9x128x128) ![8, 0, 0] S1x128x128.size inb_S9x128x128_S1x128x128_8_0_0
-- a 1×1 weight array whole (windows 4 and 6)
abbrev r2_4 : Rect S128x128 := Rect.unit (s := S128x128) ![0, 0] S128x128.size inb_S128x128_S128x128_0_0
abbrev r2_7 : Rect S8x16x16x128 := Rect.unit (s := S8x16x16x128) ![0, 0, 0, 0] S8x16x16x128.size inb_S8x16x16x128_S8x16x16x128_0_0_0_0
-- the padded scratch whole, and its rows 1..16 at every column (the whole words that hold the interior)
abbrev rs2_w : Rect S8x18x18x128 := Rect.unit (s := S8x18x18x128) ![0, 0, 0, 0] S8x18x18x128.size inb_S8x18x18x128_S8x18x18x128_0_0_0_0
abbrev rs2_m : Rect S8x18x18x128 := Rect.unit (s := S8x18x18x128) ![0, 1, 0, 0] S8x16x18x128.size inb_S8x18x18x128_S8x16x18x128_0_1_0_0

/-! ## The scratch within one point

The body zeroes the padded scratch whole, then twice writes an activation into its interior (rows and columns
1..16) by a read-modify-write of rows 1..16 and reads the scratch back whole. Nothing is read before the zeroing
store, so what the scratch held when the point began is never seen. -/

/-- The stores into the scratch up to the zeroing one, last first. -/
def scrL2_0 : List (View.Piece (Elt F) S8x18x18x128 .bf16) := [⟨rs2_w, k2_pay3 (F := F)⟩]

/-- The read-modify-write of rows 1..16 after the stores `L`: those rows as `L` left them, columns 1..16 replaced by `p`. -/
def rmw2 (L : List (View.Piece (Elt F) S8x18x18x128 .bf16)) (p : FVec F S8x16x16x128 .bf16) : View.Piece (Elt F) S8x18x18x128 .bf16 :=
  ⟨rs2_m, updateSlice (View.ld (View.canon L) rs2_m) p ![0, 0, 1, 0] slices_S8x16x18x128_S8x16x16x128_0_0_1_0⟩

/-- The first convolution's accumulator (conv3 over the four phase taps, plus the bias). -/
def v27_2 (x0 : Vec F S8x17x17x512 .bf16) (x1 : Vec F S4x512x128 .bf16) (x2 : Vec F S1x128 .f32) : FVec F S2048x128 .f32 :=
  k2_pay2 (View.ld x0 r2_0) (View.ld x2 r2_2) (View.ld x1 r2_1_0) (View.ld x1 r2_1_1) (View.ld x1 r2_1_2) (View.ld x1 r2_1_3)

/-- The stores into the scratch up to the first interior write, last first. -/
def scrL2_a (x0 : Vec F S8x17x17x512 .bf16) (x1 : Vec F S4x512x128 .bf16) (x2 : Vec F S1x128 .f32) : List (View.Piece (Elt F) S8x18x18x128 .bf16) :=
  rmw2 scrL2_0 (k2_pay4 (v27_2 x0 x1 x2)) :: scrL2_0

/-- The scratch read back after the first store pair: zero border, the first activation inside. -/
def scr2_a (x0 : Vec F S8x17x17x512 .bf16) (x1 : Vec F S4x512x128 .bf16) (x2 : Vec F S1x128 .f32) : Vec F S8x18x18x128 .bf16 :=
  View.ld (View.canon (scrL2_a x0 x1 x2)) rs2_w

/-- The first residual layer's output, before its activation. -/
def v99_2 (x0 : Vec F S8x17x17x512 .bf16) (x1 : Vec F S4x512x128 .bf16) (x2 : Vec F S1x128 .f32) (x3 : Vec F S9x128x128 .bf16) (x4 : Vec F S128x128 .bf16) : FVec F S2048x128 .f32 :=
  k2_pay7 (v27_2 x0 x1 x2) (scr2_a x0 x1 x2) (k2_pay5 (scr2_a x0 x1 x2) (View.ld x3 r2_3_0) (View.ld x3 r2_3_1) (View.ld x3 r2_3_2) (View.ld x3 r2_3_3)) (k2_pay6 (scr2_a x0 x1 x2))
    (View.ld x3 r2_3_4) (View.ld x3 r2_3_5) (View.ld x3 r2_3_6) (View.ld x3 r2_3_7) (View.ld x3 r2_3_8) (View.ld x4 r2_4)

/-- The stores into the scratch up to the second interior write, last first. -/
def scrL2_b (x0 : Vec F S8x17x17x512 .bf16) (x1 : Vec F S4x512x128 .bf16) (x2 : Vec F S1x128 .f32) (x3 : Vec F S9x128x128 .bf16) (x4 : Vec F S128x128 .bf16) : List (View.Piece (Elt F) S8x18x18x128 .bf16) :=
  rmw2 (scrL2_a x0 x1 x2) (k2_pay8 (v99_2 x0 x1 x2 x3 x4) (Scalar.ofBits .f32 0x00000000#32)) :: scrL2_a x0 x1 x2

/-- The scratch read back after the second store pair. -/
def scr2_b (x0 : Vec F S8x17x17x512 .bf16) (x1 : Vec F S4x512x128 .bf16) (x2 : Vec F S1x128 .f32) (x3 : Vec F S9x128x128 .bf16) (x4 : Vec F S128x128 .bf16) : Vec F S8x18x18x128 .bf16 :=
  View.ld (View.canon (scrL2_b x0 x1 x2 x3 x4)) rs2_w

/-! ## What the body leaves in the output window's buffer -/

/-- Window 7's staging buffer after the body, from the input windows' blocks: its one store as a piece. -/
def out2_7 (x0 : Vec F S8x17x17x512 .bf16) (x1 : Vec F S4x512x128 .bf16) (x2 : Vec F S1x128 .f32) (x3 : Vec F S9x128x128 .bf16) (x4 : Vec F S128x128 .bf16) (x5 : Vec F S9x128x128 .bf16) (x6 : Vec F S128x128 .bf16) : Vec F S8x16x16x128 .f32 :=
  View.canon [⟨r2_7, k2_pay1 (k2_pay11 (v99_2 x0 x1 x2 x3 x4) (scr2_b x0 x1 x2 x3 x4) (k2_pay9 (scr2_b x0 x1 x2 x3 x4) (View.ld x5 r2_3_0) (View.ld x5 r2_3_1) (View.ld x5 r2_3_2) (View.ld x5 r2_3_3)) (k2_pay10 (scr2_b x0 x1 x2 x3 x4))
    (View.ld x5 r2_3_4) (View.ld x5 r2_3_5) (View.ld x5 r2_3_6) (View.ld x5 r2_3_7) (View.ld x5 r2_3_8) (View.ld x6 r2_4))⟩]

/-- The store tiles the buffer (checked by evaluation), so it covers it. -/
theorem cover2_7 (p0 : Vec F S8x16x16x128 .f32) (y : S8x16x16x128.Idx) :
    ∃ pc ∈ ([⟨r2_7, p0⟩] : List (View.Piece (Elt F) S8x16x16x128 .f32)), y ∈ pc.1.set :=
  View.cover_of_tiled [⟨r2_7, p0⟩] S8x16x16x128.size (by rfl) y

/-- The zeroing store covers the scratch, -/
theorem cover2_s0 (y : S8x18x18x128.Idx) : ∃ pc ∈ (scrL2_0 (F := F)), y ∈ pc.1.set := by
  unfold scrL2_0
  exact View.cover_of_tiled _ S8x18x18x128.size (by rfl) y

/-- and so does any list of stores that ends with a covering one. -/
theorem cover2_cons {L : List (View.Piece (Elt F) S8x18x18x128 .bf16)} (p : View.Piece (Elt F) S8x18x18x128 .bf16)
    (h : ∀ y, ∃ pc ∈ L, y ∈ pc.1.set) (y : S8x18x18x128.Idx) : ∃ pc ∈ p :: L, y ∈ pc.1.set :=
  let ⟨pc, hm, hy⟩ := h y; ⟨pc, List.mem_cons_of_mem _ hm, hy⟩

/-- The read-modify-write as the run states it — the loaded rows a covered load after the stores `L` — is the piece
    `rmw2 L p`: a covered load reads the canon of the stores, whatever the view. -/
theorem rmw2_run {κ : Kind} {sp : Space} (v : View sig κ sp S8x18x18x128 .bf16) (L : List (View.Piece (Elt F) S8x18x18x128 .bf16))
    (hL : ∀ y, ∃ pc ∈ L, y ∈ pc.1.set) (p : FVec F S8x16x16x128 .bf16) :
    ((⟨rs2_m, updateSlice (v.readCov L rs2_m.toLoadRect) p ![0, 0, 1, 0] slices_S8x16x18x128_S8x16x16x128_0_0_1_0⟩ :: L) : List (View.Piece (Elt F) S8x18x18x128 .bf16))
      = rmw2 L p :: L := by
  rw [View.readCov_eq_canon_ld v L rs2_m hL]; rfl

/-! ## The body's triple -/

set_option maxHeartbeats 4000000 in
/-- The kernel body on whole staging memrefs, the inputs' at read contents `xW`, the output's and the scratch at
    anything, runs to the continuation holding the inputs' as they were, the output's at `out2_7` of the inputs' and
    the scratch at some contents: the printed functions are their skeletons, run through every part call; each
    scratch read-back is a covered load, so it reads the canon of the stores before it. -/
theorem sound_kernel2 (c : Dev nD) (E : Set ℕ) (i : grid2.Coords) (arg1 : Memref sig .tc .vmem S8x17x17x512 .bf16) (harg1 : arg1.IsWhole) (arg2 : Memref sig .tc .vmem S4x512x128 .bf16) (harg2 : arg2.IsWhole) (arg3 : Memref sig .tc .vmem S1x128 .f32) (harg3 : arg3.IsWhole) (arg4 : Memref sig .tc .vmem S9x128x128 .bf16) (harg4 : arg4.IsWhole) (arg5 : Memref sig .tc .vmem S128x128 .bf16) (harg5 : arg5.IsWhole) (arg6 : Memref sig .tc .vmem S9x128x128 .bf16) (harg6 : arg6.IsWhole) (arg7 : Memref sig .tc .vmem S128x128 .bf16) (harg7 : arg7.IsWhole) (arg8 : Memref sig .tc .vmem S8x16x16x128 .f32) (harg8 : arg8.IsWhole) (arg9 : Memref sig .tc .vmem S8x18x18x128 .bf16) (harg9 : arg9.IsWhole)
    (x0 : Vec F S8x17x17x512 .bf16) (x1 : Vec F S4x512x128 .bf16) (x2 : Vec F S1x128 .f32) (x3 : Vec F S9x128x128 .bf16) (x4 : Vec F S128x128 .bf16) (x5 : Vec F S9x128x128 .bf16) (x6 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6) ∗ (∃ d, owns (c : Thread nD τ) arg9 fullShare d)) -∗ K ⟨⟩))
      ⊢ wp frame (wpE (defs₀ (F := F)) Variants.none c none) E (cc2__tail_body i arg1 harg1 arg2 harg2 arg3 harg3 arg4 harg4 arg5 harg5 arg6 harg6 arg7 harg7 arg8 harg8 arg9 harg9) K := by
  simp only [cc2__tail_body_eq_skeleton]; unfold cc2__tail_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    -- the scratch's stores, and its two read-backs, free of the view
    have hL2 : sound_kernel2.sl.H8_2 c arg1 arg2 arg3 arg9 f0 f1 f2 = scrL2_a (arg1.view.read (Elt F) f0) (arg2.view.read (Elt F) f1) (arg3.view.read (Elt F) f2) :=
      rmw2_run arg9.view scrL2_0 cover2_s0 _
    have e39 : sound_kernel2.sl.v39 c arg1 arg2 arg3 arg9 f0 f1 f2 = scr2_a (arg1.view.read (Elt F) f0) (arg2.view.read (Elt F) f1) (arg3.view.read (Elt F) f2) := by
      show arg9.view.readCov (sound_kernel2.sl.H8_2 c arg1 arg2 arg3 arg9 f0 f1 f2) rs2_w.toLoadRect = _
      rw [hL2]
      exact View.readCov_eq_canon_ld _ _ rs2_w (cover2_cons _ cover2_s0)
    have hL3 : sound_kernel2.sl.H8_3 c arg1 arg2 arg3 arg4 arg5 arg9 f0 f1 f2 f3 f4 = scrL2_b (arg1.view.read (Elt F) f0) (arg2.view.read (Elt F) f1) (arg3.view.read (Elt F) f2) (arg4.view.read (Elt F) f3) (arg5.view.read (Elt F) f4) := by
      unfold sound_kernel2.sl.H8_3 sound_kernel2.sl.old_1 sound_kernel2.sl.r_3 sound_kernel2.sl.r_2 sound_kernel2.sl.r_1
      rw [e39, hL2]
      exact rmw2_run arg9.view _ (cover2_cons _ cover2_s0) _
    have e107 : sound_kernel2.sl.v107 c arg1 arg2 arg3 arg4 arg5 arg9 f0 f1 f2 f3 f4 = scr2_b (arg1.view.read (Elt F) f0) (arg2.view.read (Elt F) f1) (arg3.view.read (Elt F) f2) (arg4.view.read (Elt F) f3) (arg5.view.read (Elt F) f4) := by
      show arg9.view.readCov (sound_kernel2.sl.H8_3 c arg1 arg2 arg3 arg4 arg5 arg9 f0 f1 f2 f3 f4) rs2_w.toLoadRect = _
      rw [hL3]
      exact View.readCov_eq_canon_ld _ _ rs2_w (cover2_cons _ (cover2_cons _ cover2_s0))
    rw [View.read_writes_eq_canon _ _ _ (cover2_7 _)]
    unfold sound_kernel2.sl.r_6 sound_kernel2.sl.r_5 sound_kernel2.sl.r_4 sound_kernel2.sl.r_3 sound_kernel2.sl.r_2 sound_kernel2.sl.r_1
    rw [e107, e39]
    rfl
  iexists _; iexists _; isplitr
  swap; · iexact H8
  ipureintro; rfl

/-! ## The pipeline's proof data -/

/-- The proof data of pipeline 2 on core `c`: the arrays as the region finds them (`V`); after the body at
    point `t` each input's buffer at its block and the output's at `out2_7` of the input blocks; the invariant the
    class's (the scoped rest — the scratch among it — and the generator register, at some contents each: the body
    leaves the scratch at contents no later point reads); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The invariant with the scratch taken out of the scoped rest and held as a whole memref at some contents: the
    scoped rest split at the scratch, a whole buffer owned being its points-to. -/
theorem Phi2_eq (c : Dev nD) (k : Fin (cfg2.N + 1)) :
    (dat2 V c).Φ k = iprop(((∃ d, owns (c : Thread nD τ) (Memref.whole cc2_scratch0) fullShare d)
        ∗ Pipeline.scopedRestBut (Ix := Unit) (Name := ℕ) (U := UR sig nD τ) (Lvl := ℕ) (Val := Elt F) spec2 c [cc2_scratch0])
      ∗ ∃ r, prngReg c r) := by
  show Pipeline.ΦA spec2 c = _
  unfold Pipeline.ΦA
  rw [Pipeline.scopedRest_split_of_list spec2 c [cc2_scratch0] (by decide) (by decide)]
  simp only [owns_whole]
  rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`) and the scratch comes out of the
    invariant at some contents, so `sound_kernel2` applies; the scratch goes back at what the body left in it, the
    rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, Phi2_eq]
  iintro ⟨⟨⟨Hs, Hrest⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [Hs Hrest Hr]
  · isplitr [Hr]
    · isplitl [Hs]; · iexact Hs
      iexact Hrest
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions
end Cert.Kernel.Hand

end
-- ==== Proof.BRun.lean ====
/-
  The kernel program's run, for any float instance. @main is thirteen segments: host stretches and the three pipelines. The contents of
  every unscoped buffer are carried from the launch through the segments — a host stretch rewrites the buffers its operations write, a
  pipeline leaves its windows' arrays at what its write-backs leave and every other buffer as it was entered (W0 … W13). Every weakly
  fair execution terminates, nothing faults, and each unscoped buffer ends at the last boundary's contents (run_all). No segment writes
  an argument, so the arguments end as launched (frame), and the result is the last transpose of the tail's array (W13_v28).
-/
import proofs.«119654_g2000206494441110_pallasbulk_512_2_alg».proof.Proof.Gen.Kernel.Regions
import proofs.«119654_g2000206494441110_pallasbulk_512_2_alg».proof.Proof.BFrame0
import proofs.«119654_g2000206494441110_pallasbulk_512_2_alg».proof.Proof.BFrame1
import proofs.«119654_g2000206494441110_pallasbulk_512_2_alg».proof.Proof.BFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)

/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves region 0 as it entered: no write-back folds into it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- After `hostOps1`. -/
abbrev W5 : Dev nD → Valuation τ sig (Elt F) := fun c => StableHlo.after hostOps1 (W4 m ρ c)
/-- After `hostOps1_1`. -/
abbrev W6 : Dev nD → Valuation τ sig (Elt F) := fun c => StableHlo.after hostOps1_1 (W5 m ρ c)
/-- After `hostOps1_2`. -/
abbrev W7 : Dev nD → Valuation τ sig (Elt F) := fun c => StableHlo.after hostOps1_2 (W6 m ρ c)

/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- An input window's array leaves region 1 as it entered: no write-back folds into it. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))
/-- After `hostOps2`. -/
abbrev W9 : Dev nD → Valuation τ sig (Elt F) := fun c => StableHlo.after hostOps2 (W8 m ρ c)
/-- After `hostOps2_1`. -/
abbrev W10 : Dev nD → Valuation τ sig (Elt F) := fun c => StableHlo.after hostOps2_1 (W9 m ρ c)
/-- After `hostOps2_2`. -/
abbrev W11 : Dev nD → Valuation τ sig (Elt F) := fun c => StableHlo.after hostOps2_2 (W10 m ρ c)

/-- The same read at the TensorCore's references (what region 2's proof data take). -/
abbrev V11 : (c : Dev nD) → (b : Ref sig .tc) → Buf (Elt F) ((c : Thread nD τ).loc b) := fun c b => W11 m ρ c b
/-- At region 2's exit: its arrays at what the pipeline leaves (the inputs as entered, each output's write-backs
    folded: `Dat.arrAt … N`), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references (region 2's exit contents). -/
abbrev V12 : (c : Dev nD) → (b : Ref sig .tc) → Buf (Elt F) ((c : Thread nD τ).loc b) := fun c b => W12 m ρ c b
/-- At region 2's exit each of its arrays holds what the pipeline leaves (`hF2`) and every other buffer what it
    held at entry (`hrest2`). -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- An input window's array leaves region 2 as it entered: no write-back folds into it. -/
theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))
/-- After `hostOps3`. -/
abbrev W13 : Dev nD → Valuation τ sig (Elt F) := fun c => StableHlo.after hostOps3 (W12 m ρ c)

/-! ### What each segment leaves unchanged: a reference no operation of a stretch writes keeps its contents, and a
    region changes only its output window's array -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ≠ main_v17) : W4 m ρ c (Proc.devRef .tc r) = W3 m ρ c (Proc.devRef .tc r) := by
  by_cases hr : ∃ w, Pipeline.arrRef spec0 w = r
  · obtain ⟨w, rfl⟩ := hr
    exact W4_in m ρ c w ((show ∀ w : Fin cfg0.W, Pipeline.arrRef spec0 w ≠ main_v17 → (cfg0.win w).isOut = false from by decide) w h)
  · exact W4_of_ne m ρ c r fun w e => hr ⟨w, e⟩
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W8_of (c : Dev nD) (r : Ref sig .tc) (h : r ≠ main_v22) : W8 m ρ c (Proc.devRef .tc r) = W7 m ρ c (Proc.devRef .tc r) := by
  by_cases hr : ∃ w, Pipeline.arrRef spec1 w = r
  · obtain ⟨w, rfl⟩ := hr
    exact W8_in m ρ c w ((show ∀ w : Fin cfg1.W, Pipeline.arrRef spec1 w ≠ main_v22 → (cfg1.win w).isOut = false from by decide) w h)
  · exact W8_of_ne m ρ c r fun w e => hr ⟨w, e⟩
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W12_of (c : Dev nD) (r : Ref sig .tc) (h : r ≠ main_v27) : W12 m ρ c (Proc.devRef .tc r) = W11 m ρ c (Proc.devRef .tc r) := by
  by_cases hr : ∃ w, Pipeline.arrRef spec2 w = r
  · obtain ⟨w, rfl⟩ := hr
    exact W12_in m ρ c w ((show ∀ w : Fin cfg2.W, Pipeline.arrRef spec2 w ≠ main_v27 → (cfg2.win w).isOut = false from by decide) w h)
  · exact W12_of_ne m ρ c r fun w e => hr ⟨w, e⟩
theorem W13_of (c : Dev nD) (r : Ref sig .tc) (h : r ∉ hostOps3_W) : W13 m ρ c (Proc.devRef .tc r) = W12 m ρ c (Proc.devRef .tc r) :=
  StableHlo.after_of_writes_sub hostOps3 _ hostOps3_writes h

/-! ### The arguments end as launched: no host operation writes one and a region only reads one (through an input
    window) or bypasses it, so the fold at an argument's buffer walks back to the launch memory -/
theorem W13_main_arg0 (c : Dev nD) : W13 m ρ c (Proc.devRef .tc main_arg0) = m ((c : Thread nD τ).loc main_arg0) :=
  (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans rfl
theorem W13_main_arg1 (c : Dev nD) : W13 m ρ c (Proc.devRef .tc main_arg1) = m ((c : Thread nD τ).loc main_arg1) :=
  (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl
theorem W13_main_arg2 (c : Dev nD) : W13 m ρ c (Proc.devRef .tc main_arg2) = m ((c : Thread nD τ).loc main_arg2) :=
  (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W13_main_arg3 (c : Dev nD) : W13 m ρ c (Proc.devRef .tc main_arg3) = m ((c : Thread nD τ).loc main_arg3) :=
  (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem W13_main_arg4 (c : Dev nD) : W13 m ρ c (Proc.devRef .tc main_arg4) = m ((c : Thread nD τ).loc main_arg4) :=
  (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W13_main_arg5 (c : Dev nD) : W13 m ρ c (Proc.devRef .tc main_arg5) = m ((c : Thread nD τ).loc main_arg5) :=
  (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans rfl
theorem W13_main_arg6 (c : Dev nD) : W13 m ρ c (Proc.devRef .tc main_arg6) = m ((c : Thread nD τ).loc main_arg6) :=
  (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans rfl
theorem W13_main_arg7 (c : Dev nD) : W13 m ρ c (Proc.devRef .tc main_arg7) = m ((c : Thread nD τ).loc main_arg7) :=
  (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans rfl
theorem W13_main_arg8 (c : Dev nD) : W13 m ρ c (Proc.devRef .tc main_arg8) = m ((c : Thread nD τ).loc main_arg8) :=
  (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans rfl
theorem W13_main_arg9 (c : Dev nD) : W13 m ρ c (Proc.devRef .tc main_arg9) = m ((c : Thread nD τ).loc main_arg9) :=
  (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem W13_main_arg10 (c : Dev nD) : W13 m ρ c (Proc.devRef .tc main_arg10) = m ((c : Thread nD τ).loc main_arg10) :=
  (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)) ]
/-- @main IS the run of the segments: the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W13`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The result array after the last stretch: the one transpose of region 2's output. -/
theorem W13_v28 (c : Dev nD) : W13 m ρ c (Proc.devRef .tc main_v28)
    = transpose S128x128x16x16 [0, 3, 1, 2] (W12 m ρ c (Proc.devRef .tc main_v27)) transposes_S128x16x16x128_S128x128x16x16_0_3_1_2 := by
  show StableHlo.after hostOps3 (W12 m ρ c) (Proc.devRef .tc main_v28) = _
  after_results

/-- THE FRAME, at any `F`: every weakly fair execution of @main terminates, nothing faulting, and every final state
    has the argument arrays as launched: the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c)⟩) (run_all m ρ)

/-- info: 'Cert.Kernel.Hand.run_all' depends on axioms: [propext, Classical.choice, Quot.sound] -/
#guard_msgs in #print axioms run_all

end Cert.Kernel.Hand

end
-- ==== Proof.KFrame0.lean ====
/-
  The first convolution's pipeline at one grid point, for any float instance and any contents V of the arrays the region is entered with.
  The body loads its three input windows' buffers whole — a block of two space-to-depth images, the weight, the bias —, computes, and
  stores the output window's buffer whole. So after the body the input buffers hold what they held and the output buffer holds the body's
  value on the three loaded blocks (out0_3); an input window's buffer holds its block of the array at every point, fetched there or not.
  From this: the pipeline's proof data (what each window's buffer holds after the body, point by point) and the body's obligation at a
  symbolic point.
-/
import proofs.«119654_g2000206494441110_pallasbulk_512_2_alg».proof.Proof.Gen.KernelIdeal.Launch
import proofs.«119654_g2000206494441110_pallasbulk_512_2_alg».proof.Proof.Gen.KernelIdeal.Skeleton
import proofs.«119654_g2000206494441110_pallasbulk_512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles below have extents in the thousands along their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 0: the body `cc0__conv1_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2x65x65x12 := Rect.unit (s := S2x65x65x12) ![0, 0, 0, 0] S2x65x65x12.size inb_S2x65x65x12_S2x65x65x12_0_0_0_0
abbrev r0_1 : Rect S48x128 := Rect.unit (s := S48x128) ![0, 0] S48x128.size inb_S48x128_S48x128_0_0
abbrev r0_2 : Rect S1x128 := Rect.unit (s := S1x128) ![0, 0] S1x128.size inb_S1x128_S1x128_0_0
abbrev r0_3 : Rect S2x64x64x128 := Rect.unit (s := S2x64x64x128) ![0, 0, 0, 0] S2x64x64x128.size inb_S2x64x64x128_S2x64x64x128_0_0_0_0

/-! ## What the body leaves in the output window's buffer -/

/-- Window 3's staging buffer after the body, from the input windows' blocks: its one store as a piece, whose
    payload is the skeleton's. -/
def out0_3 (x0 : Vec F S2x65x65x12 .bf16) (x1 : Vec F S48x128 .bf16) (x2 : Vec F S1x128 .f32) : Vec F S2x64x64x128 .bf16 :=
  View.canon [⟨r0_3, k0_pay1 (View.ld x0 r0_0) (View.ld x1 r0_1) (View.ld x2 r0_2)⟩]

/-- Its one store is the whole buffer (checked by evaluation), so it covers it. -/
theorem cover0_3 (p0 : Vec F S2x64x64x128 .bf16) (y : S2x64x64x128.Idx) :
    ∃ pc ∈ ([⟨r0_3, p0⟩] : List (View.Piece (Elt F) S2x64x64x128 .bf16)), y ∈ pc.1.set :=
  View.cover_of_tiled [⟨r0_3, p0⟩] S2x64x64x128.size (by rfl) y

/-! ## The body's triple -/

set_option maxHeartbeats 1000000 in
/-- The kernel body on whole staging memrefs, the inputs' at read contents `xW` and the output's at anything, runs to
    the continuation holding the inputs' as they were and the output's at `out0_3` of the inputs': the printed function
    is its skeleton, which is run operation by operation. The body reads the output buffer once before it stores it (the
    store is of packed rows); the value read is not used, so the buffer's contents before the store do not matter. -/
theorem sound_kernel0 (c : Dev nD) (E : Set ℕ) (i : grid0.Coords) (arg1 : Memref sig .tc .vmem S2x65x65x12 .bf16) (harg1 : arg1.IsWhole) (arg2 : Memref sig .tc .vmem S48x128 .bf16) (harg2 : arg2.IsWhole) (arg3 : Memref sig .tc .vmem S1x128 .f32) (harg3 : arg3.IsWhole) (arg4 : Memref sig .tc .vmem S2x64x64x128 .bf16) (harg4 : arg4.IsWhole)
    (x0 : Vec F S2x65x65x12 .bf16) (x1 : Vec F S48x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__conv1_body i arg1 harg1 arg2 harg2 arg3 harg3 arg4 harg4) K := by
  simp only [cc0__conv1_body_eq_skeleton]; unfold cc0__conv1_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KFrame1.lean ====
/-
  The second convolution's pipeline at one grid point, for any float instance and any contents V of the arrays the region is entered with.
  The body loads the block of four space-to-depth images and the bias whole and the [4, 512, 128] weight slab by slab, four loads through
  the rectangles at offsets (p, 0, 0); it computes and stores the output window's buffer whole. After the body the input buffers hold what
  they held and the output buffer holds the body's value on the loaded blocks (out1_3). From this: the pipeline's proof data and the
  body's obligation at a symbolic point.
-/
import proofs.«119654_g2000206494441110_pallasbulk_512_2_alg».proof.Proof.Gen.KernelIdeal.Launch
import proofs.«119654_g2000206494441110_pallasbulk_512_2_alg».proof.Proof.Gen.KernelIdeal.Skeleton
import proofs.«119654_g2000206494441110_pallasbulk_512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the rectangles below have extents in the thousands along their long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # Region 1: the body `cc1__conv2_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): unfetched, the index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): unfetched, the index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4x33x33x512 := Rect.unit (s := S4x33x33x512) ![0, 0, 0, 0] S4x33x33x512.size inb_S4x33x33x512_S4x33x33x512_0_0_0_0
-- the weight window is read through four rectangles, one per tap of the 2×2 convolution
abbrev r1_1a : Rect S4x512x128 := Rect.unit (s := S4x512x128) ![0, 0, 0] S1x512x128.size inb_S4x512x128_S1x512x128_0_0_0
abbrev r1_1b : Rect S4x512x128 := Rect.unit (s := S4x512x128) ![1, 0, 0] S1x512x128.size inb_S4x512x128_S1x512x128_1_0_0
abbrev r1_1c : Rect S4x512x128 := Rect.unit (s := S4x512x128) ![2, 0, 0] S1x512x128.size inb_S4x512x128_S1x512x128_2_0_0
abbrev r1_1d : Rect S4x512x128 := Rect.unit (s := S4x512x128) ![3, 0, 0] S1x512x128.size inb_S4x512x128_S1x512x128_3_0_0
abbrev r1_2 : Rect S1x128 := Rect.unit (s := S1x128) ![0, 0] S1x128.size inb_S1x128_S1x128_0_0
abbrev r1_3 : Rect S4x32x32x128 := Rect.unit (s := S4x32x32x128) ![0, 0, 0, 0] S4x32x32x128.size inb_S4x32x32x128_S4x32x32x128_0_0_0_0

/-! ## What the body leaves in the output window's buffer -/

/-- Window 3's staging buffer after the body, from the input windows' blocks: its one store as a piece, whose
    payload is the skeleton's, over the image block, the bias and the four taps' weights. -/
def out1_3 (x0 : Vec F S4x33x33x512 .bf16) (x1 : Vec F S4x512x128 .bf16) (x2 : Vec F S1x128 .f32) : Vec F S4x32x32x128 .bf16 :=
  View.canon [⟨r1_3, k1_pay1 (View.ld x0 r1_0) (View.ld x2 r1_2) (View.ld x1 r1_1a) (View.ld x1 r1_1b) (View.ld x1 r1_1c) (View.ld x1 r1_1d)⟩]

/-- Its one store is the whole buffer (checked by evaluation), so it covers it. -/
theorem cover1_3 (p0 : Vec F S4x32x32x128 .bf16) (y : S4x32x32x128.Idx) :
    ∃ pc ∈ ([⟨r1_3, p0⟩] : List (View.Piece (Elt F) S4x32x32x128 .bf16)), y ∈ pc.1.set :=
  View.cover_of_tiled [⟨r1_3, p0⟩] S4x32x32x128.size (by rfl) y

/-! ## The body's triple -/

set_option maxHeartbeats 1000000 in
/-- The kernel body on whole staging memrefs, the inputs' at read contents `xW` and the output's at anything, runs to
    the continuation holding the inputs' as they were and the output's at `out1_3` of the inputs': the printed function
    is its skeleton, which is run operation by operation. The body reads the output buffer once before it stores it (the
    store is of packed rows); the value read is not used, so the buffer's contents before the store do not matter. -/
theorem sound_kernel1 (c : Dev nD) (E : Set ℕ) (i : grid1.Coords) (arg1 : Memref sig .tc .vmem S4x33x33x512 .bf16) (harg1 : arg1.IsWhole) (arg2 : Memref sig .tc .vmem S4x512x128 .bf16) (harg2 : arg2.IsWhole) (arg3 : Memref sig .tc .vmem S1x128 .f32) (harg3 : arg3.IsWhole) (arg4 : Memref sig .tc .vmem S4x32x32x128 .bf16) (harg4 : arg4.IsWhole)
    (x0 : Vec F S4x33x33x512 .bf16) (x1 : Vec F S4x512x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__conv2_body i arg1 harg1 arg2 harg2 arg3 harg3 arg4 harg4) K := by
  simp only [cc1__conv2_body_eq_skeleton]; unfold cc1__conv2_body_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _)

/-! ## The pipeline's proof data -/

/-- The proof data of pipeline 1 on core `c`: the arrays as the region finds them (`V`); after the body at
    point `t` each input's buffer at its block and the output's at `out1_3` of the input blocks; the invariant
    the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KFrame2.lean ====
/-
  The fused tail's pipeline at one grid point, for any float instance and any contents V of the arrays the region is entered with.
  Seven input windows (a block of eight space-to-depth images, the third convolution's weight in four slabs and its bias, and for each of
  the two residual layers a 3×3 weight in nine slabs and a 1×1 weight) and one output window. The body also owns a scratch of shape
  [8, 18, 18, 128]: it first stores the scratch whole with zeros, and for each residual layer overwrites the interior of rows 1..16 (a load
  of those rows, the 16×16 interior replaced, the rows stored back) and loads the scratch whole. Nothing is read from the scratch before
  the zeroing store of the same point, so nothing is carried from one point to the next: the scratch stays inside the region's
  invariant, at some contents, and the output buffer after the body is a function of the seven loaded blocks alone (out2_7; the two
  scratch read-backs are scr2_a and scr2_b).
-/
import proofs.«119654_g2000206494441110_pallasbulk_512_2_alg».proof.Proof.Gen.KernelIdeal.Launch
import proofs.«119654_g2000206494441110_pallasbulk_512_2_alg».proof.Proof.Gen.KernelIdeal.Skeleton
import proofs.«119654_g2000206494441110_pallasbulk_512_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when the region is entered: the parameter the region's half is stated at
variable (V : (c : Dev nD) → (b : Ref sig .tc) → Buf (Elt F) ((c : Thread nD τ).loc b))

/-! # REGION 2 of @main: custom_call 2, `cc2__tail_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s (`hA`) and whose body leaves the block in place (`hafter`): the window is uncut and
    never idle, so an unfetched point finds the block the last fetch left, and the index has not moved since. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s (`hA`) and whose body leaves the block in place (`hafter`): the window is uncut and
    never idle, so an unfetched point finds the block the last fetch left, and the index has not moved since. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s (`hA`) and whose body leaves the block in place (`hafter`): the window is uncut and
    never idle, so an unfetched point finds the block the last fetch left, and the index has not moved since. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s (`hA`) and whose body leaves the block in place (`hafter`): the window is uncut and
    never idle, so an unfetched point finds the block the last fetch left, and the index has not moved since. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s (`hA`) and whose body leaves the block in place (`hafter`): the window is uncut and
    never idle, so an unfetched point finds the block the last fetch left, and the index has not moved since. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s (`hA`) and whose body leaves the block in place (`hafter`): the window is uncut and
    never idle, so an unfetched point finds the block the last fetch left, and the index has not moved since. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s (`hA`) and whose body leaves the block in place (`hafter`): the window is uncut and
    never idle, so an unfetched point finds the block the last fetch left, and the index has not moved since. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S8x17x17x512 := Rect.unit (s := S8x17x17x512) ![0, 0, 0, 0] S8x17x17x512.size inb_S8x17x17x512_S8x17x17x512_0_0_0_0
abbrev r2_1_0 : Rect S4x512x128 := Rect.unit (s := S4x512x128) ![0, 0, 0] S1x512x128.size inb_S4x512x128_S1x512x128_0_0_0
abbrev r2_1_1 : Rect S4x512x128 := Rect.unit (s := S4x512x128) ![1, 0, 0] S1x512x128.size inb_S4x512x128_S1x512x128_1_0_0
abbrev r2_1_2 : Rect S4x512x128 := Rect.unit (s := S4x512x128) ![2, 0, 0] S1x512x128.size inb_S4x512x128_S1x512x128_2_0_0
abbrev r2_1_3 : Rect S4x512x128 := Rect.unit (s := S4x512x128) ![3, 0, 0] S1x512x128.size inb_S4x512x128_S1x512x128_3_0_0
abbrev r2_2 : Rect S1x128 := Rect.unit (s := S1x128) ![0, 0] S1x128.size inb_S1x128_S1x128_0_0
-- the nine taps of a 3×3 weight array (windows 3 and 5 have the same shape)
abbrev r2_3_0 : Rect S9x128x128 := Rect.unit (s := S9x128x128) ![0, 0, 0] S1x128x128.size inb_S9x128x128_S1x128x128_0_0_0
abbrev r2_3_1 : Rect S9x128x128 := Rect.unit (s := S9x128x128) ![1, 0, 0] S1x128x128.size inb_S9x128x128_S1x128x128_1_0_0
abbrev r2_3_2 : Rect S9x128x128 := Rect.unit (s := S9x128x128) ![2, 0, 0] S1x128x128.size inb_S9x128x128_S1x128x128_2_0_0
abbrev r2_3_3 : Rect S9x128x128 := Rect.unit (s := S9x128x128) ![3, 0, 0] S1x128x128.size inb_S9x128x128_S1x128x128_3_0_0
abbrev r2_3_4 : Rect S9x128x128 := Rect.unit (s := S9x128x128) ![4, 0, 0] S1x128x128.size inb_S9x128x128_S1x128x128_4_0_0
abbrev r2_3_5 : Rect S9x128x128 := Rect.unit (s := S9x128x128) ![5, 0, 0] S1x128x128.size inb_S9x128x128_S1x128x128_5_0_0
abbrev r2_3_6 : Rect S9x128x128 := Rect.unit (s := S9x128x128) ![6, 0, 0] S1x128x128.size inb_S9x128x128_S1x128x128_6_0_0
abbrev r2_3_7 : Rect S9x128x128 := Rect.unit (s := S9x128x128) ![7, 0, 0] S1x128x128.size inb_S9x128x128_S1x128x128_7_0_0
abbrev r2_3_8 : Rect S9x128x128 := Rect.unit (s := S9x128x128) ![8, 0, 0] S1x128x128.size inb_S9x128x128_S1x128x128_8_0_0
-- a 1×1 weight array whole (windows 4 and 6)
abbrev r2_4 : Rect S128x128 := Rect.unit (s := S128x128) ![0, 0] S128x128.size inb_S128x128_S128x128_0_0
abbrev r2_7 : Rect S8x16x16x128 := Rect.unit (s := S8x16x16x128) ![0, 0, 0, 0] S8x16x16x128.size inb_S8x16x16x128_S8x16x16x128_0_0_0_0
-- the padded scratch whole, and its rows 1..16 at every column (the whole words that hold the interior)
abbrev rs2_w : Rect S8x18x18x128 := Rect.unit (s := S8x18x18x128) ![0, 0, 0, 0] S8x18x18x128.size inb_S8x18x18x128_S8x18x18x128_0_0_0_0
abbrev rs2_m : Rect S8x18x18x128 := Rect.unit (s := S8x18x18x128) ![0, 1, 0, 0] S8x16x18x128.size inb_S8x18x18x128_S8x16x18x128_0_1_0_0

/-! ## The scratch within one point

The body zeroes the padded scratch whole, then twice writes an activation into its interior (rows and columns
1..16) by a read-modify-write of rows 1..16 and reads the scratch back whole. Nothing is read before the zeroing
store, so what the scratch held when the point began is never seen. -/

/-- The stores into the scratch up to the zeroing one, last first. -/
def scrL2_0 : List (View.Piece (Elt F) S8x18x18x128 .bf16) := [⟨rs2_w, k2_pay3 (F := F)⟩]

/-- The read-modify-write of rows 1..16 after the stores `L`: those rows as `L` left them, columns 1..16 replaced by `p`. -/
def rmw2 (L : List (View.Piece (Elt F) S8x18x18x128 .bf16)) (p : FVec F S8x16x16x128 .bf16) : View.Piece (Elt F) S8x18x18x128 .bf16 :=
  ⟨rs2_m, updateSlice (View.ld (View.canon L) rs2_m) p ![0, 0, 1, 0] slices_S8x16x18x128_S8x16x16x128_0_0_1_0⟩

/-- The first convolution's accumulator (conv3 over the four phase taps, plus the bias). -/
def v27_2 (x0 : Vec F S8x17x17x512 .bf16) (x1 : Vec F S4x512x128 .bf16) (x2 : Vec F S1x128 .f32) : FVec F S2048x128 .f32 :=
  k2_pay2 (View.ld x0 r2_0) (View.ld x2 r2_2) (View.ld x1 r2_1_0) (View.ld x1 r2_1_1) (View.ld x1 r2_1_2) (View.ld x1 r2_1_3)

/-- The stores into the scratch up to the first interior write, last first. -/
def scrL2_a (x0 : Vec F S8x17x17x512 .bf16) (x1 : Vec F S4x512x128 .bf16) (x2 : Vec F S1x128 .f32) : List (View.Piece (Elt F) S8x18x18x128 .bf16) :=
  rmw2 scrL2_0 (k2_pay4 (v27_2 x0 x1 x2)) :: scrL2_0

/-- The scratch read back after the first store pair: zero border, the first activation inside. -/
def scr2_a (x0 : Vec F S8x17x17x512 .bf16) (x1 : Vec F S4x512x128 .bf16) (x2 : Vec F S1x128 .f32) : Vec F S8x18x18x128 .bf16 :=
  View.ld (View.canon (scrL2_a x0 x1 x2)) rs2_w

/-- The first residual layer's output, before its activation. -/
def v99_2 (x0 : Vec F S8x17x17x512 .bf16) (x1 : Vec F S4x512x128 .bf16) (x2 : Vec F S1x128 .f32) (x3 : Vec F S9x128x128 .bf16) (x4 : Vec F S128x128 .bf16) : FVec F S2048x128 .f32 :=
  k2_pay7 (v27_2 x0 x1 x2) (scr2_a x0 x1 x2) (k2_pay5 (scr2_a x0 x1 x2) (View.ld x3 r2_3_0) (View.ld x3 r2_3_1) (View.ld x3 r2_3_2) (View.ld x3 r2_3_3)) (k2_pay6 (scr2_a x0 x1 x2))
    (View.ld x3 r2_3_4) (View.ld x3 r2_3_5) (View.ld x3 r2_3_6) (View.ld x3 r2_3_7) (View.ld x3 r2_3_8) (View.ld x4 r2_4)

/-- The stores into the scratch up to the second interior write, last first. -/
def scrL2_b (x0 : Vec F S8x17x17x512 .bf16) (x1 : Vec F S4x512x128 .bf16) (x2 : Vec F S1x128 .f32) (x3 : Vec F S9x128x128 .bf16) (x4 : Vec F S128x128 .bf16) : List (View.Piece (Elt F) S8x18x18x128 .bf16) :=
  rmw2 (scrL2_a x0 x1 x2) (k2_pay8 (v99_2 x0 x1 x2 x3 x4) (Scalar.ofBits .f32 0x00000000#32)) :: scrL2_a x0 x1 x2

/-- The scratch read back after the second store pair. -/
def scr2_b (x0 : Vec F S8x17x17x512 .bf16) (x1 : Vec F S4x512x128 .bf16) (x2 : Vec F S1x128 .f32) (x3 : Vec F S9x128x128 .bf16) (x4 : Vec F S128x128 .bf16) : Vec F S8x18x18x128 .bf16 :=
  View.ld (View.canon (scrL2_b x0 x1 x2 x3 x4)) rs2_w

/-! ## What the body leaves in the output window's buffer -/

/-- Window 7's staging buffer after the body, from the input windows' blocks: its one store as a piece. -/
def out2_7 (x0 : Vec F S8x17x17x512 .bf16) (x1 : Vec F S4x512x128 .bf16) (x2 : Vec F S1x128 .f32) (x3 : Vec F S9x128x128 .bf16) (x4 : Vec F S128x128 .bf16) (x5 : Vec F S9x128x128 .bf16) (x6 : Vec F S128x128 .bf16) : Vec F S8x16x16x128 .f32 :=
  View.canon [⟨r2_7, k2_pay1 (k2_pay11 (v99_2 x0 x1 x2 x3 x4) (scr2_b x0 x1 x2 x3 x4) (k2_pay9 (scr2_b x0 x1 x2 x3 x4) (View.ld x5 r2_3_0) (View.ld x5 r2_3_1) (View.ld x5 r2_3_2) (View.ld x5 r2_3_3)) (k2_pay10 (scr2_b x0 x1 x2 x3 x4))
    (View.ld x5 r2_3_4) (View.ld x5 r2_3_5) (View.ld x5 r2_3_6) (View.ld x5 r2_3_7) (View.ld x5 r2_3_8) (View.ld x6 r2_4))⟩]

/-- The store tiles the buffer (checked by evaluation), so it covers it. -/
theorem cover2_7 (p0 : Vec F S8x16x16x128 .f32) (y : S8x16x16x128.Idx) :
    ∃ pc ∈ ([⟨r2_7, p0⟩] : List (View.Piece (Elt F) S8x16x16x128 .f32)), y ∈ pc.1.set :=
  View.cover_of_tiled [⟨r2_7, p0⟩] S8x16x16x128.size (by rfl) y

/-- The zeroing store covers the scratch, -/
theorem cover2_s0 (y : S8x18x18x128.Idx) : ∃ pc ∈ (scrL2_0 (F := F)), y ∈ pc.1.set := by
  unfold scrL2_0
  exact View.cover_of_tiled _ S8x18x18x128.size (by rfl) y

/-- and so does any list of stores that ends with a covering one. -/
theorem cover2_cons {L : List (View.Piece (Elt F) S8x18x18x128 .bf16)} (p : View.Piece (Elt F) S8x18x18x128 .bf16)
    (h : ∀ y, ∃ pc ∈ L, y ∈ pc.1.set) (y : S8x18x18x128.Idx) : ∃ pc ∈ p :: L, y ∈ pc.1.set :=
  let ⟨pc, hm, hy⟩ := h y; ⟨pc, List.mem_cons_of_mem _ hm, hy⟩

/-- The read-modify-write as the run states it — the loaded rows a covered load after the stores `L` — is the piece
    `rmw2 L p`: a covered load reads the canon of the stores, whatever the view. -/
theorem rmw2_run {κ : Kind} {sp : Space} (v : View sig κ sp S8x18x18x128 .bf16) (L : List (View.Piece (Elt F) S8x18x18x128 .bf16))
    (hL : ∀ y, ∃ pc ∈ L, y ∈ pc.1.set) (p : FVec F S8x16x16x128 .bf16) :
    ((⟨rs2_m, updateSlice (v.readCov L rs2_m.toLoadRect) p ![0, 0, 1, 0] slices_S8x16x18x128_S8x16x16x128_0_0_1_0⟩ :: L) : List (View.Piece (Elt F) S8x18x18x128 .bf16))
      = rmw2 L p :: L := by
  rw [View.readCov_eq_canon_ld v L rs2_m hL]; rfl

/-! ## The body's triple -/

set_option maxHeartbeats 4000000 in
/-- The kernel body on whole staging memrefs, the inputs' at read contents `xW`, the output's and the scratch at
    anything, runs to the continuation holding the inputs' as they were, the output's at `out2_7` of the inputs' and
    the scratch at some contents: the printed functions are their skeletons, run through every part call; each
    scratch read-back is a covered load, so it reads the canon of the stores before it. -/
theorem sound_kernel2 (c : Dev nD) (E : Set ℕ) (i : grid2.Coords) (arg1 : Memref sig .tc .vmem S8x17x17x512 .bf16) (harg1 : arg1.IsWhole) (arg2 : Memref sig .tc .vmem S4x512x128 .bf16) (harg2 : arg2.IsWhole) (arg3 : Memref sig .tc .vmem S1x128 .f32) (harg3 : arg3.IsWhole) (arg4 : Memref sig .tc .vmem S9x128x128 .bf16) (harg4 : arg4.IsWhole) (arg5 : Memref sig .tc .vmem S128x128 .bf16) (harg5 : arg5.IsWhole) (arg6 : Memref sig .tc .vmem S9x128x128 .bf16) (harg6 : arg6.IsWhole) (arg7 : Memref sig .tc .vmem S128x128 .bf16) (harg7 : arg7.IsWhole) (arg8 : Memref sig .tc .vmem S8x16x16x128 .f32) (harg8 : arg8.IsWhole) (arg9 : Memref sig .tc .vmem S8x18x18x128 .bf16) (harg9 : arg9.IsWhole)
    (x0 : Vec F S8x17x17x512 .bf16) (x1 : Vec F S4x512x128 .bf16) (x2 : Vec F S1x128 .f32) (x3 : Vec F S9x128x128 .bf16) (x4 : Vec F S128x128 .bf16) (x5 : Vec F S9x128x128 .bf16) (x6 : Vec F S128x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6) ∗ (∃ d, owns (c : Thread nD τ) arg9 fullShare d)) -∗ K ⟨⟩))
      ⊢ wp frame (wpE (defs₀ (F := F)) Variants.none c none) E (cc2__tail_body i arg1 harg1 arg2 harg2 arg3 harg3 arg4 harg4 arg5 harg5 arg6 harg6 arg7 harg7 arg8 harg8 arg9 harg9) K := by
  simp only [cc2__tail_body_eq_skeleton]; unfold cc2__tail_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    -- the scratch's stores, and its two read-backs, free of the view
    have hL2 : sound_kernel2.sl.H8_2 c arg1 arg2 arg3 arg9 f0 f1 f2 = scrL2_a (arg1.view.read (Elt F) f0) (arg2.view.read (Elt F) f1) (arg3.view.read (Elt F) f2) :=
      rmw2_run arg9.view scrL2_0 cover2_s0 _
    have e39 : sound_kernel2.sl.v39 c arg1 arg2 arg3 arg9 f0 f1 f2 = scr2_a (arg1.view.read (Elt F) f0) (arg2.view.read (Elt F) f1) (arg3.view.read (Elt F) f2) := by
      show arg9.view.readCov (sound_kernel2.sl.H8_2 c arg1 arg2 arg3 arg9 f0 f1 f2) rs2_w.toLoadRect = _
      rw [hL2]
      exact View.readCov_eq_canon_ld _ _ rs2_w (cover2_cons _ cover2_s0)
    have hL3 : sound_kernel2.sl.H8_3 c arg1 arg2 arg3 arg4 arg5 arg9 f0 f1 f2 f3 f4 = scrL2_b (arg1.view.read (Elt F) f0) (arg2.view.read (Elt F) f1) (arg3.view.read (Elt F) f2) (arg4.view.read (Elt F) f3) (arg5.view.read (Elt F) f4) := by
      unfold sound_kernel2.sl.H8_3 sound_kernel2.sl.old_1 sound_kernel2.sl.r_3 sound_kernel2.sl.r_2 sound_kernel2.sl.r_1
      rw [e39, hL2]
      exact rmw2_run arg9.view _ (cover2_cons _ cover2_s0) _
    have e107 : sound_kernel2.sl.v107 c arg1 arg2 arg3 arg4 arg5 arg9 f0 f1 f2 f3 f4 = scr2_b (arg1.view.read (Elt F) f0) (arg2.view.read (Elt F) f1) (arg3.view.read (Elt F) f2) (arg4.view.read (Elt F) f3) (arg5.view.read (Elt F) f4) := by
      show arg9.view.readCov (sound_kernel2.sl.H8_3 c arg1 arg2 arg3 arg4 arg5 arg9 f0 f1 f2 f3 f4) rs2_w.toLoadRect = _
      rw [hL3]
      exact View.readCov_eq_canon_ld _ _ rs2_w (cover2_cons _ (cover2_cons _ cover2_s0))
    rw [View.read_writes_eq_canon _ _ _ (cover2_7 _)]
    unfold sound_kernel2.sl.r_6 sound_kernel2.sl.r_5 sound_kernel2.sl.r_4 sound_kernel2.sl.r_3 sound_kernel2.sl.r_2 sound_kernel2.sl.r_1
    rw [e107, e39]
    rfl
  iexists _; iexists _; isplitr
  swap; · iexact H8
  ipureintro; rfl

/-! ## The pipeline's proof data -/

/-- The proof data of pipeline 2 on core `c`: the arrays as the region finds them (`V`); after the body at
    point `t` each input's buffer at its block and the output's at `out2_7` of the input blocks; the invariant the
    class's (the scoped rest — the scratch among it — and the generator register, at some contents each: the body
    leaves the scratch at contents no later point reads); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- The invariant with the scratch taken out of the scoped rest and held as a whole memref at some contents: the
    scoped rest split at the scratch, a whole buffer owned being its points-to. -/
theorem Phi2_eq (c : Dev nD) (k : Fin (cfg2.N + 1)) :
    (dat2 V c).Φ k = iprop(((∃ d, owns (c : Thread nD τ) (Memref.whole cc2_scratch0) fullShare d)
        ∗ Pipeline.scopedRestBut (Ix := Unit) (Name := ℕ) (U := UR sig nD τ) (Lvl := ℕ) (Val := Elt F) spec2 c [cc2_scratch0])
      ∗ ∃ r, prngReg c r) := by
  show Pipeline.ΦA spec2 c = _
  unfold Pipeline.ΦA
  rw [Pipeline.scopedRest_split_of_list spec2 c [cc2_scratch0] (by decide) (by decide)]
  simp only [owns_whole]
  rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`) and the scratch comes out of the
    invariant at some contents, so `sound_kernel2` applies; the scratch goes back at what the body left in it, the
    rest of the invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, Phi2_eq]
  iintro ⟨⟨⟨Hs, Hrest⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [Hs]; · iexact Hs
  iintro ⟨H0, H1, H2, H3, H4, H5, H6, H7, Hs⟩
  isplitl [Hs Hrest Hr]
  · isplitr [Hr]
    · isplitl [Hs]; · iexact Hs
      iexact Hrest
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions
end Cert.KernelIdeal.Hand

end
-- ==== Proof.KRun.lean ====
/-
  The kernel program's run, for any float instance. @main is thirteen segments: host stretches and the three pipelines. The contents of
  every unscoped buffer are carried from the launch through the segments — a host stretch rewrites the buffers its operations write, a
  pipeline leaves its windows' arrays at what its write-backs leave and every other buffer as it was entered (W0 … W13). Every weakly
  fair execution terminates, nothing faults, and each unscoped buffer ends at the last boundary's contents (run_all). No segment writes
  an argument, so the arguments end as launched (frame), and the result is the last transpose of the tail's array (W13_v28).
-/
import proofs.«119654_g2000206494441110_pallasbulk_512_2_alg».proof.Proof.Gen.KernelIdeal.Regions
import proofs.«119654_g2000206494441110_pallasbulk_512_2_alg».proof.Proof.KFrame0
import proofs.«119654_g2000206494441110_pallasbulk_512_2_alg».proof.Proof.KFrame1
import proofs.«119654_g2000206494441110_pallasbulk_512_2_alg».proof.Proof.KFrame2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return

## The buffer contents at each segment boundary: a fold through @main -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)

/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`). -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- An input window's array leaves region 0 as it entered: no write-back folds into it. -/
theorem W4_in (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
/-- After `hostOps1`. -/
abbrev W5 : Dev nD → Valuation τ sig (Elt F) := fun c => StableHlo.after hostOps1 (W4 m ρ c)
/-- After `hostOps1_1`. -/
abbrev W6 : Dev nD → Valuation τ sig (Elt F) := fun c => StableHlo.after hostOps1_1 (W5 m ρ c)
/-- After `hostOps1_2`. -/
abbrev W7 : Dev nD → Valuation τ sig (Elt F) := fun c => StableHlo.after hostOps1_2 (W6 m ρ c)

/-- The same read at the TensorCore's references (what region 1's proof data take). -/
abbrev V7 : (c : Dev nD) → (b : Ref sig .tc) → Buf (Elt F) ((c : Thread nD τ).loc b) := fun c b => W7 m ρ c b
/-- At region 1's exit: its arrays at what the pipeline leaves (the inputs as entered, each output's write-backs
    folded: `Dat.arrAt … N`), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- The same read at the TensorCore's references (region 1's exit contents). -/
abbrev V8 : (c : Dev nD) → (b : Ref sig .tc) → Buf (Elt F) ((c : Thread nD τ).loc b) := fun c b => W8 m ρ c b
/-- At region 1's exit each of its arrays holds what the pipeline leaves (`hF1`) and every other buffer what it
    held at entry (`hrest1`). -/
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)
/-- An input window's array leaves region 1 as it entered: no write-back folds into it. -/
theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))
/-- After `hostOps2`. -/
abbrev W9 : Dev nD → Valuation τ sig (Elt F) := fun c => StableHlo.after hostOps2 (W8 m ρ c)
/-- After `hostOps2_1`. -/
abbrev W10 : Dev nD → Valuation τ sig (Elt F) := fun c => StableHlo.after hostOps2_1 (W9 m ρ c)
/-- After `hostOps2_2`. -/
abbrev W11 : Dev nD → Valuation τ sig (Elt F) := fun c => StableHlo.after hostOps2_2 (W10 m ρ c)

/-- The same read at the TensorCore's references (what region 2's proof data take). -/
abbrev V11 : (c : Dev nD) → (b : Ref sig .tc) → Buf (Elt F) ((c : Thread nD τ).loc b) := fun c b => W11 m ρ c b
/-- At region 2's exit: its arrays at what the pipeline leaves (the inputs as entered, each output's write-backs
    folded: `Dat.arrAt … N`), every other buffer as entered. -/
def W12 (c : Dev nD) : Valuation τ sig (Elt F) :=
  Pipeline.withArrays spec2 c (W11 m ρ c) fun w => (dat2 (V11 m ρ) c).arrAt w cfg2.N
theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w
theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb
/-- The same read at the TensorCore's references (region 2's exit contents). -/
abbrev V12 : (c : Dev nD) → (b : Ref sig .tc) → Buf (Elt F) ((c : Thread nD τ).loc b) := fun c b => W12 m ρ c b
/-- At region 2's exit each of its arrays holds what the pipeline leaves (`hF2`) and every other buffer what it
    held at entry (`hrest2`). -/
theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)
/-- An input window's array leaves region 2 as it entered: no write-back folds into it. -/
theorem W12_in (c : Dev nD) (w : Fin cfg2.W) (hin : (cfg2.win w).isOut = false) :
    W12 m ρ c (Proc.devRef .tc (Pipeline.arrRef spec2 w)) = W11 m ρ c (Proc.devRef .tc (Pipeline.arrRef spec2 w)) :=
  (W12_arr m ρ c w).trans (((dat2 (V11 m ρ) c).arrAt_in w hin _).trans (A_eq2 (V11 m ρ) c w))
/-- After `hostOps3`. -/
abbrev W13 : Dev nD → Valuation τ sig (Elt F) := fun c => StableHlo.after hostOps3 (W12 m ρ c)

/-! ### What each segment leaves unchanged: a reference no operation of a stretch writes keeps its contents, and a
    region changes only its output window's array -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W4_of (c : Dev nD) (r : Ref sig .tc) (h : r ≠ main_v17) : W4 m ρ c (Proc.devRef .tc r) = W3 m ρ c (Proc.devRef .tc r) := by
  by_cases hr : ∃ w, Pipeline.arrRef spec0 w = r
  · obtain ⟨w, rfl⟩ := hr
    exact W4_in m ρ c w ((show ∀ w : Fin cfg0.W, Pipeline.arrRef spec0 w ≠ main_v17 → (cfg0.win w).isOut = false from by decide) w h)
  · exact W4_of_ne m ρ c r fun w e => hr ⟨w, e⟩
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W8_of (c : Dev nD) (r : Ref sig .tc) (h : r ≠ main_v22) : W8 m ρ c (Proc.devRef .tc r) = W7 m ρ c (Proc.devRef .tc r) := by
  by_cases hr : ∃ w, Pipeline.arrRef spec1 w = r
  · obtain ⟨w, rfl⟩ := hr
    exact W8_in m ρ c w ((show ∀ w : Fin cfg1.W, Pipeline.arrRef spec1 w ≠ main_v22 → (cfg1.win w).isOut = false from by decide) w h)
  · exact W8_of_ne m ρ c r fun w e => hr ⟨w, e⟩
theorem W9_of (c : Dev nD) (r : Ref sig .tc) (h : r ∉ hostOps2_W) : W9 m ρ c (Proc.devRef .tc r) = W8 m ρ c (Proc.devRef .tc r) :=
  StableHlo.after_of_writes_sub hostOps2 _ hostOps2_writes h
theorem W10_of (c : Dev nD) (r : Ref sig .tc) (h : r ∉ hostOps2_1_W) : W10 m ρ c (Proc.devRef .tc r) = W9 m ρ c (Proc.devRef .tc r) :=
  StableHlo.after_of_writes_sub hostOps2_1 _ hostOps2_1_writes h
theorem W11_of (c : Dev nD) (r : Ref sig .tc) (h : r ∉ hostOps2_2_W) : W11 m ρ c (Proc.devRef .tc r) = W10 m ρ c (Proc.devRef .tc r) :=
  StableHlo.after_of_writes_sub hostOps2_2 _ hostOps2_2_writes h
theorem W12_of (c : Dev nD) (r : Ref sig .tc) (h : r ≠ main_v27) : W12 m ρ c (Proc.devRef .tc r) = W11 m ρ c (Proc.devRef .tc r) := by
  by_cases hr : ∃ w, Pipeline.arrRef spec2 w = r
  · obtain ⟨w, rfl⟩ := hr
    exact W12_in m ρ c w ((show ∀ w : Fin cfg2.W, Pipeline.arrRef spec2 w ≠ main_v27 → (cfg2.win w).isOut = false from by decide) w h)
  · exact W12_of_ne m ρ c r fun w e => hr ⟨w, e⟩
theorem W13_of (c : Dev nD) (r : Ref sig .tc) (h : r ∉ hostOps3_W) : W13 m ρ c (Proc.devRef .tc r) = W12 m ρ c (Proc.devRef .tc r) :=
  StableHlo.after_of_writes_sub hostOps3 _ hostOps3_writes h

/-! ### The arguments end as launched: no host operation writes one and a region only reads one (through an input
    window) or bypasses it, so the fold at an argument's buffer walks back to the launch memory -/
theorem W13_main_arg0 (c : Dev nD) : W13 m ρ c (Proc.devRef .tc main_arg0) = m ((c : Thread nD τ).loc main_arg0) :=
  (W13_of m ρ c main_arg0 (by decide)).trans <| (W12_of m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans rfl
theorem W13_main_arg1 (c : Dev nD) : W13 m ρ c (Proc.devRef .tc main_arg1) = m ((c : Thread nD τ).loc main_arg1) :=
  (W13_of m ρ c main_arg1 (by decide)).trans <| (W12_of m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl
theorem W13_main_arg2 (c : Dev nD) : W13 m ρ c (Proc.devRef .tc main_arg2) = m ((c : Thread nD τ).loc main_arg2) :=
  (W13_of m ρ c main_arg2 (by decide)).trans <| (W12_of m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W13_main_arg3 (c : Dev nD) : W13 m ρ c (Proc.devRef .tc main_arg3) = m ((c : Thread nD τ).loc main_arg3) :=
  (W13_of m ρ c main_arg3 (by decide)).trans <| (W12_of m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans rfl
theorem W13_main_arg4 (c : Dev nD) : W13 m ρ c (Proc.devRef .tc main_arg4) = m ((c : Thread nD τ).loc main_arg4) :=
  (W13_of m ρ c main_arg4 (by decide)).trans <| (W12_of m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W13_main_arg5 (c : Dev nD) : W13 m ρ c (Proc.devRef .tc main_arg5) = m ((c : Thread nD τ).loc main_arg5) :=
  (W13_of m ρ c main_arg5 (by decide)).trans <| (W12_of m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans rfl
theorem W13_main_arg6 (c : Dev nD) : W13 m ρ c (Proc.devRef .tc main_arg6) = m ((c : Thread nD τ).loc main_arg6) :=
  (W13_of m ρ c main_arg6 (by decide)).trans <| (W12_of m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans rfl
theorem W13_main_arg7 (c : Dev nD) : W13 m ρ c (Proc.devRef .tc main_arg7) = m ((c : Thread nD τ).loc main_arg7) :=
  (W13_of m ρ c main_arg7 (by decide)).trans <| (W12_of m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans rfl
theorem W13_main_arg8 (c : Dev nD) : W13 m ρ c (Proc.devRef .tc main_arg8) = m ((c : Thread nD τ).loc main_arg8) :=
  (W13_of m ρ c main_arg8 (by decide)).trans <| (W12_of m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans rfl
theorem W13_main_arg9 (c : Dev nD) : W13 m ρ c (Proc.devRef .tc main_arg9) = m ((c : Thread nD τ).loc main_arg9) :=
  (W13_of m ρ c main_arg9 (by decide)).trans <| (W12_of m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans rfl
theorem W13_main_arg10 (c : Dev nD) : W13 m ρ c (Proc.devRef .tc main_arg10) = m ((c : Thread nD τ).loc main_arg10) :=
  (W13_of m ρ c main_arg10 (by decide)).trans <| (W12_of m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
  | ⟨2, _⟩ => fun c => dat2 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the
    generator register at some state. -/
abbrev Tₙ (c : Dev nD) : sProp 𝕄 := iprop(StableHlo.held (c : Thread nD τ) (Pipeline.ucRefs τ sig) (W13 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W11`, left at `W12`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V11 m ρ) c).loose
  hwaits := Pipeline.hwaits_of_owed_zero _ _ _ _ L lv 2 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec2 c (V11 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V11 m ρ c) (V12 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ),
    .host (hseg hostOps2 hostOps2_sub hostOps2_fresh (W8 m ρ)),
    .host (hseg hostOps2_1 hostOps2_1_sub hostOps2_1_fresh (W9 m ρ)),
    .host (hseg hostOps2_2 hostOps2_2_sub hostOps2_2_fresh (W10 m ρ)),
    .region (reg2 m ρ),
    .host (hseg hostOps3 hostOps3_sub hostOps3_fresh (W12 m ρ)) ]
/-- @main IS the run of the segments: the chain of its items, then the segments' run against that chain by
    definitional unfolding. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W13`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The result array after the last stretch: the one transpose of region 2's output. -/
theorem W13_v28 (c : Dev nD) : W13 m ρ c (Proc.devRef .tc main_v28)
    = transpose S128x128x16x16 [0, 3, 1, 2] (W12 m ρ c (Proc.devRef .tc main_v27)) transposes_S128x16x16x128_S128x128x16x16_0_3_1_2 := by
  show StableHlo.after hostOps3 (W12 m ρ c) (Proc.devRef .tc main_v28) = _
  after_results

/-- THE FRAME, at any `F`: every weakly fair execution of @main terminates, nothing faulting, and every final state
    has the argument arrays as launched: the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c),
     (h c _ (mem_uc main_arg9 (by decide))).trans (W13_main_arg9 m ρ c),
     (h c _ (mem_uc main_arg10 (by decide))).trans (W13_main_arg10 m ρ c)⟩) (run_all m ρ)

/-- info: 'Cert.KernelIdeal.Hand.run_all' depends on axioms: [propext, Classical.choice, Quot.sound] -/
#guard_msgs in #print axioms run_all

end Cert.KernelIdeal.Hand

end
-- ==== Proof.RRun.lean ====
/-
  The reference program's run with every unscoped buffer named at its end: from any memory, every weakly fair execution of
  @main terminates without a fault and each unscoped buffer of every core ends holding the fold of @main's segments over the
  launch contents (the last boundary's contents). The frame of the reference and the value of its result are both read off it.
-/
import proofs.«119654_g2000206494441110_pallasbulk_512_2_alg».proof.Proof.Gen.ReferenceIdeal.Frame

set_option maxRecDepth 16384

noncomputable section

namespace Cert.ReferenceIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

end Cert.ReferenceIdeal.Hand

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.Spec.lean ====
/-
  The mathematics of the encoder, layer by layer, over the extended reals, on literal array shapes.

  A stride-2, 4×4, pad-1 convolution is read on the space-to-depth array xs of its padded input: output pixel (i, j) of image n sees
  the four cells (i + a, j + b), a, b ∈ {0, 1}, of xs, each holding 2·2·Cin values; with the weight rows ordered tap-major
  (row k of the flat weight is tap k / C = 2a + b and lane k % C, C = 4·Cin lanes per cell) the pre-activation is
      ∑_{k < 4C} xs(n, i + (k/C)/2, j + (k/C)%2, k%C) · w(k, o) + bias(o),
  followed by max(·, 0) when the layer has a ReLU.

  A residual layer is read on the zero-padded activation hp (one ring of zeros around the 16×16 map): with r = max(hp, 0),
      t(c') = max(∑_{k < 9·128} r(n, i + (k/128)/3, j + (k/128)%3, k%128) · w1(k, c'), 0),
      y(o)  = ∑_{c' < 128} t(c') · w2(c', o) + hp(n, i + 1, j + 1, o),
  followed by max(·, 0) for the last layer of the stack.
-/
import Idealize.ShloMosaic.PureOps.Ideal
import Idealize.ShloMosaic.Lib.ValueIdx
import proofs.«119654_g2000206494441110_pallasbulk_512_2_alg».proof.Proof.LibBlockSum

noncomputable section

namespace Cert.Spec

open Idealize.ShloMosaic Idealize.ShloMosaic.ValueIdx

/-- Tap k / C of a row k < 4C is one of four, so its row offset (k / C) / 2 is 0 or 1. -/
theorem tapRow_le {C K k : ℕ} (hK : K = 4 * C) (hk : k < K) : k / C / 2 ≤ 1 := by
  subst hK
  have h4 : k / C < 4 := Nat.div_lt_of_lt_mul (by omega)
  omega

theorem lane_lt {C K k : ℕ} (hK : K = 4 * C) (hk : k < K) : k % C < C :=
  Nat.mod_lt _ (by subst hK; omega)

/-- The stride-2 4×4 convolution on the space-to-depth array: B images, Ho×Ho outputs, C lanes per cell, K = 4C weight rows. -/
def convSpec (B H1 Ho C K : ℕ) (h1 : H1 = Ho + 1) (hK : K = 4 * C) (relu : Bool)
    (xs : (⟨4, ![B, H1, H1, C]⟩ : Shape).Idx → EReal)
    (w : (⟨2, ![K, 128]⟩ : Shape).Idx → EReal)
    (bias : (⟨2, ![1, 128]⟩ : Shape).Idx → EReal) :
    (⟨4, ![B, Ho, Ho, 128]⟩ : Shape).Idx → EReal := fun i =>
  let s : EReal :=
    (∑ k : Fin K,
      xs (ix4 (n0 := B) (n1 := H1) (n2 := H1) (n3 := C) ⟨(i 0).val, (i 0).isLt⟩
            ⟨(i 1).val + k.val / C / 2, by have := tapRow_le hK k.isLt; have := (i 1).isLt; simp only [Matrix.cons_val_one, Matrix.cons_val_zero] at this; omega⟩
            ⟨(i 2).val + k.val / C % 2, by have := (i 2).isLt; simp only [Matrix.cons_val] at this; omega⟩
            ⟨k.val % C, lane_lt hK k.isLt⟩)
        * w (ix2 k ⟨(i 3).val, (i 3).isLt⟩))
      + bias (ix2 (0 : Fin 1) ⟨(i 3).val, (i 3).isLt⟩)
  if relu then max s 0 else s

/-- The flat weight [P·C, 128] seen as P slabs [P, C, 128]: slab p, row q is flat row C·p + q. -/
def slabs (P C K : ℕ) (hK : P * C = K) (w : (⟨2, ![K, 128]⟩ : Shape).Idx → EReal) :
    (⟨3, ![P, C, 128]⟩ : Shape).Idx → EReal := fun j =>
  w (ix2 ⟨C * (j 0).val + (j 1).val, Cert.Lib.block_lt_of_eq hK ⟨(j 0).val, (j 0).isLt⟩ ⟨(j 1).val, (j 1).isLt⟩⟩ ⟨(j 2).val, (j 2).isLt⟩)

/-- One ring of zeros around each 16×16 map. -/
def padSpec (B : ℕ) (h : (⟨4, ![B, 16, 16, 128]⟩ : Shape).Idx → EReal) : (⟨4, ![B, 18, 18, 128]⟩ : Shape).Idx → EReal := fun j =>
  if hj : 1 ≤ (j 1).val ∧ (j 1).val ≤ 16 ∧ 1 ≤ (j 2).val ∧ (j 2).val ≤ 16 then
    h (ix4 (n0 := B) (n1 := 16) (n2 := 16) (n3 := 128) ⟨(j 0).val, (j 0).isLt⟩ ⟨(j 1).val - 1, by omega⟩ ⟨(j 2).val - 1, by omega⟩ ⟨(j 3).val, (j 3).isLt⟩)
  else 0

/-- Tap k / 128 of a row k < 9·128 is one of nine: its offsets (k/128)/3 and (k/128)%3 are at most 2. -/
theorem tap9_le {k : ℕ} (hk : k < 1152) : k / 128 / 3 ≤ 2 := by omega

/-- The hidden activation of a residual layer at pixel (n, i, j), channel c'. -/
def resHidden (B : ℕ) (hp : (⟨4, ![B, 18, 18, 128]⟩ : Shape).Idx → EReal) (w1 : (⟨2, ![1152, 128]⟩ : Shape).Idx → EReal)
    (i : (⟨4, ![B, 16, 16, 128]⟩ : Shape).Idx) (c' : Fin 128) : EReal :=
  max (∑ k : Fin 1152,
        max (hp (ix4 (n0 := B) (n1 := 18) (n2 := 18) (n3 := 128) ⟨(i 0).val, (i 0).isLt⟩
              ⟨(i 1).val + k.val / 128 / 3, by have := (i 1).isLt; have := k.isLt; simp only [Matrix.cons_val_one, Matrix.cons_val_zero] at *; omega⟩
              ⟨(i 2).val + k.val / 128 % 3, by have := (i 2).isLt; simp only [Matrix.cons_val] at this; omega⟩
              ⟨k.val % 128, Nat.mod_lt _ (by omega)⟩)) 0
          * w1 (ix2 k c')) 0

/-- A residual layer on the zero-padded activation. -/
def resSpec (B : ℕ) (relu : Bool) (hp : (⟨4, ![B, 18, 18, 128]⟩ : Shape).Idx → EReal)
    (w1 : (⟨2, ![1152, 128]⟩ : Shape).Idx → EReal) (w2 : (⟨2, ![128, 128]⟩ : Shape).Idx → EReal) :
    (⟨4, ![B, 16, 16, 128]⟩ : Shape).Idx → EReal := fun i =>
  let y : EReal :=
    (∑ c' : Fin 128, resHidden B hp w1 i c' * w2 (ix2 c' ⟨(i 3).val, (i 3).isLt⟩))
      + hp (ix4 (n0 := B) (n1 := 18) (n2 := 18) (n3 := 128) ⟨(i 0).val, (i 0).isLt⟩
            ⟨(i 1).val + 1, by have := (i 1).isLt; simp only [Matrix.cons_val_one, Matrix.cons_val_zero] at this; omega⟩
            ⟨(i 2).val + 1, by have := (i 2).isLt; simp only [Matrix.cons_val] at this; omega⟩
            ⟨(i 3).val, (i 3).isLt⟩)
  if relu then max y 0 else y

/-- A sum over the K = P·C weight rows, slab by slab. -/
theorem sum_rows_slabs {M : Type*} [AddCommMonoid M] (P C K : ℕ) (hK : P * C = K) (f : Fin K → M) :
    ∑ k : Fin K, f k = ∑ p : Fin P, ∑ q : Fin C, f ⟨C * p.val + q.val, Cert.Lib.block_lt_of_eq hK p q⟩ :=
  (Cert.Lib.sum_blocks_of_eq hK f).symm

/-! ## Each layer acts image by image: on a block of images it is the whole-array layer read at the block's images -/

/-- The convolution of image p of a block is that of image n of the whole array, when the block's image p is the array's image n. -/
theorem convSpec_block (B bb H1 Ho C K : ℕ) (h1 : H1 = Ho + 1) (hK : K = 4 * C) (relu : Bool)
    (xs : (⟨4, ![B, H1, H1, C]⟩ : Shape).Idx → EReal) (xb : (⟨4, ![bb, H1, H1, C]⟩ : Shape).Idx → EReal)
    (w : (⟨2, ![K, 128]⟩ : Shape).Idx → EReal) (bias : (⟨2, ![1, 128]⟩ : Shape).Idx → EReal) (n : Fin B) (p : Fin bb)
    (hx : ∀ (a b : Fin H1) (q : Fin C), xb (ix4 p a b q) = xs (ix4 n a b q)) (i j : Fin Ho) (o : Fin 128) :
    convSpec bb H1 Ho C K h1 hK relu xb w bias (ix4 p i j o) = convSpec B H1 Ho C K h1 hK relu xs w bias (ix4 n i j o) := by
  unfold convSpec
  dsimp only
  have hs : ∀ k : Fin K, xb (ix4 (n0 := bb) (n1 := H1) (n2 := H1) (n3 := C) ⟨p.val, p.isLt⟩ ⟨i.val + k.val / C / 2, by have := tapRow_le hK k.isLt; have := i.isLt; omega⟩ ⟨j.val + k.val / C % 2, by have := j.isLt; omega⟩ ⟨k.val % C, lane_lt hK k.isLt⟩)
      = xs (ix4 (n0 := B) (n1 := H1) (n2 := H1) (n3 := C) ⟨n.val, n.isLt⟩ ⟨i.val + k.val / C / 2, by have := tapRow_le hK k.isLt; have := i.isLt; omega⟩ ⟨j.val + k.val / C % 2, by have := j.isLt; omega⟩ ⟨k.val % C, lane_lt hK k.isLt⟩) := fun k => hx _ _ _
  have hsum : (∑ k : Fin K, xb (ix4 (n0 := bb) (n1 := H1) (n2 := H1) (n3 := C) ⟨p.val, p.isLt⟩ ⟨i.val + k.val / C / 2, by have := tapRow_le hK k.isLt; have := i.isLt; omega⟩ ⟨j.val + k.val / C % 2, by have := j.isLt; omega⟩ ⟨k.val % C, lane_lt hK k.isLt⟩) * w (ix2 k ⟨o.val, o.isLt⟩))
      = ∑ k : Fin K, xs (ix4 (n0 := B) (n1 := H1) (n2 := H1) (n3 := C) ⟨n.val, n.isLt⟩ ⟨i.val + k.val / C / 2, by have := tapRow_le hK k.isLt; have := i.isLt; omega⟩ ⟨j.val + k.val / C % 2, by have := j.isLt; omega⟩ ⟨k.val % C, lane_lt hK k.isLt⟩) * w (ix2 k ⟨o.val, o.isLt⟩) :=
    Finset.sum_congr rfl fun k _ => by rw [hs k]
  exact congrArg (fun s : EReal => if relu then max (s + bias (ix2 (0 : Fin 1) ⟨o.val, o.isLt⟩)) 0 else s + bias (ix2 (0 : Fin 1) ⟨o.val, o.isLt⟩)) hsum

end Cert.Spec

end
-- ==== Proof.KPay0.lean ====
/-
  The first convolution's payload, read at an index, over the extended reals: the four unit-offset slices of the block of two
  space-to-depth images, flattened to rows and set side by side, times the [48, 128] weight, plus the bias row, clamped at zero,
  is the layer's formula (Spec.lean `convSpec`) on the block. Also here, for the other layers: two indices with equal coordinates
  are equal, and `convSpec` read at explicit coordinates.
-/
import proofs.«119654_g2000206494441110_pallasbulk_512_2_alg».proof.Proof.Gen.KernelIdeal.Skeleton
import proofs.«119654_g2000206494441110_pallasbulk_512_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.ValueIdx

/-- Two rank-4 indices with the same coordinates are equal. -/
theorem ix4_congr {n0 n1 n2 n3 : Nat} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  obtain rfl := Fin.ext h0; obtain rfl := Fin.ext h1; obtain rfl := Fin.ext h2; obtain rfl := Fin.ext h3; rfl

/-- The convolution with a ReLU, read at explicit coordinates. -/
theorem convSpec_true_apply (B H1 Ho C K : ℕ) (h1 : H1 = Ho + 1) (hK : K = 4 * C)
    (xs : (⟨4, ![B, H1, H1, C]⟩ : Shape).Idx → EReal) (w : (⟨2, ![K, 128]⟩ : Shape).Idx → EReal)
    (bias : (⟨2, ![1, 128]⟩ : Shape).Idx → EReal) (p : Fin B) (i j : Fin Ho) (o : Fin 128) :
    convSpec B H1 Ho C K h1 hK true xs w bias (ix4 p i j o)
      = max ((∑ k : Fin K, xs (ix4 p ⟨i.val + k.val / C / 2, by have := tapRow_le hK k.isLt; have := i.isLt; omega⟩
                ⟨j.val + k.val / C % 2, by have := j.isLt; omega⟩ ⟨k.val % C, lane_lt hK k.isLt⟩) * w (ix2 k o))
            + bias (ix2 (0 : Fin 1) o)) 0 := rfl

/-- The convolution without a ReLU, read at explicit coordinates. -/
theorem convSpec_false_apply (B H1 Ho C K : ℕ) (h1 : H1 = Ho + 1) (hK : K = 4 * C)
    (xs : (⟨4, ![B, H1, H1, C]⟩ : Shape).Idx → EReal) (w : (⟨2, ![K, 128]⟩ : Shape).Idx → EReal)
    (bias : (⟨2, ![1, 128]⟩ : Shape).Idx → EReal) (p : Fin B) (i j : Fin Ho) (o : Fin 128) :
    convSpec B H1 Ho C K h1 hK false xs w bias (ix4 p i j o)
      = (∑ k : Fin K, xs (ix4 p ⟨i.val + k.val / C / 2, by have := tapRow_le hK k.isLt; have := i.isLt; omega⟩
                ⟨j.val + k.val / C % 2, by have := j.isLt; omega⟩ ⟨k.val % C, lane_lt hK k.isLt⟩) * w (ix2 k o))
            + bias (ix2 (0 : Fin 1) o) := rfl

/-! # The first convolution's payload at an index -/

/-- One tap of the first layer: the slice at offset (a, b), flattened to rows, read at row 4096p + 64i + j. -/
theorem tap0_apply {α : Type} (x : S2x65x65x12.Idx → α) (a b : Nat) (ha : a ≤ 1) (hb : b ≤ 1)
    (hs : S2x65x65x12.Slices ![0, a, b, 0] S2x64x64x12) (hc : S2x64x64x12.ShapeCasts S8192x12)
    (h0 : S2x65x65x12.ShapeCasts S2x65x65x12) (p : Fin 2) (i j : Fin 64) (q : Fin 12) :
    shapeCast S8192x12 (extractStridedSlice S2x64x64x12 ![0, a, b, 0] (shapeCast S2x65x65x12 x h0) hs) hc
        (ix2 ⟨4096 * p.val + 64 * i.val + j.val, by omega⟩ q)
      = x (ix4 p ⟨i.val + a, by omega⟩ ⟨j.val + b, by omega⟩ q) := by
  refine (shapeCast_apply _ hc _ (ix4 p i j q) ?_).trans ?_
  · rw [Shape.rowMajor_val_four, Shape.rowMajor_val_two]
    show ((p.val * 64 + i.val) * 64 + j.val) * 12 + q.val = (4096 * p.val + 64 * i.val + j.val) * 12 + q.val
    omega
  refine (extractStridedSlice_apply _ _ hs _ (ix4 p ⟨i.val + a, by omega⟩ ⟨j.val + b, by omega⟩ q) ?_).trans ?_
  · intro ax
    match ax with
    | ⟨0, _⟩ => show p.val = 0 + p.val; omega
    | ⟨1, _⟩ => show i.val + a = a + i.val; omega
    | ⟨2, _⟩ => show j.val + b = b + j.val; omega
    | ⟨3, _⟩ => show q.val = 0 + q.val; omega
  exact shapeCast_apply _ h0 _ _ rfl

/-- The four taps side by side: column c of the [8192, 48] matrix is lane c % 12 of tap c / 12. -/
theorem cat0_apply {α : Type} (y0 y1 y2 y3 : S8192x12.Idx → α)
    (h : Shape.Concatenates [S8192x12, S8192x12, S8192x12, S8192x12] S8192x48 1) (r : Fin 8192) (c : Fin 48) (q : Fin 12) :
    (c.val = q.val → concatenate S8192x48 1 [⟨S8192x12, y0⟩, ⟨S8192x12, y1⟩, ⟨S8192x12, y2⟩, ⟨S8192x12, y3⟩] h (ix2 r c) = y0 (ix2 r q))
    ∧ (c.val = 12 + q.val → concatenate S8192x48 1 [⟨S8192x12, y0⟩, ⟨S8192x12, y1⟩, ⟨S8192x12, y2⟩, ⟨S8192x12, y3⟩] h (ix2 r c) = y1 (ix2 r q))
    ∧ (c.val = 24 + q.val → concatenate S8192x48 1 [⟨S8192x12, y0⟩, ⟨S8192x12, y1⟩, ⟨S8192x12, y2⟩, ⟨S8192x12, y3⟩] h (ix2 r c) = y2 (ix2 r q))
    ∧ (c.val = 36 + q.val → concatenate S8192x48 1 [⟨S8192x12, y0⟩, ⟨S8192x12, y1⟩, ⟨S8192x12, y2⟩, ⟨S8192x12, y3⟩] h (ix2 r c) = y3 (ix2 r q)) := by
  have hi : ∀ b : Fin S8192x12.rank, b.cast (rfl : S8192x12.rank = S8192x48.rank) ≠ (1 : Fin S8192x48.rank) →
      ((ix2 r q : S8192x12.Idx) b).val = ((ix2 r c : S8192x48.Idx) (b.cast rfl)).val := fun b =>
    match b with
    | ⟨0, _⟩ => fun _ => rfl
    | ⟨1, _⟩ => fun hb => absurd rfl hb
  refine ⟨fun hc => ?_, fun hc => ?_, fun hc => ?_, fun hc => ?_⟩
  · exact concatenate_apply_piece (t := S8192x48) 1 [⟨S8192x12, y0⟩, ⟨S8192x12, y1⟩, ⟨S8192x12, y2⟩, ⟨S8192x12, y3⟩] h (ix2 r c) 0 (by show 0 < 4; omega) S8192x12 y0 rfl rfl 0 rfl (ix2 r q) hi (by show 0 + q.val = c.val; omega)
  · exact concatenate_apply_piece (t := S8192x48) 1 [⟨S8192x12, y0⟩, ⟨S8192x12, y1⟩, ⟨S8192x12, y2⟩, ⟨S8192x12, y3⟩] h (ix2 r c) 1 (by show 1 < 4; omega) S8192x12 y1 rfl rfl 12 rfl (ix2 r q) hi (by show 12 + q.val = c.val; omega)
  · exact concatenate_apply_piece (t := S8192x48) 1 [⟨S8192x12, y0⟩, ⟨S8192x12, y1⟩, ⟨S8192x12, y2⟩, ⟨S8192x12, y3⟩] h (ix2 r c) 2 (by show 2 < 4; omega) S8192x12 y2 rfl rfl 24 rfl (ix2 r q) hi (by show 24 + q.val = c.val; omega)
  · exact concatenate_apply_piece (t := S8192x48) 1 [⟨S8192x12, y0⟩, ⟨S8192x12, y1⟩, ⟨S8192x12, y2⟩, ⟨S8192x12, y3⟩] h (ix2 r c) 3 (by show 3 < 4; omega) S8192x12 y3 rfl rfl 36 rfl (ix2 r q) hi (by show 36 + q.val = c.val; omega)

/-- The product into the zero accumulator at an index: the sum over the 48 columns. -/
theorem mm0_apply (A : FVec Ideal S8192x48 .bf16) (B : FVec Ideal S48x128 .bf16) (r : Fin 8192) (o : Fin 128) :
    matmul dot_S8192x48_S48x128_S8192x128_1_0_0_1_n_n none A B (constant S8192x128 .f32 0x00000000#32) (ix2 r o)
      = ∑ c : Fin 48, A (ix2 r c) * B (ix2 c o) := by
  show FloatOps.matmul _ none A B _ (ix2 r o) = _
  rw [Ideal.matmul_constant_zero_apply,
    ← Equiv.sum_comp (contrEquiv1 dot_S8192x48_S48x128_S8192x128_1_0_0_1_n_n 48 rfl rfl).symm]
  refine Finset.sum_congr rfl fun c _ => ?_
  have c2 := contrEquiv1_symm_val dot_S8192x48_S48x128_S8192x128_1_0_0_1_n_n 48 rfl rfl c
  have l2 : dot_S8192x48_S48x128_S8192x128_1_0_0_1_n_n.lhsIdx (ix2 r o) ((contrEquiv1 _ 48 rfl rfl).symm c) = ix2 r c := by
    funext ax; apply Fin.ext
    match ax with
    | ⟨0, _⟩ => simp [DotDims.lhsIdx, dot_S8192x48_S48x128_S8192x128_1_0_0_1_n_n]; rfl
    | ⟨1, _⟩ => simp [DotDims.lhsIdx, dot_S8192x48_S48x128_S8192x128_1_0_0_1_n_n]; exact c2
  have r2 : dot_S8192x48_S48x128_S8192x128_1_0_0_1_n_n.rhsIdx (ix2 r o) ((contrEquiv1 _ 48 rfl rfl).symm c) = ix2 c o := by
    funext ax; apply Fin.ext
    match ax with
    | ⟨0, _⟩ => simp [DotDims.rhsIdx, dot_S8192x48_S48x128_S8192x128_1_0_0_1_n_n]; exact c2
    | ⟨1, _⟩ => simp [DotDims.rhsIdx, dot_S8192x48_S48x128_S8192x128_1_0_0_1_n_n]; rfl
  rw [l2, r2]

/-- Column c of the four taps side by side is the input at tap c / 12, lane c % 12. -/
theorem lhs0_apply (x0 : Vec Ideal S2x65x65x12 .bf16) (p : Fin 2) (i j : Fin 64) (c : Fin 48) :
    concatenate S8192x48 1
        [⟨S8192x12, shapeCast S8192x12 (extractStridedSlice S2x64x64x12 ![0, 0, 0, 0] (shapeCast S2x65x65x12 x0 shapeCasts_S2x65x65x12_S2x65x65x12) slices_S2x65x65x12_o0_0_0_0_S2x64x64x12) shapeCasts_S2x64x64x12_S8192x12⟩,
         ⟨S8192x12, shapeCast S8192x12 (extractStridedSlice S2x64x64x12 ![0, 0, 1, 0] (shapeCast S2x65x65x12 x0 shapeCasts_S2x65x65x12_S2x65x65x12) slices_S2x65x65x12_o0_0_1_0_S2x64x64x12) shapeCasts_S2x64x64x12_S8192x12⟩,
         ⟨S8192x12, shapeCast S8192x12 (extractStridedSlice S2x64x64x12 ![0, 1, 0, 0] (shapeCast S2x65x65x12 x0 shapeCasts_S2x65x65x12_S2x65x65x12) slices_S2x65x65x12_o0_1_0_0_S2x64x64x12) shapeCasts_S2x64x64x12_S8192x12⟩,
         ⟨S8192x12, shapeCast S8192x12 (extractStridedSlice S2x64x64x12 ![0, 1, 1, 0] (shapeCast S2x65x65x12 x0 shapeCasts_S2x65x65x12_S2x65x65x12) slices_S2x65x65x12_o0_1_1_0_S2x64x64x12) shapeCasts_S2x64x64x12_S8192x12⟩]
        concatenates_S8192x12_S8192x12_S8192x12_S8192x12_S8192x48_d1
        (ix2 ⟨4096 * p.val + 64 * i.val + j.val, by omega⟩ c)
      = x0 (ix4 p ⟨i.val + c.val / 12 / 2, by omega⟩ ⟨j.val + c.val / 12 % 2, by omega⟩ ⟨c.val % 12, Nat.mod_lt _ (by omega)⟩) := by
  have hq : c.val % 12 < 12 := Nat.mod_lt _ (by omega)
  have hcat := cat0_apply
    (shapeCast S8192x12 (extractStridedSlice S2x64x64x12 ![0, 0, 0, 0] (shapeCast S2x65x65x12 x0 shapeCasts_S2x65x65x12_S2x65x65x12) slices_S2x65x65x12_o0_0_0_0_S2x64x64x12) shapeCasts_S2x64x64x12_S8192x12)
    (shapeCast S8192x12 (extractStridedSlice S2x64x64x12 ![0, 0, 1, 0] (shapeCast S2x65x65x12 x0 shapeCasts_S2x65x65x12_S2x65x65x12) slices_S2x65x65x12_o0_0_1_0_S2x64x64x12) shapeCasts_S2x64x64x12_S8192x12)
    (shapeCast S8192x12 (extractStridedSlice S2x64x64x12 ![0, 1, 0, 0] (shapeCast S2x65x65x12 x0 shapeCasts_S2x65x65x12_S2x65x65x12) slices_S2x65x65x12_o0_1_0_0_S2x64x64x12) shapeCasts_S2x64x64x12_S8192x12)
    (shapeCast S8192x12 (extractStridedSlice S2x64x64x12 ![0, 1, 1, 0] (shapeCast S2x65x65x12 x0 shapeCasts_S2x65x65x12_S2x65x65x12) slices_S2x65x65x12_o0_1_1_0_S2x64x64x12) shapeCasts_S2x64x64x12_S8192x12)
    concatenates_S8192x12_S8192x12_S8192x12_S8192x12_S8192x48_d1 ⟨4096 * p.val + 64 * i.val + j.val, by omega⟩ c ⟨c.val % 12, hq⟩
  have h4 : c.val / 12 = 0 ∨ c.val / 12 = 1 ∨ c.val / 12 = 2 ∨ c.val / 12 = 3 := by have := c.isLt; omega
  rcases h4 with h | h | h | h
  · refine (hcat.1 (by show c.val = c.val % 12; omega)).trans ((tap0_apply x0 0 0 (by omega) (by omega) _ _ _ p i j ⟨c.val % 12, hq⟩).trans ?_)
    exact congrArg x0 (ix4_congr rfl (by show i.val + 0 = i.val + c.val / 12 / 2; omega) (by show j.val + 0 = j.val + c.val / 12 % 2; omega) rfl)
  · refine (hcat.2.1 (by show c.val = 12 + c.val % 12; omega)).trans ((tap0_apply x0 0 1 (by omega) (by omega) _ _ _ p i j ⟨c.val % 12, hq⟩).trans ?_)
    exact congrArg x0 (ix4_congr rfl (by show i.val + 0 = i.val + c.val / 12 / 2; omega) (by show j.val + 1 = j.val + c.val / 12 % 2; omega) rfl)
  · refine (hcat.2.2.1 (by show c.val = 24 + c.val % 12; omega)).trans ((tap0_apply x0 1 0 (by omega) (by omega) _ _ _ p i j ⟨c.val % 12, hq⟩).trans ?_)
    exact congrArg x0 (ix4_congr rfl (by show i.val + 1 = i.val + c.val / 12 / 2; omega) (by show j.val + 0 = j.val + c.val / 12 % 2; omega) rfl)
  · refine (hcat.2.2.2 (by show c.val = 36 + c.val % 12; omega)).trans ((tap0_apply x0 1 1 (by omega) (by omega) _ _ _ p i j ⟨c.val % 12, hq⟩).trans ?_)
    exact congrArg x0 (ix4_congr rfl (by show i.val + 1 = i.val + c.val / 12 / 2; omega) (by show j.val + 1 = j.val + c.val / 12 % 2; omega) rfl)

/-- The bias row broadcast down the 8192 rows. -/
theorem bias0_apply (x2 : Vec Ideal S1x128 .f32) (r : Fin 8192) (o : Fin 128) :
    broadcastTo S8192x128 x2 broadcasts_S1x128_S8192x128 (ix2 r o) = x2 (ix2 (0 : Fin 1) o) := by
  refine broadcastTo_apply x2 _ (ix2 r o) (ix2 (0 : Fin 1) o) fun a => ?_
  match a with
  | ⟨0, _⟩ => rfl
  | ⟨1, _⟩ => rfl

/-- **The first convolution's payload at an index** is the layer's formula on the block of two images. -/
theorem pay0_apply (x0 : Vec Ideal S2x65x65x12 .bf16) (x1 : Vec Ideal S48x128 .bf16) (x2 : Vec Ideal S1x128 .f32)
    (p : Fin 2) (i j : Fin 64) (o : Fin 128) :
    k0_pay1 (F := Ideal) x0 x1 x2 (ix4 p i j o) = convSpec 2 65 64 12 48 rfl rfl true x0 x1 x2 (ix4 p i j o) := by
  have hr : 4096 * p.val + 64 * i.val + j.val < 8192 := by omega
  rw [convSpec_true_apply]
  unfold k0_pay1
  refine (truncf_apply (φ := .f32) (ψ := .bf16) _ bitsLt_bf16_f32 (ix4 p i j o)).trans ?_
  refine (shapeCast_apply _ shapeCasts_S8192x128_S2x64x64x128 (ix4 p i j o) (ix2 ⟨4096 * p.val + 64 * i.val + j.val, hr⟩ o) ?_).trans ?_
  · rw [Shape.rowMajor_val_two, Shape.rowMajor_val_four]
    show (4096 * p.val + 64 * i.val + j.val) * 128 + o.val = ((p.val * 64 + i.val) * 64 + j.val) * 128 + o.val
    omega
  refine (maximumf_apply _ _ _).trans ?_
  refine (congrArg₂ max ((addf_apply _ _ _).trans (congrArg₂ (· + ·) (mm0_apply _ _ ⟨_, hr⟩ o) (bias0_apply x2 ⟨_, hr⟩ o)))
    (show broadcast S8192x128 (Scalar.ofBits (F := Ideal) .f32 0x00000000#32) (ix2 ⟨4096 * p.val + 64 * i.val + j.val, hr⟩ o) = (0 : EReal) from Ideal.ofBits_zero_f32)).trans ?_
  refine congrArg (fun s : EReal => max (s + x2 (ix2 (0 : Fin 1) o)) 0) (Finset.sum_congr rfl fun c _ => ?_)
  exact congrArg₂ (· * ·) (lhs0_apply x0 p i j c) (shapeCast_apply x1 shapeCasts_S48x128_S48x128 (ix2 c o) (ix2 c o) rfl)

end Cert.KernelIdeal.Hand

end
-- ==== Proof.KVal0.lean ====
/-
  The first convolution's output array after the run of its pipeline: each grid point writes back the layer's formula on its block of
  two images, a block of the formula on the whole array (the layer acts image by image), and the 64 blocks tile the 128 images.
-/
import proofs.«119654_g2000206494441110_pallasbulk_512_2_alg».proof.Proof.KFrame0
import proofs.«119654_g2000206494441110_pallasbulk_512_2_alg».proof.Proof.KPay0
import proofs.«119654_g2000206494441110_pallasbulk_512_2_alg».proof.Proof.Spec
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The index maps over the grid: the image and output windows move one block of two images per point, the weight and the bias
    stay. -/
theorem idx0 : ∀ t : Fin cfg0.N, win0_0.index t 0 = t.val ∧ win0_0.index t 1 = 0 ∧ win0_0.index t 2 = 0 ∧ win0_0.index t 3 = 0
    ∧ win0_1.index t 0 = 0 ∧ win0_1.index t 1 = 0 ∧ win0_2.index t 0 = 0 ∧ win0_2.index t 1 = 0
    ∧ win0_3.index t 0 = t.val ∧ win0_3.index t 1 = 0 ∧ win0_3.index t 2 = 0 ∧ win0_3.index t 3 = 0 :=
  (by decide +kernel : ∀ t : Fin grid0.N, _)

theorem t_lt0 (t : Fin cfg0.N) : t.val < 64 := (show t.val < grid0.N from t.isLt).trans_eq N_0

/-- Image p of the block at point t is image 2t + p of the array. -/
theorem iblk0_0_apply (c : Dev nD) (t : Fin cfg0.N) (p : Fin 2) (a b : Fin 65) (q : Fin 12) :
    (iblk0 V c 0 t : Vec Ideal S2x65x65x12 .bf16) (ix4 p a b q)
      = (V c (Pipeline.arrRef spec0 0) : S128x65x65x12.Idx → EReal) (ix4 ⟨2 * t.val + p.val, by have := t_lt0 t; omega⟩ a b q) := by
  obtain ⟨h0, h1, h2, h3, -⟩ := idx0 t
  unfold iblk0
  rw [View.read_apply]
  refine congrArg (V c (Pipeline.arrRef spec0 0) : S128x65x65x12.Idx → EReal) ?_
  funext ax
  apply Fin.ext
  match ax with
  | ⟨0, _⟩ => show win0_0.index t 0 * 2 + 1 * p.val = 2 * t.val + p.val; rw [h0]; omega
  | ⟨1, _⟩ => show win0_0.index t 1 * 65 + 1 * a.val = a.val; rw [h1]; omega
  | ⟨2, _⟩ => show win0_0.index t 2 * 65 + 1 * b.val = b.val; rw [h2]; omega
  | ⟨3, _⟩ => show win0_0.index t 3 * 12 + 1 * q.val = q.val; rw [h3]; omega

/-- The weight window's block is the weight. -/
theorem iblk0_1_eq (c : Dev nD) (t : Fin cfg0.N) :
    (iblk0 V c 1 t : Vec Ideal S48x128 .bf16) = (V c (Pipeline.arrRef spec0 1) : S48x128.Idx → EReal) := by
  obtain ⟨-, -, -, -, h0, h1, -⟩ := idx0 t
  funext y
  unfold iblk0
  rw [View.read_apply]
  refine congrArg (V c (Pipeline.arrRef spec0 1) : S48x128.Idx → EReal) ?_
  funext ax
  apply Fin.ext
  match ax with
  | ⟨0, _⟩ => show win0_1.index t 0 * 48 + 1 * (y 0).val = (y 0).val; rw [h0]; omega
  | ⟨1, _⟩ => show win0_1.index t 1 * 128 + 1 * (y 1).val = (y 1).val; rw [h1]; omega

/-- The bias window's block is the bias. -/
theorem iblk0_2_eq (c : Dev nD) (t : Fin cfg0.N) :
    (iblk0 V c 2 t : Vec Ideal S1x128 .f32) = (V c (Pipeline.arrRef spec0 2) : S1x128.Idx → EReal) := by
  obtain ⟨-, -, -, -, -, -, h0, h1, -⟩ := idx0 t
  funext y
  unfold iblk0
  rw [View.read_apply]
  refine congrArg (V c (Pipeline.arrRef spec0 2) : S1x128.Idx → EReal) ?_
  funext ax
  apply Fin.ext
  match ax with
  | ⟨0, _⟩ => show win0_2.index t 0 * 1 + 1 * (y 0).val = (y 0).val; rw [h0]; omega
  | ⟨1, _⟩ => show win0_2.index t 1 * 128 + 1 * (y 1).val = (y 1).val; rw [h1]; omega

/-- What the body leaves in the output buffer, at an index: the layer's formula on the blocks. -/
theorem out0_3_apply (x0 : Vec Ideal S2x65x65x12 .bf16) (x1 : Vec Ideal S48x128 .bf16) (x2 : Vec Ideal S1x128 .f32)
    (p : Fin 2) (i j : Fin 64) (o : Fin 128) :
    out0_3 (F := Ideal) x0 x1 x2 (ix4 p i j o) = convSpec 2 65 64 12 48 rfl rfl true x0 x1 x2 (ix4 p i j o) := by
  unfold out0_3
  rw [View.canon_unit_zero hz4]
  simp only [View.ld_unit_zero (S := S2x65x65x12) hz4, View.ld_unit_zero (S := S48x128) hz2, View.ld_unit_zero (S := S1x128) hz2]
  exact pay0_apply x0 x1 x2 p i j o

/-- The layer's formula on the whole array of 128 images. -/
abbrev G0 (c : Dev nD) : S128x64x64x128.Idx → EReal :=
  convSpec 128 65 64 12 48 rfl rfl true (V c (Pipeline.arrRef spec0 0)) (V c (Pipeline.arrRef spec0 1)) (V c (Pipeline.arrRef spec0 2))

/-- What point t leaves, at image p of its block, is the formula on the whole array at image 2t + p. -/
theorem after0_3_apply (c : Dev nD) (t : Fin cfg0.N) (p : Fin 2) (i j : Fin 64) (o : Fin 128) :
    out0_3 (F := Ideal) (iblk0 V c 0 t) (iblk0 V c 1 t) (iblk0 V c 2 t) (ix4 p i j o)
      = G0 V c (ix4 ⟨2 * t.val + p.val, by have := t_lt0 t; omega⟩ i j o) := by
  refine (out0_3_apply _ _ _ p i j o).trans ?_
  rw [iblk0_1_eq, iblk0_2_eq]
  exact convSpec_block 128 2 65 64 12 48 rfl rfl true (V c (Pipeline.arrRef spec0 0)) (iblk0 V c 0 t) _ _
    ⟨2 * t.val + p.val, by have := t_lt0 t; omega⟩ p (fun a b q => iblk0_0_apply V c t p a b q) i j o

/-- What point t writes back is block t of the formula on the whole array. -/
theorem flushed0_eq (c : Dev nD) (t : Fin cfg0.N) :
    (dat0 (F := Ideal) V c).flushed 3 t = ((cfg0.win 3).blk t).view.read (Elt Ideal) (G0 V c) := by
  obtain ⟨-, -, -, -, -, -, -, -, h0, h1, h2, h3⟩ := idx0 t
  show (cfg0.win 3).cut (grid0.coords t) ((dat0 (F := Ideal) V c).after 3 t) = _
  rw [after0_3]
  funext y
  rw [View.read_apply]
  have hy : (y : S2x64x64x128.Idx) = ix4 (y 0) (y 1) (y 2) (y 3) := eq_ix4 (n0 := 2) (n1 := 64) (n2 := 64) (n3 := 128) y
  refine (congrArg (out0_3 (F := Ideal) (iblk0 V c 0 t) (iblk0 V c 1 t) (iblk0 V c 2 t)) hy).trans
    ((after0_3_apply V c t (y 0) (y 1) (y 2) (y 3)).trans ?_)
  refine congrArg (G0 V c) ?_
  funext ax
  apply Fin.ext
  match ax with
  | ⟨0, _⟩ => show 2 * t.val + (y 0).val = win0_3.index t 0 * 2 + 1 * (y 0).val; rw [h0]; omega
  | ⟨1, _⟩ => show (y 1).val = win0_3.index t 1 * 64 + 1 * (y 1).val; rw [h1]; omega
  | ⟨2, _⟩ => show (y 2).val = win0_3.index t 2 * 64 + 1 * (y 2).val; rw [h2]; omega
  | ⟨3, _⟩ => show (y 3).val = win0_3.index t 3 * 128 + 1 * (y 3).val; rw [h3]; omega

/-- Every image is in the block of the point at half its number. -/
theorem cover0 (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0).val < 128 := (i 0).isLt
  have hi1 : (i 1).val < 64 := (i 1).isLt
  have hi2 : (i 2).val < 64 := (i 2).isLt
  have hi3 : (i 3).val < 128 := (i 3).isLt
  have hN : cfg0.N = 64 := N_0
  obtain ⟨t, ht⟩ : ∃ t : Fin cfg0.N, t.val = (i 0).val / 2 := ⟨⟨(i 0).val / 2, by rw [hN]; omega⟩, rfl⟩
  refine ⟨t, flush0_3 t, ?_⟩
  obtain ⟨-, -, -, -, -, -, -, -, h0, h1, h2, h3⟩ := idx0 t
  show i ∈ ((View.whole main_v17).slice (win0_3.rect t)).set
  rw [View.set_slice_whole, Rect.mem_set_unit]
  intro a
  match a with
  | ⟨0, _⟩ => show win0_3.index t 0 * 2 ≤ (i 0).val ∧ (i 0).val < win0_3.index t 0 * 2 + 2; rw [h0]; omega
  | ⟨1, _⟩ => show win0_3.index t 1 * 64 ≤ (i 1).val ∧ (i 1).val < win0_3.index t 1 * 64 + 64; rw [h1]; omega
  | ⟨2, _⟩ => show win0_3.index t 2 * 64 ≤ (i 2).val ∧ (i 2).val < win0_3.index t 2 * 64 + 64; rw [h2]; omega
  | ⟨3, _⟩ => show win0_3.index t 3 * 128 ≤ (i 3).val ∧ (i 3).val < win0_3.index t 3 * 128 + 128; rw [h3]; omega

/-- **The first convolution's output array after its pipeline** is the layer's formula on the image, weight and bias arrays as the
    region finds them. -/
theorem final0 (c : Dev nD) : (dat0 (F := Ideal) V c).arrAt 3 cfg0.N
    = convSpec 128 65 64 12 48 rfl rfl true (V c (Pipeline.arrRef spec0 0)) (V c (Pipeline.arrRef spec0 1)) (V c (Pipeline.arrRef spec0 2)) :=
  (dat0 (F := Ideal) V c).arrAt_eq_of_cover 3 (G0 V c) (fun t _ => flushed0_eq V c t) (cover0 c)

end Cert.KernelIdeal.Hand

end
-- ==== Proof.KPay1.lean ====
/-
  The second convolution's payload, read at an index, over the extended reals: the bias row plus the four taps' products against
  the four loaded slabs of the weight, clamped at zero, is the layer's formula (Spec.lean `convSpec`) on the block of four images,
  the sum over the 2048 weight rows taken slab by slab.
-/
import proofs.«119654_g2000206494441110_pallasbulk_512_2_alg».proof.Proof.Gen.KernelIdeal.Skeleton
import proofs.«119654_g2000206494441110_pallasbulk_512_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«119654_g2000206494441110_pallasbulk_512_2_alg».proof.Proof.KPay0
set_option maxRecDepth 16384

noncomputable section

namespace Cert.KernelIdeal.Hand

open Cert.KernelIdeal Cert.KernelIdeal.Gen Cert.Spec
open Idealize.ShloMosaic Idealize.ShloMosaic.ValueIdx

/-- One tap of the layer: the slice at offset (a, b), flattened to rows, read at row 1024p + 32i + j. -/
theorem tap1_apply {α : Type} (x : S4x33x33x512.Idx → α) (a b : Nat) (ha : a ≤ 1) (hb : b ≤ 1)
    (hs : S4x33x33x512.Slices ![0, a, b, 0] S4x32x32x512) (hc : S4x32x32x512.ShapeCasts S4096x512)
    (h0 : S4x33x33x512.ShapeCasts S4x33x33x512) (p : Fin 4) (i j : Fin 32) (q : Fin 512) :
    shapeCast S4096x512 (extractStridedSlice S4x32x32x512 ![0, a, b, 0] (shapeCast S4x33x33x512 x h0) hs) hc
        (ix2 ⟨1024 * p.val + 32 * i.val + j.val, by omega⟩ q)
      = x (ix4 p ⟨i.val + a, by omega⟩ ⟨j.val + b, by omega⟩ q) := by
  refine (shapeCast_apply _ hc _ (ix4 p i j q) ?_).trans ?_
  · rw [Shape.rowMajor_val_four, Shape.rowMajor_val_two]
    show ((p.val * 32 + i.val) * 32 + j.val) * 512 + q.val = (1024 * p.val + 32 * i.val + j.val) * 512 + q.val
    omega
  refine (extractStridedSlice_apply _ _ hs _ (ix4 p ⟨i.val + a, by omega⟩ ⟨j.val + b, by omega⟩ q) ?_).trans ?_
  · intro ax
    match ax with
    | ⟨0, _⟩ => show p.val = 0 + p.val; omega
    | ⟨1, _⟩ => show i.val + a = a + i.val; omega
    | ⟨2, _⟩ => show j.val + b = b + j.val; omega
    | ⟨3, _⟩ => show q.val = 0 + q.val; omega
  exact shapeCast_apply _ h0 _ _ rfl

/-- The product into the zero accumulator at an index: the sum over the 512 columns. -/
theorem mm1_apply (A : FVec Ideal S4096x512 .bf16) (Bm : FVec Ideal S512x128 .bf16) (r : Fin 4096) (o : Fin 128) :
    matmul dot_S4096x512_S512x128_S4096x128_1_0_0_1_n_n none A Bm (constant S4096x128 .f32 0x00000000#32) (ix2 r o)
      = ∑ c : Fin 512, A (ix2 r c) * Bm (ix2 c o) := by
  show FloatOps.matmul _ none A Bm _ (ix2 r o) = _
  rw [Ideal.matmul_constant_zero_apply,
    ← Equiv.sum_comp (contrEquiv1 dot_S4096x512_S512x128_S4096x128_1_0_0_1_n_n 512 rfl rfl).symm]
  refine Finset.sum_congr rfl fun c _ => ?_
  have c2 := contrEquiv1_symm_val dot_S4096x512_S512x128_S4096x128_1_0_0_1_n_n 512 rfl rfl c
  have l2 : dot_S4096x512_S512x128_S4096x128_1_0_0_1_n_n.lhsIdx (ix2 r o) ((contrEquiv1 _ 512 rfl rfl).symm c) = ix2 r c := by
    funext ax; apply Fin.ext
    match ax with
    | ⟨0, _⟩ => simp [DotDims.lhsIdx, dot_S4096x512_S512x128_S4096x128_1_0_0_1_n_n]; rfl
    | ⟨1, _⟩ => simp [DotDims.lhsIdx, dot_S4096x512_S512x128_S4096x128_1_0_0_1_n_n]; exact c2
  have r2 : dot_S4096x512_S512x128_S4096x128_1_0_0_1_n_n.rhsIdx (ix2 r o) ((contrEquiv1 _ 512 rfl rfl).symm c) = ix2 c o := by
    funext ax; apply Fin.ext
    match ax with
    | ⟨0, _⟩ => simp [DotDims.rhsIdx, dot_S4096x512_S512x128_S4096x128_1_0_0_1_n_n]; exact c2
    | ⟨1, _⟩ => simp [DotDims.rhsIdx, dot_S4096x512_S512x128_S4096x128_1_0_0_1_n_n]; rfl
  rw [l2, r2]

/-- The bias row broadcast down the 4096 rows. -/
theorem bias1_apply (x2 : Vec Ideal S1x128 .f32) (r : Fin 4096) (o : Fin 128) :
    broadcastTo S4096x128 x2 broadcasts_S1x128_S4096x128 (ix2 r o) = x2 (ix2 (0 : Fin 1) o) := by
  refine broadcastTo_apply x2 _ (ix2 r o) (ix2 (0 : Fin 1) o) fun a => ?_
  match a with
  | ⟨0, _⟩ => rfl
  | ⟨1, _⟩ => rfl

/-- One tap's product: tap t = 2a + b of the input against slab t of the flat weight, as the slab's part of the
    layer's sum over the 2048 weight rows. -/
theorem dot1_apply (x0 : Vec Ideal S4x33x33x512 .bf16) (v : Vec Ideal S1x512x128 .bf16)
    (w : (⟨2, ![2048, 128]⟩ : Shape).Idx → EReal) (t : Fin 4) (a b : Nat) (ha : a = t.val / 2) (hb : b = t.val % 2)
    (hs : S4x33x33x512.Slices ![0, a, b, 0] S4x32x32x512)
    (hv : ∀ (q : Fin 512) (o : Fin 128), v (ix3 (0 : Fin 1) q o) = w (ix2 ⟨512 * t.val + q.val, by omega⟩ o))
    (p : Fin 4) (i j : Fin 32) (o : Fin 128) :
    (matmul (F := Ideal) (φ₁ := .bf16) (φ₂ := .bf16) dot_S4096x512_S512x128_S4096x128_1_0_0_1_n_n none
        (shapeCast S4096x512 (extractStridedSlice S4x32x32x512 ![0, a, b, 0] (shapeCast S4x33x33x512 x0 shapeCasts_S4x33x33x512_S4x33x33x512) hs) shapeCasts_S4x32x32x512_S4096x512)
        (shapeCast S512x128 v shapeCasts_S1x512x128_S512x128) (constant S4096x128 .f32 0x00000000#32)
        (ix2 ⟨1024 * p.val + 32 * i.val + j.val, by omega⟩ o) : EReal)
      = ∑ q : Fin 512, (x0 (ix4 p ⟨i.val + (512 * t.val + q.val) / 512 / 2, by omega⟩ ⟨j.val + (512 * t.val + q.val) / 512 % 2, by omega⟩
            ⟨(512 * t.val + q.val) % 512, Nat.mod_lt _ (by omega)⟩) : EReal) * w (ix2 ⟨512 * t.val + q.val, by omega⟩ o) := by
  refine (mm1_apply _ _ _ o).trans (Finset.sum_congr rfl fun q _ => ?_)
  refine congrArg₂ (· * ·) ((tap1_apply x0 a b (by omega) (by omega) hs _ _ p i j q).trans ?_) ?_
  · exact congrArg x0 (ix4_congr rfl (by show i.val + a = i.val + (512 * t.val + q.val) / 512 / 2; omega)
      (by show j.val + b = j.val + (512 * t.val + q.val) / 512 % 2; omega) (by show q.val = (512 * t.val + q.val) % 512; omega))
  · refine (shapeCast_apply v shapeCasts_S1x512x128_S512x128 (ix2 q o) (ix3 (0 : Fin 1) q o) ?_).trans (hv q o)
    rw [Shape.rowMajor_val_three, Shape.rowMajor_val_two]
    show (0 * 512 + q.val) * 128 + o.val = q.val * 128 + o.val
    omega

/-- The kernel adds the bias first, the formula last. -/
private theorem bias_first (b g0 g1 g2 g3 : EReal) : b + g0 + g1 + g2 + g3 = g0 + g1 + g2 + g3 + b := by abel

/-- **The second convolution's payload at an index** is the layer's formula on the block of 4 images, for any flat weight
    whose four slabs the four loaded weight blocks are. -/
theorem pay1_apply (x0 : Vec Ideal S4x33x33x512 .bf16) (x2 : Vec Ideal S1x128 .f32) (w : (⟨2, ![2048, 128]⟩ : Shape).Idx → EReal)
    (va vb vc vd : Vec Ideal S1x512x128 .bf16)
    (ha : ∀ (q : Fin 512) (o : Fin 128), va (ix3 (0 : Fin 1) q o) = w (ix2 ⟨512 * 0 + q.val, by omega⟩ o))
    (hb : ∀ (q : Fin 512) (o : Fin 128), vb (ix3 (0 : Fin 1) q o) = w (ix2 ⟨512 * 1 + q.val, by omega⟩ o))
    (hc : ∀ (q : Fin 512) (o : Fin 128), vc (ix3 (0 : Fin 1) q o) = w (ix2 ⟨512 * 2 + q.val, by omega⟩ o))
    (hd : ∀ (q : Fin 512) (o : Fin 128), vd (ix3 (0 : Fin 1) q o) = w (ix2 ⟨512 * 3 + q.val, by omega⟩ o))
    (p : Fin 4) (i j : Fin 32) (o : Fin 128) :
    k1_pay1 (F := Ideal) x0 x2 va vb vc vd (ix4 p i j o) = convSpec 4 33 32 512 2048 rfl rfl true x0 w x2 (ix4 p i j o) := by
  have hr : 1024 * p.val + 32 * i.val + j.val < 4096 := by omega
  rw [convSpec_true_apply, sum_rows_slabs 4 512 2048 rfl, Fin.sum_univ_four]
  unfold k1_pay1
  refine (truncf_apply (φ := .f32) (ψ := .bf16) _ bitsLt_bf16_f32 (ix4 p i j o)).trans ?_
  refine (shapeCast_apply _ shapeCasts_S4096x128_S4x32x32x128 (ix4 p i j o) (ix2 ⟨1024 * p.val + 32 * i.val + j.val, hr⟩ o) ?_).trans ?_
  · rw [Shape.rowMajor_val_two, Shape.rowMajor_val_four]
    show (1024 * p.val + 32 * i.val + j.val) * 128 + o.val = ((p.val * 32 + i.val) * 32 + j.val) * 128 + o.val
    omega
  refine (maximumf_apply _ _ _).trans ?_
  refine (congrArg₂ max
    ((addf_apply _ _ _).trans (congrArg₂ (· + ·) ((addf_apply _ _ _).trans (congrArg₂ (· + ·) ((addf_apply _ _ _).trans (congrArg₂ (· + ·)
      ((addf_apply _ _ _).trans (congrArg₂ (· + ·) (bias1_apply x2 ⟨_, hr⟩ o)
        (dot1_apply x0 va w 0 0 0 rfl rfl _ ha p i j o)))
        (dot1_apply x0 vb w 1 0 1 rfl rfl _ hb p i j o)))
        (dot1_apply x0 vc w 2 1 0 rfl rfl _ hc p i j o)))
        (dot1_apply x0 vd w 3 1 1 rfl rfl _ hd p i j o)))
    (show broadcast S4096x128 (Scalar.ofBits (F := Ideal) .f32 0x00000000#32) (ix2 ⟨1024 * p.val + 32 * i.val + j.val, hr⟩ o) = (0 : EReal) from Ideal.ofBits_zero_f32)).trans ?_
  exact congrArg (fun s : EReal => max s 0) (bias_first _ _ _ _ _)

end Cert.KernelIdeal.Hand

end
-- ==== Proof.KVal1.lean ====
/-
  The second convolution's output array after its pipeline has run, over the extended reals: the layer's formula (Spec.lean
  `convSpec`) on the whole input array, for any flat weight whose four slabs the [4, 512, 128] weight array holds. The image
  window's block at point t is images 4t … 4t + 3 of the array, the weight and bias windows' blocks are the whole arrays, the body
  leaves the layer's formula on the block (KPay1.lean), the layer acts image by image (Spec.lean `convSpec_block`), and the
  thirty-two blocks written back tile the output array.
-/
import proofs.«119654_g2000206494441110_pallasbulk_512_2_alg».proof.Proof.KFrame1
import proofs.«119654_g2000206494441110_pallasbulk_512_2_alg».proof.Proof.KPay1
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # The second convolution's output array -/

theorem hz1_4 : (![0, 0, 0, 0] : Fin 4 → Nat) = fun _ => 0 := funext fun a => by fin_cases a <;> rfl
theorem hz1_2 : (![0, 0] : Fin 2 → Nat) = fun _ => 0 := funext fun a => by fin_cases a <;> rfl

/-- The printed index maps, decided over the grid: the image and output windows move four images per point, the weight and
    bias windows stay. -/
theorem idx_facts1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- The image block at point t is images 4t … 4t + 3 of the array. -/
theorem iblk1_0_apply (c : Dev nD) (t : Fin cfg1.N) (p : Fin 4) (a b : Fin 33) (q : Fin 512) :
    (iblk1 V c 0 t : S4x33x33x512.Idx → EReal) (ix4 p a b q)
      = (V c (Pipeline.arrRef spec1 0) : S128x33x33x512.Idx → EReal) (ix4 ⟨4 * t.val + p.val, by have := t.isLt; have : cfg1.N = 32 := N_1; omega⟩ a b q) := by
  obtain ⟨e0, e1, e2, e3, -⟩ := idx_facts1 t
  unfold iblk1
  rw [View.read_apply]
  show V c (Pipeline.arrRef spec1 0) _ = V c (Pipeline.arrRef spec1 0) _
  congr 1
  funext ax
  apply Fin.ext
  match ax with
  | ⟨0, _⟩ => show win1_0.index t (0 : Fin 4) * 4 + 1 * p.val = 4 * t.val + p.val; rw [e0]; omega
  | ⟨1, _⟩ => show win1_0.index t (1 : Fin 4) * 33 + 1 * a.val = a.val; rw [e1]; omega
  | ⟨2, _⟩ => show win1_0.index t (2 : Fin 4) * 33 + 1 * b.val = b.val; rw [e2]; omega
  | ⟨3, _⟩ => show win1_0.index t (3 : Fin 4) * 512 + 1 * q.val = q.val; rw [e3]; omega

/-- The weight window's block is the whole weight array at every point. -/
theorem iblk1_1_eq (c : Dev nD) (t : Fin cfg1.N) :
    (iblk1 V c 1 t : S4x512x128.Idx → EReal) = (V c (Pipeline.arrRef spec1 1) : S4x512x128.Idx → EReal) := by
  obtain ⟨-, -, -, -, e0, e1, e2, -⟩ := idx_facts1 t
  funext y
  unfold iblk1
  rw [View.read_apply]
  show V c (Pipeline.arrRef spec1 1) _ = V c (Pipeline.arrRef spec1 1) y
  congr 1
  funext ax
  apply Fin.ext
  match ax with
  | ⟨0, _⟩ => show win1_1.index t (0 : Fin 3) * 4 + 1 * (y 0).val = (y 0).val; rw [e0]; omega
  | ⟨1, _⟩ => show win1_1.index t (1 : Fin 3) * 512 + 1 * (y 1).val = (y 1).val; rw [e1]; omega
  | ⟨2, _⟩ => show win1_1.index t (2 : Fin 3) * 128 + 1 * (y 2).val = (y 2).val; rw [e2]; omega

/-- The bias window's block is the whole bias row at every point. -/
theorem iblk1_2_eq (c : Dev nD) (t : Fin cfg1.N) :
    (iblk1 V c 2 t : S1x128.Idx → EReal) = (V c (Pipeline.arrRef spec1 2) : S1x128.Idx → EReal) := by
  obtain ⟨-, -, -, -, -, -, -, e0, e1, -⟩ := idx_facts1 t
  funext y
  unfold iblk1
  rw [View.read_apply]
  show V c (Pipeline.arrRef spec1 2) _ = V c (Pipeline.arrRef spec1 2) y
  congr 1
  funext ax
  apply Fin.ext
  match ax with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- Two rank-2 indices with the same coordinates are equal. -/
private theorem ix2_congr {n0 n1 : Nat} {a a' : Fin n0} {b b' : Fin n1} (h0 : a.val = a'.val) (h1 : b.val = b'.val) :
    ix2 a b = ix2 a' b' := by
  obtain rfl := Fin.ext h0; obtain rfl := Fin.ext h1; rfl

/-- **What the body leaves in the output buffer at point t**, at an index: the layer's formula on the whole array, at image
    4t + p, for any flat weight whose slabs the weight array is. -/
theorem out1_apply (c : Dev nD) (w : (⟨2, ![2048, 128]⟩ : Shape).Idx → EReal)
    (hw : (V c (Pipeline.arrRef spec1 1) : S4x512x128.Idx → EReal) = slabs 4 512 2048 rfl w)
    (t : Fin cfg1.N) (p : Fin 4) (i j : Fin 32) (o : Fin 128) :
    out1_3 (F := Ideal) (iblk1 V c 0 t) (iblk1 V c 1 t) (iblk1 V c 2 t) (ix4 p i j o)
      = convSpec 128 33 32 512 2048 rfl rfl true (V c (Pipeline.arrRef spec1 0)) w (V c (Pipeline.arrRef spec1 2))
          (ix4 ⟨4 * t.val + p.val, by have := t.isLt; have : cfg1.N = 32 := N_1; omega⟩ i j o) := by
  have hW : ∀ (pp : Nat) (hpp : pp < 4) (inb) (q : Fin 512) (o : Fin 128),
      View.ld (iblk1 V c 1 t : S4x512x128.Idx → EReal) (Rect.unit (s := S4x512x128) ![pp, 0, 0] S1x512x128.size inb) (ix3 (0 : Fin 1) q o)
        = w (ix2 ⟨512 * pp + q.val, by omega⟩ o) := by
    intro pp hpp inb q o
    rw [iblk1_1_eq, hw]
    refine congrArg w (ix2_congr ?_ ?_)
    · show 512 * (pp + 1 * 0) + (0 + 1 * q.val) = 512 * pp + q.val; omega
    · show 0 + 1 * o.val = o.val; omega
  unfold out1_3
  rw [View.canon_unit_zero hz1_4]
  rw [View.ld_unit_zero (S := S4x33x33x512) hz1_4, View.ld_unit_zero (S := S1x128) hz1_2]
  refine (pay1_apply (iblk1 V c 0 t) (iblk1 V c 2 t) w _ _ _ _ (hW 0 (by omega) _) (hW 1 (by omega) _) (hW 2 (by omega) _) (hW 3 (by omega) _) p i j o).trans ?_
  refine (convSpec_block 128 4 33 32 512 2048 rfl rfl true (V c (Pipeline.arrRef spec1 0)) (iblk1 V c 0 t) w (iblk1 V c 2 t)
    ⟨4 * t.val + p.val, by have := t.isLt; have : cfg1.N = 32 := N_1; omega⟩ p (fun a b q => iblk1_0_apply V c t p a b q) i j o).trans ?_
  exact congrArg (fun b : S1x128.Idx → EReal => convSpec 128 33 32 512 2048 rfl rfl true (V c (Pipeline.arrRef spec1 0)) w b
    (ix4 ⟨4 * t.val + p.val, by have := t.isLt; have : cfg1.N = 32 := N_1; omega⟩ i j o)) (iblk1_2_eq V c t)

/-- **What point t writes back** is its block of the layer's formula on the whole arrays as the region finds them. -/
theorem flushed1_eq (c : Dev nD) (w : (⟨2, ![2048, 128]⟩ : Shape).Idx → EReal)
    (hw : (V c (Pipeline.arrRef spec1 1) : S4x512x128.Idx → EReal) = slabs 4 512 2048 rfl w) (t : Fin cfg1.N) :
    (dat1 (F := Ideal) V c).flushed 3 t = ((cfg1.win 3).blk t).view.read (Elt Ideal)
      (convSpec 128 33 32 512 2048 rfl rfl true (V c (Pipeline.arrRef spec1 0)) w (V c (Pipeline.arrRef spec1 2))) := by
  obtain ⟨-, -, -, -, -, -, -, -, -, e0, e1, e2, e3⟩ := idx_facts1 t
  show (cfg1.win 3).cut (grid1.coords t) ((dat1 V c).after 3 t) = _
  rw [after1_3]
  funext y
  obtain ⟨p, i, j, o, rfl⟩ : ∃ (p : Fin 4) (i j : Fin 32) (o : Fin 128), y = ix4 p i j o := ⟨y 0, y 1, y 2, y 3, eq_ix4 y⟩
  rw [View.read_apply]
  show out1_3 (F := Ideal) (iblk1 V c 0 t) (iblk1 V c 1 t) (iblk1 V c 2 t) (ix4 p i j o)
    = convSpec 128 33 32 512 2048 rfl rfl true (V c (Pipeline.arrRef spec1 0)) w (V c (Pipeline.arrRef spec1 2)) (((cfg1.win 3).blk t).view.emb (ix4 p i j o))
  rw [out1_apply V c w hw t p i j o]
  congr 1
  funext ax
  apply Fin.ext
  match ax with
  | ⟨0, _⟩ => show 4 * t.val + p.val = win1_3.index t (0 : Fin 4) * 4 + 1 * p.val; rw [e0]; omega
  | ⟨1, _⟩ => show i.val = win1_3.index t (1 : Fin 4) * 32 + 1 * i.val; rw [e1]; omega
  | ⟨2, _⟩ => show j.val = win1_3.index t (2 : Fin 4) * 32 + 1 * j.val; rw [e2]; omega
  | ⟨3, _⟩ => show o.val = win1_3.index t (3 : Fin 4) * 128 + 1 * o.val; rw [e3]; omega

/-- An index of the output array is in point t's block iff each coordinate is in the block's range on its axis. -/
theorem mem_blk1_3 (t : Fin cfg1.N) (y : S128x32x32x128.Idx) :
    y ∈ ((cfg1.win 3).blk t).view.set ↔ ∀ a : Fin 4, win1_3.index t a * S4x32x32x128.size a ≤ (y a).val
      ∧ (y a).val < win1_3.index t a * S4x32x32x128.size a + S4x32x32x128.size a := by
  show y ∈ ((View.whole main_v22).slice (win1_3.rect t)).set ↔ _
  rw [View.set_slice_whole, Rect.mem_set_unit]
  exact Iff.rfl

/-- **The second convolution's output array after the run**: the layer's formula on the input array, for any flat weight whose
    four slabs the weight array holds. Image n is written by point n / 4. -/
theorem final1 (c : Dev nD) (w : (⟨2, ![2048, 128]⟩ : Shape).Idx → EReal)
    (hw : (V c (Pipeline.arrRef spec1 1) : S4x512x128.Idx → EReal) = slabs 4 512 2048 rfl w) :
    (dat1 (F := Ideal) V c).arrAt 3 cfg1.N
      = convSpec 128 33 32 512 2048 rfl rfl true (V c (Pipeline.arrRef spec1 0)) w (V c (Pipeline.arrRef spec1 2)) :=
  (dat1 (F := Ideal) V c).arrAt_eq_of_cover 3 _ (fun t _ => flushed1_eq V c w hw t) fun y => by
    have hy0 : ((y : S128x32x32x128.Idx) 0).val < 128 := (y 0).isLt
    have hy1 : ((y : S128x32x32x128.Idx) 1).val < 32 := (y 1).isLt
    have hy2 : ((y : S128x32x32x128.Idx) 2).val < 32 := (y 2).isLt
    have hy3 : ((y : S128x32x32x128.Idx) 3).val < 128 := (y 3).isLt
    have hN : cfg1.N = 32 := N_1
    obtain ⟨t, ht⟩ : ∃ t : Fin cfg1.N, t.val = ((y : S128x32x32x128.Idx) 0).val / 4 := ⟨⟨_, by omega⟩, rfl⟩
    obtain ⟨-, -, -, -, -, -, -, -, -, e0, e1, e2, e3⟩ := idx_facts1 t
    refine ⟨t, flush1_3 t, ?_⟩
    rw [mem_blk1_3]
    intro a
    match a with
    | ⟨0, _⟩ =>
      show win1_3.index t (0 : Fin 4) * 4 ≤ ((y : S128x32x32x128.Idx) 0).val ∧ ((y : S128x32x32x128.Idx) 0).val < win1_3.index t (0 : Fin 4) * 4 + 4
      rw [e0]; omega
    | ⟨1, _⟩ =>
      show win1_3.index t (1 : Fin 4) * 32 ≤ ((y : S128x32x32x128.Idx) 1).val ∧ ((y : S128x32x32x128.Idx) 1).val < win1_3.index t (1 : Fin 4) * 32 + 32
      rw [e1]; omega
    | ⟨2, _⟩ =>
      show win1_3.index t (2 : Fin 4) * 32 ≤ ((y : S128x32x32x128.Idx) 2).val ∧ ((y : S128x32x32x128.Idx) 2).val < win1_3.index t (2 : Fin 4) * 32 + 32
      rw [e2]; omega
    | ⟨3, _⟩ =>
      show win1_3.index t (3 : Fin 4) * 128 ≤ ((y : S128x32x32x128.Idx) 3).val ∧ ((y : S128x32x32x128.Idx) 3).val < win1_3.index t (3 : Fin 4) * 128 + 128
      rw [e3]; omega

end Cert.KernelIdeal.Hand

end
-- ==== Proof.SpecLocal.lean ====
/-
  The zero padding and the residual layer act image by image: on a block of images each is the whole-array map read at the block's images.
-/
import proofs.«119654_g2000206494441110_pallasbulk_512_2_alg».proof.Proof.Spec

noncomputable section

namespace Cert.Spec

open Idealize.ShloMosaic Idealize.ShloMosaic.ValueIdx

/-- The padded image p of a block is the padded image n of the whole array, when the block's image p is the array's image n. -/
theorem padSpec_block (B bb : ℕ) (h : (⟨4, ![B, 16, 16, 128]⟩ : Shape).Idx → EReal) (hb : (⟨4, ![bb, 16, 16, 128]⟩ : Shape).Idx → EReal)
    (n : Fin B) (p : Fin bb)
    (hx : ∀ (a b : Fin 16) (q : Fin 128), hb (ix4 p a b q) = h (ix4 n a b q)) (a b : Fin 18) (q : Fin 128) :
    padSpec bb hb (ix4 p a b q) = padSpec B h (ix4 n a b q) := by
  show (if hj : 1 ≤ a.val ∧ a.val ≤ 16 ∧ 1 ≤ b.val ∧ b.val ≤ 16 then
          hb (ix4 (n0 := bb) (n1 := 16) (n2 := 16) (n3 := 128) ⟨p.val, p.isLt⟩ ⟨a.val - 1, by omega⟩ ⟨b.val - 1, by omega⟩ ⟨q.val, q.isLt⟩)
        else 0)
      = (if hj : 1 ≤ a.val ∧ a.val ≤ 16 ∧ 1 ≤ b.val ∧ b.val ≤ 16 then
          h (ix4 (n0 := B) (n1 := 16) (n2 := 16) (n3 := 128) ⟨n.val, n.isLt⟩ ⟨a.val - 1, by omega⟩ ⟨b.val - 1, by omega⟩ ⟨q.val, q.isLt⟩)
        else 0)
  by_cases hj : 1 ≤ a.val ∧ a.val ≤ 16 ∧ 1 ≤ b.val ∧ b.val ≤ 16
  · rw [dif_pos hj, dif_pos hj]
    exact hx _ _ _
  · rw [dif_neg hj, dif_neg hj]

/-- The hidden activation of a residual layer, image by image. -/
theorem resHidden_block (B bb : ℕ) (hp : (⟨4, ![B, 18, 18, 128]⟩ : Shape).Idx → EReal) (hpb : (⟨4, ![bb, 18, 18, 128]⟩ : Shape).Idx → EReal)
    (w1 : (⟨2, ![1152, 128]⟩ : Shape).Idx → EReal) (n : Fin B) (p : Fin bb)
    (hx : ∀ (a b : Fin 18) (q : Fin 128), hpb (ix4 p a b q) = hp (ix4 n a b q)) (i j : Fin 16) (o : Fin 128) (c' : Fin 128) :
    resHidden bb hpb w1 (ix4 p i j o) c' = resHidden B hp w1 (ix4 n i j o) c' := by
  unfold resHidden
  dsimp only
  refine congrArg (fun s : EReal => max s 0) (Finset.sum_congr rfl fun k _ => ?_)
  exact congrArg (fun s : EReal => max s 0 * w1 (ix2 k c')) (hx _ _ _)

/-- The residual layer of image p of a block is that of image n of the whole array, when the block's image p is the array's image n. -/
theorem resSpec_block (B bb : ℕ) (relu : Bool) (hp : (⟨4, ![B, 18, 18, 128]⟩ : Shape).Idx → EReal)
    (hpb : (⟨4, ![bb, 18, 18, 128]⟩ : Shape).Idx → EReal)
    (w1 : (⟨2, ![1152, 128]⟩ : Shape).Idx → EReal) (w2 : (⟨2, ![128, 128]⟩ : Shape).Idx → EReal) (n : Fin B) (p : Fin bb)
    (hx : ∀ (a b : Fin 18) (q : Fin 128), hpb (ix4 p a b q) = hp (ix4 n a b q)) (i j : Fin 16) (o : Fin 128) :
    resSpec bb relu hpb w1 w2 (ix4 p i j o) = resSpec B relu hp w1 w2 (ix4 n i j o) := by
  unfold resSpec
  dsimp only
  have hsum : (∑ c' : Fin 128, resHidden bb hpb w1 (ix4 p i j o) c' * w2 (ix2 c' ⟨o.val, o.isLt⟩))
      = ∑ c' : Fin 128, resHidden B hp w1 (ix4 n i j o) c' * w2 (ix2 c' ⟨o.val, o.isLt⟩) :=
    Finset.sum_congr rfl fun c' _ => by rw [resHidden_block B bb hp hpb w1 n p hx i j o c']
  have hres : hpb (ix4 (n0 := bb) (n1 := 18) (n2 := 18) (n3 := 128) ⟨p.val, p.isLt⟩ ⟨i.val + 1, by omega⟩ ⟨j.val + 1, by omega⟩ ⟨o.val, o.isLt⟩)
      = hp (ix4 (n0 := B) (n1 := 18) (n2 := 18) (n3 := 128) ⟨n.val, n.isLt⟩ ⟨i.val + 1, by omega⟩ ⟨j.val + 1, by omega⟩ ⟨o.val, o.isLt⟩) := hx _ _ _
  show (if relu then max ((∑ c' : Fin 128, resHidden bb hpb w1 (ix4 p i j o) c' * w2 (ix2 c' ⟨o.val, o.isLt⟩))
          + hpb (ix4 (n0 := bb) (n1 := 18) (n2 := 18) (n3 := 128) ⟨p.val, p.isLt⟩ ⟨i.val + 1, by omega⟩ ⟨j.val + 1, by omega⟩ ⟨o.val, o.isLt⟩)) 0
        else (∑ c' : Fin 128, resHidden bb hpb w1 (ix4 p i j o) c' * w2 (ix2 c' ⟨o.val, o.isLt⟩))
          + hpb (ix4 (n0 := bb) (n1 := 18) (n2 := 18) (n3 := 128) ⟨p.val, p.isLt⟩ ⟨i.val + 1, by omega⟩ ⟨j.val + 1, by omega⟩ ⟨o.val, o.isLt⟩))
      = (if relu then max ((∑ c' : Fin 128, resHidden B hp w1 (ix4 n i j o) c' * w2 (ix2 c' ⟨o.val, o.isLt⟩))
          + hp (ix4 (n0 := B) (n1 := 18) (n2 := 18) (n3 := 128) ⟨n.val, n.isLt⟩ ⟨i.val + 1, by omega⟩ ⟨j.val + 1, by omega⟩ ⟨o.val, o.isLt⟩)) 0
        else (∑ c' : Fin 128, resHidden B hp w1 (ix4 n i j o) c' * w2 (ix2 c' ⟨o.val, o.isLt⟩))
          + hp (ix4 (n0 := B) (n1 := 18) (n2 := 18) (n3 := 128) ⟨n.val, n.isLt⟩ ⟨i.val + 1, by omega⟩ ⟨j.val + 1, by omega⟩ ⟨o.val, o.isLt⟩))
  rw [hsum, hres]

end Cert.Spec

end
-- ==== Proof.KVal2.lean ====
/-
  Region 2 of the kernel, the array: every grid point writes eight images of the fused tail — the stride-2 convolution, then the two
  residual layers on the zero-padded activation, the last followed by max(·, 0) — of the arrays the region finds; each layer acts image
  by image, so the result array ends holding the tail of the whole arrays.
-/
import proofs.«119654_g2000206494441110_pallasbulk_512_2_alg».proof.Proof.KFrame2
import proofs.«119654_g2000206494441110_pallasbulk_512_2_alg».proof.Proof.Spec
import proofs.«119654_g2000206494441110_pallasbulk_512_2_alg».proof.Proof.SpecLocal
import Idealize.ShloMosaic.Lib.Pipeline.Value

set_option maxRecDepth 16384

noncomputable section

namespace Cert.KernelIdeal.Hand

open Cert.KernelIdeal Cert.KernelIdeal.Gen Cert.Spec Idealize.ShloMosaic Idealize.ShloMosaic.TcCoe Idealize.ShloMosaic.ValueIdx
open Idealize.ShloMosaic.Pipeline (Dat)

/-! ## Region 2: from the blocks to the array

Eight images per grid point: point t fetches images 8t … 8t+7 of the space-to-depth array, and the weights and the bias whole,
and writes images 8t … 8t+7 of the result. -/

/-- The printed index maps, decided over the grid: the image window and the result window sit at block t on the image axis
    and at block 0 on the others; the weights' and the bias's stay at block 0. -/
theorem kv2_idx : ∀ t : Fin cfg2.N,
    win2_0.index t (0 : Fin 4) = t.val
    ∧ win2_0.index t (1 : Fin 4) = 0
    ∧ win2_0.index t (2 : Fin 4) = 0
    ∧ win2_0.index t (3 : Fin 4) = 0
    ∧ win2_1.index t (0 : Fin 3) = 0
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 3) = 0
    ∧ win2_3.index t (1 : Fin 3) = 0
    ∧ win2_3.index t (2 : Fin 3) = 0
    ∧ win2_4.index t (0 : Fin 2) = 0
    ∧ win2_4.index t (1 : Fin 2) = 0
    ∧ win2_5.index t (0 : Fin 3) = 0
    ∧ win2_5.index t (1 : Fin 3) = 0
    ∧ win2_5.index t (2 : Fin 3) = 0
    ∧ win2_6.index t (0 : Fin 2) = 0
    ∧ win2_6.index t (1 : Fin 2) = 0
    ∧ win2_7.index t (0 : Fin 4) = t.val
    ∧ win2_7.index t (1 : Fin 4) = 0
    ∧ win2_7.index t (2 : Fin 4) = 0
    ∧ win2_7.index t (3 : Fin 4) = 0 :=
  (by decide +kernel : ∀ t : Fin grid2.N, _)

/-- A grid point is one of sixteen. -/
theorem kv2_t_lt (t : Fin cfg2.N) : t.val < 16 := by
  have h := t.isLt
  have e : cfg2.N = 16 := N_2
  omega

/-- Image p of point t's block is image 8t + p of the array. -/
def kv2_img (t : Fin cfg2.N) (p : Fin 8) : Fin 128 := ⟨8 * t.val + p.val, by have := kv2_t_lt t; have := p.isLt; omega⟩

/-- The image block at point t holds images 8t … 8t+7 of the array. -/
theorem kv2_img_apply (V : (c : Dev nD) → (b : Ref sig .tc) → Buf (Elt Ideal) ((c : Thread nD τ).loc b)) (c : Dev nD) (t : Fin cfg2.N) (p : Fin 8) (a b : Fin 17) (q : Fin 512) :
    (iblk2 (F := Ideal) V c 0 t : S8x17x17x512.Idx → EReal) (ix4 p a b q)
      = (V c (Pipeline.arrRef spec2 0) : S128x17x17x512.Idx → EReal) (ix4 (kv2_img t p) a b q) := by
  obtain ⟨e0, e1, e2, e3, -⟩ := kv2_idx t
  unfold iblk2
  rw [View.read_apply]
  refine congrArg (V c (Pipeline.arrRef spec2 0) : S128x17x17x512.Idx → EReal) ?_
  funext ax
  apply Fin.ext
  match ax with
  | ⟨0, _⟩ => show win2_0.index t (0 : Fin 4) * 8 + 1 * p.val = 8 * t.val + p.val; rw [e0]; omega
  | ⟨1, _⟩ => show win2_0.index t (1 : Fin 4) * 17 + 1 * a.val = a.val; rw [e1]; omega
  | ⟨2, _⟩ => show win2_0.index t (2 : Fin 4) * 17 + 1 * b.val = b.val; rw [e2]; omega
  | ⟨3, _⟩ => show win2_0.index t (3 : Fin 4) * 512 + 1 * q.val = q.val; rw [e3]; omega

/-- Window 1's block at every point is its whole array. -/
theorem kv2_whole1 (V : (c : Dev nD) → (b : Ref sig .tc) → Buf (Elt Ideal) ((c : Thread nD τ).loc b)) (c : Dev nD) (t : Fin cfg2.N) :
    (iblk2 (F := Ideal) V c 1 t : S4x512x128.Idx → EReal) = (V c (Pipeline.arrRef spec2 1) : S4x512x128.Idx → EReal) := by
  obtain ⟨-, -, -, -, e0, e1, e2, -⟩ := kv2_idx t
  funext y
  unfold iblk2
  rw [View.read_apply]
  refine congrArg (V c (Pipeline.arrRef spec2 1) : S4x512x128.Idx → EReal) ?_
  funext ax
  apply Fin.ext
  match ax with
  | ⟨0, _⟩ => show win2_1.index t (0 : Fin 3) * 4 + 1 * (y 0).val = (y 0).val; rw [e0]; omega
  | ⟨1, _⟩ => show win2_1.index t (1 : Fin 3) * 512 + 1 * (y 1).val = (y 1).val; rw [e1]; omega
  | ⟨2, _⟩ => show win2_1.index t (2 : Fin 3) * 128 + 1 * (y 2).val = (y 2).val; rw [e2]; omega

/-- Window 2's block at every point is its whole array. -/
theorem kv2_whole2 (V : (c : Dev nD) → (b : Ref sig .tc) → Buf (Elt Ideal) ((c : Thread nD τ).loc b)) (c : Dev nD) (t : Fin cfg2.N) :
    (iblk2 (F := Ideal) V c 2 t : S1x128.Idx → EReal) = (V c (Pipeline.arrRef spec2 2) : S1x128.Idx → EReal) := by
  obtain ⟨-, -, -, -, -, -, -, e0, e1, -⟩ := kv2_idx t
  funext y
  unfold iblk2
  rw [View.read_apply]
  refine congrArg (V c (Pipeline.arrRef spec2 2) : S1x128.Idx → EReal) ?_
  funext ax
  apply Fin.ext
  match ax with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- Window 3's block at every point is its whole array. -/
theorem kv2_whole3 (V : (c : Dev nD) → (b : Ref sig .tc) → Buf (Elt Ideal) ((c : Thread nD τ).loc b)) (c : Dev nD) (t : Fin cfg2.N) :
    (iblk2 (F := Ideal) V c 3 t : S9x128x128.Idx → EReal) = (V c (Pipeline.arrRef spec2 3) : S9x128x128.Idx → EReal) := by
  obtain ⟨-, -, -, -, -, -, -, -, -, e0, e1, e2, -⟩ := kv2_idx t
  funext y
  unfold iblk2
  rw [View.read_apply]
  refine congrArg (V c (Pipeline.arrRef spec2 3) : S9x128x128.Idx → EReal) ?_
  funext ax
  apply Fin.ext
  match ax with
  | ⟨0, _⟩ => show win2_3.index t (0 : Fin 3) * 9 + 1 * (y 0).val = (y 0).val; rw [e0]; omega
  | ⟨1, _⟩ => show win2_3.index t (1 : Fin 3) * 128 + 1 * (y 1).val = (y 1).val; rw [e1]; omega
  | ⟨2, _⟩ => show win2_3.index t (2 : Fin 3) * 128 + 1 * (y 2).val = (y 2).val; rw [e2]; omega

/-- Window 4's block at every point is its whole array. -/
theorem kv2_whole4 (V : (c : Dev nD) → (b : Ref sig .tc) → Buf (Elt Ideal) ((c : Thread nD τ).loc b)) (c : Dev nD) (t : Fin cfg2.N) :
    (iblk2 (F := Ideal) V c 4 t : S128x128.Idx → EReal) = (V c (Pipeline.arrRef spec2 4) : S128x128.Idx → EReal) := by
  obtain ⟨-, -, -, -, -, -, -, -, -, -, -, -, e0, e1, -⟩ := kv2_idx t
  funext y
  unfold iblk2
  rw [View.read_apply]
  refine congrArg (V c (Pipeline.arrRef spec2 4) : S128x128.Idx → EReal) ?_
  funext ax
  apply Fin.ext
  match ax with
  | ⟨0, _⟩ => show win2_4.index t (0 : Fin 2) * 128 + 1 * (y 0).val = (y 0).val; rw [e0]; omega
  | ⟨1, _⟩ => show win2_4.index t (1 : Fin 2) * 128 + 1 * (y 1).val = (y 1).val; rw [e1]; omega

/-- Window 5's block at every point is its whole array. -/
theorem kv2_whole5 (V : (c : Dev nD) → (b : Ref sig .tc) → Buf (Elt Ideal) ((c : Thread nD τ).loc b)) (c : Dev nD) (t : Fin cfg2.N) :
    (iblk2 (F := Ideal) V c 5 t : S9x128x128.Idx → EReal) = (V c (Pipeline.arrRef spec2 5) : S9x128x128.Idx → EReal) := by
  obtain ⟨-, -, -, -, -, -, -, -, -, -, -, -, -, -, e0, e1, e2, -⟩ := kv2_idx t
  funext y
  unfold iblk2
  rw [View.read_apply]
  refine congrArg (V c (Pipeline.arrRef spec2 5) : S9x128x128.Idx → EReal) ?_
  funext ax
  apply Fin.ext
  match ax with
  | ⟨0, _⟩ => show win2_5.index t (0 : Fin 3) * 9 + 1 * (y 0).val = (y 0).val; rw [e0]; omega
  | ⟨1, _⟩ => show win2_5.index t (1 : Fin 3) * 128 + 1 * (y 1).val = (y 1).val; rw [e1]; omega
  | ⟨2, _⟩ => show win2_5.index t (2 : Fin 3) * 128 + 1 * (y 2).val = (y 2).val; rw [e2]; omega

/-- Window 6's block at every point is its whole array. -/
theorem kv2_whole6 (V : (c : Dev nD) → (b : Ref sig .tc) → Buf (Elt Ideal) ((c : Thread nD τ).loc b)) (c : Dev nD) (t : Fin cfg2.N) :
    (iblk2 (F := Ideal) V c 6 t : S128x128.Idx → EReal) = (V c (Pipeline.arrRef spec2 6) : S128x128.Idx → EReal) := by
  obtain ⟨-, -, -, -, -, -, -, -, -, -, -, -, -, -, -, -, -, e0, e1, -⟩ := kv2_idx t
  funext y
  unfold iblk2
  rw [View.read_apply]
  refine congrArg (V c (Pipeline.arrRef spec2 6) : S128x128.Idx → EReal) ?_
  funext ax
  apply Fin.ext
  match ax with
  | ⟨0, _⟩ => show win2_6.index t (0 : Fin 2) * 128 + 1 * (y 0).val = (y 0).val; rw [e0]; omega
  | ⟨1, _⟩ => show win2_6.index t (1 : Fin 2) * 128 + 1 * (y 1).val = (y 1).val; rw [e1]; omega

/-- WHAT POINT t WRITES BACK is images 8t … 8t+7 of the tail of the arrays as the region finds them: the body's closed form on
    the blocks (`hout`), and each layer image by image. -/
theorem kv2_flushed (hout : ∀ (x0 : Vec Ideal S8x17x17x512 .bf16) (x1 : Vec Ideal S4x512x128 .bf16) (x2 : Vec Ideal S1x128 .f32) (x3 : Vec Ideal S9x128x128 .bf16) (x4 : Vec Ideal S128x128 .bf16) (x5 : Vec Ideal S9x128x128 .bf16) (x6 : Vec Ideal S128x128 .bf16)
      (w3 : (⟨2, ![2048, 128]⟩ : Shape).Idx → EReal) (r0w1 r1w1 : (⟨2, ![1152, 128]⟩ : Shape).Idx → EReal) (r0w2 r1w2 : (⟨2, ![128, 128]⟩ : Shape).Idx → EReal),
      x1 = slabs 4 512 2048 rfl w3 → x3 = slabs 9 128 1152 rfl r0w1 → x4 = r0w2 → x5 = slabs 9 128 1152 rfl r1w1 → x6 = r1w2 →
      ∀ (p : Fin 8) (i j : Fin 16) (o : Fin 128),
        out2_7 (F := Ideal) x0 x1 x2 x3 x4 x5 x6 (ix4 p i j o)
          = resSpec 8 true (padSpec 8 (resSpec 8 false (padSpec 8 (convSpec 8 17 16 512 2048 rfl rfl false x0 w3 x2)) r0w1 r0w2)) r1w1 r1w2 (ix4 p i j o))
    (V : (c : Dev nD) → (b : Ref sig .tc) → Buf (Elt Ideal) ((c : Thread nD τ).loc b)) (c : Dev nD) (w3 : (⟨2, ![2048, 128]⟩ : Shape).Idx → EReal) (r0w1 : (⟨2, ![1152, 128]⟩ : Shape).Idx → EReal) (r0w2 : (⟨2, ![128, 128]⟩ : Shape).Idx → EReal) (r1w1 : (⟨2, ![1152, 128]⟩ : Shape).Idx → EReal) (r1w2 : (⟨2, ![128, 128]⟩ : Shape).Idx → EReal)
    (h1 : V c (Pipeline.arrRef spec2 1) = slabs 4 512 2048 rfl w3) (h3 : V c (Pipeline.arrRef spec2 3) = slabs 9 128 1152 rfl r0w1) (h4 : V c (Pipeline.arrRef spec2 4) = r0w2)
    (h5 : V c (Pipeline.arrRef spec2 5) = slabs 9 128 1152 rfl r1w1) (h6 : V c (Pipeline.arrRef spec2 6) = r1w2) (t : Fin cfg2.N) :
    (dat2 (F := Ideal) V c).flushed 7 t = ((cfg2.win 7).blk t).view.read (Elt Ideal)
      (resSpec 128 true (padSpec 128 (resSpec 128 false (padSpec 128 (convSpec 128 17 16 512 2048 rfl rfl false (V c (Pipeline.arrRef spec2 0)) w3 (V c (Pipeline.arrRef spec2 2)))) r0w1 r0w2)) r1w1 r1w2) := by
  show (cfg2.win 7).cut (grid2.coords t) ((dat2 V c).after 7 t) = _
  rw [after2_7]
  obtain ⟨-, -, -, -, -, -, -, -, -, -, -, -, -, -, -, -, -, -, -, e0, e1, e2, e3⟩ := kv2_idx t
  funext y
  obtain ⟨p, i, j, o, rfl⟩ : ∃ (p : Fin 8) (i j : Fin 16) (o : Fin 128), y = ix4 p i j o := ⟨y 0, y 1, y 2, y 3, eq_ix4 y⟩
  rw [View.read_apply]
  have eo : ((cfg2.win 7).blk t).view.emb (ix4 p i j o) = (ix4 (kv2_img t p) i j o : S128x16x16x128.Idx) := by
    funext ax
    apply Fin.ext
    match ax with
    | ⟨0, _⟩ => show win2_7.index t (0 : Fin 4) * 8 + 1 * p.val = 8 * t.val + p.val; rw [e0]; omega
    | ⟨1, _⟩ => show win2_7.index t (1 : Fin 4) * 16 + 1 * i.val = i.val; rw [e1]; omega
    | ⟨2, _⟩ => show win2_7.index t (2 : Fin 4) * 16 + 1 * j.val = j.val; rw [e2]; omega
    | ⟨3, _⟩ => show win2_7.index t (3 : Fin 4) * 128 + 1 * o.val = o.val; rw [e3]; omega
  rw [eo]
  show out2_7 (F := Ideal) (iblk2 V c 0 t) (iblk2 V c 1 t) (iblk2 V c 2 t) (iblk2 V c 3 t) (iblk2 V c 4 t) (iblk2 V c 5 t) (iblk2 V c 6 t) (ix4 p i j o) = _
  rw [kv2_whole1 V c t, kv2_whole2 V c t, kv2_whole3 V c t, kv2_whole4 V c t, kv2_whole5 V c t, kv2_whole6 V c t]
  refine (hout _ _ _ _ _ _ _ w3 r0w1 r1w1 r0w2 r1w2 h1 h3 h4 h5 h6 p i j o).trans ?_
  exact resSpec_block 128 8 true _ _ r1w1 r1w2 (kv2_img t p) p (fun a b q =>
    padSpec_block 128 8 _ _ (kv2_img t p) p (fun a b q =>
      resSpec_block 128 8 false _ _ r0w1 r0w2 (kv2_img t p) p (fun a b q =>
        padSpec_block 128 8 _ _ (kv2_img t p) p (fun a b q =>
          convSpec_block 128 8 17 16 512 2048 rfl rfl false _ _ w3 _ (kv2_img t p) p (fun a b q => kv2_img_apply V c t p a b q) a b q) a b q) a b q) a b q) i j o

/-- An index of the result array is in point t's block iff each coordinate is in the block's range on its axis. -/
theorem kv2_mem_blk (t : Fin cfg2.N) (i : S128x16x16x128.Idx) :
    i ∈ ((cfg2.win 7).blk t).view.set ↔ ∀ a : Fin 4, win2_7.index t a * S8x16x16x128.size a ≤ (i a).val ∧ (i a).val < win2_7.index t a * S8x16x16x128.size a + S8x16x16x128.size a := by
  show i ∈ ((View.whole main_v27).slice (win2_7.rect t)).set ↔ _
  rw [View.set_slice_whole, Rect.mem_set_unit]
  exact Iff.rfl

/-- THE RESULT ARRAY after the region: the fused tail of the arrays as the region finds them (image n is written by point n / 8),
    given the body's closed form on a block (`hout`). -/
theorem final2_of (hout : ∀ (x0 : Vec Ideal S8x17x17x512 .bf16) (x1 : Vec Ideal S4x512x128 .bf16) (x2 : Vec Ideal S1x128 .f32) (x3 : Vec Ideal S9x128x128 .bf16) (x4 : Vec Ideal S128x128 .bf16) (x5 : Vec Ideal S9x128x128 .bf16) (x6 : Vec Ideal S128x128 .bf16)
      (w3 : (⟨2, ![2048, 128]⟩ : Shape).Idx → EReal) (r0w1 r1w1 : (⟨2, ![1152, 128]⟩ : Shape).Idx → EReal) (r0w2 r1w2 : (⟨2, ![128, 128]⟩ : Shape).Idx → EReal),
      x1 = slabs 4 512 2048 rfl w3 → x3 = slabs 9 128 1152 rfl r0w1 → x4 = r0w2 → x5 = slabs 9 128 1152 rfl r1w1 → x6 = r1w2 →
      ∀ (p : Fin 8) (i j : Fin 16) (o : Fin 128),
        out2_7 (F := Ideal) x0 x1 x2 x3 x4 x5 x6 (ix4 p i j o)
          = resSpec 8 true (padSpec 8 (resSpec 8 false (padSpec 8 (convSpec 8 17 16 512 2048 rfl rfl false x0 w3 x2)) r0w1 r0w2)) r1w1 r1w2 (ix4 p i j o))
    (V : (c : Dev nD) → (b : Ref sig .tc) → Buf (Elt Ideal) ((c : Thread nD τ).loc b)) (c : Dev nD) (w3 : (⟨2, ![2048, 128]⟩ : Shape).Idx → EReal) (r0w1 : (⟨2, ![1152, 128]⟩ : Shape).Idx → EReal) (r0w2 : (⟨2, ![128, 128]⟩ : Shape).Idx → EReal) (r1w1 : (⟨2, ![1152, 128]⟩ : Shape).Idx → EReal) (r1w2 : (⟨2, ![128, 128]⟩ : Shape).Idx → EReal)
    (h1 : V c (Pipeline.arrRef spec2 1) = slabs 4 512 2048 rfl w3) (h3 : V c (Pipeline.arrRef spec2 3) = slabs 9 128 1152 rfl r0w1) (h4 : V c (Pipeline.arrRef spec2 4) = r0w2)
    (h5 : V c (Pipeline.arrRef spec2 5) = slabs 9 128 1152 rfl r1w1) (h6 : V c (Pipeline.arrRef spec2 6) = r1w2) :
    (dat2 (F := Ideal) V c).arrAt 7 cfg2.N = resSpec 128 true (padSpec 128 (resSpec 128 false (padSpec 128 (convSpec 128 17 16 512 2048 rfl rfl false (V c (Pipeline.arrRef spec2 0)) w3 (V c (Pipeline.arrRef spec2 2)))) r0w1 r0w2)) r1w1 r1w2 :=
  (dat2 V c).arrAt_eq_of_cover 7 _ (fun t _ => kv2_flushed hout V c w3 r0w1 r0w2 r1w1 r1w2 h1 h3 h4 h5 h6 t) fun i => by
    have h0 : (i 0 : ℕ) < 128 := (i 0).isLt
    have h1' : (i 1 : ℕ) < 16 := (i 1).isLt
    have h2' : (i 2 : ℕ) < 16 := (i 2).isLt
    have h3' : (i 3 : ℕ) < 128 := (i 3).isLt
    have hq : (i 0).val / 8 < 16 := by omega
    refine ⟨(⟨(i 0).val / 8, hq⟩ : Fin 16).cast N_2.symm, flush2_7 _, ?_⟩
    obtain ⟨-, -, -, -, -, -, -, -, -, -, -, -, -, -, -, -, -, -, -, e0, e1, e2, e3⟩ := kv2_idx ((⟨(i 0).val / 8, hq⟩ : Fin 16).cast N_2.symm)
    rw [kv2_mem_blk]
    intro a
    match a with
    | ⟨0, _⟩ => show win2_7.index _ (0 : Fin 4) * 8 ≤ (i 0).val ∧ (i 0).val < win2_7.index _ (0 : Fin 4) * 8 + 8; rw [e0]; show (i 0).val / 8 * 8 ≤ (i 0).val ∧ (i 0).val < (i 0).val / 8 * 8 + 8; omega
    | ⟨1, _⟩ => show win2_7.index _ (1 : Fin 4) * 16 ≤ (i 1).val ∧ (i 1).val < win2_7.index _ (1 : Fin 4) * 16 + 16; rw [e1]; omega
    | ⟨2, _⟩ => show win2_7.index _ (2 : Fin 4) * 16 ≤ (i 2).val ∧ (i 2).val < win2_7.index _ (2 : Fin 4) * 16 + 16; rw [e2]; omega
    | ⟨3, _⟩ => show win2_7.index _ (3 : Fin 4) * 128 ≤ (i 3).val ∧ (i 3).val < win2_7.index _ (3 : Fin 4) * 128 + 128; rw [e3]; omega

end Cert.KernelIdeal.Hand

end
-- ==== Proof.KPay2c.lean ====
/-
  The third convolution's payload (region 2's first stage), read at a row, over the extended reals: the bias row plus the four
  taps' products against the four loaded slabs of the weight is the layer's formula (Spec.lean `convSpec`, no clamp) on the block
  of eight images, the sum over the 2048 weight rows taken slab by slab.
-/
import proofs.«119654_g2000206494441110_pallasbulk_512_2_alg».proof.Proof.Gen.KernelIdeal.Skeleton
import proofs.«119654_g2000206494441110_pallasbulk_512_2_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«119654_g2000206494441110_pallasbulk_512_2_alg».proof.Proof.KPay0
set_option maxRecDepth 16384

noncomputable section

namespace Cert.KernelIdeal.Hand

open Cert.KernelIdeal Cert.KernelIdeal.Gen Cert.Spec
open Idealize.ShloMosaic Idealize.ShloMosaic.ValueIdx

/-- One tap of the layer: the slice at offset (a, b), flattened to rows, read at row 256p + 16i + j. -/
theorem tap2_apply {α : Type} (x : S8x17x17x512.Idx → α) (a b : Nat) (ha : a ≤ 1) (hb : b ≤ 1)
    (hs : S8x17x17x512.Slices ![0, a, b, 0] S8x16x16x512) (hc : S8x16x16x512.ShapeCasts S2048x512)
    (h0 : S8x17x17x512.ShapeCasts S8x17x17x512) (p : Fin 8) (i j : Fin 16) (q : Fin 512) :
    shapeCast S2048x512 (extractStridedSlice S8x16x16x512 ![0, a, b, 0] (shapeCast S8x17x17x512 x h0) hs) hc
        (ix2 ⟨256 * p.val + 16 * i.val + j.val, by omega⟩ q)
      = x (ix4 p ⟨i.val + a, by omega⟩ ⟨j.val + b, by omega⟩ q) := by
  refine (shapeCast_apply _ hc _ (ix4 p i j q) ?_).trans ?_
  · rw [Shape.rowMajor_val_four, Shape.rowMajor_val_two]
    show ((p.val * 16 + i.val) * 16 + j.val) * 512 + q.val = (256 * p.val + 16 * i.val + j.val) * 512 + q.val
    omega
  refine (extractStridedSlice_apply _ _ hs _ (ix4 p ⟨i.val + a, by omega⟩ ⟨j.val + b, by omega⟩ q) ?_).trans ?_
  · intro ax
    match ax with
    | ⟨0, _⟩ => show p.val = 0 + p.val; omega
    | ⟨1, _⟩ => show i.val + a = a + i.val; omega
    | ⟨2, _⟩ => show j.val + b = b + j.val; omega
    | ⟨3, _⟩ => show q.val = 0 + q.val; omega
  exact shapeCast_apply _ h0 _ _ rfl

/-- The product into the zero accumulator at an index: the sum over the 512 columns. -/
theorem mm2_apply (A : FVec Ideal S2048x512 .bf16) (Bm : FVec Ideal S512x128 .bf16) (r : Fin 2048) (o : Fin 128) :
    matmul dot_S2048x512_S512x128_S2048x128_1_0_0_1_n_n none A Bm (constant S2048x128 .f32 0x00000000#32) (ix2 r o)
      = ∑ c : Fin 512, A (ix2 r c) * Bm (ix2 c o) := by
  show FloatOps.matmul _ none A Bm _ (ix2 r o) = _
  rw [Ideal.matmul_constant_zero_apply,
    ← Equiv.sum_comp (contrEquiv1 dot_S2048x512_S512x128_S2048x128_1_0_0_1_n_n 512 rfl rfl).symm]
  refine Finset.sum_congr rfl fun c _ => ?_
  have c2 := contrEquiv1_symm_val dot_S2048x512_S512x128_S2048x128_1_0_0_1_n_n 512 rfl rfl c
  have l2 : dot_S2048x512_S512x128_S2048x128_1_0_0_1_n_n.lhsIdx (ix2 r o) ((contrEquiv1 _ 512 rfl rfl).symm c) = ix2 r c := by
    funext ax; apply Fin.ext
    match ax with
    | ⟨0, _⟩ => simp [DotDims.lhsIdx, dot_S2048x512_S512x128_S2048x128_1_0_0_1_n_n]; rfl
    | ⟨1, _⟩ => simp [DotDims.lhsIdx, dot_S2048x512_S512x128_S2048x128_1_0_0_1_n_n]; exact c2
  have r2 : dot_S2048x512_S512x128_S2048x128_1_0_0_1_n_n.rhsIdx (ix2 r o) ((contrEquiv1 _ 512 rfl rfl).symm c) = ix2 c o := by
    funext ax; apply Fin.ext
    match ax with
    | ⟨0, _⟩ => simp [DotDims.rhsIdx, dot_S2048x512_S512x128_S2048x128_1_0_0_1_n_n]; exact c2
    | ⟨1, _⟩ => simp [DotDims.rhsIdx, dot_S2048x512_S512x128_S2048x128_1_0_0_1_n_n]; rfl
  rw [l2, r2]

/-- The bias row broadcast down the 2048 rows. -/
theorem bias2_apply (x2 : Vec Ideal S1x128 .f32) (r : Fin 2048) (o : Fin 128) :
    broadcastTo S2048x128 x2 broadcasts_S1x128_S2048x128 (ix2 r o) = x2 (ix2 (0 : Fin 1) o) := by
  refine broadcastTo_apply x2 _ (ix2 r o) (ix2 (0 : Fin 1) o) fun a => ?_
  match a with
  | ⟨0, _⟩ => rfl
  | ⟨1, _⟩ => rfl

/-- One tap's product: tap t = 2a + b of the input against slab t of the flat weight, as the slab's part of the
    layer's sum over the 2048 weight rows. -/
theorem dot2_apply (x0 : Vec Ideal S8x17x17x512 .bf16) (v : Vec Ideal S1x512x128 .bf16)
    (w : (⟨2, ![2048, 128]⟩ : Shape).Idx → EReal) (t : Fin 4) (a b : Nat) (ha : a = t.val / 2) (hb : b = t.val % 2)
    (hs : S8x17x17x512.Slices ![0, a, b, 0] S8x16x16x512)
    (hv : ∀ (q : Fin 512) (o : Fin 128), v (ix3 (0 : Fin 1) q o) = w (ix2 ⟨512 * t.val + q.val, by omega⟩ o))
    (p : Fin 8) (i j : Fin 16) (o : Fin 128) :
    (matmul (F := Ideal) (φ₁ := .bf16) (φ₂ := .bf16) dot_S2048x512_S512x128_S2048x128_1_0_0_1_n_n none
        (shapeCast S2048x512 (extractStridedSlice S8x16x16x512 ![0, a, b, 0] (shapeCast S8x17x17x512 x0 shapeCasts_S8x17x17x512_S8x17x17x512) hs) shapeCasts_S8x16x16x512_S2048x512)
        (shapeCast S512x128 v shapeCasts_S1x512x128_S512x128) (constant S2048x128 .f32 0x00000000#32)
        (ix2 ⟨256 * p.val + 16 * i.val + j.val, by omega⟩ o) : EReal)
      = ∑ q : Fin 512, (x0 (ix4 p ⟨i.val + (512 * t.val + q.val) / 512 / 2, by omega⟩ ⟨j.val + (512 * t.val + q.val) / 512 % 2, by omega⟩
            ⟨(512 * t.val + q.val) % 512, Nat.mod_lt _ (by omega)⟩) : EReal) * w (ix2 ⟨512 * t.val + q.val, by omega⟩ o) := by
  refine (mm2_apply _ _ _ o).trans (Finset.sum_congr rfl fun q _ => ?_)
  refine congrArg₂ (· * ·) ((tap2_apply x0 a b (by omega) (by omega) hs _ _ p i j q).trans ?_) ?_
  · exact congrArg x0 (ix4_congr rfl (by show i.val + a = i.val + (512 * t.val + q.val) / 512 / 2; omega)
      (by show j.val + b = j.val + (512 * t.val + q.val) / 512 % 2; omega) (by show q.val = (512 * t.val + q.val) % 512; omega))
  · refine (shapeCast_apply v shapeCasts_S1x512x128_S512x128 (ix2 q o) (ix3 (0 : Fin 1) q o) ?_).trans (hv q o)
    rw [Shape.rowMajor_val_three, Shape.rowMajor_val_two]
    show (0 * 512 + q.val) * 128 + o.val = q.val * 128 + o.val
    omega

/-- The kernel adds the bias first, the formula last. -/
private theorem bias_first (b g0 g1 g2 g3 : EReal) : b + g0 + g1 + g2 + g3 = g0 + g1 + g2 + g3 + b := by abel

/-- **The third convolution's payload at a row** is the layer's formula (no clamp) on the block of 8 images: row 256p + 16i + j
    of the [2048, 128] matrix is pixel (i, j) of image p. -/
theorem pay2c_apply (x0 : Vec Ideal S8x17x17x512 .bf16) (x2 : Vec Ideal S1x128 .f32) (w : (⟨2, ![2048, 128]⟩ : Shape).Idx → EReal)
    (va vb vc vd : Vec Ideal S1x512x128 .bf16)
    (ha : ∀ (q : Fin 512) (o : Fin 128), va (ix3 (0 : Fin 1) q o) = w (ix2 ⟨512 * 0 + q.val, by omega⟩ o))
    (hb : ∀ (q : Fin 512) (o : Fin 128), vb (ix3 (0 : Fin 1) q o) = w (ix2 ⟨512 * 1 + q.val, by omega⟩ o))
    (hc : ∀ (q : Fin 512) (o : Fin 128), vc (ix3 (0 : Fin 1) q o) = w (ix2 ⟨512 * 2 + q.val, by omega⟩ o))
    (hd : ∀ (q : Fin 512) (o : Fin 128), vd (ix3 (0 : Fin 1) q o) = w (ix2 ⟨512 * 3 + q.val, by omega⟩ o))
    (p : Fin 8) (i j : Fin 16) (o : Fin 128) :
    k2_pay2 (F := Ideal) x0 x2 va vb vc vd (ix2 ⟨256 * p.val + 16 * i.val + j.val, by omega⟩ o) = convSpec 8 17 16 512 2048 rfl rfl false x0 w x2 (ix4 p i j o) := by
  have hr : 256 * p.val + 16 * i.val + j.val < 2048 := by omega
  rw [convSpec_false_apply, sum_rows_slabs 4 512 2048 rfl, Fin.sum_univ_four]
  unfold k2_pay2
  refine (((addf_apply _ _ _).trans (congrArg₂ (· + ·) ((addf_apply _ _ _).trans (congrArg₂ (· + ·) ((addf_apply _ _ _).trans (congrArg₂ (· + ·)
      ((addf_apply _ _ _).trans (congrArg₂ (· + ·) (bias2_apply x2 ⟨_, hr⟩ o)
        (dot2_apply x0 va w 0 0 0 rfl rfl _ ha p i j o)))
        (dot2_apply x0 vb w 1 0 1 rfl rfl _ hb p i j o)))
        (dot2_apply x0 vc w 2 1 0 rfl rfl _ hc p i j o)))
        (dot2_apply x0 vd w 3 1 1 rfl rfl _ hd p i j o)))).trans ?_
  exact bias_first _ _ _ _ _

end Cert.KernelIdeal.Hand

end
-- ==== Proof.KPay2r.lean ====
/-
  The residual layer of the fused tail, read at one element of its [2048, 128] row matrix: row 256p + 16i + j is pixel (i, j) of image p of the block.
  The nine partial products of the 3×3 convolution, one per tap and each a sum over 128 lanes, join to one sum over the 9·128 weight rows.
-/
import proofs.«119654_g2000206494441110_pallasbulk_512_2_alg».proof.Proof.Gen.KernelIdeal.Skeleton
import proofs.«119654_g2000206494441110_pallasbulk_512_2_alg».proof.Proof.Spec
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec Idealize.ShloMosaic Idealize.ShloMosaic.ValueIdx

/-- A [2048, 128] by [128, 128] block product into the zero accumulator, at (r, o): the sum over the contracted lane. -/
theorem mm_apply (A : FVec Ideal S2048x128 .bf16) (B : FVec Ideal S128x128 .bf16) (r : Fin 2048) (o : Fin 128) :
    matmul dot_S2048x128_S128x128_S2048x128_1_0_0_1_n_n none A B (constant S2048x128 .f32 0x00000000#32) (ix2 r o)
      = ∑ c : Fin 128, A (ix2 r c) * B (ix2 c o) := by
  show FloatOps.matmul dot_S2048x128_S128x128_S2048x128_1_0_0_1_n_n none A B (constant S2048x128 .f32 0x00000000#32) (ix2 r o) = _
  rw [Ideal.matmul_constant_zero_apply,
    ← Equiv.sum_comp (contrEquiv1 dot_S2048x128_S128x128_S2048x128_1_0_0_1_n_n 128 rfl rfl).symm]
  refine Finset.sum_congr rfl fun c _ => ?_
  have c2 := contrEquiv1_symm_val dot_S2048x128_S128x128_S2048x128_1_0_0_1_n_n 128 rfl rfl c
  have l2 : dot_S2048x128_S128x128_S2048x128_1_0_0_1_n_n.lhsIdx (ix2 r o) ((contrEquiv1 _ 128 rfl rfl).symm c) = ix2 r c := by
    funext ax; apply Fin.ext
    match ax with
    | ⟨0, _⟩ => simp [DotDims.lhsIdx, dot_S2048x128_S128x128_S2048x128_1_0_0_1_n_n]; rfl
    | ⟨1, _⟩ => simp [DotDims.lhsIdx, dot_S2048x128_S128x128_S2048x128_1_0_0_1_n_n]; exact c2
  have r2 : dot_S2048x128_S128x128_S2048x128_1_0_0_1_n_n.rhsIdx (ix2 r o) ((contrEquiv1 _ 128 rfl rfl).symm c) = ix2 c o := by
    funext ax; apply Fin.ext
    match ax with
    | ⟨0, _⟩ => simp [DotDims.rhsIdx, dot_S2048x128_S128x128_S2048x128_1_0_0_1_n_n]; exact c2
    | ⟨1, _⟩ => simp [DotDims.rhsIdx, dot_S2048x128_S128x128_S2048x128_1_0_0_1_n_n]; rfl
  rw [l2, r2]

/-- The window of the padded scratch at tap offset (a, b), flattened to rows: row 256p + 16i + j is cell (i + a, j + b) of image p. -/
theorem tap_rows (a b : ℕ) (ha : a ≤ 2) (hb : b ≤ 2) (scr : Vec Ideal S8x18x18x128 .bf16)
    (h1 : S8x18x18x128.Slices ![0, a, b, 0] S8x16x16x128) (h2 : S8x16x16x128.ShapeCasts S2048x128)
    (p : Fin 8) (i j : Fin 16) (c : Fin 128) :
    shapeCast S2048x128 (extractStridedSlice S8x16x16x128 ![0, a, b, 0] scr h1) h2
        (ix2 ⟨256 * p.val + 16 * i.val + j.val, by have := p.isLt; have := i.isLt; have := j.isLt; omega⟩ c)
      = scr (ix4 p ⟨i.val + a, by have := i.isLt; omega⟩ ⟨j.val + b, by have := j.isLt; omega⟩ c) := by
  refine (shapeCast_apply _ h2 _ (ix4 p i j c) ?_).trans ?_
  · rw [Shape.rowMajor_val_four, Shape.rowMajor_val_two]
    show ((p.val * 16 + i.val) * 16 + j.val) * 128 + c.val = (256 * p.val + 16 * i.val + j.val) * 128 + c.val
    omega
  · refine extractStridedSlice_apply _ scr h1 (ix4 p i j c) _ fun ax => ?_
    match ax with
    | ⟨0, _⟩ => show p.val = 0 + p.val; omega
    | ⟨1, _⟩ => show i.val + a = a + i.val; omega
    | ⟨2, _⟩ => show j.val + b = b + j.val; omega
    | ⟨3, _⟩ => show c.val = 0 + c.val; omega

/-- One tap's partial product at (row, c'): the sum over the 128 lanes of the scratch cell times the tap's weight slab. -/
theorem tap_apply (a b : ℕ) (ha : a ≤ 2) (hb : b ≤ 2) (scr : Vec Ideal S8x18x18x128 .bf16) (s : Vec Ideal S1x128x128 .bf16)
    (h1 : S8x18x18x128.Slices ![0, a, b, 0] S8x16x16x128) (h2 : S8x16x16x128.ShapeCasts S2048x128)
    (h3 : S1x128x128.ShapeCasts S128x128) (p : Fin 8) (i j : Fin 16) (c' : Fin 128) :
    matmul (F := Ideal) (φ₁ := .bf16) (φ₂ := .bf16) dot_S2048x128_S128x128_S2048x128_1_0_0_1_n_n none
        (shapeCast S2048x128 (extractStridedSlice S8x16x16x128 ![0, a, b, 0] scr h1) h2) (shapeCast S128x128 s h3)
        (constant (F := Ideal) S2048x128 .f32 0x00000000#32) (ix2 ⟨256 * p.val + 16 * i.val + j.val, by have := p.isLt; have := i.isLt; have := j.isLt; omega⟩ c')
      = ∑ q : Fin 128, scr (ix4 p ⟨i.val + a, by have := i.isLt; omega⟩ ⟨j.val + b, by have := j.isLt; omega⟩ q) * s (ix3 (0 : Fin 1) q c') := by
  rw [mm_apply]
  refine Finset.sum_congr rfl fun q _ => ?_
  rw [tap_rows a b ha hb scr h1 h2 p i j q, shapeCast_1ab_ab_apply]

/-- The lanes of tap t = 3a + b are the weight rows 128t … 128t + 127: its partial product is that stretch of the sum over all rows. -/
theorem tap_sum (scr : Vec Ideal S8x18x18x128 .bf16) (w1 : (⟨2, ![1152, 128]⟩ : Shape).Idx → EReal) (s : Vec Ideal S1x128x128 .bf16)
    (a b t : ℕ) (ha : a ≤ 2) (hb : b ≤ 2) (ht : t = 3 * a + b)
    (hs : ∀ (q c' : Fin 128), s (ix3 (0 : Fin 1) q c') = w1 (ix2 ⟨128 * t + q.val, by have := q.isLt; omega⟩ c'))
    (p : Fin 8) (i j : Fin 16) (c' : Fin 128) :
    ∑ q : Fin 128, scr (ix4 p ⟨i.val + a, by have := i.isLt; omega⟩ ⟨j.val + b, by have := j.isLt; omega⟩ q) * s (ix3 (0 : Fin 1) q c')
      = ∑ q : Fin 128,
          scr (ix4 p ⟨i.val + (128 * t + q.val) / 128 / 3, by have := i.isLt; have := q.isLt; omega⟩
                ⟨j.val + (128 * t + q.val) / 128 % 3, by have := j.isLt; omega⟩ ⟨(128 * t + q.val) % 128, Nat.mod_lt _ (by omega)⟩)
            * w1 (ix2 ⟨128 * t + q.val, by have := q.isLt; omega⟩ c') := by
  refine Finset.sum_congr rfl fun q _ => ?_
  rw [hs q c']
  refine congrArg (fun z => scr z * w1 (ix2 ⟨128 * t + q.val, by have := q.isLt; omega⟩ c')) ?_
  funext ax
  match ax with
  | ⟨0, _⟩ => rfl
  | ⟨1, _⟩ => exact Fin.ext (by show i.val + a = i.val + (128 * t + q.val) / 128 / 3; have := q.isLt; omega)
  | ⟨2, _⟩ => exact Fin.ext (by show j.val + b = j.val + (128 * t + q.val) / 128 % 3; have := q.isLt; omega)
  | ⟨3, _⟩ => exact Fin.ext (by show q.val = (128 * t + q.val) % 128; have := q.isLt; omega)

/-- The partial product of tap (a, b) of the scratch with the weight slab s. -/
def tapMM (a b : ℕ) (h1 : S8x18x18x128.Slices ![0, a, b, 0] S8x16x16x128) (scr : Vec Ideal S8x18x18x128 .bf16)
    (s : Vec Ideal S1x128x128 .bf16) : FVec Ideal S2048x128 .f32 :=
  matmul (F := Ideal) (φ₁ := .bf16) (φ₂ := .bf16) dot_S2048x128_S128x128_S2048x128_1_0_0_1_n_n none
    (shapeCast S2048x128 (extractStridedSlice S8x16x16x128 ![0, a, b, 0] scr h1) Facts₀.shapeCasts_S8x16x16x128_S2048x128)
    (shapeCast S128x128 s Facts₀.shapeCasts_S1x128x128_S128x128) (constant (F := Ideal) S2048x128 .f32 0x00000000#32)

/-- The nine partial products, added in tap order. -/
def hidden9 (scr : Vec Ideal S8x18x18x128 .bf16) (s0 s1 s2 s3 s4 s5 s6 s7 s8 : Vec Ideal S1x128x128 .bf16) : FVec Ideal S2048x128 .f32 :=
  addf (addf (addf (addf (addf (addf (addf (addf
    (tapMM 0 0 Facts₀.slices_S8x18x18x128_o0_0_0_0_S8x16x16x128 scr s0)
    (tapMM 0 1 Facts₀.slices_S8x18x18x128_o0_0_1_0_S8x16x16x128 scr s1))
    (tapMM 0 2 Facts₀.slices_S8x18x18x128_o0_0_2_0_S8x16x16x128 scr s2))
    (tapMM 1 0 Facts₀.slices_S8x18x18x128_o0_1_0_0_S8x16x16x128 scr s3))
    (tapMM 1 1 Facts₀.slices_S8x18x18x128_o0_1_1_0_S8x16x16x128 scr s4))
    (tapMM 1 2 Facts₀.slices_S8x18x18x128_o0_1_2_0_S8x16x16x128 scr s5))
    (tapMM 2 0 Facts₀.slices_S8x18x18x128_o0_2_0_0_S8x16x16x128 scr s6))
    (tapMM 2 1 Facts₀.slices_S8x18x18x128_o0_2_1_0_S8x16x16x128 scr s7))
    (tapMM 2 2 Facts₀.slices_S8x18x18x128_o0_2_2_0_S8x16x16x128 scr s8)

/-- The first residual layer's payload, spelled over the nine partial products. -/
theorem pay7_eq (hmat : FVec Ideal S2048x128 .f32) (scr : Vec Ideal S8x18x18x128 .bf16)
    (s0 s1 s2 s3 s4 s5 s6 s7 s8 : Vec Ideal S1x128x128 .bf16) (w2 : Vec Ideal S128x128 .bf16) :
    k2_pay7 (F := Ideal) hmat scr (k2_pay5 scr s0 s1 s2 s3) (k2_pay6 scr) s4 s5 s6 s7 s8 w2
      = addf hmat (matmul (F := Ideal) (φ₁ := .bf16) (φ₂ := .bf16) dot_S2048x128_S128x128_S2048x128_1_0_0_1_n_n none
          (truncf .bf16 (maximumf (hidden9 scr s0 s1 s2 s3 s4 s5 s6 s7 s8) (broadcast S2048x128 (Scalar.ofBits (F := Ideal) .f32 0x00000000#32)))
            Facts₀.bitsLt_bf16_f32)
          (shapeCast S128x128 w2 Facts₀.shapeCasts_S128x128_S128x128) (constant (F := Ideal) S2048x128 .f32 0x00000000#32)) := rfl

/-- The second residual layer's payload is the first's, on its own operands, under the final ReLU. -/
theorem pay11_eq (hmat : FVec Ideal S2048x128 .f32) (scr : Vec Ideal S8x18x18x128 .bf16)
    (s0 s1 s2 s3 s4 s5 s6 s7 s8 : Vec Ideal S1x128x128 .bf16) (w2 : Vec Ideal S128x128 .bf16) :
    k2_pay11 (F := Ideal) hmat scr (k2_pay9 scr s0 s1 s2 s3) (k2_pay10 scr) s4 s5 s6 s7 s8 w2
      = maximumf (k2_pay7 (F := Ideal) hmat scr (k2_pay5 scr s0 s1 s2 s3) (k2_pay6 scr) s4 s5 s6 s7 s8 w2)
          (broadcast S2048x128 (Scalar.ofBits (F := Ideal) .f32 0x00000000#32)) := rfl

/-- The hidden pre-activation at (row, c'): the nine partial products join to one sum over the 9·128 weight rows. -/
theorem hidden9_apply (scr : Vec Ideal S8x18x18x128 .bf16) (w1 : (⟨2, ![1152, 128]⟩ : Shape).Idx → EReal)
    (s0 s1 s2 s3 s4 s5 s6 s7 s8 : Vec Ideal S1x128x128 .bf16)
    (hs0 : ∀ (q c' : Fin 128), s0 (ix3 (0 : Fin 1) q c') = w1 (ix2 ⟨128 * 0 + q.val, by have := q.isLt; omega⟩ c'))
    (hs1 : ∀ (q c' : Fin 128), s1 (ix3 (0 : Fin 1) q c') = w1 (ix2 ⟨128 * 1 + q.val, by have := q.isLt; omega⟩ c'))
    (hs2 : ∀ (q c' : Fin 128), s2 (ix3 (0 : Fin 1) q c') = w1 (ix2 ⟨128 * 2 + q.val, by have := q.isLt; omega⟩ c'))
    (hs3 : ∀ (q c' : Fin 128), s3 (ix3 (0 : Fin 1) q c') = w1 (ix2 ⟨128 * 3 + q.val, by have := q.isLt; omega⟩ c'))
    (hs4 : ∀ (q c' : Fin 128), s4 (ix3 (0 : Fin 1) q c') = w1 (ix2 ⟨128 * 4 + q.val, by have := q.isLt; omega⟩ c'))
    (hs5 : ∀ (q c' : Fin 128), s5 (ix3 (0 : Fin 1) q c') = w1 (ix2 ⟨128 * 5 + q.val, by have := q.isLt; omega⟩ c'))
    (hs6 : ∀ (q c' : Fin 128), s6 (ix3 (0 : Fin 1) q c') = w1 (ix2 ⟨128 * 6 + q.val, by have := q.isLt; omega⟩ c'))
    (hs7 : ∀ (q c' : Fin 128), s7 (ix3 (0 : Fin 1) q c') = w1 (ix2 ⟨128 * 7 + q.val, by have := q.isLt; omega⟩ c'))
    (hs8 : ∀ (q c' : Fin 128), s8 (ix3 (0 : Fin 1) q c') = w1 (ix2 ⟨128 * 8 + q.val, by have := q.isLt; omega⟩ c'))
    (p : Fin 8) (i j : Fin 16) (c' : Fin 128) :
    hidden9 scr s0 s1 s2 s3 s4 s5 s6 s7 s8 (ix2 ⟨256 * p.val + 16 * i.val + j.val, by have := p.isLt; have := i.isLt; have := j.isLt; omega⟩ c')
      = ∑ k : Fin 1152, scr (ix4 p ⟨i.val + k.val / 128 / 3, by have := i.isLt; have := k.isLt; omega⟩ ⟨j.val + k.val / 128 % 3, by have := j.isLt; omega⟩ ⟨k.val % 128, Nat.mod_lt _ (by omega)⟩) * w1 (ix2 k c') := by
  have e0 := (tap_apply 0 0 (by omega) (by omega) scr s0 Facts₀.slices_S8x18x18x128_o0_0_0_0_S8x16x16x128 Facts₀.shapeCasts_S8x16x16x128_S2048x128 Facts₀.shapeCasts_S1x128x128_S128x128 p i j c').trans
    (tap_sum scr w1 s0 0 0 0 (by omega) (by omega) rfl hs0 p i j c')
  have e1 := (tap_apply 0 1 (by omega) (by omega) scr s1 Facts₀.slices_S8x18x18x128_o0_0_1_0_S8x16x16x128 Facts₀.shapeCasts_S8x16x16x128_S2048x128 Facts₀.shapeCasts_S1x128x128_S128x128 p i j c').trans
    (tap_sum scr w1 s1 0 1 1 (by omega) (by omega) rfl hs1 p i j c')
  have e2 := (tap_apply 0 2 (by omega) (by omega) scr s2 Facts₀.slices_S8x18x18x128_o0_0_2_0_S8x16x16x128 Facts₀.shapeCasts_S8x16x16x128_S2048x128 Facts₀.shapeCasts_S1x128x128_S128x128 p i j c').trans
    (tap_sum scr w1 s2 0 2 2 (by omega) (by omega) rfl hs2 p i j c')
  have e3 := (tap_apply 1 0 (by omega) (by omega) scr s3 Facts₀.slices_S8x18x18x128_o0_1_0_0_S8x16x16x128 Facts₀.shapeCasts_S8x16x16x128_S2048x128 Facts₀.shapeCasts_S1x128x128_S128x128 p i j c').trans
    (tap_sum scr w1 s3 1 0 3 (by omega) (by omega) rfl hs3 p i j c')
  have e4 := (tap_apply 1 1 (by omega) (by omega) scr s4 Facts₀.slices_S8x18x18x128_o0_1_1_0_S8x16x16x128 Facts₀.shapeCasts_S8x16x16x128_S2048x128 Facts₀.shapeCasts_S1x128x128_S128x128 p i j c').trans
    (tap_sum scr w1 s4 1 1 4 (by omega) (by omega) rfl hs4 p i j c')
  have e5 := (tap_apply 1 2 (by omega) (by omega) scr s5 Facts₀.slices_S8x18x18x128_o0_1_2_0_S8x16x16x128 Facts₀.shapeCasts_S8x16x16x128_S2048x128 Facts₀.shapeCasts_S1x128x128_S128x128 p i j c').trans
    (tap_sum scr w1 s5 1 2 5 (by omega) (by omega) rfl hs5 p i j c')
  have e6 := (tap_apply 2 0 (by omega) (by omega) scr s6 Facts₀.slices_S8x18x18x128_o0_2_0_0_S8x16x16x128 Facts₀.shapeCasts_S8x16x16x128_S2048x128 Facts₀.shapeCasts_S1x128x128_S128x128 p i j c').trans
    (tap_sum scr w1 s6 2 0 6 (by omega) (by omega) rfl hs6 p i j c')
  have e7 := (tap_apply 2 1 (by omega) (by omega) scr s7 Facts₀.slices_S8x18x18x128_o0_2_1_0_S8x16x16x128 Facts₀.shapeCasts_S8x16x16x128_S2048x128 Facts₀.shapeCasts_S1x128x128_S128x128 p i j c').trans
    (tap_sum scr w1 s7 2 1 7 (by omega) (by omega) rfl hs7 p i j c')
  have e8 := (tap_apply 2 2 (by omega) (by omega) scr s8 Facts₀.slices_S8x18x18x128_o0_2_2_0_S8x16x16x128 Facts₀.shapeCasts_S8x16x16x128_S2048x128 Facts₀.shapeCasts_S1x128x128_S128x128 p i j c').trans
    (tap_sum scr w1 s8 2 2 8 (by omega) (by omega) rfl hs8 p i j c')
  refine Eq.trans ?_ (sum_rows_slabs 9 128 1152 rfl (fun k : Fin 1152 => scr (ix4 p ⟨i.val + k.val / 128 / 3, by have := i.isLt; have := k.isLt; omega⟩ ⟨j.val + k.val / 128 % 3, by have := j.isLt; omega⟩ ⟨k.val % 128, Nat.mod_lt _ (by omega)⟩) * w1 (ix2 k c'))).symm
  rw [Fin.sum_univ_castSucc, Fin.sum_univ_eight]
  show tapMM 0 0 _ scr s0 (ix2 ⟨256 * p.val + 16 * i.val + j.val, by have := p.isLt; have := i.isLt; have := j.isLt; omega⟩ c') + tapMM 0 1 _ scr s1 (ix2 ⟨256 * p.val + 16 * i.val + j.val, by have := p.isLt; have := i.isLt; have := j.isLt; omega⟩ c') + tapMM 0 2 _ scr s2 (ix2 ⟨256 * p.val + 16 * i.val + j.val, by have := p.isLt; have := i.isLt; have := j.isLt; omega⟩ c')
      + tapMM 1 0 _ scr s3 (ix2 ⟨256 * p.val + 16 * i.val + j.val, by have := p.isLt; have := i.isLt; have := j.isLt; omega⟩ c') + tapMM 1 1 _ scr s4 (ix2 ⟨256 * p.val + 16 * i.val + j.val, by have := p.isLt; have := i.isLt; have := j.isLt; omega⟩ c') + tapMM 1 2 _ scr s5 (ix2 ⟨256 * p.val + 16 * i.val + j.val, by have := p.isLt; have := i.isLt; have := j.isLt; omega⟩ c')
      + tapMM 2 0 _ scr s6 (ix2 ⟨256 * p.val + 16 * i.val + j.val, by have := p.isLt; have := i.isLt; have := j.isLt; omega⟩ c') + tapMM 2 1 _ scr s7 (ix2 ⟨256 * p.val + 16 * i.val + j.val, by have := p.isLt; have := i.isLt; have := j.isLt; omega⟩ c') + tapMM 2 2 _ scr s8 (ix2 ⟨256 * p.val + 16 * i.val + j.val, by have := p.isLt; have := i.isLt; have := j.isLt; omega⟩ c') = _
  unfold tapMM
  rw [e0, e1, e2, e3, e4, e5, e6, e7, e8]
  rfl

/-- THE FIRST RESIDUAL LAYER AT AN ELEMENT: the layer's input plus the 1×1 product of the rectified 3×3 convolution of the scratch. -/
theorem layer_rows (hmat : FVec Ideal S2048x128 .f32) (scr : Vec Ideal S8x18x18x128 .bf16) (w1 : (⟨2, ![1152, 128]⟩ : Shape).Idx → EReal)
    (s0 s1 s2 s3 s4 s5 s6 s7 s8 : Vec Ideal S1x128x128 .bf16) (w2 : Vec Ideal S128x128 .bf16)
    (hs0 : ∀ (q c' : Fin 128), s0 (ix3 (0 : Fin 1) q c') = w1 (ix2 ⟨128 * 0 + q.val, by have := q.isLt; omega⟩ c'))
    (hs1 : ∀ (q c' : Fin 128), s1 (ix3 (0 : Fin 1) q c') = w1 (ix2 ⟨128 * 1 + q.val, by have := q.isLt; omega⟩ c'))
    (hs2 : ∀ (q c' : Fin 128), s2 (ix3 (0 : Fin 1) q c') = w1 (ix2 ⟨128 * 2 + q.val, by have := q.isLt; omega⟩ c'))
    (hs3 : ∀ (q c' : Fin 128), s3 (ix3 (0 : Fin 1) q c') = w1 (ix2 ⟨128 * 3 + q.val, by have := q.isLt; omega⟩ c'))
    (hs4 : ∀ (q c' : Fin 128), s4 (ix3 (0 : Fin 1) q c') = w1 (ix2 ⟨128 * 4 + q.val, by have := q.isLt; omega⟩ c'))
    (hs5 : ∀ (q c' : Fin 128), s5 (ix3 (0 : Fin 1) q c') = w1 (ix2 ⟨128 * 5 + q.val, by have := q.isLt; omega⟩ c'))
    (hs6 : ∀ (q c' : Fin 128), s6 (ix3 (0 : Fin 1) q c') = w1 (ix2 ⟨128 * 6 + q.val, by have := q.isLt; omega⟩ c'))
    (hs7 : ∀ (q c' : Fin 128), s7 (ix3 (0 : Fin 1) q c') = w1 (ix2 ⟨128 * 7 + q.val, by have := q.isLt; omega⟩ c'))
    (hs8 : ∀ (q c' : Fin 128), s8 (ix3 (0 : Fin 1) q c') = w1 (ix2 ⟨128 * 8 + q.val, by have := q.isLt; omega⟩ c'))
    (p : Fin 8) (i j : Fin 16) (o : Fin 128) :
    k2_pay7 (F := Ideal) hmat scr (k2_pay5 scr s0 s1 s2 s3) (k2_pay6 scr) s4 s5 s6 s7 s8 w2 (ix2 ⟨256 * p.val + 16 * i.val + j.val, by have := p.isLt; have := i.isLt; have := j.isLt; omega⟩ o)
      = hmat (ix2 ⟨256 * p.val + 16 * i.val + j.val, by have := p.isLt; have := i.isLt; have := j.isLt; omega⟩ o)
        + ∑ c' : Fin 128, max (∑ k : Fin 1152, scr (ix4 p ⟨i.val + k.val / 128 / 3, by have := i.isLt; have := k.isLt; omega⟩ ⟨j.val + k.val / 128 % 3, by have := j.isLt; omega⟩ ⟨k.val % 128, Nat.mod_lt _ (by omega)⟩) * w1 (ix2 k c')) 0 * w2 (ix2 c' o) := by
  rw [pay7_eq]
  show hmat (ix2 ⟨256 * p.val + 16 * i.val + j.val, by have := p.isLt; have := i.isLt; have := j.isLt; omega⟩ o) + matmul (F := Ideal) (φ₁ := .bf16) (φ₂ := .bf16) dot_S2048x128_S128x128_S2048x128_1_0_0_1_n_n none _ _ (constant (F := Ideal) S2048x128 .f32 0x00000000#32) (ix2 ⟨256 * p.val + 16 * i.val + j.val, by have := p.isLt; have := i.isLt; have := j.isLt; omega⟩ o) = _
  rw [mm_apply]
  refine congrArg (fun x : EReal => hmat (ix2 ⟨256 * p.val + 16 * i.val + j.val, by have := p.isLt; have := i.isLt; have := j.isLt; omega⟩ o) + x) (Finset.sum_congr rfl fun c' _ => ?_)
  show max (hidden9 scr s0 s1 s2 s3 s4 s5 s6 s7 s8 (ix2 ⟨256 * p.val + 16 * i.val + j.val, by have := p.isLt; have := i.isLt; have := j.isLt; omega⟩ c')) (Ideal.ofBits .f32 0x00000000#32) * shapeCast S128x128 w2 Facts₀.shapeCasts_S128x128_S128x128 (ix2 c' o) = _
  rw [hidden9_apply scr w1 s0 s1 s2 s3 s4 s5 s6 s7 s8 hs0 hs1 hs2 hs3 hs4 hs5 hs6 hs7 hs8 p i j c', Ideal.ofBits_zero_f32, shapeCast_self]

/-- THE SECOND RESIDUAL LAYER AT AN ELEMENT: the same on its own operands, then the final ReLU. -/
theorem layer_rows2 (hmat : FVec Ideal S2048x128 .f32) (scr : Vec Ideal S8x18x18x128 .bf16) (w1 : (⟨2, ![1152, 128]⟩ : Shape).Idx → EReal)
    (s0 s1 s2 s3 s4 s5 s6 s7 s8 : Vec Ideal S1x128x128 .bf16) (w2 : Vec Ideal S128x128 .bf16)
    (hs0 : ∀ (q c' : Fin 128), s0 (ix3 (0 : Fin 1) q c') = w1 (ix2 ⟨128 * 0 + q.val, by have := q.isLt; omega⟩ c'))
    (hs1 : ∀ (q c' : Fin 128), s1 (ix3 (0 : Fin 1) q c') = w1 (ix2 ⟨128 * 1 + q.val, by have := q.isLt; omega⟩ c'))
    (hs2 : ∀ (q c' : Fin 128), s2 (ix3 (0 : Fin 1) q c') = w1 (ix2 ⟨128 * 2 + q.val, by have := q.isLt; omega⟩ c'))
    (hs3 : ∀ (q c' : Fin 128), s3 (ix3 (0 : Fin 1) q c') = w1 (ix2 ⟨128 * 3 + q.val, by have := q.isLt; omega⟩ c'))
    (hs4 : ∀ (q c' : Fin 128), s4 (ix3 (0 : Fin 1) q c') = w1 (ix2 ⟨128 * 4 + q.val, by have := q.isLt; omega⟩ c'))
    (hs5 : ∀ (q c' : Fin 128), s5 (ix3 (0 : Fin 1) q c') = w1 (ix2 ⟨128 * 5 + q.val, by have := q.isLt; omega⟩ c'))
    (hs6 : ∀ (q c' : Fin 128), s6 (ix3 (0 : Fin 1) q c') = w1 (ix2 ⟨128 * 6 + q.val, by have := q.isLt; omega⟩ c'))
    (hs7 : ∀ (q c' : Fin 128), s7 (ix3 (0 : Fin 1) q c') = w1 (ix2 ⟨128 * 7 + q.val, by have := q.isLt; omega⟩ c'))
    (hs8 : ∀ (q c' : Fin 128), s8 (ix3 (0 : Fin 1) q c') = w1 (ix2 ⟨128 * 8 + q.val, by have := q.isLt; omega⟩ c'))
    (p : Fin 8) (i j : Fin 16) (o : Fin 128) :
    k2_pay11 (F := Ideal) hmat scr (k2_pay9 scr s0 s1 s2 s3) (k2_pay10 scr) s4 s5 s6 s7 s8 w2 (ix2 ⟨256 * p.val + 16 * i.val + j.val, by have := p.isLt; have := i.isLt; have := j.isLt; omega⟩ o)
      = max (hmat (ix2 ⟨256 * p.val + 16 * i.val + j.val, by have := p.isLt; have := i.isLt; have := j.isLt; omega⟩ o)
        + ∑ c' : Fin 128, max (∑ k : Fin 1152, scr (ix4 p ⟨i.val + k.val / 128 / 3, by have := i.isLt; have := k.isLt; omega⟩ ⟨j.val + k.val / 128 % 3, by have := j.isLt; omega⟩ ⟨k.val % 128, Nat.mod_lt _ (by omega)⟩) * w1 (ix2 k c')) 0 * w2 (ix2 c' o)) 0 := by
  rw [pay11_eq]
  show max (k2_pay7 (F := Ideal) hmat scr (k2_pay5 scr s0 s1 s2 s3) (k2_pay6 scr) s4 s5 s6 s7 s8 w2 (ix2 ⟨256 * p.val + 16 * i.val + j.val, by have := p.isLt; have := i.isLt; have := j.isLt; omega⟩ o)) (Ideal.ofBits .f32 0x00000000#32) = _
  rw [layer_rows hmat scr w1 s0 s1 s2 s3 s4 s5 s6 s7 s8 w2 hs0 hs1 hs2 hs3 hs4 hs5 hs6 hs7 hs8 p i j o, Ideal.ofBits_zero_f32]

end Cert.KernelIdeal.Hand

end
-- ==== Proof.KPay2s.lean ====
/-
  The padded scratch of the fused tail, read back at one element: a ring of zeros around the rectified activation written into rows and columns 1..16.
-/
import proofs.«119654_g2000206494441110_pallasbulk_512_2_alg».proof.Proof.KFrame2
import proofs.«119654_g2000206494441110_pallasbulk_512_2_alg».proof.Proof.Spec
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.Spec Idealize.ShloMosaic Idealize.ShloMosaic.ValueIdx

/-- A [2048, 128] row matrix cast to [8, 16, 16, 128]: pixel (i, j) of image p is row 256p + 16i + j. -/
theorem rows_cast_apply {α : Type} (v : S2048x128.Idx → α) (h : S2048x128.ShapeCasts S8x16x16x128) (p : Fin 8) (i j : Fin 16) (q : Fin 128) :
    shapeCast S8x16x16x128 v h (ix4 p i j q) = v (ix2 ⟨256 * p.val + 16 * i.val + j.val, by omega⟩ q) := by
  refine shapeCast_apply v h _ _ ?_
  rw [Shape.rowMajor_val_four, Shape.rowMajor_val_two]
  show (256 * p.val + 16 * i.val + j.val) * 128 + q.val = ((p.val * 16 + i.val) * 16 + j.val) * 128 + q.val
  omega

/-- The zeroing store's payload is zero everywhere. -/
theorem pay3_apply (y : S8x18x18x128.Idx) : k2_pay3 (F := Ideal) y = 0 := by
  unfold k2_pay3
  rw [shapeCast_self]
  show Ideal.ofBits .bf16 0x0000#16 = 0
  simp [Ideal.ofBits, Ideal.ieee]

/-- The first interior store's payload: the rectified pre-activation, pixel by pixel. -/
theorem pay4_apply (v27 : FVec Ideal S2048x128 .f32) (p : Fin 8) (i j : Fin 16) (q : Fin 128) :
    k2_pay4 (F := Ideal) v27 (ix4 p i j q) = max (v27 (ix2 ⟨256 * p.val + 16 * i.val + j.val, by omega⟩ q)) 0 := by
  unfold k2_pay4
  rw [shapeCast_self, rows_cast_apply]
  show max (v27 (ix2 ⟨256 * p.val + 16 * i.val + j.val, by omega⟩ q)) (Ideal.ofBits .f32 0x00000000#32) = _
  rw [Ideal.ofBits_zero_f32]

/-- The second interior store's payload, likewise. -/
theorem pay8_apply (v99 : FVec Ideal S2048x128 .f32) (p : Fin 8) (i j : Fin 16) (q : Fin 128) :
    k2_pay8 (F := Ideal) v99 (Scalar.ofBits (F := Ideal) .f32 0x00000000#32) (ix4 p i j q) = max (v99 (ix2 ⟨256 * p.val + 16 * i.val + j.val, by omega⟩ q)) 0 := by
  unfold k2_pay8
  rw [shapeCast_self, rows_cast_apply]
  show max (v99 (ix2 ⟨256 * p.val + 16 * i.val + j.val, by omega⟩ q)) (Ideal.ofBits .f32 0x00000000#32) = _
  rw [Ideal.ofBits_zero_f32]

/-- The output store's payload: the row matrix cast back to images. -/
theorem tailpay1_apply (v : FVec Ideal S2048x128 .f32) (p : Fin 8) (i j : Fin 16) (q : Fin 128) :
    k2_pay1 (F := Ideal) v (ix4 p i j q) = v (ix2 ⟨256 * p.val + 16 * i.val + j.val, by omega⟩ q) := by
  unfold k2_pay1
  rw [rows_cast_apply]

/-- After the read-modify-write of rows 1..16, the scratch holds the written activation at rows and columns 1..16 and
    what it held before everywhere else. -/
theorem rmw2_canon_apply (L : List (View.Piece (Elt Ideal) S8x18x18x128 .bf16)) (pay : FVec Ideal S8x16x16x128 .bf16)
    (p : Fin 8) (a b : Fin 18) (q : Fin 128) :
    View.canon (rmw2 L pay :: L) (ix4 p a b q)
      = if h : 1 ≤ a.val ∧ a.val ≤ 16 ∧ 1 ≤ b.val ∧ b.val ≤ 16 then
          pay (ix4 (n0 := 8) (n1 := 16) (n2 := 16) (n3 := 128) p ⟨a.val - 1, by omega⟩ ⟨b.val - 1, by omega⟩ q)
        else View.canon L (ix4 p a b q) := by
  by_cases ha : 1 ≤ a.val ∧ a.val ≤ 16
  · have hy : (ix4 p a b q : S8x18x18x128.Idx)
        = rs2_m.emb (ix4 (n0 := 8) (n1 := 16) (n2 := 18) (n3 := 128) p ⟨a.val - 1, by omega⟩ b q) := by
      funext ax; apply Fin.ext
      match ax with
      | ⟨0, _⟩ => show p.val = 0 + 1 * p.val; omega
      | ⟨1, _⟩ => show a.val = 1 + 1 * (a.val - 1); omega
      | ⟨2, _⟩ => show b.val = 0 + 1 * b.val; omega
      | ⟨3, _⟩ => show q.val = 0 + 1 * q.val; omega
    unfold rmw2
    rw [hy, View.canon_cons_emb, ← hy]
    unfold updateSlice
    by_cases hb : 1 ≤ b.val ∧ b.val ≤ 16
    · rw [dif_pos (show 1 ≤ a.val ∧ a.val ≤ 16 ∧ 1 ≤ b.val ∧ b.val ≤ 16 from ⟨ha.1, ha.2, hb.1, hb.2⟩)]
      rw [dif_pos (fun ax => by
        match ax with
        | ⟨0, _⟩ => exact ⟨by show 0 ≤ p.val; omega, by show p.val < 0 + 8; omega⟩
        | ⟨1, _⟩ => exact ⟨by show 0 ≤ a.val - 1; omega, by show a.val - 1 < 0 + 16; omega⟩
        | ⟨2, _⟩ => exact ⟨by show 1 ≤ b.val; omega, by show b.val < 1 + 16; omega⟩
        | ⟨3, _⟩ => exact ⟨by show 0 ≤ q.val; omega, by show q.val < 0 + 128; omega⟩)]
      refine congrArg pay (funext fun ax => Fin.ext ?_)
      match ax with
      | ⟨0, _⟩ => show p.val - 0 = p.val; omega
      | ⟨1, _⟩ => show a.val - 1 - 0 = a.val - 1; omega
      | ⟨2, _⟩ => show b.val - 1 = b.val - 1; rfl
      | ⟨3, _⟩ => show q.val - 0 = q.val; omega
    · rw [dif_neg (fun h : 1 ≤ a.val ∧ a.val ≤ 16 ∧ 1 ≤ b.val ∧ b.val ≤ 16 => hb ⟨h.2.2.1, h.2.2.2⟩)]
      rw [dif_neg (fun h => hb (by
        have h2 := h ⟨2, by decide⟩
        have h2' : 1 ≤ b.val ∧ b.val < 1 + 16 := h2
        omega))]
      show View.canon L (rs2_m.emb _) = _
      rw [← hy]
  · rw [dif_neg (fun h : 1 ≤ a.val ∧ a.val ≤ 16 ∧ 1 ≤ b.val ∧ b.val ≤ 16 => ha ⟨h.1, h.2.1⟩)]
    refine View.canon_cons_of_not_mem _ L fun hmem => ha ?_
    have hmem' : (ix4 p a b q : S8x18x18x128.Idx) ∈ (Rect.unit (s := S8x18x18x128) ![0, 1, 0, 0] S8x16x18x128.size Facts₀.inb_S8x18x18x128_S8x16x18x128_0_1_0_0).set := hmem
    have h1 := (Rect.mem_set_unit.mp hmem') ⟨1, by decide⟩
    have h1' : 1 ≤ a.val ∧ a.val < 1 + 16 := h1
    omega

/-- The index spelt by offsets: all four are zero. -/
theorem zeros4 : (![0, 0, 0, 0] : Fin 4 → Nat) = fun _ => 0 := by
  funext a
  match a with
  | ⟨0, _⟩ => rfl
  | ⟨1, _⟩ => rfl
  | ⟨2, _⟩ => rfl
  | ⟨3, _⟩ => rfl

/-- The zeroing store alone leaves zero everywhere. -/
theorem scrL2_0_apply (y : S8x18x18x128.Idx) : View.canon (scrL2_0 (F := Ideal)) y = 0 := by
  unfold scrL2_0
  exact (congrFun (View.canon_unit_zero zeros4 _ _) y).trans (pay3_apply y)

/-- THE SCRATCH READ BACK after an interior write over a list of stores that left zeros off the interior: the zero-padded
    activation, rectified (the border's zero is its own maximum with zero). -/
theorem scratch_apply (L : List (View.Piece (Elt Ideal) S8x18x18x128 .bf16))
    (hL : ∀ (p : Fin 8) (a b : Fin 18) (q : Fin 128), ¬(1 ≤ a.val ∧ a.val ≤ 16 ∧ 1 ≤ b.val ∧ b.val ≤ 16) → View.canon L (ix4 p a b q) = 0)
    (pay : FVec Ideal S8x16x16x128 .bf16) (hmat : FVec Ideal S2048x128 .f32) (h4 : (⟨4, ![8, 16, 16, 128]⟩ : Shape).Idx → EReal)
    (hh : ∀ (p : Fin 8) (i j : Fin 16) (o : Fin 128), hmat (ix2 ⟨256 * p.val + 16 * i.val + j.val, by omega⟩ o) = h4 (ix4 p i j o))
    (hpay : ∀ (p : Fin 8) (i j : Fin 16) (q : Fin 128), pay (ix4 p i j q) = max (hmat (ix2 ⟨256 * p.val + 16 * i.val + j.val, by omega⟩ q)) 0)
    (p : Fin 8) (a b : Fin 18) (q : Fin 128) :
    View.ld (View.canon (rmw2 L pay :: L)) rs2_w (ix4 p a b q) = max (padSpec 8 h4 (ix4 p a b q)) 0 := by
  rw [View.ld_unit_zero zeros4, rmw2_canon_apply]
  show _ = max (if hj : 1 ≤ a.val ∧ a.val ≤ 16 ∧ 1 ≤ b.val ∧ b.val ≤ 16 then
      h4 (ix4 (n0 := 8) (n1 := 16) (n2 := 16) (n3 := 128) ⟨p.val, p.isLt⟩ ⟨a.val - 1, by omega⟩ ⟨b.val - 1, by omega⟩ ⟨q.val, q.isLt⟩) else 0) 0
  by_cases h : 1 ≤ a.val ∧ a.val ≤ 16 ∧ 1 ≤ b.val ∧ b.val ≤ 16
  · rw [dif_pos h, dif_pos h, hpay, hh]
  · rw [dif_neg h, dif_neg h, hL p a b q h, max_self]

/-- The scratch as the first residual layer reads it: the zero-padded conv3 pre-activation, rectified. -/
theorem scr2_a_apply (x0 : Vec Ideal S8x17x17x512 .bf16) (x1 : Vec Ideal S4x512x128 .bf16) (x2 : Vec Ideal S1x128 .f32)
    (h4 : (⟨4, ![8, 16, 16, 128]⟩ : Shape).Idx → EReal)
    (hh : ∀ (p : Fin 8) (i j : Fin 16) (o : Fin 128), v27_2 (F := Ideal) x0 x1 x2 (ix2 ⟨256 * p.val + 16 * i.val + j.val, by omega⟩ o) = h4 (ix4 p i j o))
    (p : Fin 8) (a b : Fin 18) (q : Fin 128) :
    scr2_a (F := Ideal) x0 x1 x2 (ix4 p a b q) = max (padSpec 8 h4 (ix4 p a b q)) 0 := by
  unfold scr2_a scrL2_a
  exact scratch_apply _ (fun p a b q _ => scrL2_0_apply _) _ (v27_2 x0 x1 x2) h4 hh (pay4_apply _) p a b q

/-- Off the interior the first interior write left the zeroing store's zeros. -/
theorem scrL2_a_border (x0 : Vec Ideal S8x17x17x512 .bf16) (x1 : Vec Ideal S4x512x128 .bf16) (x2 : Vec Ideal S1x128 .f32)
    (p : Fin 8) (a b : Fin 18) (q : Fin 128) (h : ¬(1 ≤ a.val ∧ a.val ≤ 16 ∧ 1 ≤ b.val ∧ b.val ≤ 16)) :
    View.canon (scrL2_a (F := Ideal) x0 x1 x2) (ix4 p a b q) = 0 := by
  unfold scrL2_a
  rw [rmw2_canon_apply, dif_neg h, scrL2_0_apply]

/-- The scratch as the second residual layer reads it: the zero-padded output of the first, rectified. -/
theorem scr2_b_apply (x0 : Vec Ideal S8x17x17x512 .bf16) (x1 : Vec Ideal S4x512x128 .bf16) (x2 : Vec Ideal S1x128 .f32)
    (x3 : Vec Ideal S9x128x128 .bf16) (x4 : Vec Ideal S128x128 .bf16)
    (h4 : (⟨4, ![8, 16, 16, 128]⟩ : Shape).Idx → EReal)
    (hh : ∀ (p : Fin 8) (i j : Fin 16) (o : Fin 128), v99_2 (F := Ideal) x0 x1 x2 x3 x4 (ix2 ⟨256 * p.val + 16 * i.val + j.val, by omega⟩ o) = h4 (ix4 p i j o))
    (p : Fin 8) (a b : Fin 18) (q : Fin 128) :
    scr2_b (F := Ideal) x0 x1 x2 x3 x4 (ix4 p a b q) = max (padSpec 8 h4 (ix4 p a b q)) 0 := by
  unfold scr2_b scrL2_b
  exact scratch_apply _ (scrL2_a_border x0 x1 x2) _ (v99_2 x0 x1 x2 x3 x4) h4 hh (pay8_apply _) p a b q

end Cert.KernelIdeal.Hand

end
-- ==== Proof.KPay2o.lean ====
/-
  The fused tail's output block, read at one element: the third convolution, then two residual layers through the zero-padded scratch, then the
  final ReLU, as the layer formulas on the block of 8 images.
-/
import proofs.«119654_g2000206494441110_pallasbulk_512_2_alg».proof.Proof.KFrame2
import proofs.«119654_g2000206494441110_pallasbulk_512_2_alg».proof.Proof.KPay2c
import proofs.«119654_g2000206494441110_pallasbulk_512_2_alg».proof.Proof.KPay2r
import proofs.«119654_g2000206494441110_pallasbulk_512_2_alg».proof.Proof.KPay2s

set_option maxRecDepth 16384

noncomputable section

namespace Cert.KernelIdeal.Hand

open Cert.KernelIdeal Cert.KernelIdeal.Gen Cert.Spec Idealize.ShloMosaic Idealize.ShloMosaic.ValueIdx

/-- Both offsets of a rank-2 whole-buffer load are zero. -/
theorem zeros2 : (![0, 0] : Fin 2 → Nat) = fun _ => 0 := by
  funext a
  match a with
  | ⟨0, _⟩ => rfl
  | ⟨1, _⟩ => rfl

/-- Tap k of the third convolution's weight, loaded as a [1, 512, 128] slab of the flat weight's slabs, is the flat rows 512k … 512k + 511. -/
theorem ld_slab4 (w3 : (⟨2, ![2048, 128]⟩ : Shape).Idx → EReal) (k : ℕ) (hk : k < 4)
    (inb : ∀ a, (![k, 0, 0] : Fin 3 → Nat) a + S1x512x128.size a ≤ S4x512x128.size a) (q : Fin 512) (o : Fin 128) :
    View.ld (Val := Elt Ideal) (e' := .bf16) (slabs 4 512 2048 rfl w3) (Rect.unit (s := S4x512x128) ![k, 0, 0] S1x512x128.size inb) (ix3 (0 : Fin 1) q o)
      = w3 (ix2 ⟨512 * k + q.val, by omega⟩ o) := by
  show slabs 4 512 2048 rfl w3 _ = _
  unfold slabs
  refine congrArg w3 (funext fun ax => Fin.ext ?_)
  match ax with
  | ⟨0, _⟩ => show 512 * (k + 1 * 0) + (0 + 1 * q.val) = 512 * k + q.val; omega
  | ⟨1, _⟩ => show 0 + 1 * o.val = o.val; omega

/-- Tap k of a residual layer's 3×3 weight, loaded as a [1, 128, 128] slab, is the flat rows 128k … 128k + 127. -/
theorem ld_slab9 (w1 : (⟨2, ![1152, 128]⟩ : Shape).Idx → EReal) (k : ℕ) (hk : k < 9)
    (inb : ∀ a, (![k, 0, 0] : Fin 3 → Nat) a + S1x128x128.size a ≤ S9x128x128.size a) (q c' : Fin 128) :
    View.ld (Val := Elt Ideal) (e' := .bf16) (slabs 9 128 1152 rfl w1) (Rect.unit (s := S9x128x128) ![k, 0, 0] S1x128x128.size inb) (ix3 (0 : Fin 1) q c')
      = w1 (ix2 ⟨128 * k + q.val, by have := q.isLt; omega⟩ c') := by
  show slabs 9 128 1152 rfl w1 _ = _
  unfold slabs
  refine congrArg w1 (funext fun ax => Fin.ext ?_)
  match ax with
  | ⟨0, _⟩ => show 128 * (k + 1 * 0) + (0 + 1 * q.val) = 128 * k + q.val; omega
  | ⟨1, _⟩ => show 0 + 1 * c'.val = c'.val; omega

/-- A residual layer as the kernel computes it — the layer's input row plus the 1×1 product of the rectified 3×3 convolution of the scratch —
    is the layer's formula on the zero-padded input, when the scratch holds that padded input rectified. -/
theorem res_core (h4 : (⟨4, ![8, 16, 16, 128]⟩ : Shape).Idx → EReal) (hmat : FVec Ideal S2048x128 .f32) (scr : Vec Ideal S8x18x18x128 .bf16)
    (w1 : (⟨2, ![1152, 128]⟩ : Shape).Idx → EReal) (w2 : (⟨2, ![128, 128]⟩ : Shape).Idx → EReal)
    (hh : ∀ (p : Fin 8) (i j : Fin 16) (o : Fin 128), hmat (ix2 ⟨256 * p.val + 16 * i.val + j.val, by omega⟩ o) = h4 (ix4 p i j o))
    (hscr : ∀ (p : Fin 8) (a b : Fin 18) (q : Fin 128), scr (ix4 p a b q) = max (padSpec 8 h4 (ix4 p a b q)) 0)
    (p : Fin 8) (i j : Fin 16) (o : Fin 128) :
    hmat (ix2 ⟨256 * p.val + 16 * i.val + j.val, by omega⟩ o) + ∑ c' : Fin 128, max (∑ k : Fin 1152, scr (ix4 p ⟨i.val + k.val / 128 / 3, by have := i.isLt; have := k.isLt; omega⟩ ⟨j.val + k.val / 128 % 3, by have := j.isLt; omega⟩ ⟨k.val % 128, Nat.mod_lt _ (by omega)⟩) * w1 (ix2 k c')) 0 * w2 (ix2 c' o)
      = (∑ c' : Fin 128, resHidden 8 (padSpec 8 h4) w1 (ix4 p i j o) c' * w2 (ix2 c' ⟨o.val, o.isLt⟩))
        + padSpec 8 h4 (ix4 (n0 := 8) (n1 := 18) (n2 := 18) (n3 := 128) ⟨p.val, p.isLt⟩ ⟨i.val + 1, by omega⟩ ⟨j.val + 1, by omega⟩ ⟨o.val, o.isLt⟩) := by
  rw [add_comm]
  refine congrArg₂ (· + ·) (Finset.sum_congr rfl fun c' _ => ?_) ?_
  · unfold resHidden
    refine congrArg (fun s : EReal => max s 0 * w2 (ix2 c' o)) (Finset.sum_congr rfl fun k _ => ?_)
    exact congrArg (fun s : EReal => s * w1 (ix2 k c')) (hscr p _ _ _)
  · show _ = (if hj : 1 ≤ i.val + 1 ∧ i.val + 1 ≤ 16 ∧ 1 ≤ j.val + 1 ∧ j.val + 1 ≤ 16 then
        h4 (ix4 (n0 := 8) (n1 := 16) (n2 := 16) (n3 := 128) ⟨p.val, p.isLt⟩ ⟨i.val + 1 - 1, by omega⟩ ⟨j.val + 1 - 1, by omega⟩ ⟨o.val, o.isLt⟩) else 0)
    rw [dif_pos (by omega), hh p i j o]
    refine congrArg h4 (funext fun ax => Fin.ext ?_)
    match ax with
    | ⟨0, _⟩ => rfl
    | ⟨1, _⟩ => show i.val = i.val + 1 - 1; omega
    | ⟨2, _⟩ => show j.val = j.val + 1 - 1; omega
    | ⟨3, _⟩ => rfl

/-- THE OUTPUT BLOCK AT AN ELEMENT. -/
theorem out2_7_apply (x0 : Vec Ideal S8x17x17x512 .bf16) (x1 : Vec Ideal S4x512x128 .bf16) (x2 : Vec Ideal S1x128 .f32)
    (x3 : Vec Ideal S9x128x128 .bf16) (x4 : Vec Ideal S128x128 .bf16) (x5 : Vec Ideal S9x128x128 .bf16) (x6 : Vec Ideal S128x128 .bf16)
    (w3 : (⟨2, ![2048, 128]⟩ : Shape).Idx → EReal) (r0w1 r1w1 : (⟨2, ![1152, 128]⟩ : Shape).Idx → EReal)
    (r0w2 r1w2 : (⟨2, ![128, 128]⟩ : Shape).Idx → EReal)
    (h1 : x1 = slabs 4 512 2048 rfl w3) (h3 : x3 = slabs 9 128 1152 rfl r0w1) (h4 : x4 = r0w2)
    (h5 : x5 = slabs 9 128 1152 rfl r1w1) (h6 : x6 = r1w2) (p : Fin 8) (i j : Fin 16) (o : Fin 128) :
    out2_7 (F := Ideal) x0 x1 x2 x3 x4 x5 x6 (ix4 p i j o)
      = resSpec 8 true (padSpec 8 (resSpec 8 false (padSpec 8 (convSpec 8 17 16 512 2048 rfl rfl false x0 w3 x2)) r0w1 r0w2)) r1w1 r1w2 (ix4 p i j o) := by
  subst h1 h3 h4 h5 h6
  -- the third convolution's pre-activation
  have hC : ∀ (p : Fin 8) (i j : Fin 16) (o : Fin 128),
      v27_2 (F := Ideal) x0 (slabs 4 512 2048 rfl w3) x2 (ix2 ⟨256 * p.val + 16 * i.val + j.val, by omega⟩ o) = convSpec 8 17 16 512 2048 rfl rfl false x0 w3 x2 (ix4 p i j o) := by
    intro p i j o
    unfold v27_2
    rw [pay2c_apply (View.ld x0 r2_0) (View.ld x2 r2_2) w3 _ _ _ _
      (fun q o => ld_slab4 w3 0 (by omega) _ q o) (fun q o => ld_slab4 w3 1 (by omega) _ q o)
      (fun q o => ld_slab4 w3 2 (by omega) _ q o) (fun q o => ld_slab4 w3 3 (by omega) _ q o) p i j o,
      View.ld_unit_zero zeros4, View.ld_unit_zero zeros2]
  -- the first residual layer's output
  have hY : ∀ (p : Fin 8) (i j : Fin 16) (o : Fin 128),
      v99_2 (F := Ideal) x0 (slabs 4 512 2048 rfl w3) x2 (slabs 9 128 1152 rfl r0w1) x4 (ix2 ⟨256 * p.val + 16 * i.val + j.val, by omega⟩ o)
        = resSpec 8 false (padSpec 8 (convSpec 8 17 16 512 2048 rfl rfl false x0 w3 x2)) r0w1 x4 (ix4 p i j o) := by
    intro p i j o
    unfold v99_2
    rw [layer_rows _ _ r0w1 _ _ _ _ _ _ _ _ _ _ (fun q c' => ld_slab9 r0w1 0 (by omega) _ q c') (fun q c' => ld_slab9 r0w1 1 (by omega) _ q c') (fun q c' => ld_slab9 r0w1 2 (by omega) _ q c') (fun q c' => ld_slab9 r0w1 3 (by omega) _ q c') (fun q c' => ld_slab9 r0w1 4 (by omega) _ q c') (fun q c' => ld_slab9 r0w1 5 (by omega) _ q c') (fun q c' => ld_slab9 r0w1 6 (by omega) _ q c') (fun q c' => ld_slab9 r0w1 7 (by omega) _ q c') (fun q c' => ld_slab9 r0w1 8 (by omega) _ q c') p i j o, View.ld_unit_zero zeros2]
    exact res_core _ _ _ r0w1 x4 hC (scr2_a_apply x0 _ x2 _ hC) p i j o
  unfold out2_7
  rw [View.canon_unit_zero zeros4, tailpay1_apply,
    layer_rows2 _ _ r1w1 _ _ _ _ _ _ _ _ _ _ (fun q c' => ld_slab9 r1w1 0 (by omega) _ q c') (fun q c' => ld_slab9 r1w1 1 (by omega) _ q c') (fun q c' => ld_slab9 r1w1 2 (by omega) _ q c') (fun q c' => ld_slab9 r1w1 3 (by omega) _ q c') (fun q c' => ld_slab9 r1w1 4 (by omega) _ q c') (fun q c' => ld_slab9 r1w1 5 (by omega) _ q c') (fun q c' => ld_slab9 r1w1 6 (by omega) _ q c') (fun q c' => ld_slab9 r1w1 7 (by omega) _ q c') (fun q c' => ld_slab9 r1w1 8 (by omega) _ q c') p i j o, View.ld_unit_zero zeros2]
  exact congrArg (fun s : EReal => max s 0) (res_core _ _ _ r1w1 x6 hY (scr2_b_apply x0 _ x2 _ x4 _ hY) p i j o)

end Cert.KernelIdeal.Hand

end
-- ==== Proof.RPay0.lean ====
/-
  Region 0 of the reference, the payload: what the stride-2 4×4 convolution body stores, read at one pixel of its block, is the
  convolution sum of Spec.lean on the block's image.
-/
import proofs.«119654_g2000206494441110_pallasbulk_512_2_alg».proof.Proof.Gen.ReferenceIdeal.Frame
import proofs.«119654_g2000206494441110_pallasbulk_512_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.Spec Idealize.ShloMosaic Idealize.ShloMosaic.ValueIdx
open Idealize.ShloMosaic.Pipeline (Dat)

/-! ## Region 0: the convolution payload read at an output pixel

The body cuts the four unit-offset 64×64 windows of the 65×65 space-to-depth image, flattens each to a [4096, 12] patch
matrix, lays them side by side ([4096, 48], tap 2a + b in lanes 12·(2a + b) …), multiplies by the flat weight, adds the bias, clamps at 0
and folds the rows back to pixels. Read at pixel (i, j), channel o, that is the convolution sum of Spec.lean. -/

/-- The product's index maps: the left operand is read at (row of the output, contraction position) … -/
theorem cv0_lhs0 (j : S4096x128.Idx) (k : dot_S4096x48_S48x128_S4096x128_1_0_0_1_n_n.contr.Idx) : (dot_S4096x48_S48x128_S4096x128_1_0_0_1_n_n.lhsIdx j k 0 : ℕ) = j 0 := by
  simp [DotDims.lhsIdx, dot_S4096x48_S48x128_S4096x128_1_0_0_1_n_n]; rfl
/-- … and the right one at (contraction position, column of the output). -/
theorem cv0_rhs1 (j : S4096x128.Idx) (k : dot_S4096x48_S48x128_S4096x128_1_0_0_1_n_n.contr.Idx) : (dot_S4096x48_S48x128_S4096x128_1_0_0_1_n_n.rhsIdx j k 1 : ℕ) = j 1 := by
  simp [DotDims.rhsIdx, dot_S4096x48_S48x128_S4096x128_1_0_0_1_n_n]; rfl

/-- Tap (a, b)'s patch matrix at row 64·i + j, lane q, is the image at cell (i + a, j + b), lane q. -/
theorem cv0_tap (a b : ℕ) (ha : a ≤ 1) (hb : b ≤ 1) (x0 : S1x65x65x12.Idx → EReal) (h0 : S1x65x65x12.ShapeCasts S65x65x12)
    (hs : S65x65x12.Slices ![a, b, 0] S64x64x12) (h1 : S64x64x12.ShapeCasts S4096x12) (i j : Fin 64) (q : Fin 12) :
    shapeCast S4096x12 (extractStridedSlice S64x64x12 ![a, b, 0] (shapeCast S65x65x12 x0 h0) hs) h1
        (ix2 (⟨i.val * 64 + j.val, by omega⟩ : Fin 4096) q)
      = x0 (ix4 (0 : Fin 1) (⟨i.val + a, by omega⟩ : Fin 65) (⟨j.val + b, by omega⟩ : Fin 65) q) := by
  refine (shapeCast_apply _ h1 _ (ix3 i j q) ?_).trans ?_
  · rw [Shape.rowMajor_val_three, Shape.rowMajor_val_two]; rfl
  refine (extractStridedSlice_apply _ _ hs _ (ix3 (⟨i.val + a, by omega⟩ : Fin 65) (⟨j.val + b, by omega⟩ : Fin 65) q) ?_).trans ?_
  · intro ax
    match ax with
    | ⟨0, _⟩ => exact Nat.add_comm _ _
    | ⟨1, _⟩ => exact Nat.add_comm _ _
    | ⟨2, _⟩ => exact (Nat.zero_add _).symm
  exact shapeCast_1abc_abc_apply x0 h0 _ _ _

/-- Two cells with the same coordinates hold the same value. -/
theorem cv0_cell (x0 : S1x65x65x12.Idx → EReal) (p : Fin 1) {a a' b b' : Fin 65} (ha : a.val = a'.val) (hb : b.val = b'.val) (q : Fin 12) :
    x0 (ix4 p a b q) = x0 (ix4 p a' b' q) := by
  obtain rfl := Fin.ext ha
  obtain rfl := Fin.ext hb
  rfl

/-- The patch matrix (the four taps side by side) at row 64·i + j, column k: tap k / 12 = 2a + b at lane k % 12, the image at
    cell (i + a, j + b). -/
theorem cv0_patch (x0 : S1x65x65x12.Idx → EReal) (h0 : S1x65x65x12.ShapeCasts S65x65x12)
    (hs00 : S65x65x12.Slices ![0, 0, 0] S64x64x12) (hs01 : S65x65x12.Slices ![0, 1, 0] S64x64x12)
    (hs10 : S65x65x12.Slices ![1, 0, 0] S64x64x12) (hs11 : S65x65x12.Slices ![1, 1, 0] S64x64x12) (h1 : S64x64x12.ShapeCasts S4096x12)
    (hc : Shape.Concatenates (([⟨S4096x12, shapeCast S4096x12 (extractStridedSlice S64x64x12 ![0, 0, 0] (shapeCast S65x65x12 x0 h0) hs00) h1⟩, ⟨S4096x12, shapeCast S4096x12 (extractStridedSlice S64x64x12 ![0, 1, 0] (shapeCast S65x65x12 x0 h0) hs01) h1⟩, ⟨S4096x12, shapeCast S4096x12 (extractStridedSlice S64x64x12 ![1, 0, 0] (shapeCast S65x65x12 x0 h0) hs10) h1⟩, ⟨S4096x12, shapeCast S4096x12 (extractStridedSlice S64x64x12 ![1, 1, 0] (shapeCast S65x65x12 x0 h0) hs11) h1⟩] : List ((s : Shape) × (s.Idx → EReal))).map (·.1)) S4096x48 1)
    (i j : Fin 64) (k : Fin 48) :
    concatenate S4096x48 1 [⟨S4096x12, shapeCast S4096x12 (extractStridedSlice S64x64x12 ![0, 0, 0] (shapeCast S65x65x12 x0 h0) hs00) h1⟩, ⟨S4096x12, shapeCast S4096x12 (extractStridedSlice S64x64x12 ![0, 1, 0] (shapeCast S65x65x12 x0 h0) hs01) h1⟩, ⟨S4096x12, shapeCast S4096x12 (extractStridedSlice S64x64x12 ![1, 0, 0] (shapeCast S65x65x12 x0 h0) hs10) h1⟩, ⟨S4096x12, shapeCast S4096x12 (extractStridedSlice S64x64x12 ![1, 1, 0] (shapeCast S65x65x12 x0 h0) hs11) h1⟩] hc
        (ix2 (⟨i.val * 64 + j.val, by omega⟩ : Fin 4096) k)
      = x0 (ix4 (0 : Fin 1) (⟨i.val + k.val / 12 / 2, by omega⟩ : Fin 65) (⟨j.val + k.val / 12 % 2, by omega⟩ : Fin 65)
          (⟨k.val % 12, Nat.mod_lt _ (by omega)⟩ : Fin 12)) := by
  rcases (show k.val / 12 = 0 ∨ k.val / 12 = 1 ∨ k.val / 12 = 2 ∨ k.val / 12 = 3 by omega) with ht | ht | ht | ht
  · refine (concatenate_apply_piece 1 _ hc (ix2 (⟨i.val * 64 + j.val, by omega⟩ : Fin 4096) k) 0 (by show (0 : ℕ) < 4; omega) S4096x12 _ rfl rfl 0 rfl
      (ix2 (⟨i.val * 64 + j.val, by omega⟩ : Fin 4096) (⟨k.val % 12, Nat.mod_lt _ (by omega)⟩ : Fin 12)) ?_ ?_).trans ?_
    · intro b hb
      match b with
      | ⟨0, _⟩ => rfl
      | ⟨1, _⟩ => exact absurd rfl hb
    · show 0 + k.val % 12 = k.val
      omega
    · refine (cv0_tap 0 0 (by omega) (by omega) x0 h0 hs00 h1 i j _).trans ?_
      exact cv0_cell x0 _ (by show i.val + 0 = i.val + k.val / 12 / 2; omega) (by show j.val + 0 = j.val + k.val / 12 % 2; omega) _
  · refine (concatenate_apply_piece 1 _ hc (ix2 (⟨i.val * 64 + j.val, by omega⟩ : Fin 4096) k) 1 (by show (1 : ℕ) < 4; omega) S4096x12 _ rfl rfl 12 rfl
      (ix2 (⟨i.val * 64 + j.val, by omega⟩ : Fin 4096) (⟨k.val % 12, Nat.mod_lt _ (by omega)⟩ : Fin 12)) ?_ ?_).trans ?_
    · intro b hb
      match b with
      | ⟨0, _⟩ => rfl
      | ⟨1, _⟩ => exact absurd rfl hb
    · show 12 + k.val % 12 = k.val
      omega
    · refine (cv0_tap 0 1 (by omega) (by omega) x0 h0 hs01 h1 i j _).trans ?_
      exact cv0_cell x0 _ (by show i.val + 0 = i.val + k.val / 12 / 2; omega) (by show j.val + 1 = j.val + k.val / 12 % 2; omega) _
  · refine (concatenate_apply_piece 1 _ hc (ix2 (⟨i.val * 64 + j.val, by omega⟩ : Fin 4096) k) 2 (by show (2 : ℕ) < 4; omega) S4096x12 _ rfl rfl 24 rfl
      (ix2 (⟨i.val * 64 + j.val, by omega⟩ : Fin 4096) (⟨k.val % 12, Nat.mod_lt _ (by omega)⟩ : Fin 12)) ?_ ?_).trans ?_
    · intro b hb
      match b with
      | ⟨0, _⟩ => rfl
      | ⟨1, _⟩ => exact absurd rfl hb
    · show 24 + k.val % 12 = k.val
      omega
    · refine (cv0_tap 1 0 (by omega) (by omega) x0 h0 hs10 h1 i j _).trans ?_
      exact cv0_cell x0 _ (by show i.val + 1 = i.val + k.val / 12 / 2; omega) (by show j.val + 0 = j.val + k.val / 12 % 2; omega) _
  · refine (concatenate_apply_piece 1 _ hc (ix2 (⟨i.val * 64 + j.val, by omega⟩ : Fin 4096) k) 3 (by show (3 : ℕ) < 4; omega) S4096x12 _ rfl rfl 36 rfl
      (ix2 (⟨i.val * 64 + j.val, by omega⟩ : Fin 4096) (⟨k.val % 12, Nat.mod_lt _ (by omega)⟩ : Fin 12)) ?_ ?_).trans ?_
    · intro b hb
      match b with
      | ⟨0, _⟩ => rfl
      | ⟨1, _⟩ => exact absurd rfl hb
    · show 36 + k.val % 12 = k.val
      omega
    · refine (cv0_tap 1 1 (by omega) (by omega) x0 h0 hs11 h1 i j _).trans ?_
      exact cv0_cell x0 _ (by show i.val + 1 = i.val + k.val / 12 / 2; omega) (by show j.val + 1 = j.val + k.val / 12 % 2; omega) _

/-- The product into the zero accumulator at (row r, channel o): the sum over the 48 weight rows. -/
theorem cv0_dot (L : S4096x48.Idx → EReal) (w : S48x128.Idx → EReal) (r : Fin 4096) (o : Fin 128) :
    matmul (F := Ideal) (φ₁ := .f32) (φ₂ := .f32) dot_S4096x48_S48x128_S4096x128_1_0_0_1_n_n none L w (constant (F := Ideal) S4096x128 .f32 0x00000000#32) (ix2 r o)
      = ∑ k : Fin 48, L (ix2 r k) * w (ix2 k o) := by
  refine (Ideal.matmul_constant_zero_apply (φ₁ := .f32) (φ₂ := .f32) dot_S4096x48_S48x128_S4096x128_1_0_0_1_n_n none L w (ix2 r o)).trans ?_
  refine (Equiv.sum_comp (contrEquiv1 dot_S4096x48_S48x128_S4096x128_1_0_0_1_n_n 48 rfl rfl).symm _).symm.trans ?_
  refine Finset.sum_congr rfl fun k _ => ?_
  have el : dot_S4096x48_S48x128_S4096x128_1_0_0_1_n_n.lhsIdx (ix2 r o) ((contrEquiv1 dot_S4096x48_S48x128_S4096x128_1_0_0_1_n_n 48 rfl rfl).symm k) = ix2 r k := by
    funext a; apply Fin.ext
    match a with
    | ⟨0, _⟩ => exact cv0_lhs0 _ _
    | ⟨1, _⟩ => exact (DotDims.lhsIdx_val_of_single dot_S4096x48_S48x128_S4096x128_1_0_0_1_n_n (cl := 1) rfl _ _).trans (contrEquiv1_symm_val dot_S4096x48_S48x128_S4096x128_1_0_0_1_n_n 48 rfl rfl k)
  have er : dot_S4096x48_S48x128_S4096x128_1_0_0_1_n_n.rhsIdx (ix2 r o) ((contrEquiv1 dot_S4096x48_S48x128_S4096x128_1_0_0_1_n_n 48 rfl rfl).symm k) = ix2 k o := by
    funext a; apply Fin.ext
    match a with
    | ⟨0, _⟩ => exact (DotDims.rhsIdx_val_of_single dot_S4096x48_S48x128_S4096x128_1_0_0_1_n_n (cr := 0) rfl _ _).trans (contrEquiv1_symm_val dot_S4096x48_S48x128_S4096x128_1_0_0_1_n_n 48 rfl rfl k)
    | ⟨1, _⟩ => exact cv0_rhs1 _ _
  rw [el, er]

/-- The convolution of Spec.lean on one image, at pixel (i, j), channel o, written out. -/
theorem cv0_spec (x0 : S1x65x65x12.Idx → EReal) (x1 : S48x128.Idx → EReal) (x2 : S1x128.Idx → EReal) (p : Fin 1) (i j : Fin 64) (o : Fin 128) :
    convSpec 1 65 64 12 48 rfl rfl true x0 x1 x2 (ix4 p i j o)
      = max ((∑ k : Fin 48, x0 (ix4 p (⟨i.val + k.val / 12 / 2, by omega⟩ : Fin 65) (⟨j.val + k.val / 12 % 2, by omega⟩ : Fin 65)
            (⟨k.val % 12, Nat.mod_lt _ (by omega)⟩ : Fin 12)) * x1 (ix2 k o)) + x2 (ix2 (0 : Fin 1) o)) 0 := rfl

/-- THE PAYLOAD AT A PIXEL: what the body stores, read at image p (the block's one image), pixel (i, j), channel o, is the
    convolution of the block's image there. -/
theorem pay0_apply (x0 : Vec Ideal S1x65x65x12 .f32) (x1 : Vec Ideal S48x128 .f32) (x2 : Vec Ideal S1x128 .f32)
    (p : Fin 1) (i j : Fin 64) (o : Fin 128) :
    k0_pay1 (F := Ideal) x0 x1 x2 (ix4 p i j o) = convSpec 1 65 64 12 48 rfl rfl true x0 x1 x2 (ix4 p i j o) := by
  refine Eq.trans ?_ (cv0_spec x0 x1 x2 p i j o).symm
  have hp : p = (0 : Fin 1) := Subsingleton.elim _ _
  subst hp
  unfold k0_pay1
  refine (shapeCast_apply _ _ (ix4 (0 : Fin 1) i j o) (ix2 (⟨i.val * 64 + j.val, by omega⟩ : Fin 4096) o) ?_).trans ?_
  · rw [Shape.rowMajor_val_two, Shape.rowMajor_val_four]
    show (i.val * 64 + j.val) * 128 + o.val = ((0 * 64 + i.val) * 64 + j.val) * 128 + o.val
    omega
  refine (maximumf_apply _ _ _).trans ?_
  refine congrArg₂ max ?_ Ideal.ofBits_zero_f32
  refine (addf_apply _ _ _).trans ?_
  refine congrArg₂ (· + ·) ?_ (broadcastTo_1b_ab_apply x2 _ _ o)
  refine (cv0_dot _ x1 (⟨i.val * 64 + j.val, by omega⟩ : Fin 4096) o).trans ?_
  refine Finset.sum_congr rfl fun k _ => ?_
  exact congrArg (· * x1 (ix2 k o)) (cv0_patch x0 _ _ _ _ _ _ _ i j k)

end Cert.ReferenceIdeal.Hand

end
-- ==== Proof.RVal0.lean ====
/-
  Region 0 of the reference, the array: every grid point writes one image of the convolution of the arrays the region finds, so the
  result array ends holding that convolution.
-/
import proofs.«119654_g2000206494441110_pallasbulk_512_2_alg».proof.Proof.RPay0

set_option maxRecDepth 16384

noncomputable section

namespace Cert.ReferenceIdeal.Hand

open Cert.ReferenceIdeal Cert.ReferenceIdeal.Gen Cert.Spec Idealize.ShloMosaic Idealize.ShloMosaic.ValueIdx
open Idealize.ShloMosaic.TcCoe
open Idealize.ShloMosaic.Pipeline (Dat)

/-! ## Region 0: from the blocks to the array

One image per grid point: point t fetches image t of the space-to-depth array, the whole weight and the whole bias, and
writes image t of the result. -/

variable (V : (c : Dev nD) → (b : Ref sig .tc) → Buf (Elt Ideal) ((c : Thread nD τ).loc b))

theorem cv0_hz4 : (![0, 0, 0, 0] : Fin 4 → Nat) = fun _ => 0 := funext fun a => by fin_cases a <;> rfl
theorem cv0_hz2 : (![0, 0] : Fin 2 → Nat) = fun _ => 0 := funext fun a => by fin_cases a <;> rfl

/-- The printed index maps, decided over the grid: the image window and the result window sit at block t on the image axis
    and at block 0 on the others; the weight's and the bias's stay at block 0. -/
theorem cv0_idx : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The image block at point t is image t of the array. -/
theorem cv0_img (c : Dev nD) (t : Fin cfg0.N) (p : Fin 1) (a b : Fin 65) (q : Fin 12) :
    (iblk0 (F := Ideal) V c 0 t : S1x65x65x12.Idx → EReal) (ix4 p a b q)
      = (V c (Pipeline.arrRef spec0 0) : S128x65x65x12.Idx → EReal) (ix4 (t.cast N_0) a b q) := by
  obtain ⟨e0, e1, e2, e3, -⟩ := cv0_idx t
  unfold iblk0
  rw [View.read_apply]
  refine congrArg (V c (Pipeline.arrRef spec0 0) : S128x65x65x12.Idx → EReal) ?_
  funext ax
  apply Fin.ext
  match ax with
  | ⟨0, _⟩ => show win0_0.index t (0 : Fin 4) * 1 + 1 * p.val = t.val; rw [e0]; have := p.isLt; omega
  | ⟨1, _⟩ => show win0_0.index t (1 : Fin 4) * 65 + 1 * a.val = a.val; rw [e1]; omega
  | ⟨2, _⟩ => show win0_0.index t (2 : Fin 4) * 65 + 1 * b.val = b.val; rw [e2]; omega
  | ⟨3, _⟩ => show win0_0.index t (3 : Fin 4) * 12 + 1 * q.val = q.val; rw [e3]; omega

/-- The weight block at every point is the whole weight. -/
theorem cv0_wgt (c : Dev nD) (t : Fin cfg0.N) :
    (iblk0 (F := Ideal) V c 1 t : S48x128.Idx → EReal) = (V c (Pipeline.arrRef spec0 1) : S48x128.Idx → EReal) := by
  obtain ⟨-, -, -, -, e0, e1, -⟩ := cv0_idx t
  funext y
  unfold iblk0
  rw [View.read_apply]
  refine congrArg (V c (Pipeline.arrRef spec0 1) : S48x128.Idx → EReal) ?_
  funext ax
  apply Fin.ext
  match ax with
  | ⟨0, _⟩ => show win0_1.index t (0 : Fin 2) * 48 + 1 * (y 0).val = (y 0).val; rw [e0]; omega
  | ⟨1, _⟩ => show win0_1.index t (1 : Fin 2) * 128 + 1 * (y 1).val = (y 1).val; rw [e1]; omega

/-- The bias block at every point is the whole bias. -/
theorem cv0_bias (c : Dev nD) (t : Fin cfg0.N) :
    (iblk0 (F := Ideal) V c 2 t : S1x128.Idx → EReal) = (V c (Pipeline.arrRef spec0 2) : S1x128.Idx → EReal) := by
  obtain ⟨-, -, -, -, -, -, e0, e1, -⟩ := cv0_idx t
  funext y
  unfold iblk0
  rw [View.read_apply]
  refine congrArg (V c (Pipeline.arrRef spec0 2) : S1x128.Idx → EReal) ?_
  funext ax
  apply Fin.ext
  match ax with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- WHAT POINT t WRITES BACK is image t of the convolution of the arrays as the region finds them. -/
theorem cv0_flushed (c : Dev nD) (t : Fin cfg0.N) :
    (dat0 (F := Ideal) V c).flushed 3 t = ((cfg0.win 3).blk t).view.read (Elt Ideal)
      (convSpec 128 65 64 12 48 rfl rfl true (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero cv0_hz4]
  simp only [View.ld_unit_zero (S := S1x65x65x12) cv0_hz4, View.ld_unit_zero (S := S48x128) cv0_hz2, View.ld_unit_zero (S := S1x128) cv0_hz2]
  obtain ⟨-, -, -, -, -, -, -, -, e0, e1, e2, e3⟩ := cv0_idx t
  funext y
  obtain ⟨p, i, j, o, rfl⟩ : ∃ (p : Fin 1) (i j : Fin 64) (o : Fin 128), y = ix4 p i j o := ⟨y 0, y 1, y 2, y 3, eq_ix4 y⟩
  rw [View.read_apply]
  have eo : ((cfg0.win 3).blk t).view.emb (ix4 p i j o) = (ix4 (t.cast N_0) i j o : S128x64x64x128.Idx) := by
    funext ax
    apply Fin.ext
    match ax with
    | ⟨0, _⟩ => show win0_3.index t (0 : Fin 4) * 1 + 1 * p.val = t.val; rw [e0]; have := p.isLt; omega
    | ⟨1, _⟩ => show win0_3.index t (1 : Fin 4) * 64 + 1 * i.val = i.val; rw [e1]; omega
    | ⟨2, _⟩ => show win0_3.index t (2 : Fin 4) * 64 + 1 * j.val = j.val; rw [e2]; omega
    | ⟨3, _⟩ => show win0_3.index t (3 : Fin 4) * 128 + 1 * o.val = o.val; rw [e3]; omega
  rw [eo]
  show k0_pay1 (F := Ideal) (iblk0 V c 0 t) (iblk0 V c 1 t) (iblk0 V c 2 t) (ix4 p i j o) = _
  refine (pay0_apply _ _ _ p i j o).trans ?_
  rw [cv0_wgt V c t, cv0_bias V c t]
  exact convSpec_block 128 1 65 64 12 48 rfl rfl true _ _ _ _ (t.cast N_0) p (fun a b q => cv0_img V c t p a b q) i j o

/-- An index of the result array is in point t's block iff each coordinate is in the block's range on its axis. -/
theorem cv0_mem_blk (t : Fin cfg0.N) (i : S128x64x64x128.Idx) :
    i ∈ ((cfg0.win 3).blk t).view.set ↔ ∀ a : Fin 4, win0_3.index t a * S1x64x64x128.size a ≤ (i a).val ∧ (i a).val < win0_3.index t a * S1x64x64x128.size a + S1x64x64x128.size a := by
  show i ∈ ((View.whole main_v5).slice (win0_3.rect t)).set ↔ _
  rw [View.set_slice_whole, Rect.mem_set_unit]
  exact Iff.rfl

/-- THE RESULT ARRAY after the region: the convolution of the arrays as the region finds them (image n is written by point n). -/
theorem final0 (c : Dev nD) : (dat0 (F := Ideal) V c).arrAt 3 cfg0.N
    = convSpec 128 65 64 12 48 rfl rfl true (V c (Pipeline.arrRef spec0 0)) (V c (Pipeline.arrRef spec0 1)) (V c (Pipeline.arrRef spec0 2)) :=
  (dat0 V c).arrAt_eq_of_cover 3 _ (fun t _ => cv0_flushed V c t) fun i => by
    have h0 : (i 0 : ℕ) < 128 := (i 0).isLt
    have h1 : (i 1 : ℕ) < 64 := (i 1).isLt
    have h2 : (i 2 : ℕ) < 64 := (i 2).isLt
    have h3 : (i 3 : ℕ) < 128 := (i 3).isLt
    refine ⟨(⟨(i 0).val, h0⟩ : Fin 128).cast N_0.symm, flush0_3 _, ?_⟩
    obtain ⟨-, -, -, -, -, -, -, -, e0, e1, e2, e3⟩ := cv0_idx ((⟨(i 0).val, h0⟩ : Fin 128).cast N_0.symm)
    rw [cv0_mem_blk]
    intro a
    match a with
    | ⟨0, _⟩ => show win0_3.index _ (0 : Fin 4) * 1 ≤ (i 0).val ∧ (i 0).val < win0_3.index _ (0 : Fin 4) * 1 + 1; rw [e0]; show (i 0).val * 1 ≤ (i 0).val ∧ (i 0).val < (i 0).val * 1 + 1; omega
    | ⟨1, _⟩ => show win0_3.index _ (1 : Fin 4) * 64 ≤ (i 1).val ∧ (i 1).val < win0_3.index _ (1 : Fin 4) * 64 + 64; rw [e1]; omega
    | ⟨2, _⟩ => show win0_3.index _ (2 : Fin 4) * 64 ≤ (i 2).val ∧ (i 2).val < win0_3.index _ (2 : Fin 4) * 64 + 64; rw [e2]; omega
    | ⟨3, _⟩ => show win0_3.index _ (3 : Fin 4) * 128 ≤ (i 3).val ∧ (i 3).val < win0_3.index _ (3 : Fin 4) * 128 + 128; rw [e3]; omega

end Cert.ReferenceIdeal.Hand

end
-- ==== Proof.RPay1.lean ====
/-
  Region 1 of the reference, the payload: what the stride-2 4×4 convolution body stores, read at one pixel of its block, is the
  convolution sum of Spec.lean on the block's image.
-/
import proofs.«119654_g2000206494441110_pallasbulk_512_2_alg».proof.Proof.Gen.ReferenceIdeal.Frame
import proofs.«119654_g2000206494441110_pallasbulk_512_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.Spec Idealize.ShloMosaic Idealize.ShloMosaic.ValueIdx
open Idealize.ShloMosaic.Pipeline (Dat)

/-! ## Region 1: the convolution payload read at an output pixel

The body cuts the four unit-offset 32×32 windows of the 33×33 space-to-depth image, flattens each to a [1024, 512] patch
matrix, lays them side by side ([1024, 2048], tap 2a + b in lanes 512·(2a + b) …), multiplies by the flat weight, adds the bias, clamps at 0
and folds the rows back to pixels. Read at pixel (i, j), channel o, that is the convolution sum of Spec.lean. -/

/-- The product's index maps: the left operand is read at (row of the output, contraction position) … -/
theorem cv1_lhs0 (j : S1024x128.Idx) (k : dot_S1024x2048_S2048x128_S1024x128_1_0_0_1_n_n.contr.Idx) : (dot_S1024x2048_S2048x128_S1024x128_1_0_0_1_n_n.lhsIdx j k 0 : ℕ) = j 0 := by
  simp [DotDims.lhsIdx, dot_S1024x2048_S2048x128_S1024x128_1_0_0_1_n_n]; rfl
/-- … and the right one at (contraction position, column of the output). -/
theorem cv1_rhs1 (j : S1024x128.Idx) (k : dot_S1024x2048_S2048x128_S1024x128_1_0_0_1_n_n.contr.Idx) : (dot_S1024x2048_S2048x128_S1024x128_1_0_0_1_n_n.rhsIdx j k 1 : ℕ) = j 1 := by
  simp [DotDims.rhsIdx, dot_S1024x2048_S2048x128_S1024x128_1_0_0_1_n_n]; rfl

/-- Tap (a, b)'s patch matrix at row 32·i + j, lane q, is the image at cell (i + a, j + b), lane q. -/
theorem cv1_tap (a b : ℕ) (ha : a ≤ 1) (hb : b ≤ 1) (x0 : S1x33x33x512.Idx → EReal) (h0 : S1x33x33x512.ShapeCasts S33x33x512)
    (hs : S33x33x512.Slices ![a, b, 0] S32x32x512) (h1 : S32x32x512.ShapeCasts S1024x512) (i j : Fin 32) (q : Fin 512) :
    shapeCast S1024x512 (extractStridedSlice S32x32x512 ![a, b, 0] (shapeCast S33x33x512 x0 h0) hs) h1
        (ix2 (⟨i.val * 32 + j.val, by omega⟩ : Fin 1024) q)
      = x0 (ix4 (0 : Fin 1) (⟨i.val + a, by omega⟩ : Fin 33) (⟨j.val + b, by omega⟩ : Fin 33) q) := by
  refine (shapeCast_apply _ h1 _ (ix3 i j q) ?_).trans ?_
  · rw [Shape.rowMajor_val_three, Shape.rowMajor_val_two]; rfl
  refine (extractStridedSlice_apply _ _ hs _ (ix3 (⟨i.val + a, by omega⟩ : Fin 33) (⟨j.val + b, by omega⟩ : Fin 33) q) ?_).trans ?_
  · intro ax
    match ax with
    | ⟨0, _⟩ => exact Nat.add_comm _ _
    | ⟨1, _⟩ => exact Nat.add_comm _ _
    | ⟨2, _⟩ => exact (Nat.zero_add _).symm
  exact shapeCast_1abc_abc_apply x0 h0 _ _ _

/-- Two cells with the same coordinates hold the same value. -/
theorem cv1_cell (x0 : S1x33x33x512.Idx → EReal) (p : Fin 1) {a a' b b' : Fin 33} (ha : a.val = a'.val) (hb : b.val = b'.val) (q : Fin 512) :
    x0 (ix4 p a b q) = x0 (ix4 p a' b' q) := by
  obtain rfl := Fin.ext ha
  obtain rfl := Fin.ext hb
  rfl

/-- The patch matrix (the four taps side by side) at row 32·i + j, column k: tap k / 512 = 2a + b at lane k % 512, the image at
    cell (i + a, j + b). -/
theorem cv1_patch (x0 : S1x33x33x512.Idx → EReal) (h0 : S1x33x33x512.ShapeCasts S33x33x512)
    (hs00 : S33x33x512.Slices ![0, 0, 0] S32x32x512) (hs01 : S33x33x512.Slices ![0, 1, 0] S32x32x512)
    (hs10 : S33x33x512.Slices ![1, 0, 0] S32x32x512) (hs11 : S33x33x512.Slices ![1, 1, 0] S32x32x512) (h1 : S32x32x512.ShapeCasts S1024x512)
    (hc : Shape.Concatenates (([⟨S1024x512, shapeCast S1024x512 (extractStridedSlice S32x32x512 ![0, 0, 0] (shapeCast S33x33x512 x0 h0) hs00) h1⟩, ⟨S1024x512, shapeCast S1024x512 (extractStridedSlice S32x32x512 ![0, 1, 0] (shapeCast S33x33x512 x0 h0) hs01) h1⟩, ⟨S1024x512, shapeCast S1024x512 (extractStridedSlice S32x32x512 ![1, 0, 0] (shapeCast S33x33x512 x0 h0) hs10) h1⟩, ⟨S1024x512, shapeCast S1024x512 (extractStridedSlice S32x32x512 ![1, 1, 0] (shapeCast S33x33x512 x0 h0) hs11) h1⟩] : List ((s : Shape) × (s.Idx → EReal))).map (·.1)) S1024x2048 1)
    (i j : Fin 32) (k : Fin 2048) :
    concatenate S1024x2048 1 [⟨S1024x512, shapeCast S1024x512 (extractStridedSlice S32x32x512 ![0, 0, 0] (shapeCast S33x33x512 x0 h0) hs00) h1⟩, ⟨S1024x512, shapeCast S1024x512 (extractStridedSlice S32x32x512 ![0, 1, 0] (shapeCast S33x33x512 x0 h0) hs01) h1⟩, ⟨S1024x512, shapeCast S1024x512 (extractStridedSlice S32x32x512 ![1, 0, 0] (shapeCast S33x33x512 x0 h0) hs10) h1⟩, ⟨S1024x512, shapeCast S1024x512 (extractStridedSlice S32x32x512 ![1, 1, 0] (shapeCast S33x33x512 x0 h0) hs11) h1⟩] hc
        (ix2 (⟨i.val * 32 + j.val, by omega⟩ : Fin 1024) k)
      = x0 (ix4 (0 : Fin 1) (⟨i.val + k.val / 512 / 2, by omega⟩ : Fin 33) (⟨j.val + k.val / 512 % 2, by omega⟩ : Fin 33)
          (⟨k.val % 512, Nat.mod_lt _ (by omega)⟩ : Fin 512)) := by
  rcases (show k.val / 512 = 0 ∨ k.val / 512 = 1 ∨ k.val / 512 = 2 ∨ k.val / 512 = 3 by omega) with ht | ht | ht | ht
  · refine (concatenate_apply_piece 1 _ hc (ix2 (⟨i.val * 32 + j.val, by omega⟩ : Fin 1024) k) 0 (by show (0 : ℕ) < 4; omega) S1024x512 _ rfl rfl 0 rfl
      (ix2 (⟨i.val * 32 + j.val, by omega⟩ : Fin 1024) (⟨k.val % 512, Nat.mod_lt _ (by omega)⟩ : Fin 512)) ?_ ?_).trans ?_
    · intro b hb
      match b with
      | ⟨0, _⟩ => rfl
      | ⟨1, _⟩ => exact absurd rfl hb
    · show 0 + k.val % 512 = k.val
      omega
    · refine (cv1_tap 0 0 (by omega) (by omega) x0 h0 hs00 h1 i j _).trans ?_
      exact cv1_cell x0 _ (by show i.val + 0 = i.val + k.val / 512 / 2; omega) (by show j.val + 0 = j.val + k.val / 512 % 2; omega) _
  · refine (concatenate_apply_piece 1 _ hc (ix2 (⟨i.val * 32 + j.val, by omega⟩ : Fin 1024) k) 1 (by show (1 : ℕ) < 4; omega) S1024x512 _ rfl rfl 512 rfl
      (ix2 (⟨i.val * 32 + j.val, by omega⟩ : Fin 1024) (⟨k.val % 512, Nat.mod_lt _ (by omega)⟩ : Fin 512)) ?_ ?_).trans ?_
    · intro b hb
      match b with
      | ⟨0, _⟩ => rfl
      | ⟨1, _⟩ => exact absurd rfl hb
    · show 512 + k.val % 512 = k.val
      omega
    · refine (cv1_tap 0 1 (by omega) (by omega) x0 h0 hs01 h1 i j _).trans ?_
      exact cv1_cell x0 _ (by show i.val + 0 = i.val + k.val / 512 / 2; omega) (by show j.val + 1 = j.val + k.val / 512 % 2; omega) _
  · refine (concatenate_apply_piece 1 _ hc (ix2 (⟨i.val * 32 + j.val, by omega⟩ : Fin 1024) k) 2 (by show (2 : ℕ) < 4; omega) S1024x512 _ rfl rfl 1024 rfl
      (ix2 (⟨i.val * 32 + j.val, by omega⟩ : Fin 1024) (⟨k.val % 512, Nat.mod_lt _ (by omega)⟩ : Fin 512)) ?_ ?_).trans ?_
    · intro b hb
      match b with
      | ⟨0, _⟩ => rfl
      | ⟨1, _⟩ => exact absurd rfl hb
    · show 1024 + k.val % 512 = k.val
      omega
    · refine (cv1_tap 1 0 (by omega) (by omega) x0 h0 hs10 h1 i j _).trans ?_
      exact cv1_cell x0 _ (by show i.val + 1 = i.val + k.val / 512 / 2; omega) (by show j.val + 0 = j.val + k.val / 512 % 2; omega) _
  · refine (concatenate_apply_piece 1 _ hc (ix2 (⟨i.val * 32 + j.val, by omega⟩ : Fin 1024) k) 3 (by show (3 : ℕ) < 4; omega) S1024x512 _ rfl rfl 1536 rfl
      (ix2 (⟨i.val * 32 + j.val, by omega⟩ : Fin 1024) (⟨k.val % 512, Nat.mod_lt _ (by omega)⟩ : Fin 512)) ?_ ?_).trans ?_
    · intro b hb
      match b with
      | ⟨0, _⟩ => rfl
      | ⟨1, _⟩ => exact absurd rfl hb
    · show 1536 + k.val % 512 = k.val
      omega
    · refine (cv1_tap 1 1 (by omega) (by omega) x0 h0 hs11 h1 i j _).trans ?_
      exact cv1_cell x0 _ (by show i.val + 1 = i.val + k.val / 512 / 2; omega) (by show j.val + 1 = j.val + k.val / 512 % 2; omega) _

/-- The product into the zero accumulator at (row r, channel o): the sum over the 2048 weight rows. -/
theorem cv1_dot (L : S1024x2048.Idx → EReal) (w : S2048x128.Idx → EReal) (r : Fin 1024) (o : Fin 128) :
    matmul (F := Ideal) (φ₁ := .f32) (φ₂ := .f32) dot_S1024x2048_S2048x128_S1024x128_1_0_0_1_n_n none L w (constant (F := Ideal) S1024x128 .f32 0x00000000#32) (ix2 r o)
      = ∑ k : Fin 2048, L (ix2 r k) * w (ix2 k o) := by
  refine (Ideal.matmul_constant_zero_apply (φ₁ := .f32) (φ₂ := .f32) dot_S1024x2048_S2048x128_S1024x128_1_0_0_1_n_n none L w (ix2 r o)).trans ?_
  refine (Equiv.sum_comp (contrEquiv1 dot_S1024x2048_S2048x128_S1024x128_1_0_0_1_n_n 2048 rfl rfl).symm _).symm.trans ?_
  refine Finset.sum_congr rfl fun k _ => ?_
  have el : dot_S1024x2048_S2048x128_S1024x128_1_0_0_1_n_n.lhsIdx (ix2 r o) ((contrEquiv1 dot_S1024x2048_S2048x128_S1024x128_1_0_0_1_n_n 2048 rfl rfl).symm k) = ix2 r k := by
    funext a; apply Fin.ext
    match a with
    | ⟨0, _⟩ => exact cv1_lhs0 _ _
    | ⟨1, _⟩ => exact (DotDims.lhsIdx_val_of_single dot_S1024x2048_S2048x128_S1024x128_1_0_0_1_n_n (cl := 1) rfl _ _).trans (contrEquiv1_symm_val dot_S1024x2048_S2048x128_S1024x128_1_0_0_1_n_n 2048 rfl rfl k)
  have er : dot_S1024x2048_S2048x128_S1024x128_1_0_0_1_n_n.rhsIdx (ix2 r o) ((contrEquiv1 dot_S1024x2048_S2048x128_S1024x128_1_0_0_1_n_n 2048 rfl rfl).symm k) = ix2 k o := by
    funext a; apply Fin.ext
    match a with
    | ⟨0, _⟩ => exact (DotDims.rhsIdx_val_of_single dot_S1024x2048_S2048x128_S1024x128_1_0_0_1_n_n (cr := 0) rfl _ _).trans (contrEquiv1_symm_val dot_S1024x2048_S2048x128_S1024x128_1_0_0_1_n_n 2048 rfl rfl k)
    | ⟨1, _⟩ => exact cv1_rhs1 _ _
  rw [el, er]

/-- The convolution of Spec.lean on one image, at pixel (i, j), channel o, written out. -/
theorem cv1_spec (x0 : S1x33x33x512.Idx → EReal) (x1 : S2048x128.Idx → EReal) (x2 : S1x128.Idx → EReal) (p : Fin 1) (i j : Fin 32) (o : Fin 128) :
    convSpec 1 33 32 512 2048 rfl rfl true x0 x1 x2 (ix4 p i j o)
      = max ((∑ k : Fin 2048, x0 (ix4 p (⟨i.val + k.val / 512 / 2, by omega⟩ : Fin 33) (⟨j.val + k.val / 512 % 2, by omega⟩ : Fin 33)
            (⟨k.val % 512, Nat.mod_lt _ (by omega)⟩ : Fin 512)) * x1 (ix2 k o)) + x2 (ix2 (0 : Fin 1) o)) 0 := rfl

/-- THE PAYLOAD AT A PIXEL: what the body stores, read at image p (the block's one image), pixel (i, j), channel o, is the
    convolution of the block's image there. -/
theorem pay1_apply (x0 : Vec Ideal S1x33x33x512 .f32) (x1 : Vec Ideal S2048x128 .f32) (x2 : Vec Ideal S1x128 .f32)
    (p : Fin 1) (i j : Fin 32) (o : Fin 128) :
    k1_pay1 (F := Ideal) x0 x1 x2 (ix4 p i j o) = convSpec 1 33 32 512 2048 rfl rfl true x0 x1 x2 (ix4 p i j o) := by
  refine Eq.trans ?_ (cv1_spec x0 x1 x2 p i j o).symm
  have hp : p = (0 : Fin 1) := Subsingleton.elim _ _
  subst hp
  unfold k1_pay1
  refine (shapeCast_apply _ _ (ix4 (0 : Fin 1) i j o) (ix2 (⟨i.val * 32 + j.val, by omega⟩ : Fin 1024) o) ?_).trans ?_
  · rw [Shape.rowMajor_val_two, Shape.rowMajor_val_four]
    show (i.val * 32 + j.val) * 128 + o.val = ((0 * 32 + i.val) * 32 + j.val) * 128 + o.val
    omega
  refine (maximumf_apply _ _ _).trans ?_
  refine congrArg₂ max ?_ Ideal.ofBits_zero_f32
  refine (addf_apply _ _ _).trans ?_
  refine congrArg₂ (· + ·) ?_ (broadcastTo_1b_ab_apply x2 _ _ o)
  refine (cv1_dot _ x1 (⟨i.val * 32 + j.val, by omega⟩ : Fin 1024) o).trans ?_
  refine Finset.sum_congr rfl fun k _ => ?_
  exact congrArg (· * x1 (ix2 k o)) (cv1_patch x0 _ _ _ _ _ _ _ i j k)

end Cert.ReferenceIdeal.Hand

end
-- ==== Proof.RVal1.lean ====
/-
  Region 1 of the reference, the array: every grid point writes one image of the convolution of the arrays the region finds, so the
  result array ends holding that convolution.
-/
import proofs.«119654_g2000206494441110_pallasbulk_512_2_alg».proof.Proof.RPay1

set_option maxRecDepth 16384

noncomputable section

namespace Cert.ReferenceIdeal.Hand

open Cert.ReferenceIdeal Cert.ReferenceIdeal.Gen Cert.Spec Idealize.ShloMosaic Idealize.ShloMosaic.ValueIdx
open Idealize.ShloMosaic.TcCoe
open Idealize.ShloMosaic.Pipeline (Dat)

/-! ## Region 1: from the blocks to the array

One image per grid point: point t fetches image t of the space-to-depth array, the whole weight and the whole bias, and
writes image t of the result. -/

variable (V : (c : Dev nD) → (b : Ref sig .tc) → Buf (Elt Ideal) ((c : Thread nD τ).loc b))

theorem cv1_hz4 : (![0, 0, 0, 0] : Fin 4 → Nat) = fun _ => 0 := funext fun a => by fin_cases a <;> rfl
theorem cv1_hz2 : (![0, 0] : Fin 2 → Nat) = fun _ => 0 := funext fun a => by fin_cases a <;> rfl

/-- The printed index maps, decided over the grid: the image window and the result window sit at block t on the image axis
    and at block 0 on the others; the weight's and the bias's stay at block 0. -/
theorem cv1_idx : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 4) = t.val ∧ win1_3.index t (1 : Fin 4) = 0 ∧ win1_3.index t (2 : Fin 4) = 0 ∧ win1_3.index t (3 : Fin 4) = 0 :=
  (by decide +kernel : ∀ t : Fin grid1.N, _)

/-- The image block at point t is image t of the array. -/
theorem cv1_img (c : Dev nD) (t : Fin cfg1.N) (p : Fin 1) (a b : Fin 33) (q : Fin 512) :
    (iblk1 (F := Ideal) V c 0 t : S1x33x33x512.Idx → EReal) (ix4 p a b q)
      = (V c (Pipeline.arrRef spec1 0) : S128x33x33x512.Idx → EReal) (ix4 (t.cast N_1) a b q) := by
  obtain ⟨e0, e1, e2, e3, -⟩ := cv1_idx t
  unfold iblk1
  rw [View.read_apply]
  refine congrArg (V c (Pipeline.arrRef spec1 0) : S128x33x33x512.Idx → EReal) ?_
  funext ax
  apply Fin.ext
  match ax with
  | ⟨0, _⟩ => show win1_0.index t (0 : Fin 4) * 1 + 1 * p.val = t.val; rw [e0]; have := p.isLt; omega
  | ⟨1, _⟩ => show win1_0.index t (1 : Fin 4) * 33 + 1 * a.val = a.val; rw [e1]; omega
  | ⟨2, _⟩ => show win1_0.index t (2 : Fin 4) * 33 + 1 * b.val = b.val; rw [e2]; omega
  | ⟨3, _⟩ => show win1_0.index t (3 : Fin 4) * 512 + 1 * q.val = q.val; rw [e3]; omega

/-- The weight block at every point is the whole weight. -/
theorem cv1_wgt (c : Dev nD) (t : Fin cfg1.N) :
    (iblk1 (F := Ideal) V c 1 t : S2048x128.Idx → EReal) = (V c (Pipeline.arrRef spec1 1) : S2048x128.Idx → EReal) := by
  obtain ⟨-, -, -, -, e0, e1, -⟩ := cv1_idx t
  funext y
  unfold iblk1
  rw [View.read_apply]
  refine congrArg (V c (Pipeline.arrRef spec1 1) : S2048x128.Idx → EReal) ?_
  funext ax
  apply Fin.ext
  match ax with
  | ⟨0, _⟩ => show win1_1.index t (0 : Fin 2) * 2048 + 1 * (y 0).val = (y 0).val; rw [e0]; omega
  | ⟨1, _⟩ => show win1_1.index t (1 : Fin 2) * 128 + 1 * (y 1).val = (y 1).val; rw [e1]; omega

/-- The bias block at every point is the whole bias. -/
theorem cv1_bias (c : Dev nD) (t : Fin cfg1.N) :
    (iblk1 (F := Ideal) V c 2 t : S1x128.Idx → EReal) = (V c (Pipeline.arrRef spec1 2) : S1x128.Idx → EReal) := by
  obtain ⟨-, -, -, -, -, -, e0, e1, -⟩ := cv1_idx t
  funext y
  unfold iblk1
  rw [View.read_apply]
  refine congrArg (V c (Pipeline.arrRef spec1 2) : S1x128.Idx → EReal) ?_
  funext ax
  apply Fin.ext
  match ax with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- WHAT POINT t WRITES BACK is image t of the convolution of the arrays as the region finds them. -/
theorem cv1_flushed (c : Dev nD) (t : Fin cfg1.N) :
    (dat1 (F := Ideal) V c).flushed 3 t = ((cfg1.win 3).blk t).view.read (Elt Ideal)
      (convSpec 128 33 32 512 2048 rfl rfl true (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero cv1_hz4]
  simp only [View.ld_unit_zero (S := S1x33x33x512) cv1_hz4, View.ld_unit_zero (S := S2048x128) cv1_hz2, View.ld_unit_zero (S := S1x128) cv1_hz2]
  obtain ⟨-, -, -, -, -, -, -, -, e0, e1, e2, e3⟩ := cv1_idx t
  funext y
  obtain ⟨p, i, j, o, rfl⟩ : ∃ (p : Fin 1) (i j : Fin 32) (o : Fin 128), y = ix4 p i j o := ⟨y 0, y 1, y 2, y 3, eq_ix4 y⟩
  rw [View.read_apply]
  have eo : ((cfg1.win 3).blk t).view.emb (ix4 p i j o) = (ix4 (t.cast N_1) i j o : S128x32x32x128.Idx) := by
    funext ax
    apply Fin.ext
    match ax with
    | ⟨0, _⟩ => show win1_3.index t (0 : Fin 4) * 1 + 1 * p.val = t.val; rw [e0]; have := p.isLt; omega
    | ⟨1, _⟩ => show win1_3.index t (1 : Fin 4) * 32 + 1 * i.val = i.val; rw [e1]; omega
    | ⟨2, _⟩ => show win1_3.index t (2 : Fin 4) * 32 + 1 * j.val = j.val; rw [e2]; omega
    | ⟨3, _⟩ => show win1_3.index t (3 : Fin 4) * 128 + 1 * o.val = o.val; rw [e3]; omega
  rw [eo]
  show k1_pay1 (F := Ideal) (iblk1 V c 0 t) (iblk1 V c 1 t) (iblk1 V c 2 t) (ix4 p i j o) = _
  refine (pay1_apply _ _ _ p i j o).trans ?_
  rw [cv1_wgt V c t, cv1_bias V c t]
  exact convSpec_block 128 1 33 32 512 2048 rfl rfl true _ _ _ _ (t.cast N_1) p (fun a b q => cv1_img V c t p a b q) i j o

/-- An index of the result array is in point t's block iff each coordinate is in the block's range on its axis. -/
theorem cv1_mem_blk (t : Fin cfg1.N) (i : S128x32x32x128.Idx) :
    i ∈ ((cfg1.win 3).blk t).view.set ↔ ∀ a : Fin 4, win1_3.index t a * S1x32x32x128.size a ≤ (i a).val ∧ (i a).val < win1_3.index t a * S1x32x32x128.size a + S1x32x32x128.size a := by
  show i ∈ ((View.whole main_v10).slice (win1_3.rect t)).set ↔ _
  rw [View.set_slice_whole, Rect.mem_set_unit]
  exact Iff.rfl

/-- THE RESULT ARRAY after the region: the convolution of the arrays as the region finds them (image n is written by point n). -/
theorem final1 (c : Dev nD) : (dat1 (F := Ideal) V c).arrAt 3 cfg1.N
    = convSpec 128 33 32 512 2048 rfl rfl true (V c (Pipeline.arrRef spec1 0)) (V c (Pipeline.arrRef spec1 1)) (V c (Pipeline.arrRef spec1 2)) :=
  (dat1 V c).arrAt_eq_of_cover 3 _ (fun t _ => cv1_flushed V c t) fun i => by
    have h0 : (i 0 : ℕ) < 128 := (i 0).isLt
    have h1 : (i 1 : ℕ) < 32 := (i 1).isLt
    have h2 : (i 2 : ℕ) < 32 := (i 2).isLt
    have h3 : (i 3 : ℕ) < 128 := (i 3).isLt
    refine ⟨(⟨(i 0).val, h0⟩ : Fin 128).cast N_1.symm, flush1_3 _, ?_⟩
    obtain ⟨-, -, -, -, -, -, -, -, e0, e1, e2, e3⟩ := cv1_idx ((⟨(i 0).val, h0⟩ : Fin 128).cast N_1.symm)
    rw [cv1_mem_blk]
    intro a
    match a with
    | ⟨0, _⟩ => show win1_3.index _ (0 : Fin 4) * 1 ≤ (i 0).val ∧ (i 0).val < win1_3.index _ (0 : Fin 4) * 1 + 1; rw [e0]; show (i 0).val * 1 ≤ (i 0).val ∧ (i 0).val < (i 0).val * 1 + 1; omega
    | ⟨1, _⟩ => show win1_3.index _ (1 : Fin 4) * 32 ≤ (i 1).val ∧ (i 1).val < win1_3.index _ (1 : Fin 4) * 32 + 32; rw [e1]; omega
    | ⟨2, _⟩ => show win1_3.index _ (2 : Fin 4) * 32 ≤ (i 2).val ∧ (i 2).val < win1_3.index _ (2 : Fin 4) * 32 + 32; rw [e2]; omega
    | ⟨3, _⟩ => show win1_3.index _ (3 : Fin 4) * 128 ≤ (i 3).val ∧ (i 3).val < win1_3.index _ (3 : Fin 4) * 128 + 128; rw [e3]; omega

end Cert.ReferenceIdeal.Hand

end
-- ==== Proof.RPay2.lean ====
/-
  Region 2 of the reference, the payload: what the stride-2 4×4 convolution body stores, read at one pixel of its block, is the
  convolution sum of Spec.lean on the block's image.
-/
import proofs.«119654_g2000206494441110_pallasbulk_512_2_alg».proof.Proof.Gen.ReferenceIdeal.Frame
import proofs.«119654_g2000206494441110_pallasbulk_512_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen Cert.Spec Idealize.ShloMosaic Idealize.ShloMosaic.ValueIdx
open Idealize.ShloMosaic.Pipeline (Dat)

/-! ## Region 2: the convolution payload read at an output pixel

The body cuts the four unit-offset 16×16 windows of the 17×17 space-to-depth image, flattens each to a [256, 512] patch
matrix, lays them side by side ([256, 2048], tap 2a + b in lanes 512·(2a + b) …), multiplies by the flat weight, adds the bias
and folds the rows back to pixels. Read at pixel (i, j), channel o, that is the convolution sum of Spec.lean. -/

/-- The product's index maps: the left operand is read at (row of the output, contraction position) … -/
theorem cv2_lhs0 (j : S256x128.Idx) (k : dot_S256x2048_S2048x128_S256x128_1_0_0_1_n_n.contr.Idx) : (dot_S256x2048_S2048x128_S256x128_1_0_0_1_n_n.lhsIdx j k 0 : ℕ) = j 0 := by
  simp [DotDims.lhsIdx, dot_S256x2048_S2048x128_S256x128_1_0_0_1_n_n]; rfl
/-- … and the right one at (contraction position, column of the output). -/
theorem cv2_rhs1 (j : S256x128.Idx) (k : dot_S256x2048_S2048x128_S256x128_1_0_0_1_n_n.contr.Idx) : (dot_S256x2048_S2048x128_S256x128_1_0_0_1_n_n.rhsIdx j k 1 : ℕ) = j 1 := by
  simp [DotDims.rhsIdx, dot_S256x2048_S2048x128_S256x128_1_0_0_1_n_n]; rfl

/-- Tap (a, b)'s patch matrix at row 16·i + j, lane q, is the image at cell (i + a, j + b), lane q. -/
theorem cv2_tap (a b : ℕ) (ha : a ≤ 1) (hb : b ≤ 1) (x0 : S1x17x17x512.Idx → EReal) (h0 : S1x17x17x512.ShapeCasts S17x17x512)
    (hs : S17x17x512.Slices ![a, b, 0] S16x16x512) (h1 : S16x16x512.ShapeCasts S256x512) (i j : Fin 16) (q : Fin 512) :
    shapeCast S256x512 (extractStridedSlice S16x16x512 ![a, b, 0] (shapeCast S17x17x512 x0 h0) hs) h1
        (ix2 (⟨i.val * 16 + j.val, by omega⟩ : Fin 256) q)
      = x0 (ix4 (0 : Fin 1) (⟨i.val + a, by omega⟩ : Fin 17) (⟨j.val + b, by omega⟩ : Fin 17) q) := by
  refine (shapeCast_apply _ h1 _ (ix3 i j q) ?_).trans ?_
  · rw [Shape.rowMajor_val_three, Shape.rowMajor_val_two]; rfl
  refine (extractStridedSlice_apply _ _ hs _ (ix3 (⟨i.val + a, by omega⟩ : Fin 17) (⟨j.val + b, by omega⟩ : Fin 17) q) ?_).trans ?_
  · intro ax
    match ax with
    | ⟨0, _⟩ => exact Nat.add_comm _ _
    | ⟨1, _⟩ => exact Nat.add_comm _ _
    | ⟨2, _⟩ => exact (Nat.zero_add _).symm
  exact shapeCast_1abc_abc_apply x0 h0 _ _ _

/-- Two cells with the same coordinates hold the same value. -/
theorem cv2_cell (x0 : S1x17x17x512.Idx → EReal) (p : Fin 1) {a a' b b' : Fin 17} (ha : a.val = a'.val) (hb : b.val = b'.val) (q : Fin 512) :
    x0 (ix4 p a b q) = x0 (ix4 p a' b' q) := by
  obtain rfl := Fin.ext ha
  obtain rfl := Fin.ext hb
  rfl

/-- The patch matrix (the four taps side by side) at row 16·i + j, column k: tap k / 512 = 2a + b at lane k % 512, the image at
    cell (i + a, j + b). -/
theorem cv2_patch (x0 : S1x17x17x512.Idx → EReal) (h0 : S1x17x17x512.ShapeCasts S17x17x512)
    (hs00 : S17x17x512.Slices ![0, 0, 0] S16x16x512) (hs01 : S17x17x512.Slices ![0, 1, 0] S16x16x512)
    (hs10 : S17x17x512.Slices ![1, 0, 0] S16x16x512) (hs11 : S17x17x512.Slices ![1, 1, 0] S16x16x512) (h1 : S16x16x512.ShapeCasts S256x512)
    (hc : Shape.Concatenates (([⟨S256x512, shapeCast S256x512 (extractStridedSlice S16x16x512 ![0, 0, 0] (shapeCast S17x17x512 x0 h0) hs00) h1⟩, ⟨S256x512, shapeCast S256x512 (extractStridedSlice S16x16x512 ![0, 1, 0] (shapeCast S17x17x512 x0 h0) hs01) h1⟩, ⟨S256x512, shapeCast S256x512 (extractStridedSlice S16x16x512 ![1, 0, 0] (shapeCast S17x17x512 x0 h0) hs10) h1⟩, ⟨S256x512, shapeCast S256x512 (extractStridedSlice S16x16x512 ![1, 1, 0] (shapeCast S17x17x512 x0 h0) hs11) h1⟩] : List ((s : Shape) × (s.Idx → EReal))).map (·.1)) S256x2048 1)
    (i j : Fin 16) (k : Fin 2048) :
    concatenate S256x2048 1 [⟨S256x512, shapeCast S256x512 (extractStridedSlice S16x16x512 ![0, 0, 0] (shapeCast S17x17x512 x0 h0) hs00) h1⟩, ⟨S256x512, shapeCast S256x512 (extractStridedSlice S16x16x512 ![0, 1, 0] (shapeCast S17x17x512 x0 h0) hs01) h1⟩, ⟨S256x512, shapeCast S256x512 (extractStridedSlice S16x16x512 ![1, 0, 0] (shapeCast S17x17x512 x0 h0) hs10) h1⟩, ⟨S256x512, shapeCast S256x512 (extractStridedSlice S16x16x512 ![1, 1, 0] (shapeCast S17x17x512 x0 h0) hs11) h1⟩] hc
        (ix2 (⟨i.val * 16 + j.val, by omega⟩ : Fin 256) k)
      = x0 (ix4 (0 : Fin 1) (⟨i.val + k.val / 512 / 2, by omega⟩ : Fin 17) (⟨j.val + k.val / 512 % 2, by omega⟩ : Fin 17)
          (⟨k.val % 512, Nat.mod_lt _ (by omega)⟩ : Fin 512)) := by
  rcases (show k.val / 512 = 0 ∨ k.val / 512 = 1 ∨ k.val / 512 = 2 ∨ k.val / 512 = 3 by omega) with ht | ht | ht | ht
  · refine (concatenate_apply_piece 1 _ hc (ix2 (⟨i.val * 16 + j.val, by omega⟩ : Fin 256) k) 0 (by show (0 : ℕ) < 4; omega) S256x512 _ rfl rfl 0 rfl
      (ix2 (⟨i.val * 16 + j.val, by omega⟩ : Fin 256) (⟨k.val % 512, Nat.mod_lt _ (by omega)⟩ : Fin 512)) ?_ ?_).trans ?_
    · intro b hb
      match b with
      | ⟨0, _⟩ => rfl
      | ⟨1, _⟩ => exact absurd rfl hb
    · show 0 + k.val % 512 = k.val
      omega
    · refine (cv2_tap 0 0 (by omega) (by omega) x0 h0 hs00 h1 i j _).trans ?_
      exact cv2_cell x0 _ (by show i.val + 0 = i.val + k.val / 512 / 2; omega) (by show j.val + 0 = j.val + k.val / 512 % 2; omega) _
  · refine (concatenate_apply_piece 1 _ hc (ix2 (⟨i.val * 16 + j.val, by omega⟩ : Fin 256) k) 1 (by show (1 : ℕ) < 4; omega) S256x512 _ rfl rfl 512 rfl
      (ix2 (⟨i.val * 16 + j.val, by omega⟩ : Fin 256) (⟨k.val % 512, Nat.mod_lt _ (by omega)⟩ : Fin 512)) ?_ ?_).trans ?_
    · intro b hb
      match b with
      | ⟨0, _⟩ => rfl
      | ⟨1, _⟩ => exact absurd rfl hb
    · show 512 + k.val % 512 = k.val
      omega
    · refine (cv2_tap 0 1 (by omega) (by omega) x0 h0 hs01 h1 i j _).trans ?_
      exact cv2_cell x0 _ (by show i.val + 0 = i.val + k.val / 512 / 2; omega) (by show j.val + 1 = j.val + k.val / 512 % 2; omega) _
  · refine (concatenate_apply_piece 1 _ hc (ix2 (⟨i.val * 16 + j.val, by omega⟩ : Fin 256) k) 2 (by show (2 : ℕ) < 4; omega) S256x512 _ rfl rfl 1024 rfl
      (ix2 (⟨i.val * 16 + j.val, by omega⟩ : Fin 256) (⟨k.val % 512, Nat.mod_lt _ (by omega)⟩ : Fin 512)) ?_ ?_).trans ?_
    · intro b hb
      match b with
      | ⟨0, _⟩ => rfl
      | ⟨1, _⟩ => exact absurd rfl hb
    · show 1024 + k.val % 512 = k.val
      omega
    · refine (cv2_tap 1 0 (by omega) (by omega) x0 h0 hs10 h1 i j _).trans ?_
      exact cv2_cell x0 _ (by show i.val + 1 = i.val + k.val / 512 / 2; omega) (by show j.val + 0 = j.val + k.val / 512 % 2; omega) _
  · refine (concatenate_apply_piece 1 _ hc (ix2 (⟨i.val * 16 + j.val, by omega⟩ : Fin 256) k) 3 (by show (3 : ℕ) < 4; omega) S256x512 _ rfl rfl 1536 rfl
      (ix2 (⟨i.val * 16 + j.val, by omega⟩ : Fin 256) (⟨k.val % 512, Nat.mod_lt _ (by omega)⟩ : Fin 512)) ?_ ?_).trans ?_
    · intro b hb
      match b with
      | ⟨0, _⟩ => rfl
      | ⟨1, _⟩ => exact absurd rfl hb
    · show 1536 + k.val % 512 = k.val
      omega
    · refine (cv2_tap 1 1 (by omega) (by omega) x0 h0 hs11 h1 i j _).trans ?_
      exact cv2_cell x0 _ (by show i.val + 1 = i.val + k.val / 512 / 2; omega) (by show j.val + 1 = j.val + k.val / 512 % 2; omega) _

/-- The product into the zero accumulator at (row r, channel o): the sum over the 2048 weight rows. -/
theorem cv2_dot (L : S256x2048.Idx → EReal) (w : S2048x128.Idx → EReal) (r : Fin 256) (o : Fin 128) :
    matmul (F := Ideal) (φ₁ := .f32) (φ₂ := .f32) dot_S256x2048_S2048x128_S256x128_1_0_0_1_n_n none L w (constant (F := Ideal) S256x128 .f32 0x00000000#32) (ix2 r o)
      = ∑ k : Fin 2048, L (ix2 r k) * w (ix2 k o) := by
  refine (Ideal.matmul_constant_zero_apply (φ₁ := .f32) (φ₂ := .f32) dot_S256x2048_S2048x128_S256x128_1_0_0_1_n_n none L w (ix2 r o)).trans ?_
  refine (Equiv.sum_comp (contrEquiv1 dot_S256x2048_S2048x128_S256x128_1_0_0_1_n_n 2048 rfl rfl).symm _).symm.trans ?_
  refine Finset.sum_congr rfl fun k _ => ?_
  have el : dot_S256x2048_S2048x128_S256x128_1_0_0_1_n_n.lhsIdx (ix2 r o) ((contrEquiv1 dot_S256x2048_S2048x128_S256x128_1_0_0_1_n_n 2048 rfl rfl).symm k) = ix2 r k := by
    funext a; apply Fin.ext
    match a with
    | ⟨0, _⟩ => exact cv2_lhs0 _ _
    | ⟨1, _⟩ => exact (DotDims.lhsIdx_val_of_single dot_S256x2048_S2048x128_S256x128_1_0_0_1_n_n (cl := 1) rfl _ _).trans (contrEquiv1_symm_val dot_S256x2048_S2048x128_S256x128_1_0_0_1_n_n 2048 rfl rfl k)
  have er : dot_S256x2048_S2048x128_S256x128_1_0_0_1_n_n.rhsIdx (ix2 r o) ((contrEquiv1 dot_S256x2048_S2048x128_S256x128_1_0_0_1_n_n 2048 rfl rfl).symm k) = ix2 k o := by
    funext a; apply Fin.ext
    match a with
    | ⟨0, _⟩ => exact (DotDims.rhsIdx_val_of_single dot_S256x2048_S2048x128_S256x128_1_0_0_1_n_n (cr := 0) rfl _ _).trans (contrEquiv1_symm_val dot_S256x2048_S2048x128_S256x128_1_0_0_1_n_n 2048 rfl rfl k)
    | ⟨1, _⟩ => exact cv2_rhs1 _ _
  rw [el, er]

/-- The convolution of Spec.lean on one image, at pixel (i, j), channel o, written out. -/
theorem cv2_spec (x0 : S1x17x17x512.Idx → EReal) (x1 : S2048x128.Idx → EReal) (x2 : S1x128.Idx → EReal) (p : Fin 1) (i j : Fin 16) (o : Fin 128) :
    convSpec 1 17 16 512 2048 rfl rfl false x0 x1 x2 (ix4 p i j o)
      = ((∑ k : Fin 2048, x0 (ix4 p (⟨i.val + k.val / 512 / 2, by omega⟩ : Fin 17) (⟨j.val + k.val / 512 % 2, by omega⟩ : Fin 17)
            (⟨k.val % 512, Nat.mod_lt _ (by omega)⟩ : Fin 512)) * x1 (ix2 k o)) + x2 (ix2 (0 : Fin 1) o)) := rfl

/-- THE PAYLOAD AT A PIXEL: what the body stores, read at image p (the block's one image), pixel (i, j), channel o, is the
    convolution of the block's image there. -/
theorem pay2_apply (x0 : Vec Ideal S1x17x17x512 .f32) (x1 : Vec Ideal S2048x128 .f32) (x2 : Vec Ideal S1x128 .f32)
    (p : Fin 1) (i j : Fin 16) (o : Fin 128) :
    k2_pay1 (F := Ideal) x0 x1 x2 (ix4 p i j o) = convSpec 1 17 16 512 2048 rfl rfl false x0 x1 x2 (ix4 p i j o) := by
  refine Eq.trans ?_ (cv2_spec x0 x1 x2 p i j o).symm
  have hp : p = (0 : Fin 1) := Subsingleton.elim _ _
  subst hp
  unfold k2_pay1
  refine (shapeCast_apply _ _ (ix4 (0 : Fin 1) i j o) (ix2 (⟨i.val * 16 + j.val, by omega⟩ : Fin 256) o) ?_).trans ?_
  · rw [Shape.rowMajor_val_two, Shape.rowMajor_val_four]
    show (i.val * 16 + j.val) * 128 + o.val = ((0 * 16 + i.val) * 16 + j.val) * 128 + o.val
    omega
  refine (addf_apply _ _ _).trans ?_
  refine congrArg₂ (· + ·) ?_ (broadcastTo_1b_ab_apply x2 _ _ o)
  refine (cv2_dot _ x1 (⟨i.val * 16 + j.val, by omega⟩ : Fin 256) o).trans ?_
  refine Finset.sum_congr rfl fun k _ => ?_
  exact congrArg (· * x1 (ix2 k o)) (cv2_patch x0 _ _ _ _ _ _ _ i j k)

end Cert.ReferenceIdeal.Hand

end
-- ==== Proof.RVal2.lean ====
/-
  Region 2 of the reference, the array: every grid point writes one image of the convolution of the arrays the region finds, so the
  result array ends holding that convolution.
-/
import proofs.«119654_g2000206494441110_pallasbulk_512_2_alg».proof.Proof.RPay2

set_option maxRecDepth 16384

noncomputable section

namespace Cert.ReferenceIdeal.Hand

open Cert.ReferenceIdeal Cert.ReferenceIdeal.Gen Cert.Spec Idealize.ShloMosaic Idealize.ShloMosaic.ValueIdx
open Idealize.ShloMosaic.TcCoe
open Idealize.ShloMosaic.Pipeline (Dat)

/-! ## Region 2: from the blocks to the array

One image per grid point: point t fetches image t of the space-to-depth array, the whole weight and the whole bias, and
writes image t of the result. -/

variable (V : (c : Dev nD) → (b : Ref sig .tc) → Buf (Elt Ideal) ((c : Thread nD τ).loc b))

theorem cv2_hz4 : (![0, 0, 0, 0] : Fin 4 → Nat) = fun _ => 0 := funext fun a => by fin_cases a <;> rfl
theorem cv2_hz2 : (![0, 0] : Fin 2 → Nat) = fun _ => 0 := funext fun a => by fin_cases a <;> rfl

/-- The printed index maps, decided over the grid: the image window and the result window sit at block t on the image axis
    and at block 0 on the others; the weight's and the bias's stay at block 0. -/
theorem cv2_idx : ∀ t : Fin cfg2.N,
    win2_0.index t (0 : Fin 4) = t.val ∧ win2_0.index t (1 : Fin 4) = 0 ∧ win2_0.index t (2 : Fin 4) = 0 ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 4) = t.val ∧ win2_3.index t (1 : Fin 4) = 0 ∧ win2_3.index t (2 : Fin 4) = 0 ∧ win2_3.index t (3 : Fin 4) = 0 :=
  (by decide +kernel : ∀ t : Fin grid2.N, _)

/-- The image block at point t is image t of the array. -/
theorem cv2_img (c : Dev nD) (t : Fin cfg2.N) (p : Fin 1) (a b : Fin 17) (q : Fin 512) :
    (iblk2 (F := Ideal) V c 0 t : S1x17x17x512.Idx → EReal) (ix4 p a b q)
      = (V c (Pipeline.arrRef spec2 0) : S128x17x17x512.Idx → EReal) (ix4 (t.cast N_2) a b q) := by
  obtain ⟨e0, e1, e2, e3, -⟩ := cv2_idx t
  unfold iblk2
  rw [View.read_apply]
  refine congrArg (V c (Pipeline.arrRef spec2 0) : S128x17x17x512.Idx → EReal) ?_
  funext ax
  apply Fin.ext
  match ax with
  | ⟨0, _⟩ => show win2_0.index t (0 : Fin 4) * 1 + 1 * p.val = t.val; rw [e0]; have := p.isLt; omega
  | ⟨1, _⟩ => show win2_0.index t (1 : Fin 4) * 17 + 1 * a.val = a.val; rw [e1]; omega
  | ⟨2, _⟩ => show win2_0.index t (2 : Fin 4) * 17 + 1 * b.val = b.val; rw [e2]; omega
  | ⟨3, _⟩ => show win2_0.index t (3 : Fin 4) * 512 + 1 * q.val = q.val; rw [e3]; omega

/-- The weight block at every point is the whole weight. -/
theorem cv2_wgt (c : Dev nD) (t : Fin cfg2.N) :
    (iblk2 (F := Ideal) V c 1 t : S2048x128.Idx → EReal) = (V c (Pipeline.arrRef spec2 1) : S2048x128.Idx → EReal) := by
  obtain ⟨-, -, -, -, e0, e1, -⟩ := cv2_idx t
  funext y
  unfold iblk2
  rw [View.read_apply]
  refine congrArg (V c (Pipeline.arrRef spec2 1) : S2048x128.Idx → EReal) ?_
  funext ax
  apply Fin.ext
  match ax with
  | ⟨0, _⟩ => show win2_1.index t (0 : Fin 2) * 2048 + 1 * (y 0).val = (y 0).val; rw [e0]; omega
  | ⟨1, _⟩ => show win2_1.index t (1 : Fin 2) * 128 + 1 * (y 1).val = (y 1).val; rw [e1]; omega

/-- The bias block at every point is the whole bias. -/
theorem cv2_bias (c : Dev nD) (t : Fin cfg2.N) :
    (iblk2 (F := Ideal) V c 2 t : S1x128.Idx → EReal) = (V c (Pipeline.arrRef spec2 2) : S1x128.Idx → EReal) := by
  obtain ⟨-, -, -, -, -, -, e0, e1, -⟩ := cv2_idx t
  funext y
  unfold iblk2
  rw [View.read_apply]
  refine congrArg (V c (Pipeline.arrRef spec2 2) : S1x128.Idx → EReal) ?_
  funext ax
  apply Fin.ext
  match ax with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- WHAT POINT t WRITES BACK is image t of the convolution of the arrays as the region finds them. -/
theorem cv2_flushed (c : Dev nD) (t : Fin cfg2.N) :
    (dat2 (F := Ideal) V c).flushed 3 t = ((cfg2.win 3).blk t).view.read (Elt Ideal)
      (convSpec 128 17 16 512 2048 rfl rfl false (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero cv2_hz4]
  simp only [View.ld_unit_zero (S := S1x17x17x512) cv2_hz4, View.ld_unit_zero (S := S2048x128) cv2_hz2, View.ld_unit_zero (S := S1x128) cv2_hz2]
  obtain ⟨-, -, -, -, -, -, -, -, e0, e1, e2, e3⟩ := cv2_idx t
  funext y
  obtain ⟨p, i, j, o, rfl⟩ : ∃ (p : Fin 1) (i j : Fin 16) (o : Fin 128), y = ix4 p i j o := ⟨y 0, y 1, y 2, y 3, eq_ix4 y⟩
  rw [View.read_apply]
  have eo : ((cfg2.win 3).blk t).view.emb (ix4 p i j o) = (ix4 (t.cast N_2) i j o : S128x16x16x128.Idx) := by
    funext ax
    apply Fin.ext
    match ax with
    | ⟨0, _⟩ => show win2_3.index t (0 : Fin 4) * 1 + 1 * p.val = t.val; rw [e0]; have := p.isLt; omega
    | ⟨1, _⟩ => show win2_3.index t (1 : Fin 4) * 16 + 1 * i.val = i.val; rw [e1]; omega
    | ⟨2, _⟩ => show win2_3.index t (2 : Fin 4) * 16 + 1 * j.val = j.val; rw [e2]; omega
    | ⟨3, _⟩ => show win2_3.index t (3 : Fin 4) * 128 + 1 * o.val = o.val; rw [e3]; omega
  rw [eo]
  show k2_pay1 (F := Ideal) (iblk2 V c 0 t) (iblk2 V c 1 t) (iblk2 V c 2 t) (ix4 p i j o) = _
  refine (pay2_apply _ _ _ p i j o).trans ?_
  rw [cv2_wgt V c t, cv2_bias V c t]
  exact convSpec_block 128 1 17 16 512 2048 rfl rfl false _ _ _ _ (t.cast N_2) p (fun a b q => cv2_img V c t p a b q) i j o

/-- An index of the result array is in point t's block iff each coordinate is in the block's range on its axis. -/
theorem cv2_mem_blk (t : Fin cfg2.N) (i : S128x16x16x128.Idx) :
    i ∈ ((cfg2.win 3).blk t).view.set ↔ ∀ a : Fin 4, win2_3.index t a * S1x16x16x128.size a ≤ (i a).val ∧ (i a).val < win2_3.index t a * S1x16x16x128.size a + S1x16x16x128.size a := by
  show i ∈ ((View.whole main_v15).slice (win2_3.rect t)).set ↔ _
  rw [View.set_slice_whole, Rect.mem_set_unit]
  exact Iff.rfl

/-- THE RESULT ARRAY after the region: the convolution of the arrays as the region finds them (image n is written by point n). -/
theorem final2 (c : Dev nD) : (dat2 (F := Ideal) V c).arrAt 3 cfg2.N
    = convSpec 128 17 16 512 2048 rfl rfl false (V c (Pipeline.arrRef spec2 0)) (V c (Pipeline.arrRef spec2 1)) (V c (Pipeline.arrRef spec2 2)) :=
  (dat2 V c).arrAt_eq_of_cover 3 _ (fun t _ => cv2_flushed V c t) fun i => by
    have h0 : (i 0 : ℕ) < 128 := (i 0).isLt
    have h1 : (i 1 : ℕ) < 16 := (i 1).isLt
    have h2 : (i 2 : ℕ) < 16 := (i 2).isLt
    have h3 : (i 3 : ℕ) < 128 := (i 3).isLt
    refine ⟨(⟨(i 0).val, h0⟩ : Fin 128).cast N_2.symm, flush2_3 _, ?_⟩
    obtain ⟨-, -, -, -, -, -, -, -, e0, e1, e2, e3⟩ := cv2_idx ((⟨(i 0).val, h0⟩ : Fin 128).cast N_2.symm)
    rw [cv2_mem_blk]
    intro a
    match a with
    | ⟨0, _⟩ => show win2_3.index _ (0 : Fin 4) * 1 ≤ (i 0).val ∧ (i 0).val < win2_3.index _ (0 : Fin 4) * 1 + 1; rw [e0]; show (i 0).val * 1 ≤ (i 0).val ∧ (i 0).val < (i 0).val * 1 + 1; omega
    | ⟨1, _⟩ => show win2_3.index _ (1 : Fin 4) * 16 ≤ (i 1).val ∧ (i 1).val < win2_3.index _ (1 : Fin 4) * 16 + 16; rw [e1]; omega
    | ⟨2, _⟩ => show win2_3.index _ (2 : Fin 4) * 16 ≤ (i 2).val ∧ (i 2).val < win2_3.index _ (2 : Fin 4) * 16 + 16; rw [e2]; omega
    | ⟨3, _⟩ => show win2_3.index _ (3 : Fin 4) * 128 ≤ (i 3).val ∧ (i 3).val < win2_3.index _ (3 : Fin 4) * 128 + 128; rw [e3]; omega

end Cert.ReferenceIdeal.Hand

end
-- ==== Proof.RValPay.lean ====
/-
  The two residual layers of the reference, at an index of a block: the body's payload (ReLU of the padded block, nine shifted 16×16 windows side by side,
  the product with the first weight, ReLU, the product with the second weight, the skip connection from the window's centre, and for the last layer a final
  ReLU) read at pixel (i, j), channel o, is the residual layer of the block's one image there.
-/
import proofs.«119654_g2000206494441110_pallasbulk_512_2_alg».proof.Proof.Gen.ReferenceIdeal.Frame
import proofs.«119654_g2000206494441110_pallasbulk_512_2_alg».proof.Proof.Spec
import proofs.«119654_g2000206494441110_pallasbulk_512_2_alg».proof.Proof.SpecLocal
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open scoped BigOperators

namespace Cert.ReferenceIdeal.Hand

open Cert.ReferenceIdeal Cert.ReferenceIdeal.Gen Cert.Spec Idealize.ShloMosaic Idealize.ShloMosaic.ValueIdx

variable {α : Type}

/-! ## The two products' index maps -/

abbrev D1 := dot_S256x1152_S1152x128_S256x128_1_0_0_1_n_n
abbrev D2 := dot_S256x128_S128x128_S256x128_1_0_0_1_n_n

theorem D1_lhs0 (j : S256x128.Idx) (k : D1.contr.Idx) : (D1.lhsIdx j k 0 : ℕ) = j 0 := by
  simp [DotDims.lhsIdx, D1, dot_S256x1152_S1152x128_S256x128_1_0_0_1_n_n]; rfl
theorem D1_lhs1 (j : S256x128.Idx) (k : D1.contr.Idx) : (D1.lhsIdx j k 1 : ℕ) = k ⟨0, by decide⟩ := by
  simp [DotDims.lhsIdx, D1, dot_S256x1152_S1152x128_S256x128_1_0_0_1_n_n]; rfl
theorem D1_rhs0 (j : S256x128.Idx) (k : D1.contr.Idx) : (D1.rhsIdx j k 0 : ℕ) = k ⟨0, by decide⟩ := by
  simp [DotDims.rhsIdx, D1, dot_S256x1152_S1152x128_S256x128_1_0_0_1_n_n]; rfl
theorem D1_rhs1 (j : S256x128.Idx) (k : D1.contr.Idx) : (D1.rhsIdx j k 1 : ℕ) = j 1 := by
  simp [DotDims.rhsIdx, D1, dot_S256x1152_S1152x128_S256x128_1_0_0_1_n_n]; rfl

theorem D2_lhs0 (j : S256x128.Idx) (k : D2.contr.Idx) : (D2.lhsIdx j k 0 : ℕ) = j 0 := by
  simp [DotDims.lhsIdx, D2, dot_S256x128_S128x128_S256x128_1_0_0_1_n_n]; rfl
theorem D2_lhs1 (j : S256x128.Idx) (k : D2.contr.Idx) : (D2.lhsIdx j k 1 : ℕ) = k ⟨0, by decide⟩ := by
  simp [DotDims.lhsIdx, D2, dot_S256x128_S128x128_S256x128_1_0_0_1_n_n]; rfl
theorem D2_rhs0 (j : S256x128.Idx) (k : D2.contr.Idx) : (D2.rhsIdx j k 0 : ℕ) = k ⟨0, by decide⟩ := by
  simp [DotDims.rhsIdx, D2, dot_S256x128_S128x128_S256x128_1_0_0_1_n_n]; rfl
theorem D2_rhs1 (j : S256x128.Idx) (k : D2.contr.Idx) : (D2.rhsIdx j k 1 : ℕ) = j 1 := by
  simp [DotDims.rhsIdx, D2, dot_S256x128_S128x128_S256x128_1_0_0_1_n_n]; rfl

/-- The first product into the zero accumulator, at row r and column c: the sum over the 1152 weight rows. -/
theorem mm1_apply (lhs : FVec Ideal S256x1152 .f32) (rhs : FVec Ideal S1152x128 .f32) (r : Fin 256) (c : Fin 128) :
    matmul D1 none lhs rhs (constant S256x128 .f32 0x00000000#32) (ix2 r c) = ∑ k : Fin 1152, lhs (ix2 r k) * rhs (ix2 k c) := by
  refine (Ideal.matmul_constant_zero_apply D1 none lhs rhs (ix2 r c)).trans ?_
  refine (Equiv.sum_comp (contrEquiv1 D1 1152 rfl rfl).symm _).symm.trans ?_
  refine Finset.sum_congr rfl fun k _ => ?_
  have hl : D1.lhsIdx (ix2 r c) ((contrEquiv1 D1 1152 rfl rfl).symm k) = ix2 r k := by
    funext a; apply Fin.ext
    match a with
    | ⟨0, _⟩ => exact D1_lhs0 _ _
    | ⟨1, _⟩ => exact (D1_lhs1 _ _).trans (contrEquiv1_symm_val D1 1152 rfl rfl k)
  have hr : D1.rhsIdx (ix2 r c) ((contrEquiv1 D1 1152 rfl rfl).symm k) = ix2 k c := by
    funext a; apply Fin.ext
    match a with
    | ⟨0, _⟩ => exact (D1_rhs0 _ _).trans (contrEquiv1_symm_val D1 1152 rfl rfl k)
    | ⟨1, _⟩ => exact D1_rhs1 _ _
  rw [hl, hr]

/-- The second product into the zero accumulator, at row r and column c: the sum over the 128 hidden channels. -/
theorem mm2_apply (lhs : FVec Ideal S256x128 .f32) (rhs : FVec Ideal S128x128 .f32) (r : Fin 256) (c : Fin 128) :
    matmul D2 none lhs rhs (constant S256x128 .f32 0x00000000#32) (ix2 r c) = ∑ k : Fin 128, lhs (ix2 r k) * rhs (ix2 k c) := by
  refine (Ideal.matmul_constant_zero_apply D2 none lhs rhs (ix2 r c)).trans ?_
  refine (Equiv.sum_comp (contrEquiv1 D2 128 rfl rfl).symm _).symm.trans ?_
  refine Finset.sum_congr rfl fun k _ => ?_
  have hl : D2.lhsIdx (ix2 r c) ((contrEquiv1 D2 128 rfl rfl).symm k) = ix2 r k := by
    funext a; apply Fin.ext
    match a with
    | ⟨0, _⟩ => exact D2_lhs0 _ _
    | ⟨1, _⟩ => exact (D2_lhs1 _ _).trans (contrEquiv1_symm_val D2 128 rfl rfl k)
  have hr : D2.rhsIdx (ix2 r c) ((contrEquiv1 D2 128 rfl rfl).symm k) = ix2 k c := by
    funext a; apply Fin.ext
    match a with
    | ⟨0, _⟩ => exact (D2_rhs0 _ _).trans (contrEquiv1_symm_val D2 128 rfl rfl k)
    | ⟨1, _⟩ => exact D2_rhs1 _ _
  rw [hl, hr]

/-! ## The layout operations at an index -/

/-- A 16×16 window of the 18×18 map at offsets (kh, kw), read at pixel (i, j), lane q. -/
theorem window_apply (kh kw : ℕ) (X : S18x18x128.Idx → α) (h : S18x18x128.Slices ![kh, kw, 0] S16x16x128)
    (i j : Fin 16) (q : Fin 128) (a b : Fin 18) (ha : a.val = kh + i.val) (hb : b.val = kw + j.val) :
    extractStridedSlice S16x16x128 ![kh, kw, 0] X h (ix3 i j q) = X (ix3 a b q) :=
  extractStridedSlice_apply _ _ _ _ _ (fun ax => match ax with
    | ⟨0, _⟩ => ha
    | ⟨1, _⟩ => hb
    | ⟨2, _⟩ => (Nat.zero_add _).symm)

/-- The 16×16 pixels flattened to 256 rows: row 16·i + j is pixel (i, j). -/
theorem rows_apply (X : S16x16x128.Idx → α) (h : S16x16x128.ShapeCasts S256x128) (i j : Fin 16) (q : Fin 128) (r : Fin 256)
    (hr : r.val = 16 * i.val + j.val) : shapeCast S256x128 X h (ix2 r q) = X (ix3 i j q) :=
  shapeCast_apply X h _ _ (by
    rw [Shape.rowMajor_val_three, Shape.rowMajor_val_two]
    show (i.val * 16 + j.val) * 128 + q.val = r.val * 128 + q.val
    rw [hr]; omega)

/-- The 256 rows seen as one image of 16×16 pixels. -/
theorem image_apply (X : S256x128.Idx → α) (h : S256x128.ShapeCasts S1x16x16x128) (u : Fin 1) (i j : Fin 16) (o : Fin 128) (r : Fin 256)
    (hr : r.val = 16 * i.val + j.val) : shapeCast S1x16x16x128 X h (ix4 u i j o) = X (ix2 r o) :=
  shapeCast_apply X h _ _ (by
    have hu : u.val = 0 := by omega
    rw [Shape.rowMajor_val_two, Shape.rowMajor_val_four]
    show r.val * 128 + o.val = (((u.val * 16 + i.val) * 16 + j.val) * 128 + o.val)
    rw [hr, hu]; omega)

/-! ## The activation and its nine windows -/

/-- The block's image with its ReLU: max(x, 0) on the 18×18 padded map. -/
abbrev act (x0 : Vec Ideal S1x18x18x128 .f32) : FVec Ideal S18x18x128 .f32 :=
  maximumf (shapeCast S18x18x128 x0 shapeCasts_S1x18x18x128_S18x18x128) (broadcast S18x18x128 (Scalar.ofBits .f32 0x00000000#32))

theorem act_apply (x0 : Vec Ideal S1x18x18x128 .f32) (a b : Fin 18) (q : Fin 128) :
    act x0 (ix3 a b q) = max (x0 (ix4 (0 : Fin 1) a b q)) 0 := by
  show max (shapeCast S18x18x128 x0 shapeCasts_S1x18x18x128_S18x18x128 (ix3 a b q)) (Ideal.ofBits .f32 0x00000000#32) = _
  rw [Ideal.ofBits_zero_f32, shapeCast_1abc_abc_apply]

/-- Window n = 3·kh + kw of an 18×18 map, flattened to rows. -/
def taps (v : FVec Ideal S18x18x128 .f32) : Fin 9 → (S256x128.Idx → Ideal .f32)
  | ⟨0, _⟩ => shapeCast S256x128 (extractStridedSlice S16x16x128 ![0, 0, 0] v slices_S18x18x128_o0_0_0_S16x16x128) shapeCasts_S16x16x128_S256x128
  | ⟨1, _⟩ => shapeCast S256x128 (extractStridedSlice S16x16x128 ![0, 1, 0] v slices_S18x18x128_o0_1_0_S16x16x128) shapeCasts_S16x16x128_S256x128
  | ⟨2, _⟩ => shapeCast S256x128 (extractStridedSlice S16x16x128 ![0, 2, 0] v slices_S18x18x128_o0_2_0_S16x16x128) shapeCasts_S16x16x128_S256x128
  | ⟨3, _⟩ => shapeCast S256x128 (extractStridedSlice S16x16x128 ![1, 0, 0] v slices_S18x18x128_o1_0_0_S16x16x128) shapeCasts_S16x16x128_S256x128
  | ⟨4, _⟩ => shapeCast S256x128 (extractStridedSlice S16x16x128 ![1, 1, 0] v slices_S18x18x128_o1_1_0_S16x16x128) shapeCasts_S16x16x128_S256x128
  | ⟨5, _⟩ => shapeCast S256x128 (extractStridedSlice S16x16x128 ![1, 2, 0] v slices_S18x18x128_o1_2_0_S16x16x128) shapeCasts_S16x16x128_S256x128
  | ⟨6, _⟩ => shapeCast S256x128 (extractStridedSlice S16x16x128 ![2, 0, 0] v slices_S18x18x128_o2_0_0_S16x16x128) shapeCasts_S16x16x128_S256x128
  | ⟨7, _⟩ => shapeCast S256x128 (extractStridedSlice S16x16x128 ![2, 1, 0] v slices_S18x18x128_o2_1_0_S16x16x128) shapeCasts_S16x16x128_S256x128
  | ⟨8, _⟩ => shapeCast S256x128 (extractStridedSlice S16x16x128 ![2, 2, 0] v slices_S18x18x128_o2_2_0_S16x16x128) shapeCasts_S16x16x128_S256x128
  | ⟨_ + 9, h⟩ => absurd h (Nat.not_lt.2 (Nat.le_add_left _ _))

/-- Window n at row 16·i + j, lane q, is the map at pixel (i + n / 3, j + n % 3). -/
theorem taps_apply (v : FVec Ideal S18x18x128 .f32) (n : Fin 9) (i j : Fin 16) (q : Fin 128) (r : Fin 256) (hr : r.val = 16 * i.val + j.val)
    (a b : Fin 18) (ha : a.val = n.val / 3 + i.val) (hb : b.val = n.val % 3 + j.val) :
    taps v n (ix2 r q) = v (ix3 a b q) := by
  match n, ha, hb with
  | ⟨0, _⟩, ha, hb => exact (rows_apply _ _ i j q r hr).trans (window_apply 0 0 v _ i j q a b (by dsimp only at ha; omega) (by dsimp only at hb; omega))
  | ⟨1, _⟩, ha, hb => exact (rows_apply _ _ i j q r hr).trans (window_apply 0 1 v _ i j q a b (by dsimp only at ha; omega) (by dsimp only at hb; omega))
  | ⟨2, _⟩, ha, hb => exact (rows_apply _ _ i j q r hr).trans (window_apply 0 2 v _ i j q a b (by dsimp only at ha; omega) (by dsimp only at hb; omega))
  | ⟨3, _⟩, ha, hb => exact (rows_apply _ _ i j q r hr).trans (window_apply 1 0 v _ i j q a b (by dsimp only at ha; omega) (by dsimp only at hb; omega))
  | ⟨4, _⟩, ha, hb => exact (rows_apply _ _ i j q r hr).trans (window_apply 1 1 v _ i j q a b (by dsimp only at ha; omega) (by dsimp only at hb; omega))
  | ⟨5, _⟩, ha, hb => exact (rows_apply _ _ i j q r hr).trans (window_apply 1 2 v _ i j q a b (by dsimp only at ha; omega) (by dsimp only at hb; omega))
  | ⟨6, _⟩, ha, hb => exact (rows_apply _ _ i j q r hr).trans (window_apply 2 0 v _ i j q a b (by dsimp only at ha; omega) (by dsimp only at hb; omega))
  | ⟨7, _⟩, ha, hb => exact (rows_apply _ _ i j q r hr).trans (window_apply 2 1 v _ i j q a b (by dsimp only at ha; omega) (by dsimp only at hb; omega))
  | ⟨8, _⟩, ha, hb => exact (rows_apply _ _ i j q r hr).trans (window_apply 2 2 v _ i j q a b (by dsimp only at ha; omega) (by dsimp only at hb; omega))
  | ⟨_ + 9, h⟩, _, _ => exact absurd h (Nat.not_lt.2 (Nat.le_add_left _ _))

/-- The nine windows side by side: the list the body concatenates. -/
theorem taps_list (v : FVec Ideal S18x18x128 .f32) :
    (List.ofFn fun n : Fin 9 => (⟨S256x128, taps v n⟩ : (s : Shape) × (s.Idx → Ideal .f32)))
      = [⟨S256x128, taps v 0⟩, ⟨S256x128, taps v 1⟩, ⟨S256x128, taps v 2⟩, ⟨S256x128, taps v 3⟩, ⟨S256x128, taps v 4⟩,
         ⟨S256x128, taps v 5⟩, ⟨S256x128, taps v 6⟩, ⟨S256x128, taps v 7⟩, ⟨S256x128, taps v 8⟩] := rfl

/-- The concatenation of the nine windows at row r, column k: window k / 128 at lane k % 128. -/
theorem cat_apply (v : FVec Ideal S18x18x128 .f32) (r : Fin 256) (k : Fin 1152) :
    concatenate S256x1152 1 [⟨S256x128, taps v 0⟩, ⟨S256x128, taps v 1⟩, ⟨S256x128, taps v 2⟩, ⟨S256x128, taps v 3⟩, ⟨S256x128, taps v 4⟩,
         ⟨S256x128, taps v 5⟩, ⟨S256x128, taps v 6⟩, ⟨S256x128, taps v 7⟩, ⟨S256x128, taps v 8⟩]
        concatenates_S256x128_S256x128_S256x128_S256x128_S256x128_S256x128_S256x128_S256x128_S256x128_S256x1152_d1 (ix2 r k)
      = taps v ⟨k.val / 128, by have := k.isLt; omega⟩ (ix2 r ⟨k.val % 128, Nat.mod_lt _ (by omega)⟩) :=
  concatenate_ofFn_apply (t := S256x1152) (s₁ := S256x128) 1 (taps v)
    concatenates_S256x128_S256x128_S256x128_S256x128_S256x128_S256x128_S256x128_S256x128_S256x128_S256x1152_d1 rfl 128 rfl (ix2 r k)
    ⟨k.val / 128, by have := k.isLt; omega⟩ rfl (ix2 r ⟨k.val % 128, Nat.mod_lt _ (by omega)⟩) rfl
    (fun b hb => match b with
      | ⟨0, _⟩ => rfl
      | ⟨1, _⟩ => absurd rfl hb)

/-! ## The residual layer's payload at an index -/

/-- The rows of the layer before its last reshape: both products and the skip connection. -/
abbrev body (x0 : Vec Ideal S1x18x18x128 .f32) (w1 : Vec Ideal S1152x128 .f32) (w2 : Vec Ideal S128x128 .f32) : FVec Ideal S256x128 .f32 :=
  addf
    (matmul (φ₁ := .f32) (φ₂ := .f32) D2 none
      (maximumf
        (matmul (φ₁ := .f32) (φ₂ := .f32) D1 none
          (concatenate S256x1152 1 [⟨S256x128, taps (act x0) 0⟩, ⟨S256x128, taps (act x0) 1⟩, ⟨S256x128, taps (act x0) 2⟩, ⟨S256x128, taps (act x0) 3⟩,
              ⟨S256x128, taps (act x0) 4⟩, ⟨S256x128, taps (act x0) 5⟩, ⟨S256x128, taps (act x0) 6⟩, ⟨S256x128, taps (act x0) 7⟩, ⟨S256x128, taps (act x0) 8⟩]
            concatenates_S256x128_S256x128_S256x128_S256x128_S256x128_S256x128_S256x128_S256x128_S256x128_S256x1152_d1)
          w1 (constant S256x128 .f32 0x00000000#32))
        (broadcast S256x128 (Scalar.ofBits .f32 0x00000000#32)))
      w2 (constant S256x128 .f32 0x00000000#32))
    (shapeCast S256x128
      (extractStridedSlice S16x16x128 ![1, 1, 0] (shapeCast S18x18x128 x0 shapeCasts_S1x18x18x128_S18x18x128) slices_S18x18x128_o1_1_0_S16x16x128)
      shapeCasts_S16x16x128_S256x128)

/-- Row 16·i + j, column o of the layer's rows is the residual layer (without its last ReLU) of the block's one image at pixel (i, j), channel o. -/
theorem body_apply (x0 : Vec Ideal S1x18x18x128 .f32) (w1 : Vec Ideal S1152x128 .f32) (w2 : Vec Ideal S128x128 .f32)
    (i j : Fin 16) (o : Fin 128) (r : Fin 256) (hr : r.val = 16 * i.val + j.val) :
    body x0 w1 w2 (ix2 r o) = resSpec 1 false x0 w1 w2 (ix4 (0 : Fin 1) i j o) := by
  have hi := i.isLt
  have hj := j.isLt
  have hR : resSpec 1 false x0 w1 w2 (ix4 (0 : Fin 1) i j o)
      = (∑ c' : Fin 128, resHidden 1 x0 w1 (ix4 (0 : Fin 1) i j o) c' * w2 (ix2 c' o))
        + x0 (ix4 (0 : Fin 1) (⟨i.val + 1, by omega⟩ : Fin 18) (⟨j.val + 1, by omega⟩ : Fin 18) o) := rfl
  rw [hR]
  refine (addf_apply _ _ _).trans (congrArg₂ (· + ·) ?_ ?_)
  · refine (mm2_apply _ w2 r o).trans (Finset.sum_congr rfl fun c' _ => congrArg (· * w2 (ix2 c' o)) ?_)
    refine (maximumf_apply _ _ _).trans ?_
    have hH : resHidden 1 x0 w1 (ix4 (0 : Fin 1) i j o) c'
        = max (∑ k : Fin 1152, max (x0 (ix4 (0 : Fin 1) (⟨i.val + k.val / 128 / 3, by have := k.isLt; omega⟩ : Fin 18)
            (⟨j.val + k.val / 128 % 3, by omega⟩ : Fin 18) (⟨k.val % 128, Nat.mod_lt _ (by omega)⟩ : Fin 128))) 0 * w1 (ix2 k c')) 0 := rfl
    rw [hH]
    refine congrArg₂ max ?_ Ideal.ofBits_zero_f32
    refine (mm1_apply _ w1 r c').trans (Finset.sum_congr rfl fun k _ => congrArg (· * w1 (ix2 k c')) ?_)
    refine (cat_apply (act x0) r k).trans ?_
    refine (taps_apply (act x0) ⟨k.val / 128, by have := k.isLt; omega⟩ i j ⟨k.val % 128, Nat.mod_lt _ (by omega)⟩ r hr
      ⟨i.val + k.val / 128 / 3, by have := k.isLt; omega⟩ ⟨j.val + k.val / 128 % 3, by omega⟩ (Nat.add_comm _ _) (Nat.add_comm _ _)).trans ?_
    exact act_apply x0 _ _ _
  · exact (rows_apply _ _ i j o r hr).trans ((window_apply 1 1 _ _ i j o ⟨i.val + 1, by omega⟩ ⟨j.val + 1, by omega⟩ (Nat.add_comm _ _) (Nat.add_comm _ _)).trans
      (shapeCast_1abc_abc_apply x0 _ _ _ _))

/-- The first residual layer's payload at an index of its block: the residual layer of the block's one image. -/
theorem k3_pay1_apply (x0 : Vec Ideal S1x18x18x128 .f32) (w1 : Vec Ideal S1152x128 .f32) (w2 : Vec Ideal S128x128 .f32)
    (u : Fin 1) (i j : Fin 16) (o : Fin 128) :
    k3_pay1 x0 w1 w2 (ix4 u i j o) = resSpec 1 false x0 w1 w2 (ix4 u i j o) := by
  obtain rfl : u = 0 := Subsingleton.elim _ _
  have hi := i.isLt
  have hj := j.isLt
  exact (image_apply _ _ 0 i j o ⟨16 * i.val + j.val, by omega⟩ rfl).trans (body_apply x0 w1 w2 i j o _ rfl)

/-- The last residual layer's payload at an index of its block: the residual layer with its last ReLU. -/
theorem k4_pay1_apply (x0 : Vec Ideal S1x18x18x128 .f32) (w1 : Vec Ideal S1152x128 .f32) (w2 : Vec Ideal S128x128 .f32)
    (u : Fin 1) (i j : Fin 16) (o : Fin 128) :
    k4_pay1 x0 w1 w2 (ix4 u i j o) = resSpec 1 true x0 w1 w2 (ix4 u i j o) := by
  obtain rfl : u = 0 := Subsingleton.elim _ _
  have hi := i.isLt
  have hj := j.isLt
  have e : k4_pay1 x0 w1 w2 = shapeCast S1x16x16x128 (maximumf (body x0 w1 w2) (broadcast S256x128 (Scalar.ofBits .f32 0x00000000#32)))
      shapeCasts_S256x128_S1x16x16x128 := rfl
  rw [e]
  refine (image_apply _ _ 0 i j o ⟨16 * i.val + j.val, by omega⟩ rfl).trans ?_
  refine (maximumf_apply _ _ _).trans ?_
  have hR : resSpec 1 true x0 w1 w2 (ix4 (0 : Fin 1) i j o) = max (resSpec 1 false x0 w1 w2 (ix4 (0 : Fin 1) i j o)) 0 := rfl
  rw [hR]
  exact congrArg₂ max (body_apply x0 w1 w2 i j o _ rfl) Ideal.ofBits_zero_f32

end Cert.ReferenceIdeal.Hand

end
-- ==== Proof.RVal3.lean ====
/-
  The first residual layer of the reference, from blocks to the array: point t of the grid reads image t of the padded activation and both weights whole,
  and writes image t of the output; so the output array after the region is the residual layer of the whole padded activation.
-/
import proofs.«119654_g2000206494441110_pallasbulk_512_2_alg».proof.Proof.RValPay

noncomputable section

open Idealize.ShloMosaic Idealize.ShloMosaic.TcCoe Idealize.SL.Sem
open Idealize.ShloMosaic.Pipeline (Dat)
open scoped BigOperators

namespace Cert.ReferenceIdeal.Hand

open Cert.ReferenceIdeal Cert.ReferenceIdeal.Gen Cert.Spec Idealize.ShloMosaic Idealize.ShloMosaic.ValueIdx

/-! ## From blocks to the array: region 3 -/

section Region3
variable (V : (c : Dev nD) → (b : Ref sig .tc) → Buf (Elt Ideal) ((c : Thread nD τ).loc b))

theorem hz4_3 : (![0, 0, 0, 0] : Fin 4 → Nat) = fun _ => 0 := funext fun a => by fin_cases a <;> rfl
theorem hz2_3 : (![0, 0] : Fin 2 → Nat) = fun _ => 0 := funext fun a => by fin_cases a <;> rfl

theorem N3 : cfg3.N = 128 := N_3

/-- The index maps, decided over the grid: point t reads image t of the padded activation and the whole of both weights, and writes image t. -/
theorem idx3 : ∀ t : Fin cfg3.N,
    (win3_0.index t 0 = t.val ∧ win3_0.index t 1 = 0 ∧ win3_0.index t 2 = 0 ∧ win3_0.index t 3 = 0)
    ∧ (win3_1.index t 0 = 0 ∧ win3_1.index t 1 = 0)
    ∧ (win3_2.index t 0 = 0 ∧ win3_2.index t 1 = 0)
    ∧ (win3_3.index t 0 = t.val ∧ win3_3.index t 1 = 0 ∧ win3_3.index t 2 = 0 ∧ win3_3.index t 3 = 0) :=
  (by decide +kernel : ∀ t : Fin grid3.N, _)

/-- The activation's block at point t is image t of the padded activation. -/
theorem iblk3_0_apply (c : Dev nD) (t : Fin cfg3.N) (u : Fin 1) (a b : Fin 18) (q : Fin 128) :
    (iblk3 V c 0 t : Vec Ideal S1x18x18x128 .f32) (ix4 u a b q)
      = (V c (Pipeline.arrRef spec3 0) : S128x18x18x128.Idx → EReal) (ix4 (t.cast N3) a b q) := by
  obtain ⟨⟨h0, h1, h2, h3⟩, -, -, -⟩ := idx3 t
  have hu : u.val = 0 := by omega
  unfold iblk3
  rw [View.read_apply]
  show V c main_v16 _ = V c main_v16 _
  congr 1
  funext ax; apply Fin.ext
  match ax with
  | ⟨0, _⟩ => show win3_0.index t 0 * 1 + 1 * u.val = t.val; rw [h0, hu]; omega
  | ⟨1, _⟩ => show win3_0.index t 1 * 18 + 1 * a.val = a.val; rw [h1]; omega
  | ⟨2, _⟩ => show win3_0.index t 2 * 18 + 1 * b.val = b.val; rw [h2]; omega
  | ⟨3, _⟩ => show win3_0.index t 3 * 128 + 1 * q.val = q.val; rw [h3]; omega

/-- The first weight's block is the whole weight at every point. -/
theorem iblk3_1_eq (c : Dev nD) (t : Fin cfg3.N) :
    (iblk3 V c 1 t : Vec Ideal S1152x128 .f32) = (V c (Pipeline.arrRef spec3 1) : S1152x128.Idx → EReal) := by
  obtain ⟨-, ⟨h0, h1⟩, -, -⟩ := idx3 t
  funext y
  unfold iblk3
  rw [View.read_apply]
  show V c main_arg7 _ = V c main_arg7 _
  congr 1
  funext ax; apply Fin.ext
  match ax with
  | ⟨0, _⟩ => show win3_1.index t 0 * 1152 + 1 * (y 0).val = (y 0).val; rw [h0]; omega
  | ⟨1, _⟩ => show win3_1.index t 1 * 128 + 1 * (y 1).val = (y 1).val; rw [h1]; omega

/-- The second weight's block is the whole weight at every point. -/
theorem iblk3_2_eq (c : Dev nD) (t : Fin cfg3.N) :
    (iblk3 V c 2 t : Vec Ideal S128x128 .f32) = (V c (Pipeline.arrRef spec3 2) : S128x128.Idx → EReal) := by
  obtain ⟨-, -, ⟨h0, h1⟩, -⟩ := idx3 t
  funext y
  unfold iblk3
  rw [View.read_apply]
  show V c main_arg8 _ = V c main_arg8 _
  congr 1
  funext ax; apply Fin.ext
  match ax with
  | ⟨0, _⟩ => show win3_2.index t 0 * 128 + 1 * (y 0).val = (y 0).val; rw [h0]; omega
  | ⟨1, _⟩ => show win3_2.index t 1 * 128 + 1 * (y 1).val = (y 1).val; rw [h1]; omega

/-- What point t writes back is block t of the residual layer of the whole padded activation. -/
theorem flushed3_eq (c : Dev nD) (t : Fin cfg3.N) :
    (dat3 (F := Ideal) V c).flushed 3 t = ((cfg3.win 3).blk t).view.read (Elt Ideal)
      (resSpec 128 false (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz4_3]
  simp only [View.ld_unit_zero (S := S1x18x18x128) hz4_3, View.ld_unit_zero (S := S1152x128) hz2_3, View.ld_unit_zero (S := S128x128) hz2_3]
  refine funext fun (y : S1x16x16x128.Idx) => ?_
  obtain ⟨u, i, j, o, rfl⟩ : ∃ (u : Fin 1) (i j : Fin 16) (o : Fin 128), y = ix4 u i j o := ⟨_, _, _, _, eq_ix4 y⟩
  obtain ⟨-, -, -, g0, g1, g2, g3⟩ := idx3 t
  have hu : u.val = 0 := by omega
  have hemb : ((cfg3.win 3).blk t).view.emb (ix4 u i j o) = (ix4 (t.cast N3) i j o : S128x16x16x128.Idx) := by
    funext ax; apply Fin.ext
    match ax with
    | ⟨0, _⟩ => show win3_3.index t 0 * 1 + 1 * u.val = t.val; rw [g0, hu]; omega
    | ⟨1, _⟩ => show win3_3.index t 1 * 16 + 1 * i.val = i.val; rw [g1]; omega
    | ⟨2, _⟩ => show win3_3.index t 2 * 16 + 1 * j.val = j.val; rw [g2]; omega
    | ⟨3, _⟩ => show win3_3.index t 3 * 128 + 1 * o.val = o.val; rw [g3]; omega
  show k3_pay1 (iblk3 V c 0 t) (iblk3 V c 1 t) (iblk3 V c 2 t) (ix4 u i j o)
      = resSpec 128 false (V c (Pipeline.arrRef spec3 0)) (V c (Pipeline.arrRef spec3 1)) (V c (Pipeline.arrRef spec3 2))
          (((cfg3.win 3).blk t).view.emb (ix4 u i j o))
  rw [hemb]
  refine (k3_pay1_apply _ _ _ u i j o).trans ?_
  rw [iblk3_1_eq V c t, iblk3_2_eq V c t]
  exact resSpec_block 128 1 false (V c (Pipeline.arrRef spec3 0)) (iblk3 V c 0 t) _ _ (t.cast N3) u
    (fun a b q => iblk3_0_apply V c t u a b q) i j o

/-- The output array after the region: the residual layer of the padded activation, with the weights as the region finds them. -/
theorem final3 (c : Dev nD) :
    (dat3 (F := Ideal) V c).arrAt 3 cfg3.N
      = resSpec 128 false (V c (Pipeline.arrRef spec3 0)) (V c (Pipeline.arrRef spec3 1)) (V c (Pipeline.arrRef spec3 2)) :=
  (dat3 (F := Ideal) V c).arrAt_eq_of_cover 3 _ (fun t _ => flushed3_eq V c t) fun y => by
    have hy0 : (y 0).val < 128 := (y 0).isLt
    have hy1 : (y 1).val < 16 := (y 1).isLt
    have hy2 : (y 2).val < 16 := (y 2).isLt
    have hy3 : (y 3).val < 128 := (y 3).isLt
    have ht : (y 0).val < cfg3.N := by rw [N3]; exact hy0
    refine ⟨⟨(y 0).val, ht⟩, flush3_3 _, ?_⟩
    obtain ⟨-, -, -, g0, g1, g2, g3⟩ := idx3 ⟨(y 0).val, ht⟩
    have g0 : win3_3.index ⟨(y 0).val, ht⟩ 0 = (y 0).val := g0
    show y ∈ ((View.whole main_v17).slice (win3_3.rect ⟨(y 0).val, ht⟩)).set
    rw [View.set_slice_whole, Rect.mem_set_unit]
    intro a
    match a with
    | ⟨0, _⟩ => show win3_3.index ⟨(y 0).val, ht⟩ 0 * 1 ≤ (y 0).val ∧ (y 0).val < win3_3.index ⟨(y 0).val, ht⟩ 0 * 1 + 1
                rw [g0]; omega
    | ⟨1, _⟩ => show win3_3.index ⟨(y 0).val, ht⟩ 1 * 16 ≤ (y 1).val ∧ (y 1).val < win3_3.index ⟨(y 0).val, ht⟩ 1 * 16 + 16
                rw [g1]; omega
    | ⟨2, _⟩ => show win3_3.index ⟨(y 0).val, ht⟩ 2 * 16 ≤ (y 2).val ∧ (y 2).val < win3_3.index ⟨(y 0).val, ht⟩ 2 * 16 + 16
                rw [g2]; omega
    | ⟨3, _⟩ => show win3_3.index ⟨(y 0).val, ht⟩ 3 * 128 ≤ (y 3).val ∧ (y 3).val < win3_3.index ⟨(y 0).val, ht⟩ 3 * 128 + 128
                rw [g3]; omega

end Region3

end Cert.ReferenceIdeal.Hand

end
-- ==== Proof.RVal4.lean ====
/-
  The last residual layer of the reference, from blocks to the array: point t of the grid reads image t of the padded activation and both weights whole,
  and writes image t of the output; so the output array after the region is the residual layer of the whole padded activation.
-/
import proofs.«119654_g2000206494441110_pallasbulk_512_2_alg».proof.Proof.RValPay

noncomputable section

open Idealize.ShloMosaic Idealize.ShloMosaic.TcCoe Idealize.SL.Sem
open Idealize.ShloMosaic.Pipeline (Dat)
open scoped BigOperators

namespace Cert.ReferenceIdeal.Hand

open Cert.ReferenceIdeal Cert.ReferenceIdeal.Gen Cert.Spec Idealize.ShloMosaic Idealize.ShloMosaic.ValueIdx

/-! ## From blocks to the array: region 4 -/

section Region4
variable (V : (c : Dev nD) → (b : Ref sig .tc) → Buf (Elt Ideal) ((c : Thread nD τ).loc b))

theorem hz4_4 : (![0, 0, 0, 0] : Fin 4 → Nat) = fun _ => 0 := funext fun a => by fin_cases a <;> rfl
theorem hz2_4 : (![0, 0] : Fin 2 → Nat) = fun _ => 0 := funext fun a => by fin_cases a <;> rfl

theorem N4 : cfg4.N = 128 := N_4

/-- The index maps, decided over the grid: point t reads image t of the padded activation and the whole of both weights, and writes image t. -/
theorem idx4 : ∀ t : Fin cfg4.N,
    (win4_0.index t 0 = t.val ∧ win4_0.index t 1 = 0 ∧ win4_0.index t 2 = 0 ∧ win4_0.index t 3 = 0)
    ∧ (win4_1.index t 0 = 0 ∧ win4_1.index t 1 = 0)
    ∧ (win4_2.index t 0 = 0 ∧ win4_2.index t 1 = 0)
    ∧ (win4_3.index t 0 = t.val ∧ win4_3.index t 1 = 0 ∧ win4_3.index t 2 = 0 ∧ win4_3.index t 3 = 0) :=
  (by decide +kernel : ∀ t : Fin grid4.N, _)

/-- The activation's block at point t is image t of the padded activation. -/
theorem iblk4_0_apply (c : Dev nD) (t : Fin cfg4.N) (u : Fin 1) (a b : Fin 18) (q : Fin 128) :
    (iblk4 V c 0 t : Vec Ideal S1x18x18x128 .f32) (ix4 u a b q)
      = (V c (Pipeline.arrRef spec4 0) : S128x18x18x128.Idx → EReal) (ix4 (t.cast N4) a b q) := by
  obtain ⟨⟨h0, h1, h2, h3⟩, -, -, -⟩ := idx4 t
  have hu : u.val = 0 := by omega
  unfold iblk4
  rw [View.read_apply]
  show V c main_v18 _ = V c main_v18 _
  congr 1
  funext ax; apply Fin.ext
  match ax with
  | ⟨0, _⟩ => show win4_0.index t 0 * 1 + 1 * u.val = t.val; rw [h0, hu]; omega
  | ⟨1, _⟩ => show win4_0.index t 1 * 18 + 1 * a.val = a.val; rw [h1]; omega
  | ⟨2, _⟩ => show win4_0.index t 2 * 18 + 1 * b.val = b.val; rw [h2]; omega
  | ⟨3, _⟩ => show win4_0.index t 3 * 128 + 1 * q.val = q.val; rw [h3]; omega

/-- The first weight's block is the whole weight at every point. -/
theorem iblk4_1_eq (c : Dev nD) (t : Fin cfg4.N) :
    (iblk4 V c 1 t : Vec Ideal S1152x128 .f32) = (V c (Pipeline.arrRef spec4 1) : S1152x128.Idx → EReal) := by
  obtain ⟨-, ⟨h0, h1⟩, -, -⟩ := idx4 t
  funext y
  unfold iblk4
  rw [View.read_apply]
  show V c main_arg9 _ = V c main_arg9 _
  congr 1
  funext ax; apply Fin.ext
  match ax with
  | ⟨0, _⟩ => show win4_1.index t 0 * 1152 + 1 * (y 0).val = (y 0).val; rw [h0]; omega
  | ⟨1, _⟩ => show win4_1.index t 1 * 128 + 1 * (y 1).val = (y 1).val; rw [h1]; omega

/-- The second weight's block is the whole weight at every point. -/
theorem iblk4_2_eq (c : Dev nD) (t : Fin cfg4.N) :
    (iblk4 V c 2 t : Vec Ideal S128x128 .f32) = (V c (Pipeline.arrRef spec4 2) : S128x128.Idx → EReal) := by
  obtain ⟨-, -, ⟨h0, h1⟩, -⟩ := idx4 t
  funext y
  unfold iblk4
  rw [View.read_apply]
  show V c main_arg10 _ = V c main_arg10 _
  congr 1
  funext ax; apply Fin.ext
  match ax with
  | ⟨0, _⟩ => show win4_2.index t 0 * 128 + 1 * (y 0).val = (y 0).val; rw [h0]; omega
  | ⟨1, _⟩ => show win4_2.index t 1 * 128 + 1 * (y 1).val = (y 1).val; rw [h1]; omega

/-- What point t writes back is block t of the residual layer of the whole padded activation. -/
theorem flushed4_eq (c : Dev nD) (t : Fin cfg4.N) :
    (dat4 (F := Ideal) V c).flushed 3 t = ((cfg4.win 3).blk t).view.read (Elt Ideal)
      (resSpec 128 true (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz4_4]
  simp only [View.ld_unit_zero (S := S1x18x18x128) hz4_4, View.ld_unit_zero (S := S1152x128) hz2_4, View.ld_unit_zero (S := S128x128) hz2_4]
  refine funext fun (y : S1x16x16x128.Idx) => ?_
  obtain ⟨u, i, j, o, rfl⟩ : ∃ (u : Fin 1) (i j : Fin 16) (o : Fin 128), y = ix4 u i j o := ⟨_, _, _, _, eq_ix4 y⟩
  obtain ⟨-, -, -, g0, g1, g2, g3⟩ := idx4 t
  have hu : u.val = 0 := by omega
  have hemb : ((cfg4.win 3).blk t).view.emb (ix4 u i j o) = (ix4 (t.cast N4) i j o : S128x16x16x128.Idx) := by
    funext ax; apply Fin.ext
    match ax with
    | ⟨0, _⟩ => show win4_3.index t 0 * 1 + 1 * u.val = t.val; rw [g0, hu]; omega
    | ⟨1, _⟩ => show win4_3.index t 1 * 16 + 1 * i.val = i.val; rw [g1]; omega
    | ⟨2, _⟩ => show win4_3.index t 2 * 16 + 1 * j.val = j.val; rw [g2]; omega
    | ⟨3, _⟩ => show win4_3.index t 3 * 128 + 1 * o.val = o.val; rw [g3]; omega
  show k4_pay1 (iblk4 V c 0 t) (iblk4 V c 1 t) (iblk4 V c 2 t) (ix4 u i j o)
      = resSpec 128 true (V c (Pipeline.arrRef spec4 0)) (V c (Pipeline.arrRef spec4 1)) (V c (Pipeline.arrRef spec4 2))
          (((cfg4.win 3).blk t).view.emb (ix4 u i j o))
  rw [hemb]
  refine (k4_pay1_apply _ _ _ u i j o).trans ?_
  rw [iblk4_1_eq V c t, iblk4_2_eq V c t]
  exact resSpec_block 128 1 true (V c (Pipeline.arrRef spec4 0)) (iblk4 V c 0 t) _ _ (t.cast N4) u
    (fun a b q => iblk4_0_apply V c t u a b q) i j o

/-- The output array after the region: the residual layer of the padded activation, with the weights as the region finds them. -/
theorem final4 (c : Dev nD) :
    (dat4 (F := Ideal) V c).arrAt 3 cfg4.N
      = resSpec 128 true (V c (Pipeline.arrRef spec4 0)) (V c (Pipeline.arrRef spec4 1)) (V c (Pipeline.arrRef spec4 2)) :=
  (dat4 (F := Ideal) V c).arrAt_eq_of_cover 3 _ (fun t _ => flushed4_eq V c t) fun y => by
    have hy0 : (y 0).val < 128 := (y 0).isLt
    have hy1 : (y 1).val < 16 := (y 1).isLt
    have hy2 : (y 2).val < 16 := (y 2).isLt
    have hy3 : (y 3).val < 128 := (y 3).isLt
    have ht : (y 0).val < cfg4.N := by rw [N4]; exact hy0
    refine ⟨⟨(y 0).val, ht⟩, flush4_3 _, ?_⟩
    obtain ⟨-, -, -, g0, g1, g2, g3⟩ := idx4 ⟨(y 0).val, ht⟩
    have g0 : win4_3.index ⟨(y 0).val, ht⟩ 0 = (y 0).val := g0
    show y ∈ ((View.whole main_v19).slice (win4_3.rect ⟨(y 0).val, ht⟩)).set
    rw [View.set_slice_whole, Rect.mem_set_unit]
    intro a
    match a with
    | ⟨0, _⟩ => show win4_3.index ⟨(y 0).val, ht⟩ 0 * 1 ≤ (y 0).val ∧ (y 0).val < win4_3.index ⟨(y 0).val, ht⟩ 0 * 1 + 1
                rw [g0]; omega
    | ⟨1, _⟩ => show win4_3.index ⟨(y 0).val, ht⟩ 1 * 16 ≤ (y 1).val ∧ (y 1).val < win4_3.index ⟨(y 0).val, ht⟩ 1 * 16 + 16
                rw [g1]; omega
    | ⟨2, _⟩ => show win4_3.index ⟨(y 0).val, ht⟩ 2 * 16 ≤ (y 2).val ∧ (y 2).val < win4_3.index ⟨(y 0).val, ht⟩ 2 * 16 + 16
                rw [g2]; omega
    | ⟨3, _⟩ => show win4_3.index ⟨(y 0).val, ht⟩ 3 * 128 ≤ (y 3).val ∧ (y 3).val < win4_3.index ⟨(y 0).val, ht⟩ 3 * 128 + 128
                rw [g3]; omega

end Region4

end Cert.ReferenceIdeal.Hand

end
-- ==== Proof.Slabs.lean ====
/-
  A flat weight [P·C, 128] reshaped row-major to [P, C, 128] is its P slabs of C rows: entry (p, q, o) is flat row C·p + q.
-/
import proofs.«119654_g2000206494441110_pallasbulk_512_2_alg».proof.Proof.Spec
import Idealize.ShloMosaic.Lib.Pipeline.Value

noncomputable section

namespace Cert.Spec

open Idealize.ShloMosaic Idealize.ShloMosaic.ValueIdx

theorem shapeCast_eq_slabs (P C K : ℕ) (hK : P * C = K) (w : (⟨2, ![K, 128]⟩ : Shape).Idx → EReal)
    (h : (⟨2, ![K, 128]⟩ : Shape).ShapeCasts ⟨3, ![P, C, 128]⟩) :
    shapeCast (⟨3, ![P, C, 128]⟩ : Shape) w h = slabs P C K hK w := by
  funext j
  unfold slabs
  refine shapeCast_apply w h j _ ?_
  rw [Shape.rowMajor_val_two, Shape.rowMajor_val_three]
  show (C * (j 0).val + (j 1).val) * 128 + (j 2).val = ((j 0).val * C + (j 1).val) * 128 + (j 2).val
  rw [Nat.mul_comm C]

end Cert.Spec

end
-- ==== Proof.PadSpec.lean ====
/-
  The host's zero padding of a [128,16,16,128] activation by one ring on the two spatial axes, read index by index, is padSpec:
  inside rows and columns 1..16 it is the operand one step back on both axes, on the ring it is the padding value.
-/
import proofs.«119654_g2000206494441110_pallasbulk_512_2_alg».proof.Proof.Spec
import Idealize.ShloMosaic.Lib.KernelVsHost

noncomputable section

namespace Cert.Spec

open Idealize.ShloMosaic Idealize.ShloMosaic.ValueIdx

/-- The host pad with low = high = (0,1,1,0), no interior padding and padding value 0 is the ring of zeros. -/
theorem pad_eq_padSpec (x : (⟨4, ![128, 16, 16, 128]⟩ : Shape).Idx → EReal) {u : Shape} (v : u.Idx → EReal)
    (h : (⟨4, ![128, 16, 16, 128]⟩ : Shape).Pads (![0, 1, 1, 0] : Fin 4 → Nat) ![0, 1, 1, 0] ![0, 0, 0, 0] ⟨4, ![128, 18, 18, 128]⟩)
    (hu : 0 < u.numel) (hv : v (Shape.Idx.first hu) = 0) :
    pad (⟨4, ![128, 18, 18, 128]⟩ : Shape) (![0, 1, 1, 0] : Fin 4 → Nat) ![0, 1, 1, 0] ![0, 0, 0, 0] x v h hu = padSpec 128 x := by
  funext j
  unfold padSpec
  split_ifs with hj
  · refine pad_apply_of_inside _ _ _ x v h hu j _ fun a => ?_
    match a with
    | ⟨0, _⟩ => show (j 0).val = 0 + (j 0).val * (0 + 1); omega
    | ⟨1, _⟩ => show (j 1).val = 1 + ((j 1).val - 1) * (0 + 1); omega
    | ⟨2, _⟩ => show (j 2).val = 1 + ((j 2).val - 1) * (0 + 1); omega
    | ⟨3, _⟩ => show (j 3).val = 0 + (j 3).val * (0 + 1); omega
  · by_cases h1 : 1 ≤ (j 1).val ∧ (j 1).val ≤ 16
    · have h2 : ¬(1 ≤ (j 2).val ∧ (j 2).val ≤ 16) := fun h2 => hj ⟨h1.1, h1.2, h2.1, h2.2⟩
      rw [pad_apply_of_not_inside _ _ _ x v h hu j (2 : Fin 4) (by
        show ¬(1 ≤ (j 2).val ∧ ((j 2).val - 1) % (0 + 1) = 0 ∧ ((j 2).val - 1) / (0 + 1) < 16)
        omega), hv]
    · rw [pad_apply_of_not_inside _ _ _ x v h hu j (1 : Fin 4) (by
        show ¬(1 ≤ (j 1).val ∧ ((j 1).val - 1) % (0 + 1) = 0 ∧ ((j 1).val - 1) / (0 + 1) < 16)
        omega), hv]

end Cert.Spec

end
-- ==== Proof.Glue.lean ====
/-
  The host operations around the kernel regions, read as functions of the buffers they start from, at the extended reals.
  Both programs pad, reshape and transpose an activation into its space-to-depth array by the same operations, so from equal
  activations they build equal arrays; the kernel program's casts of the weights to bf16 are the identity, and its reshapes of the flat
  weights to [4,512,128] and [9,128,128] are the weights' slabs; the reference's zero padding before a residual layer is padSpec;
  both end with the same transpose to NCHW.
-/
import proofs.«119654_g2000206494441110_pallasbulk_512_2_alg».proof.Proof.Gen.KernelIdeal.Launch
import proofs.«119654_g2000206494441110_pallasbulk_512_2_alg».proof.Proof.Gen.ReferenceIdeal.Launch
import proofs.«119654_g2000206494441110_pallasbulk_512_2_alg».proof.Proof.Slabs
import proofs.«119654_g2000206494441110_pallasbulk_512_2_alg».proof.Proof.PadSpec
import Idealize.ShloMosaic.Lib.StableHlo.Run
import Idealize.ShloMosaic.PureOps.Ideal

noncomputable section

namespace Cert.Glue

open Idealize.ShloMosaic Idealize.ShloMosaic.TcCoe Idealize.SL.Sem Idealize.ShloMosaic.StableHlo Cert.Spec

variable (VK : Valuation Cert.KernelIdeal.τ Cert.KernelIdeal.sig (Elt Ideal)) (VR : Valuation Cert.ReferenceIdeal.τ Cert.ReferenceIdeal.sig (Elt Ideal))

/-! ## The space-to-depth arrays -/

/-- From the same NCHW input both programs build the same [128,65,65,12] array (the kernel program's cast to bf16 is the identity). -/
theorem s2d0_eq (hA : (VK (Proc.devRef .tc Cert.KernelIdeal.main_arg0) : (⟨4, ![128, 3, 128, 128]⟩ : Shape).Idx → EReal) = VR (Proc.devRef .tc Cert.ReferenceIdeal.main_arg0)) :
    (StableHlo.after (Cert.KernelIdeal.Gen.hostOps0_2 (F := Ideal)) (StableHlo.after (Cert.KernelIdeal.Gen.hostOps0_1 (F := Ideal)) (StableHlo.after (Cert.KernelIdeal.Gen.hostOps0 (F := Ideal)) (VK))) (Proc.devRef .tc Cert.KernelIdeal.main_v5) : (⟨4, ![128, 65, 65, 12]⟩ : Shape).Idx → EReal)
      = StableHlo.after (Cert.ReferenceIdeal.Gen.hostOps0_2 (F := Ideal)) (StableHlo.after (Cert.ReferenceIdeal.Gen.hostOps0_1 (F := Ideal)) (StableHlo.after (Cert.ReferenceIdeal.Gen.hostOps0 (F := Ideal)) (VR))) (Proc.devRef .tc Cert.ReferenceIdeal.main_v4) := by
  dsimp only [Cert.KernelIdeal.Gen.hostOps0_2, Cert.KernelIdeal.Gen.hostOps0_1, Cert.KernelIdeal.Gen.hostOps0, Cert.ReferenceIdeal.Gen.hostOps0_2, Cert.ReferenceIdeal.Gen.hostOps0_1, Cert.ReferenceIdeal.Gen.hostOps0]
  after_results
  rw [show (VK (Proc.devRef .tc Cert.KernelIdeal.main_arg0)) = VR (Proc.devRef .tc Cert.ReferenceIdeal.main_arg0) from hA]
  rfl

/-- From equal [128,64,64,128] activations both programs build equal [128,33,33,512] arrays. -/
theorem s2d1_eq (hA : (VK (Proc.devRef .tc Cert.KernelIdeal.main_v17) : (⟨4, ![128, 64, 64, 128]⟩ : Shape).Idx → EReal) = VR (Proc.devRef .tc Cert.ReferenceIdeal.main_v5)) :
    (StableHlo.after (Cert.KernelIdeal.Gen.hostOps1_2 (F := Ideal)) (StableHlo.after (Cert.KernelIdeal.Gen.hostOps1_1 (F := Ideal)) (StableHlo.after (Cert.KernelIdeal.Gen.hostOps1 (F := Ideal)) (VK))) (Proc.devRef .tc Cert.KernelIdeal.main_v21) : (⟨4, ![128, 33, 33, 512]⟩ : Shape).Idx → EReal)
      = StableHlo.after (Cert.ReferenceIdeal.Gen.hostOps1_2 (F := Ideal)) (StableHlo.after (Cert.ReferenceIdeal.Gen.hostOps1_1 (F := Ideal)) (StableHlo.after (Cert.ReferenceIdeal.Gen.hostOps1 (F := Ideal)) (VR))) (Proc.devRef .tc Cert.ReferenceIdeal.main_v9) := by
  dsimp only [Cert.KernelIdeal.Gen.hostOps1_2, Cert.KernelIdeal.Gen.hostOps1_1, Cert.KernelIdeal.Gen.hostOps1, Cert.ReferenceIdeal.Gen.hostOps1_2, Cert.ReferenceIdeal.Gen.hostOps1_1, Cert.ReferenceIdeal.Gen.hostOps1]
  after_results
  have e : VK (Proc.devRef .tc (TRef.of Cert.KernelIdeal.main_v17 Cert.KernelIdeal.Gen.hostOps1_1._proof_7 Cert.KernelIdeal.Gen.hostOps1_1._proof_8 Cert.KernelIdeal.Gen.hostOps1_1._proof_9).ref)
      = VR (Proc.devRef .tc (TRef.of Cert.ReferenceIdeal.main_v5 Cert.ReferenceIdeal.Gen.hostOps1_1._proof_7 Cert.ReferenceIdeal.Gen.hostOps1_1._proof_8 Cert.ReferenceIdeal.Gen.hostOps1_1._proof_9).ref) := hA
  rw [e]
  rfl

/-- From equal [128,32,32,128] activations both programs build equal [128,17,17,512] arrays. -/
theorem s2d2_eq (hA : (VK (Proc.devRef .tc Cert.KernelIdeal.main_v22) : (⟨4, ![128, 32, 32, 128]⟩ : Shape).Idx → EReal) = VR (Proc.devRef .tc Cert.ReferenceIdeal.main_v10)) :
    (StableHlo.after (Cert.KernelIdeal.Gen.hostOps2_2 (F := Ideal)) (StableHlo.after (Cert.KernelIdeal.Gen.hostOps2_1 (F := Ideal)) (StableHlo.after (Cert.KernelIdeal.Gen.hostOps2 (F := Ideal)) (VK))) (Proc.devRef .tc Cert.KernelIdeal.main_v26) : (⟨4, ![128, 17, 17, 512]⟩ : Shape).Idx → EReal)
      = StableHlo.after (Cert.ReferenceIdeal.Gen.hostOps2_2 (F := Ideal)) (StableHlo.after (Cert.ReferenceIdeal.Gen.hostOps2_1 (F := Ideal)) (StableHlo.after (Cert.ReferenceIdeal.Gen.hostOps2 (F := Ideal)) (VR))) (Proc.devRef .tc Cert.ReferenceIdeal.main_v14) := by
  dsimp only [Cert.KernelIdeal.Gen.hostOps2_2, Cert.KernelIdeal.Gen.hostOps2_1, Cert.KernelIdeal.Gen.hostOps2, Cert.ReferenceIdeal.Gen.hostOps2_2, Cert.ReferenceIdeal.Gen.hostOps2_1, Cert.ReferenceIdeal.Gen.hostOps2]
  after_results
  have e : VK (Proc.devRef .tc (TRef.of Cert.KernelIdeal.main_v22 Cert.KernelIdeal.Gen.hostOps2_1._proof_7 Cert.KernelIdeal.Gen.hostOps2_1._proof_8 Cert.KernelIdeal.Gen.hostOps2_1._proof_9).ref)
      = VR (Proc.devRef .tc (TRef.of Cert.ReferenceIdeal.main_v10 Cert.ReferenceIdeal.Gen.hostOps2_1._proof_7 Cert.ReferenceIdeal.Gen.hostOps2_1._proof_8 Cert.ReferenceIdeal.Gen.hostOps2_1._proof_9).ref) := hA
  rw [e]
  rfl

/-- The last transpose: from equal [128,16,16,128] results both programs return equal NCHW arrays. -/
theorem nchw_eq (hA : (VK (Proc.devRef .tc Cert.KernelIdeal.main_v27) : (⟨4, ![128, 16, 16, 128]⟩ : Shape).Idx → EReal) = VR (Proc.devRef .tc Cert.ReferenceIdeal.main_v19)) :
    (StableHlo.after (Cert.KernelIdeal.Gen.hostOps3 (F := Ideal)) (VK) (Proc.devRef .tc Cert.KernelIdeal.main_v28) : (⟨4, ![128, 128, 16, 16]⟩ : Shape).Idx → EReal)
      = StableHlo.after (Cert.ReferenceIdeal.Gen.hostOps5 (F := Ideal)) (VR) (Proc.devRef .tc Cert.ReferenceIdeal.main_v20) := by
  dsimp only [Cert.KernelIdeal.Gen.hostOps3, Cert.ReferenceIdeal.Gen.hostOps5]
  after_results
  rw [show (VK (Proc.devRef .tc Cert.KernelIdeal.main_v27)) = VR (Proc.devRef .tc Cert.ReferenceIdeal.main_v19) from hA]

/-! ## The kernel program's weights -/

theorem kw_v6 : (StableHlo.after (Cert.KernelIdeal.Gen.hostOps0_2 (F := Ideal)) (VK) (Proc.devRef .tc Cert.KernelIdeal.main_v6) : (⟨2, ![48, 128]⟩ : Shape).Idx → EReal) = VK (Proc.devRef .tc Cert.KernelIdeal.main_arg1) := by
  dsimp only [Cert.KernelIdeal.Gen.hostOps0_2]
  after_results
  rfl

theorem kw_v8 : (StableHlo.after (Cert.KernelIdeal.Gen.hostOps0_2 (F := Ideal)) (VK) (Proc.devRef .tc Cert.KernelIdeal.main_v8) : (⟨3, ![4, 512, 128]⟩ : Shape).Idx → EReal) = slabs 4 512 2048 rfl (VK (Proc.devRef .tc Cert.KernelIdeal.main_arg3)) := by
  dsimp only [Cert.KernelIdeal.Gen.hostOps0_2]
  after_results
  exact shapeCast_eq_slabs 4 512 2048 rfl (VK (Proc.devRef .tc Cert.KernelIdeal.main_arg3)) Cert.KernelIdeal.Gen.shapeCasts_S2048x128_S4x512x128

theorem kw_v10 : (StableHlo.after (Cert.KernelIdeal.Gen.hostOps0_2 (F := Ideal)) (VK) (Proc.devRef .tc Cert.KernelIdeal.main_v10) : (⟨3, ![4, 512, 128]⟩ : Shape).Idx → EReal) = slabs 4 512 2048 rfl (VK (Proc.devRef .tc Cert.KernelIdeal.main_arg5)) := by
  dsimp only [Cert.KernelIdeal.Gen.hostOps0_2]
  after_results
  exact shapeCast_eq_slabs 4 512 2048 rfl (VK (Proc.devRef .tc Cert.KernelIdeal.main_arg5)) Cert.KernelIdeal.Gen.shapeCasts_S2048x128_S4x512x128

theorem kw_v12 : (StableHlo.after (Cert.KernelIdeal.Gen.hostOps0_2 (F := Ideal)) (VK) (Proc.devRef .tc Cert.KernelIdeal.main_v12) : (⟨3, ![9, 128, 128]⟩ : Shape).Idx → EReal) = slabs 9 128 1152 rfl (VK (Proc.devRef .tc Cert.KernelIdeal.main_arg7)) := by
  dsimp only [Cert.KernelIdeal.Gen.hostOps0_2]
  after_results
  exact shapeCast_eq_slabs 9 128 1152 rfl (VK (Proc.devRef .tc Cert.KernelIdeal.main_arg7)) Cert.KernelIdeal.Gen.shapeCasts_S1152x128_S9x128x128

theorem kw_v13 : (StableHlo.after (Cert.KernelIdeal.Gen.hostOps0_2 (F := Ideal)) (VK) (Proc.devRef .tc Cert.KernelIdeal.main_v13) : (⟨2, ![128, 128]⟩ : Shape).Idx → EReal) = VK (Proc.devRef .tc Cert.KernelIdeal.main_arg8) := by
  dsimp only [Cert.KernelIdeal.Gen.hostOps0_2]
  after_results
  rfl

theorem kw_v15 : (StableHlo.after (Cert.KernelIdeal.Gen.hostOps0_2 (F := Ideal)) (VK) (Proc.devRef .tc Cert.KernelIdeal.main_v15) : (⟨3, ![9, 128, 128]⟩ : Shape).Idx → EReal) = slabs 9 128 1152 rfl (VK (Proc.devRef .tc Cert.KernelIdeal.main_arg9)) := by
  dsimp only [Cert.KernelIdeal.Gen.hostOps0_2]
  after_results
  exact shapeCast_eq_slabs 9 128 1152 rfl (VK (Proc.devRef .tc Cert.KernelIdeal.main_arg9)) Cert.KernelIdeal.Gen.shapeCasts_S1152x128_S9x128x128

theorem kw_v16 : (StableHlo.after (Cert.KernelIdeal.Gen.hostOps0_2 (F := Ideal)) (VK) (Proc.devRef .tc Cert.KernelIdeal.main_v16) : (⟨2, ![128, 128]⟩ : Shape).Idx → EReal) = VK (Proc.devRef .tc Cert.KernelIdeal.main_arg10) := by
  dsimp only [Cert.KernelIdeal.Gen.hostOps0_2]
  after_results
  rfl

/-! ## The reference's zero padding before each residual layer -/

theorem rpad_v16 : (StableHlo.after (Cert.ReferenceIdeal.Gen.hostOps3_1 (F := Ideal)) (StableHlo.after (Cert.ReferenceIdeal.Gen.hostOps3 (F := Ideal)) (VR)) (Proc.devRef .tc Cert.ReferenceIdeal.main_v16) : (⟨4, ![128, 18, 18, 128]⟩ : Shape).Idx → EReal) = padSpec 128 (VR (Proc.devRef .tc Cert.ReferenceIdeal.main_v15)) := by
  dsimp only [Cert.ReferenceIdeal.Gen.hostOps3, Cert.ReferenceIdeal.Gen.hostOps3_1]
  after_results
  exact pad_eq_padSpec _ _ Cert.ReferenceIdeal.Gen.pads_S128x16x16x128_S128x18x18x128_000_110_110_000 Cert.ReferenceIdeal.Gen.h_S_ (by
    show (((0#32 : BitVec 32).toInt : ℝ) : EReal) = 0
    norm_num)

theorem rpad_v18 : (StableHlo.after (Cert.ReferenceIdeal.Gen.hostOps4_1 (F := Ideal)) (StableHlo.after (Cert.ReferenceIdeal.Gen.hostOps4 (F := Ideal)) (VR)) (Proc.devRef .tc Cert.ReferenceIdeal.main_v18) : (⟨4, ![128, 18, 18, 128]⟩ : Shape).Idx → EReal) = padSpec 128 (VR (Proc.devRef .tc Cert.ReferenceIdeal.main_v17)) := by
  dsimp only [Cert.ReferenceIdeal.Gen.hostOps4, Cert.ReferenceIdeal.Gen.hostOps4_1]
  after_results
  exact pad_eq_padSpec _ _ Cert.ReferenceIdeal.Gen.pads_S128x16x16x128_S128x18x18x128_000_110_110_000 Cert.ReferenceIdeal.Gen.h_S_ (by
    show (((0#32 : BitVec 32).toInt : ℝ) : EReal) = 0
    norm_num)

end Cert.Glue

end
-- ==== Proof.Assemble.lean ====
/-
  The value claim assembled: both programs are the same chain of layers. Stage by stage, from launch memories that agree on the
  arguments, the two folds hold equal arrays: the space-to-depth array of the input, the first convolution's result, its
  space-to-depth array, the second convolution's result, its space-to-depth array, the third convolution followed by the two
  residual layers (one region of the kernel program, three regions and two zero paddings of the reference), and the final
  transpose. Each region's result is its layer's specification applied to the arrays the region finds (the hypotheses below),
  the host operations between the regions are the same functions on both sides, and the kernel program's recast and
  reshaped weights are the arguments themselves, whole or as slabs.
-/
import proofs.«119654_g2000206494441110_pallasbulk_512_2_alg».proof.Defs
import proofs.«119654_g2000206494441110_pallasbulk_512_2_alg».proof.Proof.KRun
import proofs.«119654_g2000206494441110_pallasbulk_512_2_alg».proof.Proof.RRun
import proofs.«119654_g2000206494441110_pallasbulk_512_2_alg».proof.Proof.Glue
import proofs.«119654_g2000206494441110_pallasbulk_512_2_alg».proof.Proof.Gen.Pre_finite_inputs

set_option maxRecDepth 16384

noncomputable section

namespace Cert.Assemble

open Idealize.ShloMosaic Idealize.ShloMosaic.TcCoe Idealize.SL.Sem Cert.Spec
open Idealize.ShloMosaic.Pipeline (Dat)

/-! ## The layers respect equality of their operands -/

theorem convSpec_congr {B H1 Ho C K : ℕ} (h1 : H1 = Ho + 1) (hK : K = 4 * C) (relu : Bool)
    {x x' : (⟨4, ![B, H1, H1, C]⟩ : Shape).Idx → EReal} {w w' : (⟨2, ![K, 128]⟩ : Shape).Idx → EReal}
    {b b' : (⟨2, ![1, 128]⟩ : Shape).Idx → EReal} (ex : x = x') (ew : w = w') (eb : b = b') :
    convSpec B H1 Ho C K h1 hK relu x w b = convSpec B H1 Ho C K h1 hK relu x' w' b' := by subst ex ew eb; rfl

theorem resSpec_congr {B : ℕ} (relu : Bool) {hp hp' : (⟨4, ![B, 18, 18, 128]⟩ : Shape).Idx → EReal}
    {w1 w1' : (⟨2, ![1152, 128]⟩ : Shape).Idx → EReal} {w2 w2' : (⟨2, ![128, 128]⟩ : Shape).Idx → EReal}
    (e0 : hp = hp') (e1 : w1 = w1') (e2 : w2 = w2') : resSpec B relu hp w1 w2 = resSpec B relu hp' w1' w2' := by subst e0 e1 e2; rfl

/-! ## The reference's fold, boundary by boundary: a reference no operation of a stretch writes keeps its contents -/

section RFold
variable (m' : (ℓ : Loc Cert.ReferenceIdeal.nD Cert.ReferenceIdeal.τ Cert.ReferenceIdeal.sig) → Buf (Elt Ideal) ℓ) (ρ' : Dev Cert.ReferenceIdeal.nD → PrngReg)
/-- The references `hostOps0` of the reference writes. -/
abbrev RhostOps0_W : List (Ref Cert.ReferenceIdeal.sig .tc) := [Cert.ReferenceIdeal.main_v0, Cert.ReferenceIdeal.main_c]
theorem RhostOps0_writes : (Cert.ReferenceIdeal.Gen.hostOps0 : List (HloOp Cert.ReferenceIdeal.τ Cert.ReferenceIdeal.sig (Elt Ideal))).Forall fun op => op.writes ⊆ (RhostOps0_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW1_of (c : Dev Cert.ReferenceIdeal.nD) (r : Ref Cert.ReferenceIdeal.sig .tc) (h : r ∉ RhostOps0_W) : Cert.ReferenceIdeal.Gen.W1 m' ρ' c (Proc.devRef .tc r) = Cert.ReferenceIdeal.Gen.W0 m' ρ' c (Proc.devRef .tc r) :=
  StableHlo.after_of_writes_sub Cert.ReferenceIdeal.Gen.hostOps0 _ RhostOps0_writes h
/-- The references `hostOps0_1` of the reference writes. -/
abbrev RhostOps0_1_W : List (Ref Cert.ReferenceIdeal.sig .tc) := [Cert.ReferenceIdeal.main_call0_v0, Cert.ReferenceIdeal.main_v1]
theorem RhostOps0_1_writes : (Cert.ReferenceIdeal.Gen.hostOps0_1 : List (HloOp Cert.ReferenceIdeal.τ Cert.ReferenceIdeal.sig (Elt Ideal))).Forall fun op => op.writes ⊆ (RhostOps0_1_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW2_of (c : Dev Cert.ReferenceIdeal.nD) (r : Ref Cert.ReferenceIdeal.sig .tc) (h : r ∉ RhostOps0_1_W) : Cert.ReferenceIdeal.Gen.W2 m' ρ' c (Proc.devRef .tc r) = Cert.ReferenceIdeal.Gen.W1 m' ρ' c (Proc.devRef .tc r) :=
  StableHlo.after_of_writes_sub Cert.ReferenceIdeal.Gen.hostOps0_1 _ RhostOps0_1_writes h
/-- The references `hostOps0_2` of the reference writes. -/
abbrev RhostOps0_2_W : List (Ref Cert.ReferenceIdeal.sig .tc) := [Cert.ReferenceIdeal.main_v2, Cert.ReferenceIdeal.main_v3, Cert.ReferenceIdeal.main_v4]
theorem RhostOps0_2_writes : (Cert.ReferenceIdeal.Gen.hostOps0_2 : List (HloOp Cert.ReferenceIdeal.τ Cert.ReferenceIdeal.sig (Elt Ideal))).Forall fun op => op.writes ⊆ (RhostOps0_2_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW3_of (c : Dev Cert.ReferenceIdeal.nD) (r : Ref Cert.ReferenceIdeal.sig .tc) (h : r ∉ RhostOps0_2_W) : Cert.ReferenceIdeal.Gen.W3 m' ρ' c (Proc.devRef .tc r) = Cert.ReferenceIdeal.Gen.W2 m' ρ' c (Proc.devRef .tc r) :=
  StableHlo.after_of_writes_sub Cert.ReferenceIdeal.Gen.hostOps0_2 _ RhostOps0_2_writes h
/-- The references `hostOps1` of the reference writes. -/
abbrev RhostOps1_W : List (Ref Cert.ReferenceIdeal.sig .tc) := [Cert.ReferenceIdeal.main_c_0]
theorem RhostOps1_writes : (Cert.ReferenceIdeal.Gen.hostOps1 : List (HloOp Cert.ReferenceIdeal.τ Cert.ReferenceIdeal.sig (Elt Ideal))).Forall fun op => op.writes ⊆ (RhostOps1_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW5_of (c : Dev Cert.ReferenceIdeal.nD) (r : Ref Cert.ReferenceIdeal.sig .tc) (h : r ∉ RhostOps1_W) : Cert.ReferenceIdeal.Gen.W5 m' ρ' c (Proc.devRef .tc r) = Cert.ReferenceIdeal.Gen.W4 m' ρ' c (Proc.devRef .tc r) :=
  StableHlo.after_of_writes_sub Cert.ReferenceIdeal.Gen.hostOps1 _ RhostOps1_writes h
/-- The references `hostOps1_1` of the reference writes. -/
abbrev RhostOps1_1_W : List (Ref Cert.ReferenceIdeal.sig .tc) := [Cert.ReferenceIdeal.main_call1_v0, Cert.ReferenceIdeal.main_v6]
theorem RhostOps1_1_writes : (Cert.ReferenceIdeal.Gen.hostOps1_1 : List (HloOp Cert.ReferenceIdeal.τ Cert.ReferenceIdeal.sig (Elt Ideal))).Forall fun op => op.writes ⊆ (RhostOps1_1_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW6_of (c : Dev Cert.ReferenceIdeal.nD) (r : Ref Cert.ReferenceIdeal.sig .tc) (h : r ∉ RhostOps1_1_W) : Cert.ReferenceIdeal.Gen.W6 m' ρ' c (Proc.devRef .tc r) = Cert.ReferenceIdeal.Gen.W5 m' ρ' c (Proc.devRef .tc r) :=
  StableHlo.after_of_writes_sub Cert.ReferenceIdeal.Gen.hostOps1_1 _ RhostOps1_1_writes h
/-- The references `hostOps1_2` of the reference writes. -/
abbrev RhostOps1_2_W : List (Ref Cert.ReferenceIdeal.sig .tc) := [Cert.ReferenceIdeal.main_v7, Cert.ReferenceIdeal.main_v8, Cert.ReferenceIdeal.main_v9]
theorem RhostOps1_2_writes : (Cert.ReferenceIdeal.Gen.hostOps1_2 : List (HloOp Cert.ReferenceIdeal.τ Cert.ReferenceIdeal.sig (Elt Ideal))).Forall fun op => op.writes ⊆ (RhostOps1_2_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW7_of (c : Dev Cert.ReferenceIdeal.nD) (r : Ref Cert.ReferenceIdeal.sig .tc) (h : r ∉ RhostOps1_2_W) : Cert.ReferenceIdeal.Gen.W7 m' ρ' c (Proc.devRef .tc r) = Cert.ReferenceIdeal.Gen.W6 m' ρ' c (Proc.devRef .tc r) :=
  StableHlo.after_of_writes_sub Cert.ReferenceIdeal.Gen.hostOps1_2 _ RhostOps1_2_writes h
/-- The references `hostOps2` of the reference writes. -/
abbrev RhostOps2_W : List (Ref Cert.ReferenceIdeal.sig .tc) := [Cert.ReferenceIdeal.main_c_1]
theorem RhostOps2_writes : (Cert.ReferenceIdeal.Gen.hostOps2 : List (HloOp Cert.ReferenceIdeal.τ Cert.ReferenceIdeal.sig (Elt Ideal))).Forall fun op => op.writes ⊆ (RhostOps2_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW9_of (c : Dev Cert.ReferenceIdeal.nD) (r : Ref Cert.ReferenceIdeal.sig .tc) (h : r ∉ RhostOps2_W) : Cert.ReferenceIdeal.Gen.W9 m' ρ' c (Proc.devRef .tc r) = Cert.ReferenceIdeal.Gen.W8 m' ρ' c (Proc.devRef .tc r) :=
  StableHlo.after_of_writes_sub Cert.ReferenceIdeal.Gen.hostOps2 _ RhostOps2_writes h
/-- The references `hostOps2_1` of the reference writes. -/
abbrev RhostOps2_1_W : List (Ref Cert.ReferenceIdeal.sig .tc) := [Cert.ReferenceIdeal.main_call2_v0, Cert.ReferenceIdeal.main_v11]
theorem RhostOps2_1_writes : (Cert.ReferenceIdeal.Gen.hostOps2_1 : List (HloOp Cert.ReferenceIdeal.τ Cert.ReferenceIdeal.sig (Elt Ideal))).Forall fun op => op.writes ⊆ (RhostOps2_1_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW10_of (c : Dev Cert.ReferenceIdeal.nD) (r : Ref Cert.ReferenceIdeal.sig .tc) (h : r ∉ RhostOps2_1_W) : Cert.ReferenceIdeal.Gen.W10 m' ρ' c (Proc.devRef .tc r) = Cert.ReferenceIdeal.Gen.W9 m' ρ' c (Proc.devRef .tc r) :=
  StableHlo.after_of_writes_sub Cert.ReferenceIdeal.Gen.hostOps2_1 _ RhostOps2_1_writes h
/-- The references `hostOps2_2` of the reference writes. -/
abbrev RhostOps2_2_W : List (Ref Cert.ReferenceIdeal.sig .tc) := [Cert.ReferenceIdeal.main_v12, Cert.ReferenceIdeal.main_v13, Cert.ReferenceIdeal.main_v14]
theorem RhostOps2_2_writes : (Cert.ReferenceIdeal.Gen.hostOps2_2 : List (HloOp Cert.ReferenceIdeal.τ Cert.ReferenceIdeal.sig (Elt Ideal))).Forall fun op => op.writes ⊆ (RhostOps2_2_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW11_of (c : Dev Cert.ReferenceIdeal.nD) (r : Ref Cert.ReferenceIdeal.sig .tc) (h : r ∉ RhostOps2_2_W) : Cert.ReferenceIdeal.Gen.W11 m' ρ' c (Proc.devRef .tc r) = Cert.ReferenceIdeal.Gen.W10 m' ρ' c (Proc.devRef .tc r) :=
  StableHlo.after_of_writes_sub Cert.ReferenceIdeal.Gen.hostOps2_2 _ RhostOps2_2_writes h
/-- The references `hostOps3` of the reference writes. -/
abbrev RhostOps3_W : List (Ref Cert.ReferenceIdeal.sig .tc) := [Cert.ReferenceIdeal.main_c_2]
theorem RhostOps3_writes : (Cert.ReferenceIdeal.Gen.hostOps3 : List (HloOp Cert.ReferenceIdeal.τ Cert.ReferenceIdeal.sig (Elt Ideal))).Forall fun op => op.writes ⊆ (RhostOps3_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW13_of (c : Dev Cert.ReferenceIdeal.nD) (r : Ref Cert.ReferenceIdeal.sig .tc) (h : r ∉ RhostOps3_W) : Cert.ReferenceIdeal.Gen.W13 m' ρ' c (Proc.devRef .tc r) = Cert.ReferenceIdeal.Gen.W12 m' ρ' c (Proc.devRef .tc r) :=
  StableHlo.after_of_writes_sub Cert.ReferenceIdeal.Gen.hostOps3 _ RhostOps3_writes h
/-- The references `hostOps3_1` of the reference writes. -/
abbrev RhostOps3_1_W : List (Ref Cert.ReferenceIdeal.sig .tc) := [Cert.ReferenceIdeal.main_call3_v0, Cert.ReferenceIdeal.main_v16]
theorem RhostOps3_1_writes : (Cert.ReferenceIdeal.Gen.hostOps3_1 : List (HloOp Cert.ReferenceIdeal.τ Cert.ReferenceIdeal.sig (Elt Ideal))).Forall fun op => op.writes ⊆ (RhostOps3_1_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW14_of (c : Dev Cert.ReferenceIdeal.nD) (r : Ref Cert.ReferenceIdeal.sig .tc) (h : r ∉ RhostOps3_1_W) : Cert.ReferenceIdeal.Gen.W14 m' ρ' c (Proc.devRef .tc r) = Cert.ReferenceIdeal.Gen.W13 m' ρ' c (Proc.devRef .tc r) :=
  StableHlo.after_of_writes_sub Cert.ReferenceIdeal.Gen.hostOps3_1 _ RhostOps3_1_writes h
/-- The references `hostOps4` of the reference writes. -/
abbrev RhostOps4_W : List (Ref Cert.ReferenceIdeal.sig .tc) := [Cert.ReferenceIdeal.main_c_3]
theorem RhostOps4_writes : (Cert.ReferenceIdeal.Gen.hostOps4 : List (HloOp Cert.ReferenceIdeal.τ Cert.ReferenceIdeal.sig (Elt Ideal))).Forall fun op => op.writes ⊆ (RhostOps4_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW16_of (c : Dev Cert.ReferenceIdeal.nD) (r : Ref Cert.ReferenceIdeal.sig .tc) (h : r ∉ RhostOps4_W) : Cert.ReferenceIdeal.Gen.W16 m' ρ' c (Proc.devRef .tc r) = Cert.ReferenceIdeal.Gen.W15 m' ρ' c (Proc.devRef .tc r) :=
  StableHlo.after_of_writes_sub Cert.ReferenceIdeal.Gen.hostOps4 _ RhostOps4_writes h
/-- The references `hostOps4_1` of the reference writes. -/
abbrev RhostOps4_1_W : List (Ref Cert.ReferenceIdeal.sig .tc) := [Cert.ReferenceIdeal.main_call4_v0, Cert.ReferenceIdeal.main_v18]
theorem RhostOps4_1_writes : (Cert.ReferenceIdeal.Gen.hostOps4_1 : List (HloOp Cert.ReferenceIdeal.τ Cert.ReferenceIdeal.sig (Elt Ideal))).Forall fun op => op.writes ⊆ (RhostOps4_1_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW17_of (c : Dev Cert.ReferenceIdeal.nD) (r : Ref Cert.ReferenceIdeal.sig .tc) (h : r ∉ RhostOps4_1_W) : Cert.ReferenceIdeal.Gen.W17 m' ρ' c (Proc.devRef .tc r) = Cert.ReferenceIdeal.Gen.W16 m' ρ' c (Proc.devRef .tc r) :=
  StableHlo.after_of_writes_sub Cert.ReferenceIdeal.Gen.hostOps4_1 _ RhostOps4_1_writes h
/-- The references `hostOps5` of the reference writes. -/
abbrev RhostOps5_W : List (Ref Cert.ReferenceIdeal.sig .tc) := [Cert.ReferenceIdeal.main_v20]
theorem RhostOps5_writes : (Cert.ReferenceIdeal.Gen.hostOps5 : List (HloOp Cert.ReferenceIdeal.τ Cert.ReferenceIdeal.sig (Elt Ideal))).Forall fun op => op.writes ⊆ (RhostOps5_W.map (Proc.devRef (τ := Cert.ReferenceIdeal.τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem RW19_of (c : Dev Cert.ReferenceIdeal.nD) (r : Ref Cert.ReferenceIdeal.sig .tc) (h : r ∉ RhostOps5_W) : Cert.ReferenceIdeal.Gen.W19 m' ρ' c (Proc.devRef .tc r) = Cert.ReferenceIdeal.Gen.W18 m' ρ' c (Proc.devRef .tc r) :=
  StableHlo.after_of_writes_sub Cert.ReferenceIdeal.Gen.hostOps5 _ RhostOps5_writes h
theorem RW3_arg1 (c : Dev Cert.ReferenceIdeal.nD) : Cert.ReferenceIdeal.Gen.W3 m' ρ' c (Proc.devRef .tc Cert.ReferenceIdeal.main_arg1) = m' ((c : Thread Cert.ReferenceIdeal.nD Cert.ReferenceIdeal.τ).loc Cert.ReferenceIdeal.main_arg1) :=
  (RW3_of m' ρ' c Cert.ReferenceIdeal.main_arg1 (by decide)).trans <| (RW2_of m' ρ' c Cert.ReferenceIdeal.main_arg1 (by decide)).trans <| (RW1_of m' ρ' c Cert.ReferenceIdeal.main_arg1 (by decide)).trans rfl
theorem RW3_arg2 (c : Dev Cert.ReferenceIdeal.nD) : Cert.ReferenceIdeal.Gen.W3 m' ρ' c (Proc.devRef .tc Cert.ReferenceIdeal.main_arg2) = m' ((c : Thread Cert.ReferenceIdeal.nD Cert.ReferenceIdeal.τ).loc Cert.ReferenceIdeal.main_arg2) :=
  (RW3_of m' ρ' c Cert.ReferenceIdeal.main_arg2 (by decide)).trans <| (RW2_of m' ρ' c Cert.ReferenceIdeal.main_arg2 (by decide)).trans <| (RW1_of m' ρ' c Cert.ReferenceIdeal.main_arg2 (by decide)).trans rfl
theorem RW7_arg3 (c : Dev Cert.ReferenceIdeal.nD) : Cert.ReferenceIdeal.Gen.W7 m' ρ' c (Proc.devRef .tc Cert.ReferenceIdeal.main_arg3) = m' ((c : Thread Cert.ReferenceIdeal.nD Cert.ReferenceIdeal.τ).loc Cert.ReferenceIdeal.main_arg3) :=
  (RW7_of m' ρ' c Cert.ReferenceIdeal.main_arg3 (by decide)).trans <| (RW6_of m' ρ' c Cert.ReferenceIdeal.main_arg3 (by decide)).trans <| (RW5_of m' ρ' c Cert.ReferenceIdeal.main_arg3 (by decide)).trans <| (Cert.ReferenceIdeal.Gen.W4_of_ne m' ρ' c Cert.ReferenceIdeal.main_arg3 (by decide)).trans <| (RW3_of m' ρ' c Cert.ReferenceIdeal.main_arg3 (by decide)).trans <| (RW2_of m' ρ' c Cert.ReferenceIdeal.main_arg3 (by decide)).trans <| (RW1_of m' ρ' c Cert.ReferenceIdeal.main_arg3 (by decide)).trans rfl
theorem RW7_arg4 (c : Dev Cert.ReferenceIdeal.nD) : Cert.ReferenceIdeal.Gen.W7 m' ρ' c (Proc.devRef .tc Cert.ReferenceIdeal.main_arg4) = m' ((c : Thread Cert.ReferenceIdeal.nD Cert.ReferenceIdeal.τ).loc Cert.ReferenceIdeal.main_arg4) :=
  (RW7_of m' ρ' c Cert.ReferenceIdeal.main_arg4 (by decide)).trans <| (RW6_of m' ρ' c Cert.ReferenceIdeal.main_arg4 (by decide)).trans <| (RW5_of m' ρ' c Cert.ReferenceIdeal.main_arg4 (by decide)).trans <| (Cert.ReferenceIdeal.Gen.W4_of_ne m' ρ' c Cert.ReferenceIdeal.main_arg4 (by decide)).trans <| (RW3_of m' ρ' c Cert.ReferenceIdeal.main_arg4 (by decide)).trans <| (RW2_of m' ρ' c Cert.ReferenceIdeal.main_arg4 (by decide)).trans <| (RW1_of m' ρ' c Cert.ReferenceIdeal.main_arg4 (by decide)).trans rfl
theorem RW11_arg5 (c : Dev Cert.ReferenceIdeal.nD) : Cert.ReferenceIdeal.Gen.W11 m' ρ' c (Proc.devRef .tc Cert.ReferenceIdeal.main_arg5) = m' ((c : Thread Cert.ReferenceIdeal.nD Cert.ReferenceIdeal.τ).loc Cert.ReferenceIdeal.main_arg5) :=
  (RW11_of m' ρ' c Cert.ReferenceIdeal.main_arg5 (by decide)).trans <| (RW10_of m' ρ' c Cert.ReferenceIdeal.main_arg5 (by decide)).trans <| (RW9_of m' ρ' c Cert.ReferenceIdeal.main_arg5 (by decide)).trans <| (Cert.ReferenceIdeal.Gen.W8_of_ne m' ρ' c Cert.ReferenceIdeal.main_arg5 (by decide)).trans <| (RW7_of m' ρ' c Cert.ReferenceIdeal.main_arg5 (by decide)).trans <| (RW6_of m' ρ' c Cert.ReferenceIdeal.main_arg5 (by decide)).trans <| (RW5_of m' ρ' c Cert.ReferenceIdeal.main_arg5 (by decide)).trans <| (Cert.ReferenceIdeal.Gen.W4_of_ne m' ρ' c Cert.ReferenceIdeal.main_arg5 (by decide)).trans <| (RW3_of m' ρ' c Cert.ReferenceIdeal.main_arg5 (by decide)).trans <| (RW2_of m' ρ' c Cert.ReferenceIdeal.main_arg5 (by decide)).trans <| (RW1_of m' ρ' c Cert.ReferenceIdeal.main_arg5 (by decide)).trans rfl
theorem RW11_arg6 (c : Dev Cert.ReferenceIdeal.nD) : Cert.ReferenceIdeal.Gen.W11 m' ρ' c (Proc.devRef .tc Cert.ReferenceIdeal.main_arg6) = m' ((c : Thread Cert.ReferenceIdeal.nD Cert.ReferenceIdeal.τ).loc Cert.ReferenceIdeal.main_arg6) :=
  (RW11_of m' ρ' c Cert.ReferenceIdeal.main_arg6 (by decide)).trans <| (RW10_of m' ρ' c Cert.ReferenceIdeal.main_arg6 (by decide)).trans <| (RW9_of m' ρ' c Cert.ReferenceIdeal.main_arg6 (by decide)).trans <| (Cert.ReferenceIdeal.Gen.W8_of_ne m' ρ' c Cert.ReferenceIdeal.main_arg6 (by decide)).trans <| (RW7_of m' ρ' c Cert.ReferenceIdeal.main_arg6 (by decide)).trans <| (RW6_of m' ρ' c Cert.ReferenceIdeal.main_arg6 (by decide)).trans <| (RW5_of m' ρ' c Cert.ReferenceIdeal.main_arg6 (by decide)).trans <| (Cert.ReferenceIdeal.Gen.W4_of_ne m' ρ' c Cert.ReferenceIdeal.main_arg6 (by decide)).trans <| (RW3_of m' ρ' c Cert.ReferenceIdeal.main_arg6 (by decide)).trans <| (RW2_of m' ρ' c Cert.ReferenceIdeal.main_arg6 (by decide)).trans <| (RW1_of m' ρ' c Cert.ReferenceIdeal.main_arg6 (by decide)).trans rfl
theorem RW14_arg7 (c : Dev Cert.ReferenceIdeal.nD) : Cert.ReferenceIdeal.Gen.W14 m' ρ' c (Proc.devRef .tc Cert.ReferenceIdeal.main_arg7) = m' ((c : Thread Cert.ReferenceIdeal.nD Cert.ReferenceIdeal.τ).loc Cert.ReferenceIdeal.main_arg7) :=
  (RW14_of m' ρ' c Cert.ReferenceIdeal.main_arg7 (by decide)).trans <| (RW13_of m' ρ' c Cert.ReferenceIdeal.main_arg7 (by decide)).trans <| (Cert.ReferenceIdeal.Gen.W12_of_ne m' ρ' c Cert.ReferenceIdeal.main_arg7 (by decide)).trans <| (RW11_of m' ρ' c Cert.ReferenceIdeal.main_arg7 (by decide)).trans <| (RW10_of m' ρ' c Cert.ReferenceIdeal.main_arg7 (by decide)).trans <| (RW9_of m' ρ' c Cert.ReferenceIdeal.main_arg7 (by decide)).trans <| (Cert.ReferenceIdeal.Gen.W8_of_ne m' ρ' c Cert.ReferenceIdeal.main_arg7 (by decide)).trans <| (RW7_of m' ρ' c Cert.ReferenceIdeal.main_arg7 (by decide)).trans <| (RW6_of m' ρ' c Cert.ReferenceIdeal.main_arg7 (by decide)).trans <| (RW5_of m' ρ' c Cert.ReferenceIdeal.main_arg7 (by decide)).trans <| (Cert.ReferenceIdeal.Gen.W4_of_ne m' ρ' c Cert.ReferenceIdeal.main_arg7 (by decide)).trans <| (RW3_of m' ρ' c Cert.ReferenceIdeal.main_arg7 (by decide)).trans <| (RW2_of m' ρ' c Cert.ReferenceIdeal.main_arg7 (by decide)).trans <| (RW1_of m' ρ' c Cert.ReferenceIdeal.main_arg7 (by decide)).trans rfl
theorem RW14_arg8 (c : Dev Cert.ReferenceIdeal.nD) : Cert.ReferenceIdeal.Gen.W14 m' ρ' c (Proc.devRef .tc Cert.ReferenceIdeal.main_arg8) = m' ((c : Thread Cert.ReferenceIdeal.nD Cert.ReferenceIdeal.τ).loc Cert.ReferenceIdeal.main_arg8) :=
  (RW14_of m' ρ' c Cert.ReferenceIdeal.main_arg8 (by decide)).trans <| (RW13_of m' ρ' c Cert.ReferenceIdeal.main_arg8 (by decide)).trans <| (Cert.ReferenceIdeal.Gen.W12_of_ne m' ρ' c Cert.ReferenceIdeal.main_arg8 (by decide)).trans <| (RW11_of m' ρ' c Cert.ReferenceIdeal.main_arg8 (by decide)).trans <| (RW10_of m' ρ' c Cert.ReferenceIdeal.main_arg8 (by decide)).trans <| (RW9_of m' ρ' c Cert.ReferenceIdeal.main_arg8 (by decide)).trans <| (Cert.ReferenceIdeal.Gen.W8_of_ne m' ρ' c Cert.ReferenceIdeal.main_arg8 (by decide)).trans <| (RW7_of m' ρ' c Cert.ReferenceIdeal.main_arg8 (by decide)).trans <| (RW6_of m' ρ' c Cert.ReferenceIdeal.main_arg8 (by decide)).trans <| (RW5_of m' ρ' c Cert.ReferenceIdeal.main_arg8 (by decide)).trans <| (Cert.ReferenceIdeal.Gen.W4_of_ne m' ρ' c Cert.ReferenceIdeal.main_arg8 (by decide)).trans <| (RW3_of m' ρ' c Cert.ReferenceIdeal.main_arg8 (by decide)).trans <| (RW2_of m' ρ' c Cert.ReferenceIdeal.main_arg8 (by decide)).trans <| (RW1_of m' ρ' c Cert.ReferenceIdeal.main_arg8 (by decide)).trans rfl
theorem RW17_arg9 (c : Dev Cert.ReferenceIdeal.nD) : Cert.ReferenceIdeal.Gen.W17 m' ρ' c (Proc.devRef .tc Cert.ReferenceIdeal.main_arg9) = m' ((c : Thread Cert.ReferenceIdeal.nD Cert.ReferenceIdeal.τ).loc Cert.ReferenceIdeal.main_arg9) :=
  (RW17_of m' ρ' c Cert.ReferenceIdeal.main_arg9 (by decide)).trans <| (RW16_of m' ρ' c Cert.ReferenceIdeal.main_arg9 (by decide)).trans <| (Cert.ReferenceIdeal.Gen.W15_of_ne m' ρ' c Cert.ReferenceIdeal.main_arg9 (by decide)).trans <| (RW14_of m' ρ' c Cert.ReferenceIdeal.main_arg9 (by decide)).trans <| (RW13_of m' ρ' c Cert.ReferenceIdeal.main_arg9 (by decide)).trans <| (Cert.ReferenceIdeal.Gen.W12_of_ne m' ρ' c Cert.ReferenceIdeal.main_arg9 (by decide)).trans <| (RW11_of m' ρ' c Cert.ReferenceIdeal.main_arg9 (by decide)).trans <| (RW10_of m' ρ' c Cert.ReferenceIdeal.main_arg9 (by decide)).trans <| (RW9_of m' ρ' c Cert.ReferenceIdeal.main_arg9 (by decide)).trans <| (Cert.ReferenceIdeal.Gen.W8_of_ne m' ρ' c Cert.ReferenceIdeal.main_arg9 (by decide)).trans <| (RW7_of m' ρ' c Cert.ReferenceIdeal.main_arg9 (by decide)).trans <| (RW6_of m' ρ' c Cert.ReferenceIdeal.main_arg9 (by decide)).trans <| (RW5_of m' ρ' c Cert.ReferenceIdeal.main_arg9 (by decide)).trans <| (Cert.ReferenceIdeal.Gen.W4_of_ne m' ρ' c Cert.ReferenceIdeal.main_arg9 (by decide)).trans <| (RW3_of m' ρ' c Cert.ReferenceIdeal.main_arg9 (by decide)).trans <| (RW2_of m' ρ' c Cert.ReferenceIdeal.main_arg9 (by decide)).trans <| (RW1_of m' ρ' c Cert.ReferenceIdeal.main_arg9 (by decide)).trans rfl
theorem RW17_arg10 (c : Dev Cert.ReferenceIdeal.nD) : Cert.ReferenceIdeal.Gen.W17 m' ρ' c (Proc.devRef .tc Cert.ReferenceIdeal.main_arg10) = m' ((c : Thread Cert.ReferenceIdeal.nD Cert.ReferenceIdeal.τ).loc Cert.ReferenceIdeal.main_arg10) :=
  (RW17_of m' ρ' c Cert.ReferenceIdeal.main_arg10 (by decide)).trans <| (RW16_of m' ρ' c Cert.ReferenceIdeal.main_arg10 (by decide)).trans <| (Cert.ReferenceIdeal.Gen.W15_of_ne m' ρ' c Cert.ReferenceIdeal.main_arg10 (by decide)).trans <| (RW14_of m' ρ' c Cert.ReferenceIdeal.main_arg10 (by decide)).trans <| (RW13_of m' ρ' c Cert.ReferenceIdeal.main_arg10 (by decide)).trans <| (Cert.ReferenceIdeal.Gen.W12_of_ne m' ρ' c Cert.ReferenceIdeal.main_arg10 (by decide)).trans <| (RW11_of m' ρ' c Cert.ReferenceIdeal.main_arg10 (by decide)).trans <| (RW10_of m' ρ' c Cert.ReferenceIdeal.main_arg10 (by decide)).trans <| (RW9_of m' ρ' c Cert.ReferenceIdeal.main_arg10 (by decide)).trans <| (Cert.ReferenceIdeal.Gen.W8_of_ne m' ρ' c Cert.ReferenceIdeal.main_arg10 (by decide)).trans <| (RW7_of m' ρ' c Cert.ReferenceIdeal.main_arg10 (by decide)).trans <| (RW6_of m' ρ' c Cert.ReferenceIdeal.main_arg10 (by decide)).trans <| (RW5_of m' ρ' c Cert.ReferenceIdeal.main_arg10 (by decide)).trans <| (Cert.ReferenceIdeal.Gen.W4_of_ne m' ρ' c Cert.ReferenceIdeal.main_arg10 (by decide)).trans <| (RW3_of m' ρ' c Cert.ReferenceIdeal.main_arg10 (by decide)).trans <| (RW2_of m' ρ' c Cert.ReferenceIdeal.main_arg10 (by decide)).trans <| (RW1_of m' ρ' c Cert.ReferenceIdeal.main_arg10 (by decide)).trans rfl
end RFold

/-! ## The kernel program's fold: the arguments and the recast weights at the regions' entries -/

section KFold
variable (m : (ℓ : Loc Cert.KernelIdeal.nD Cert.KernelIdeal.τ Cert.KernelIdeal.sig) → Buf (Elt Ideal) ℓ) (ρ : Dev Cert.KernelIdeal.nD → PrngReg)
theorem KW2_arg1 (c : Dev Cert.KernelIdeal.nD) : Cert.KernelIdeal.Hand.W2 m ρ c (Proc.devRef .tc Cert.KernelIdeal.main_arg1) = m ((c : Thread Cert.KernelIdeal.nD Cert.KernelIdeal.τ).loc Cert.KernelIdeal.main_arg1) :=
  (Cert.KernelIdeal.Hand.W2_of m ρ c Cert.KernelIdeal.main_arg1 (by decide)).trans <| (Cert.KernelIdeal.Hand.W1_of m ρ c Cert.KernelIdeal.main_arg1 (by decide)).trans rfl
theorem KW3_arg2 (c : Dev Cert.KernelIdeal.nD) : Cert.KernelIdeal.Hand.W3 m ρ c (Proc.devRef .tc Cert.KernelIdeal.main_arg2) = m ((c : Thread Cert.KernelIdeal.nD Cert.KernelIdeal.τ).loc Cert.KernelIdeal.main_arg2) :=
  (Cert.KernelIdeal.Hand.W3_of m ρ c Cert.KernelIdeal.main_arg2 (by decide)).trans <| (Cert.KernelIdeal.Hand.W2_of m ρ c Cert.KernelIdeal.main_arg2 (by decide)).trans <| (Cert.KernelIdeal.Hand.W1_of m ρ c Cert.KernelIdeal.main_arg2 (by decide)).trans rfl
theorem KW2_arg3 (c : Dev Cert.KernelIdeal.nD) : Cert.KernelIdeal.Hand.W2 m ρ c (Proc.devRef .tc Cert.KernelIdeal.main_arg3) = m ((c : Thread Cert.KernelIdeal.nD Cert.KernelIdeal.τ).loc Cert.KernelIdeal.main_arg3) :=
  (Cert.KernelIdeal.Hand.W2_of m ρ c Cert.KernelIdeal.main_arg3 (by decide)).trans <| (Cert.KernelIdeal.Hand.W1_of m ρ c Cert.KernelIdeal.main_arg3 (by decide)).trans rfl
theorem KW7_arg4 (c : Dev Cert.KernelIdeal.nD) : Cert.KernelIdeal.Hand.W7 m ρ c (Proc.devRef .tc Cert.KernelIdeal.main_arg4) = m ((c : Thread Cert.KernelIdeal.nD Cert.KernelIdeal.τ).loc Cert.KernelIdeal.main_arg4) :=
  (Cert.KernelIdeal.Hand.W7_of m ρ c Cert.KernelIdeal.main_arg4 (by decide)).trans <| (Cert.KernelIdeal.Hand.W6_of m ρ c Cert.KernelIdeal.main_arg4 (by decide)).trans <| (Cert.KernelIdeal.Hand.W5_of m ρ c Cert.KernelIdeal.main_arg4 (by decide)).trans <| (Cert.KernelIdeal.Hand.W4_of m ρ c Cert.KernelIdeal.main_arg4 (by decide)).trans <| (Cert.KernelIdeal.Hand.W3_of m ρ c Cert.KernelIdeal.main_arg4 (by decide)).trans <| (Cert.KernelIdeal.Hand.W2_of m ρ c Cert.KernelIdeal.main_arg4 (by decide)).trans <| (Cert.KernelIdeal.Hand.W1_of m ρ c Cert.KernelIdeal.main_arg4 (by decide)).trans rfl
theorem KW2_arg5 (c : Dev Cert.KernelIdeal.nD) : Cert.KernelIdeal.Hand.W2 m ρ c (Proc.devRef .tc Cert.KernelIdeal.main_arg5) = m ((c : Thread Cert.KernelIdeal.nD Cert.KernelIdeal.τ).loc Cert.KernelIdeal.main_arg5) :=
  (Cert.KernelIdeal.Hand.W2_of m ρ c Cert.KernelIdeal.main_arg5 (by decide)).trans <| (Cert.KernelIdeal.Hand.W1_of m ρ c Cert.KernelIdeal.main_arg5 (by decide)).trans rfl
theorem KW11_arg6 (c : Dev Cert.KernelIdeal.nD) : Cert.KernelIdeal.Hand.W11 m ρ c (Proc.devRef .tc Cert.KernelIdeal.main_arg6) = m ((c : Thread Cert.KernelIdeal.nD Cert.KernelIdeal.τ).loc Cert.KernelIdeal.main_arg6) :=
  (Cert.KernelIdeal.Hand.W11_of m ρ c Cert.KernelIdeal.main_arg6 (by decide)).trans <| (Cert.KernelIdeal.Hand.W10_of m ρ c Cert.KernelIdeal.main_arg6 (by decide)).trans <| (Cert.KernelIdeal.Hand.W9_of m ρ c Cert.KernelIdeal.main_arg6 (by decide)).trans <| (Cert.KernelIdeal.Hand.W8_of m ρ c Cert.KernelIdeal.main_arg6 (by decide)).trans <| (Cert.KernelIdeal.Hand.W7_of m ρ c Cert.KernelIdeal.main_arg6 (by decide)).trans <| (Cert.KernelIdeal.Hand.W6_of m ρ c Cert.KernelIdeal.main_arg6 (by decide)).trans <| (Cert.KernelIdeal.Hand.W5_of m ρ c Cert.KernelIdeal.main_arg6 (by decide)).trans <| (Cert.KernelIdeal.Hand.W4_of m ρ c Cert.KernelIdeal.main_arg6 (by decide)).trans <| (Cert.KernelIdeal.Hand.W3_of m ρ c Cert.KernelIdeal.main_arg6 (by decide)).trans <| (Cert.KernelIdeal.Hand.W2_of m ρ c Cert.KernelIdeal.main_arg6 (by decide)).trans <| (Cert.KernelIdeal.Hand.W1_of m ρ c Cert.KernelIdeal.main_arg6 (by decide)).trans rfl
theorem KW2_arg7 (c : Dev Cert.KernelIdeal.nD) : Cert.KernelIdeal.Hand.W2 m ρ c (Proc.devRef .tc Cert.KernelIdeal.main_arg7) = m ((c : Thread Cert.KernelIdeal.nD Cert.KernelIdeal.τ).loc Cert.KernelIdeal.main_arg7) :=
  (Cert.KernelIdeal.Hand.W2_of m ρ c Cert.KernelIdeal.main_arg7 (by decide)).trans <| (Cert.KernelIdeal.Hand.W1_of m ρ c Cert.KernelIdeal.main_arg7 (by decide)).trans rfl
theorem KW2_arg8 (c : Dev Cert.KernelIdeal.nD) : Cert.KernelIdeal.Hand.W2 m ρ c (Proc.devRef .tc Cert.KernelIdeal.main_arg8) = m ((c : Thread Cert.KernelIdeal.nD Cert.KernelIdeal.τ).loc Cert.KernelIdeal.main_arg8) :=
  (Cert.KernelIdeal.Hand.W2_of m ρ c Cert.KernelIdeal.main_arg8 (by decide)).trans <| (Cert.KernelIdeal.Hand.W1_of m ρ c Cert.KernelIdeal.main_arg8 (by decide)).trans rfl
theorem KW2_arg9 (c : Dev Cert.KernelIdeal.nD) : Cert.KernelIdeal.Hand.W2 m ρ c (Proc.devRef .tc Cert.KernelIdeal.main_arg9) = m ((c : Thread Cert.KernelIdeal.nD Cert.KernelIdeal.τ).loc Cert.KernelIdeal.main_arg9) :=
  (Cert.KernelIdeal.Hand.W2_of m ρ c Cert.KernelIdeal.main_arg9 (by decide)).trans <| (Cert.KernelIdeal.Hand.W1_of m ρ c Cert.KernelIdeal.main_arg9 (by decide)).trans rfl
theorem KW2_arg10 (c : Dev Cert.KernelIdeal.nD) : Cert.KernelIdeal.Hand.W2 m ρ c (Proc.devRef .tc Cert.KernelIdeal.main_arg10) = m ((c : Thread Cert.KernelIdeal.nD Cert.KernelIdeal.τ).loc Cert.KernelIdeal.main_arg10) :=
  (Cert.KernelIdeal.Hand.W2_of m ρ c Cert.KernelIdeal.main_arg10 (by decide)).trans <| (Cert.KernelIdeal.Hand.W1_of m ρ c Cert.KernelIdeal.main_arg10 (by decide)).trans rfl
theorem KW7_v8 (c : Dev Cert.KernelIdeal.nD) : Cert.KernelIdeal.Hand.W7 m ρ c (Proc.devRef .tc Cert.KernelIdeal.main_v8) = Cert.KernelIdeal.Hand.W3 m ρ c (Proc.devRef .tc Cert.KernelIdeal.main_v8) :=
  (Cert.KernelIdeal.Hand.W7_of m ρ c Cert.KernelIdeal.main_v8 (by decide)).trans <| (Cert.KernelIdeal.Hand.W6_of m ρ c Cert.KernelIdeal.main_v8 (by decide)).trans <| (Cert.KernelIdeal.Hand.W5_of m ρ c Cert.KernelIdeal.main_v8 (by decide)).trans <| (Cert.KernelIdeal.Hand.W4_of m ρ c Cert.KernelIdeal.main_v8 (by decide)).trans rfl
theorem KW11_v10 (c : Dev Cert.KernelIdeal.nD) : Cert.KernelIdeal.Hand.W11 m ρ c (Proc.devRef .tc Cert.KernelIdeal.main_v10) = Cert.KernelIdeal.Hand.W3 m ρ c (Proc.devRef .tc Cert.KernelIdeal.main_v10) :=
  (Cert.KernelIdeal.Hand.W11_of m ρ c Cert.KernelIdeal.main_v10 (by decide)).trans <| (Cert.KernelIdeal.Hand.W10_of m ρ c Cert.KernelIdeal.main_v10 (by decide)).trans <| (Cert.KernelIdeal.Hand.W9_of m ρ c Cert.KernelIdeal.main_v10 (by decide)).trans <| (Cert.KernelIdeal.Hand.W8_of m ρ c Cert.KernelIdeal.main_v10 (by decide)).trans <| (Cert.KernelIdeal.Hand.W7_of m ρ c Cert.KernelIdeal.main_v10 (by decide)).trans <| (Cert.KernelIdeal.Hand.W6_of m ρ c Cert.KernelIdeal.main_v10 (by decide)).trans <| (Cert.KernelIdeal.Hand.W5_of m ρ c Cert.KernelIdeal.main_v10 (by decide)).trans <| (Cert.KernelIdeal.Hand.W4_of m ρ c Cert.KernelIdeal.main_v10 (by decide)).trans rfl
theorem KW11_v12 (c : Dev Cert.KernelIdeal.nD) : Cert.KernelIdeal.Hand.W11 m ρ c (Proc.devRef .tc Cert.KernelIdeal.main_v12) = Cert.KernelIdeal.Hand.W3 m ρ c (Proc.devRef .tc Cert.KernelIdeal.main_v12) :=
  (Cert.KernelIdeal.Hand.W11_of m ρ c Cert.KernelIdeal.main_v12 (by decide)).trans <| (Cert.KernelIdeal.Hand.W10_of m ρ c Cert.KernelIdeal.main_v12 (by decide)).trans <| (Cert.KernelIdeal.Hand.W9_of m ρ c Cert.KernelIdeal.main_v12 (by decide)).trans <| (Cert.KernelIdeal.Hand.W8_of m ρ c Cert.KernelIdeal.main_v12 (by decide)).trans <| (Cert.KernelIdeal.Hand.W7_of m ρ c Cert.KernelIdeal.main_v12 (by decide)).trans <| (Cert.KernelIdeal.Hand.W6_of m ρ c Cert.KernelIdeal.main_v12 (by decide)).trans <| (Cert.KernelIdeal.Hand.W5_of m ρ c Cert.KernelIdeal.main_v12 (by decide)).trans <| (Cert.KernelIdeal.Hand.W4_of m ρ c Cert.KernelIdeal.main_v12 (by decide)).trans rfl
theorem KW11_v13 (c : Dev Cert.KernelIdeal.nD) : Cert.KernelIdeal.Hand.W11 m ρ c (Proc.devRef .tc Cert.KernelIdeal.main_v13) = Cert.KernelIdeal.Hand.W3 m ρ c (Proc.devRef .tc Cert.KernelIdeal.main_v13) :=
  (Cert.KernelIdeal.Hand.W11_of m ρ c Cert.KernelIdeal.main_v13 (by decide)).trans <| (Cert.KernelIdeal.Hand.W10_of m ρ c Cert.KernelIdeal.main_v13 (by decide)).trans <| (Cert.KernelIdeal.Hand.W9_of m ρ c Cert.KernelIdeal.main_v13 (by decide)).trans <| (Cert.KernelIdeal.Hand.W8_of m ρ c Cert.KernelIdeal.main_v13 (by decide)).trans <| (Cert.KernelIdeal.Hand.W7_of m ρ c Cert.KernelIdeal.main_v13 (by decide)).trans <| (Cert.KernelIdeal.Hand.W6_of m ρ c Cert.KernelIdeal.main_v13 (by decide)).trans <| (Cert.KernelIdeal.Hand.W5_of m ρ c Cert.KernelIdeal.main_v13 (by decide)).trans <| (Cert.KernelIdeal.Hand.W4_of m ρ c Cert.KernelIdeal.main_v13 (by decide)).trans rfl
theorem KW11_v15 (c : Dev Cert.KernelIdeal.nD) : Cert.KernelIdeal.Hand.W11 m ρ c (Proc.devRef .tc Cert.KernelIdeal.main_v15) = Cert.KernelIdeal.Hand.W3 m ρ c (Proc.devRef .tc Cert.KernelIdeal.main_v15) :=
  (Cert.KernelIdeal.Hand.W11_of m ρ c Cert.KernelIdeal.main_v15 (by decide)).trans <| (Cert.KernelIdeal.Hand.W10_of m ρ c Cert.KernelIdeal.main_v15 (by decide)).trans <| (Cert.KernelIdeal.Hand.W9_of m ρ c Cert.KernelIdeal.main_v15 (by decide)).trans <| (Cert.KernelIdeal.Hand.W8_of m ρ c Cert.KernelIdeal.main_v15 (by decide)).trans <| (Cert.KernelIdeal.Hand.W7_of m ρ c Cert.KernelIdeal.main_v15 (by decide)).trans <| (Cert.KernelIdeal.Hand.W6_of m ρ c Cert.KernelIdeal.main_v15 (by decide)).trans <| (Cert.KernelIdeal.Hand.W5_of m ρ c Cert.KernelIdeal.main_v15 (by decide)).trans <| (Cert.KernelIdeal.Hand.W4_of m ρ c Cert.KernelIdeal.main_v15 (by decide)).trans rfl
theorem KW11_v16 (c : Dev Cert.KernelIdeal.nD) : Cert.KernelIdeal.Hand.W11 m ρ c (Proc.devRef .tc Cert.KernelIdeal.main_v16) = Cert.KernelIdeal.Hand.W3 m ρ c (Proc.devRef .tc Cert.KernelIdeal.main_v16) :=
  (Cert.KernelIdeal.Hand.W11_of m ρ c Cert.KernelIdeal.main_v16 (by decide)).trans <| (Cert.KernelIdeal.Hand.W10_of m ρ c Cert.KernelIdeal.main_v16 (by decide)).trans <| (Cert.KernelIdeal.Hand.W9_of m ρ c Cert.KernelIdeal.main_v16 (by decide)).trans <| (Cert.KernelIdeal.Hand.W8_of m ρ c Cert.KernelIdeal.main_v16 (by decide)).trans <| (Cert.KernelIdeal.Hand.W7_of m ρ c Cert.KernelIdeal.main_v16 (by decide)).trans <| (Cert.KernelIdeal.Hand.W6_of m ρ c Cert.KernelIdeal.main_v16 (by decide)).trans <| (Cert.KernelIdeal.Hand.W5_of m ρ c Cert.KernelIdeal.main_v16 (by decide)).trans <| (Cert.KernelIdeal.Hand.W4_of m ρ c Cert.KernelIdeal.main_v16 (by decide)).trans rfl
end KFold

/-! ## The assembly -/

section Assembly

/- What each region leaves in its result array, as a function of the arrays it finds at entry: the layers' specifications. -/
variable
  (hK0 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD),
    (Cert.KernelIdeal.Hand.dat0 (F := Ideal) V c).arrAt 3 Cert.KernelIdeal.cfg0.N
      = convSpec 128 65 64 12 48 rfl rfl true (V c (Pipeline.arrRef Cert.KernelIdeal.spec0 0)) (V c (Pipeline.arrRef Cert.KernelIdeal.spec0 1)) (V c (Pipeline.arrRef Cert.KernelIdeal.spec0 2)))
  (hK1 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (w : (⟨2, ![2048, 128]⟩ : Shape).Idx → EReal),
    V c (Pipeline.arrRef Cert.KernelIdeal.spec1 1) = slabs 4 512 2048 rfl w →
    (Cert.KernelIdeal.Hand.dat1 (F := Ideal) V c).arrAt 3 Cert.KernelIdeal.cfg1.N
      = convSpec 128 33 32 512 2048 rfl rfl true (V c (Pipeline.arrRef Cert.KernelIdeal.spec1 0)) w (V c (Pipeline.arrRef Cert.KernelIdeal.spec1 2)))
  (hK2 : ∀ (V : (c : Dev Cert.KernelIdeal.nD) → (b : Ref Cert.KernelIdeal.sig .tc) → Buf (Elt Ideal) ((c : Thread Cert.KernelIdeal.nD Cert.KernelIdeal.τ).loc b)) (c : Dev Cert.KernelIdeal.nD) (w3 : (⟨2, ![2048, 128]⟩ : Shape).Idx → EReal)
      (r0w1 : (⟨2, ![1152, 128]⟩ : Shape).Idx → EReal) (r0w2 : (⟨2, ![128, 128]⟩ : Shape).Idx → EReal) (r1w1 : (⟨2, ![1152, 128]⟩ : Shape).Idx → EReal) (r1w2 : (⟨2, ![128, 128]⟩ : Shape).Idx → EReal),
    V c (Pipeline.arrRef Cert.KernelIdeal.spec2 1) = slabs 4 512 2048 rfl w3 →
    V c (Pipeline.arrRef Cert.KernelIdeal.spec2 3) = slabs 9 128 1152 rfl r0w1 →
    V c (Pipeline.arrRef Cert.KernelIdeal.spec2 4) = r0w2 →
    V c (Pipeline.arrRef Cert.KernelIdeal.spec2 5) = slabs 9 128 1152 rfl r1w1 →
    V c (Pipeline.arrRef Cert.KernelIdeal.spec2 6) = r1w2 →
    (Cert.KernelIdeal.Hand.dat2 (F := Ideal) V c).arrAt 7 Cert.KernelIdeal.cfg2.N
      = resSpec 128 true (padSpec 128 (resSpec 128 false (padSpec 128
          (convSpec 128 17 16 512 2048 rfl rfl false (V c (Pipeline.arrRef Cert.KernelIdeal.spec2 0)) w3 (V c (Pipeline.arrRef Cert.KernelIdeal.spec2 2)))) r0w1 r0w2)) r1w1 r1w2)
  (hR0 : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
    (Cert.ReferenceIdeal.Gen.dat0 (F := Ideal) V c).arrAt 3 Cert.ReferenceIdeal.cfg0.N
      = convSpec 128 65 64 12 48 rfl rfl true (V c (Pipeline.arrRef Cert.ReferenceIdeal.spec0 0)) (V c (Pipeline.arrRef Cert.ReferenceIdeal.spec0 1)) (V c (Pipeline.arrRef Cert.ReferenceIdeal.spec0 2)))
  (hR1 : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
    (Cert.ReferenceIdeal.Gen.dat1 (F := Ideal) V c).arrAt 3 Cert.ReferenceIdeal.cfg1.N
      = convSpec 128 33 32 512 2048 rfl rfl true (V c (Pipeline.arrRef Cert.ReferenceIdeal.spec1 0)) (V c (Pipeline.arrRef Cert.ReferenceIdeal.spec1 1)) (V c (Pipeline.arrRef Cert.ReferenceIdeal.spec1 2)))
  (hR2 : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
    (Cert.ReferenceIdeal.Gen.dat2 (F := Ideal) V c).arrAt 3 Cert.ReferenceIdeal.cfg2.N
      = convSpec 128 17 16 512 2048 rfl rfl false (V c (Pipeline.arrRef Cert.ReferenceIdeal.spec2 0)) (V c (Pipeline.arrRef Cert.ReferenceIdeal.spec2 1)) (V c (Pipeline.arrRef Cert.ReferenceIdeal.spec2 2)))
  (hR3 : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
    (Cert.ReferenceIdeal.Gen.dat3 (F := Ideal) V c).arrAt 3 Cert.ReferenceIdeal.cfg3.N
      = resSpec 128 false (V c (Pipeline.arrRef Cert.ReferenceIdeal.spec3 0)) (V c (Pipeline.arrRef Cert.ReferenceIdeal.spec3 1)) (V c (Pipeline.arrRef Cert.ReferenceIdeal.spec3 2)))
  (hR4 : ∀ (V : (c : Dev Cert.ReferenceIdeal.nD) → (b : Ref Cert.ReferenceIdeal.sig .tc) → Buf (Elt Ideal) ((c : Thread Cert.ReferenceIdeal.nD Cert.ReferenceIdeal.τ).loc b)) (c : Dev Cert.ReferenceIdeal.nD),
    (Cert.ReferenceIdeal.Gen.dat4 (F := Ideal) V c).arrAt 3 Cert.ReferenceIdeal.cfg4.N
      = resSpec 128 true (V c (Pipeline.arrRef Cert.ReferenceIdeal.spec4 0)) (V c (Pipeline.arrRef Cert.ReferenceIdeal.spec4 1)) (V c (Pipeline.arrRef Cert.ReferenceIdeal.spec4 2)))

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

set_option maxHeartbeats 4000000 in
include hK0 hK1 hK2 hR0 hR1 hR2 hR3 hR4 in
/-- From launch memories that agree on the arguments, the two programs' result arrays are equal. -/
theorem value_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (c : Dev Cert.KernelIdeal.nD) :
    (Cert.ReferenceIdeal.Gen.W19 m' ρ' c (Proc.devRef .tc Cert.ReferenceIdeal.main_v20) : (⟨4, ![128, 128, 16, 16]⟩ : Shape).Idx → EReal) = Cert.KernelIdeal.Hand.W13 m ρ c (Proc.devRef .tc Cert.KernelIdeal.main_v28) := by
  obtain ⟨a0, a1, a2, a3, a4, a5, a6, a7, a8, a9, a10⟩ := hagree c
  -- the input's space-to-depth array
  have E1 : (Cert.KernelIdeal.Hand.W3 m ρ c (Proc.devRef .tc Cert.KernelIdeal.main_v5) : (⟨4, ![128, 65, 65, 12]⟩ : Shape).Idx → EReal) = Cert.ReferenceIdeal.Gen.W3 m' ρ' c (Proc.devRef .tc Cert.ReferenceIdeal.main_v4) :=
    Cert.Glue.s2d0_eq (Cert.KernelIdeal.Hand.W0 m ρ c) (Cert.ReferenceIdeal.Gen.W0 m' ρ' c) a0.symm
  -- the first convolution
  have ew0 : (Cert.KernelIdeal.Hand.W3 m ρ c (Proc.devRef .tc Cert.KernelIdeal.main_v6) : (⟨2, ![48, 128]⟩ : Shape).Idx → EReal) = Cert.ReferenceIdeal.Gen.W3 m' ρ' c (Proc.devRef .tc Cert.ReferenceIdeal.main_arg1) :=
    (Cert.Glue.kw_v6 (Cert.KernelIdeal.Hand.W2 m ρ c)).trans ((KW2_arg1 m ρ c).trans (a1.symm.trans (RW3_arg1 m' ρ' c).symm))
  have eb0 : (Cert.KernelIdeal.Hand.W3 m ρ c (Proc.devRef .tc Cert.KernelIdeal.main_arg2) : (⟨2, ![1, 128]⟩ : Shape).Idx → EReal) = Cert.ReferenceIdeal.Gen.W3 m' ρ' c (Proc.devRef .tc Cert.ReferenceIdeal.main_arg2) :=
    (KW3_arg2 m ρ c).trans (a2.symm.trans (RW3_arg2 m' ρ' c).symm)
  have E2 : (Cert.KernelIdeal.Hand.W4 m ρ c (Proc.devRef .tc Cert.KernelIdeal.main_v17) : (⟨4, ![128, 64, 64, 128]⟩ : Shape).Idx → EReal) = Cert.ReferenceIdeal.Gen.W4 m' ρ' c (Proc.devRef .tc Cert.ReferenceIdeal.main_v5) :=
    ((Cert.KernelIdeal.Hand.W4_arr m ρ c 3).trans (hK0 (Cert.KernelIdeal.Hand.V3 m ρ) c)).trans
      ((convSpec_congr rfl rfl true E1 ew0 eb0).trans ((Cert.ReferenceIdeal.Gen.W4_arr m' ρ' c 3).trans (hR0 (Cert.ReferenceIdeal.Gen.V3 m' ρ') c)).symm)
  -- its space-to-depth array
  have E3 : (Cert.KernelIdeal.Hand.W7 m ρ c (Proc.devRef .tc Cert.KernelIdeal.main_v21) : (⟨4, ![128, 33, 33, 512]⟩ : Shape).Idx → EReal) = Cert.ReferenceIdeal.Gen.W7 m' ρ' c (Proc.devRef .tc Cert.ReferenceIdeal.main_v9) :=
    Cert.Glue.s2d1_eq (Cert.KernelIdeal.Hand.W4 m ρ c) (Cert.ReferenceIdeal.Gen.W4 m' ρ' c) E2
  -- the second convolution
  have hw1 : (Cert.KernelIdeal.Hand.W7 m ρ c (Proc.devRef .tc Cert.KernelIdeal.main_v8) : (⟨3, ![4, 512, 128]⟩ : Shape).Idx → EReal) = slabs 4 512 2048 rfl (m ((c : Thread Cert.KernelIdeal.nD Cert.KernelIdeal.τ).loc Cert.KernelIdeal.main_arg3) : (⟨2, ![2048, 128]⟩ : Shape).Idx → EReal) :=
    (KW7_v8 m ρ c).trans ((Cert.Glue.kw_v8 (Cert.KernelIdeal.Hand.W2 m ρ c)).trans (congrArg (slabs 4 512 2048 rfl) (KW2_arg3 m ρ c)))
  have ew1 : (m ((c : Thread Cert.KernelIdeal.nD Cert.KernelIdeal.τ).loc Cert.KernelIdeal.main_arg3) : (⟨2, ![2048, 128]⟩ : Shape).Idx → EReal) = Cert.ReferenceIdeal.Gen.W7 m' ρ' c (Proc.devRef .tc Cert.ReferenceIdeal.main_arg3) := a3.symm.trans (RW7_arg3 m' ρ' c).symm
  have eb1 : (Cert.KernelIdeal.Hand.W7 m ρ c (Proc.devRef .tc Cert.KernelIdeal.main_arg4) : (⟨2, ![1, 128]⟩ : Shape).Idx → EReal) = Cert.ReferenceIdeal.Gen.W7 m' ρ' c (Proc.devRef .tc Cert.ReferenceIdeal.main_arg4) :=
    (KW7_arg4 m ρ c).trans (a4.symm.trans (RW7_arg4 m' ρ' c).symm)
  have E4 : (Cert.KernelIdeal.Hand.W8 m ρ c (Proc.devRef .tc Cert.KernelIdeal.main_v22) : (⟨4, ![128, 32, 32, 128]⟩ : Shape).Idx → EReal) = Cert.ReferenceIdeal.Gen.W8 m' ρ' c (Proc.devRef .tc Cert.ReferenceIdeal.main_v10) :=
    ((Cert.KernelIdeal.Hand.W8_arr m ρ c 3).trans (hK1 (Cert.KernelIdeal.Hand.V7 m ρ) c (m ((c : Thread Cert.KernelIdeal.nD Cert.KernelIdeal.τ).loc Cert.KernelIdeal.main_arg3) : (⟨2, ![2048, 128]⟩ : Shape).Idx → EReal) hw1)).trans
      ((convSpec_congr rfl rfl true E3 ew1 eb1).trans ((Cert.ReferenceIdeal.Gen.W8_arr m' ρ' c 3).trans (hR1 (Cert.ReferenceIdeal.Gen.V7 m' ρ') c)).symm)
  -- its space-to-depth array
  have E5 : (Cert.KernelIdeal.Hand.W11 m ρ c (Proc.devRef .tc Cert.KernelIdeal.main_v26) : (⟨4, ![128, 17, 17, 512]⟩ : Shape).Idx → EReal) = Cert.ReferenceIdeal.Gen.W11 m' ρ' c (Proc.devRef .tc Cert.ReferenceIdeal.main_v14) :=
    Cert.Glue.s2d2_eq (Cert.KernelIdeal.Hand.W8 m ρ c) (Cert.ReferenceIdeal.Gen.W8 m' ρ' c) E4
  -- the third convolution and the two residual layers: one region of the kernel program
  have h1 : (Cert.KernelIdeal.Hand.W11 m ρ c (Proc.devRef .tc Cert.KernelIdeal.main_v10) : (⟨3, ![4, 512, 128]⟩ : Shape).Idx → EReal) = slabs 4 512 2048 rfl (m ((c : Thread Cert.KernelIdeal.nD Cert.KernelIdeal.τ).loc Cert.KernelIdeal.main_arg5) : (⟨2, ![2048, 128]⟩ : Shape).Idx → EReal) :=
    (KW11_v10 m ρ c).trans ((Cert.Glue.kw_v10 (Cert.KernelIdeal.Hand.W2 m ρ c)).trans (congrArg (slabs 4 512 2048 rfl) (KW2_arg5 m ρ c)))
  have h3 : (Cert.KernelIdeal.Hand.W11 m ρ c (Proc.devRef .tc Cert.KernelIdeal.main_v12) : (⟨3, ![9, 128, 128]⟩ : Shape).Idx → EReal) = slabs 9 128 1152 rfl (m ((c : Thread Cert.KernelIdeal.nD Cert.KernelIdeal.τ).loc Cert.KernelIdeal.main_arg7) : (⟨2, ![1152, 128]⟩ : Shape).Idx → EReal) :=
    (KW11_v12 m ρ c).trans ((Cert.Glue.kw_v12 (Cert.KernelIdeal.Hand.W2 m ρ c)).trans (congrArg (slabs 9 128 1152 rfl) (KW2_arg7 m ρ c)))
  have h4 : (Cert.KernelIdeal.Hand.W11 m ρ c (Proc.devRef .tc Cert.KernelIdeal.main_v13) : (⟨2, ![128, 128]⟩ : Shape).Idx → EReal) = (m ((c : Thread Cert.KernelIdeal.nD Cert.KernelIdeal.τ).loc Cert.KernelIdeal.main_arg8) : (⟨2, ![128, 128]⟩ : Shape).Idx → EReal) :=
    (KW11_v13 m ρ c).trans ((Cert.Glue.kw_v13 (Cert.KernelIdeal.Hand.W2 m ρ c)).trans (KW2_arg8 m ρ c))
  have h5 : (Cert.KernelIdeal.Hand.W11 m ρ c (Proc.devRef .tc Cert.KernelIdeal.main_v15) : (⟨3, ![9, 128, 128]⟩ : Shape).Idx → EReal) = slabs 9 128 1152 rfl (m ((c : Thread Cert.KernelIdeal.nD Cert.KernelIdeal.τ).loc Cert.KernelIdeal.main_arg9) : (⟨2, ![1152, 128]⟩ : Shape).Idx → EReal) :=
    (KW11_v15 m ρ c).trans ((Cert.Glue.kw_v15 (Cert.KernelIdeal.Hand.W2 m ρ c)).trans (congrArg (slabs 9 128 1152 rfl) (KW2_arg9 m ρ c)))
  have h6 : (Cert.KernelIdeal.Hand.W11 m ρ c (Proc.devRef .tc Cert.KernelIdeal.main_v16) : (⟨2, ![128, 128]⟩ : Shape).Idx → EReal) = (m ((c : Thread Cert.KernelIdeal.nD Cert.KernelIdeal.τ).loc Cert.KernelIdeal.main_arg10) : (⟨2, ![128, 128]⟩ : Shape).Idx → EReal) :=
    (KW11_v16 m ρ c).trans ((Cert.Glue.kw_v16 (Cert.KernelIdeal.Hand.W2 m ρ c)).trans (KW2_arg10 m ρ c))
  have K12 := (Cert.KernelIdeal.Hand.W12_arr m ρ c 7).trans (hK2 (Cert.KernelIdeal.Hand.V11 m ρ) c (m ((c : Thread Cert.KernelIdeal.nD Cert.KernelIdeal.τ).loc Cert.KernelIdeal.main_arg5) : (⟨2, ![2048, 128]⟩ : Shape).Idx → EReal) (m ((c : Thread Cert.KernelIdeal.nD Cert.KernelIdeal.τ).loc Cert.KernelIdeal.main_arg7) : (⟨2, ![1152, 128]⟩ : Shape).Idx → EReal) (m ((c : Thread Cert.KernelIdeal.nD Cert.KernelIdeal.τ).loc Cert.KernelIdeal.main_arg8) : (⟨2, ![128, 128]⟩ : Shape).Idx → EReal) (m ((c : Thread Cert.KernelIdeal.nD Cert.KernelIdeal.τ).loc Cert.KernelIdeal.main_arg9) : (⟨2, ![1152, 128]⟩ : Shape).Idx → EReal) (m ((c : Thread Cert.KernelIdeal.nD Cert.KernelIdeal.τ).loc Cert.KernelIdeal.main_arg10) : (⟨2, ![128, 128]⟩ : Shape).Idx → EReal) h1 h3 h4 h5 h6)
  -- the same layers in the reference: three regions and the two zero paddings between them
  have R12 := (Cert.ReferenceIdeal.Gen.W12_arr m' ρ' c 3).trans (hR2 (Cert.ReferenceIdeal.Gen.V11 m' ρ') c)
  have R15 := (Cert.ReferenceIdeal.Gen.W15_arr m' ρ' c 3).trans (hR3 (Cert.ReferenceIdeal.Gen.V14 m' ρ') c)
  have R18 := (Cert.ReferenceIdeal.Gen.W18_arr m' ρ' c 3).trans (hR4 (Cert.ReferenceIdeal.Gen.V17 m' ρ') c)
  have ew2 : (m ((c : Thread Cert.KernelIdeal.nD Cert.KernelIdeal.τ).loc Cert.KernelIdeal.main_arg5) : (⟨2, ![2048, 128]⟩ : Shape).Idx → EReal) = Cert.ReferenceIdeal.Gen.W11 m' ρ' c (Proc.devRef .tc Cert.ReferenceIdeal.main_arg5) := a5.symm.trans (RW11_arg5 m' ρ' c).symm
  have eb2 : (Cert.KernelIdeal.Hand.W11 m ρ c (Proc.devRef .tc Cert.KernelIdeal.main_arg6) : (⟨2, ![1, 128]⟩ : Shape).Idx → EReal) = Cert.ReferenceIdeal.Gen.W11 m' ρ' c (Proc.devRef .tc Cert.ReferenceIdeal.main_arg6) :=
    (KW11_arg6 m ρ c).trans (a6.symm.trans (RW11_arg6 m' ρ' c).symm)
  have e7 : (m ((c : Thread Cert.KernelIdeal.nD Cert.KernelIdeal.τ).loc Cert.KernelIdeal.main_arg7) : (⟨2, ![1152, 128]⟩ : Shape).Idx → EReal) = Cert.ReferenceIdeal.Gen.W14 m' ρ' c (Proc.devRef .tc Cert.ReferenceIdeal.main_arg7) := a7.symm.trans (RW14_arg7 m' ρ' c).symm
  have e8 : (m ((c : Thread Cert.KernelIdeal.nD Cert.KernelIdeal.τ).loc Cert.KernelIdeal.main_arg8) : (⟨2, ![128, 128]⟩ : Shape).Idx → EReal) = Cert.ReferenceIdeal.Gen.W14 m' ρ' c (Proc.devRef .tc Cert.ReferenceIdeal.main_arg8) := a8.symm.trans (RW14_arg8 m' ρ' c).symm
  have e9 : (m ((c : Thread Cert.KernelIdeal.nD Cert.KernelIdeal.τ).loc Cert.KernelIdeal.main_arg9) : (⟨2, ![1152, 128]⟩ : Shape).Idx → EReal) = Cert.ReferenceIdeal.Gen.W17 m' ρ' c (Proc.devRef .tc Cert.ReferenceIdeal.main_arg9) := a9.symm.trans (RW17_arg9 m' ρ' c).symm
  have e10 : (m ((c : Thread Cert.KernelIdeal.nD Cert.KernelIdeal.τ).loc Cert.KernelIdeal.main_arg10) : (⟨2, ![128, 128]⟩ : Shape).Idx → EReal) = Cert.ReferenceIdeal.Gen.W17 m' ρ' c (Proc.devRef .tc Cert.ReferenceIdeal.main_arg10) := a10.symm.trans (RW17_arg10 m' ρ' c).symm
  have c2 := (convSpec_congr rfl rfl false E5 ew2 eb2).trans R12.symm
  have p1 := (congrArg (padSpec 128) c2).trans (Cert.Glue.rpad_v16 (Cert.ReferenceIdeal.Gen.W12 m' ρ' c)).symm
  have r0 := (resSpec_congr false p1 e7 e8).trans R15.symm
  have p2 := (congrArg (padSpec 128) r0).trans (Cert.Glue.rpad_v18 (Cert.ReferenceIdeal.Gen.W15 m' ρ' c)).symm
  have r1 := (resSpec_congr true p2 e9 e10).trans R18.symm
  have E6 : (Cert.KernelIdeal.Hand.W12 m ρ c (Proc.devRef .tc Cert.KernelIdeal.main_v27) : (⟨4, ![128, 16, 16, 128]⟩ : Shape).Idx → EReal) = Cert.ReferenceIdeal.Gen.W18 m' ρ' c (Proc.devRef .tc Cert.ReferenceIdeal.main_v19) := K12.trans r1
  -- the final transpose
  exact (Cert.Glue.nchw_eq (Cert.KernelIdeal.Hand.W12 m ρ c) (Cert.ReferenceIdeal.Gen.W18 m' ρ' c) E6).symm

include hK0 hK1 hK2 hR0 hR1 hR2 hR3 hR4 in
/-- THE VALUE CLAIM: at the extended reals, from memories agreeing on the arguments, both programs run, end with equal result
    arrays and leave the arguments as launched. -/
theorem algebraic : Cert.algebraic_KernelIdeal_ReferenceIdeal := by
  intro m ρ m' ρ' _ hagree
  refine ⟨fun c => Cert.KernelIdeal.Hand.W13 m ρ c (Proc.devRef .tc Cert.KernelIdeal.main_v28), ?_, ?_⟩
  · exact (θ_run Cert.KernelIdeal.defs _ _).mono (fun r h c =>
      ⟨h c _ (Cert.KernelIdeal.Hand.mem_uc Cert.KernelIdeal.main_v28 (by decide)),
      (h c _ (Cert.KernelIdeal.Hand.mem_uc Cert.KernelIdeal.main_arg0 (by decide))).trans (Cert.KernelIdeal.Hand.W13_main_arg0 m ρ c),
      (h c _ (Cert.KernelIdeal.Hand.mem_uc Cert.KernelIdeal.main_arg1 (by decide))).trans (Cert.KernelIdeal.Hand.W13_main_arg1 m ρ c),
      (h c _ (Cert.KernelIdeal.Hand.mem_uc Cert.KernelIdeal.main_arg2 (by decide))).trans (Cert.KernelIdeal.Hand.W13_main_arg2 m ρ c),
      (h c _ (Cert.KernelIdeal.Hand.mem_uc Cert.KernelIdeal.main_arg3 (by decide))).trans (Cert.KernelIdeal.Hand.W13_main_arg3 m ρ c),
      (h c _ (Cert.KernelIdeal.Hand.mem_uc Cert.KernelIdeal.main_arg4 (by decide))).trans (Cert.KernelIdeal.Hand.W13_main_arg4 m ρ c),
      (h c _ (Cert.KernelIdeal.Hand.mem_uc Cert.KernelIdeal.main_arg5 (by decide))).trans (Cert.KernelIdeal.Hand.W13_main_arg5 m ρ c),
      (h c _ (Cert.KernelIdeal.Hand.mem_uc Cert.KernelIdeal.main_arg6 (by decide))).trans (Cert.KernelIdeal.Hand.W13_main_arg6 m ρ c),
      (h c _ (Cert.KernelIdeal.Hand.mem_uc Cert.KernelIdeal.main_arg7 (by decide))).trans (Cert.KernelIdeal.Hand.W13_main_arg7 m ρ c),
      (h c _ (Cert.KernelIdeal.Hand.mem_uc Cert.KernelIdeal.main_arg8 (by decide))).trans (Cert.KernelIdeal.Hand.W13_main_arg8 m ρ c),
      (h c _ (Cert.KernelIdeal.Hand.mem_uc Cert.KernelIdeal.main_arg9 (by decide))).trans (Cert.KernelIdeal.Hand.W13_main_arg9 m ρ c),
      (h c _ (Cert.KernelIdeal.Hand.mem_uc Cert.KernelIdeal.main_arg10 (by decide))).trans (Cert.KernelIdeal.Hand.W13_main_arg10 m ρ c)⟩) (Cert.KernelIdeal.Hand.run_all m ρ)
  · exact (θ_run Cert.ReferenceIdeal.defs _ _).mono (fun r h c =>
      ⟨(h c _ (Cert.ReferenceIdeal.Gen.mem_uc Cert.ReferenceIdeal.main_v20 (by decide))).trans (value_eq hK0 hK1 hK2 hR0 hR1 hR2 hR3 hR4 m ρ m' ρ' hagree c),
      (h c _ (Cert.ReferenceIdeal.Gen.mem_uc Cert.ReferenceIdeal.main_arg0 (by decide))).trans (Cert.ReferenceIdeal.Gen.W19_main_arg0 m' ρ' c),
      (h c _ (Cert.ReferenceIdeal.Gen.mem_uc Cert.ReferenceIdeal.main_arg1 (by decide))).trans (Cert.ReferenceIdeal.Gen.W19_main_arg1 m' ρ' c),
      (h c _ (Cert.ReferenceIdeal.Gen.mem_uc Cert.ReferenceIdeal.main_arg2 (by decide))).trans (Cert.ReferenceIdeal.Gen.W19_main_arg2 m' ρ' c),
      (h c _ (Cert.ReferenceIdeal.Gen.mem_uc Cert.ReferenceIdeal.main_arg3 (by decide))).trans (Cert.ReferenceIdeal.Gen.W19_main_arg3 m' ρ' c),
      (h c _ (Cert.ReferenceIdeal.Gen.mem_uc Cert.ReferenceIdeal.main_arg4 (by decide))).trans (Cert.ReferenceIdeal.Gen.W19_main_arg4 m' ρ' c),
      (h c _ (Cert.ReferenceIdeal.Gen.mem_uc Cert.ReferenceIdeal.main_arg5 (by decide))).trans (Cert.ReferenceIdeal.Gen.W19_main_arg5 m' ρ' c),
      (h c _ (Cert.ReferenceIdeal.Gen.mem_uc Cert.ReferenceIdeal.main_arg6 (by decide))).trans (Cert.ReferenceIdeal.Gen.W19_main_arg6 m' ρ' c),
      (h c _ (Cert.ReferenceIdeal.Gen.mem_uc Cert.ReferenceIdeal.main_arg7 (by decide))).trans (Cert.ReferenceIdeal.Gen.W19_main_arg7 m' ρ' c),
      (h c _ (Cert.ReferenceIdeal.Gen.mem_uc Cert.ReferenceIdeal.main_arg8 (by decide))).trans (Cert.ReferenceIdeal.Gen.W19_main_arg8 m' ρ' c),
      (h c _ (Cert.ReferenceIdeal.Gen.mem_uc Cert.ReferenceIdeal.main_arg9 (by decide))).trans (Cert.ReferenceIdeal.Gen.W19_main_arg9 m' ρ' c),
      (h c _ (Cert.ReferenceIdeal.Gen.mem_uc Cert.ReferenceIdeal.main_arg10 (by decide))).trans (Cert.ReferenceIdeal.Gen.W19_main_arg10 m' ρ' c)⟩) (Cert.ReferenceIdeal.Hand.run_all m' ρ')

end Assembly

/-- info: 'Cert.Assemble.algebraic' depends on axioms: [propext, Classical.choice, Quot.sound] -/
#guard_msgs in #print axioms algebraic

end Cert.Assemble

end
-- ==== Proof.lean ====
/-
  The encoder: three stride-2 4×4 convolutions (ReLU after the first two) take a [128,3,128,128] image batch down to 16×16 maps of
  128 channels, then two residual layers x + W₂·ReLU(conv3×3(ReLU(x))) and a final ReLU; input and output are NCHW.

  The kernel program runs it as three grid pipelines — conv1 on 2 images per step, conv2 on 4 images per step with the 2048 weight
  rows split into four slabs of 512 whose partial products are added onto the bias, and a fused tail on 8 images per step that computes
  conv3 the same way and both residual layers through a zero-ringed scratch, the nine taps of each 3×3 convolution added one after the
  other — with every matrix operand cast to bf16. The reference runs five pipelines on one image per step, each convolution as one product
  of the concatenated taps with the flat weight, and pads the activation on the host before each residual layer.

  Over the extended reals the casts are the identity and a product into the zero accumulator is a plain sum, so every region of both
  programs writes one of the layer functions of Spec.lean applied image by image: a sum over 4·C or 9·128 weight rows is the sum of its
  slabs (commutativity and associativity of + only, so nothing is asked of the inputs), the scratch holds max(pad(h), 0), and the host's
  pad is the same ring of zeros. The space-to-depth arrays between the regions are built by the same host operations in both programs, so
  they agree as soon as the activations do, stage by stage, down to the last transpose.

  The frames: each program's @main is host stretches and pipeline regions; every region's body is run once at a symbolic grid point,
  its windows' buffers in and the output window's buffer out, the scratch of the fused tail inside the region's invariant; the run
  carries every unscoped buffer's contents from the launch to the return, where the argument arrays are read back unchanged.
-/
import proofs.«119654_g2000206494441110_pallasbulk_512_2_alg».proof.Defs
import proofs.«119654_g2000206494441110_pallasbulk_512_2_alg».proof.Proof.Gen.Kernel
import proofs.«119654_g2000206494441110_pallasbulk_512_2_alg».proof.Proof.Gen.KernelIdeal
import proofs.«119654_g2000206494441110_pallasbulk_512_2_alg».proof.Proof.Gen.ReferenceIdeal
import proofs.«119654_g2000206494441110_pallasbulk_512_2_alg».proof.Proof.Gen.ReferenceIdeal.Frame
import proofs.«119654_g2000206494441110_pallasbulk_512_2_alg».proof.Proof.Gen.Pre_finite_inputs
import proofs.«119654_g2000206494441110_pallasbulk_512_2_alg».proof.Proof.BRun
import proofs.«119654_g2000206494441110_pallasbulk_512_2_alg».proof.Proof.KRun
import proofs.«119654_g2000206494441110_pallasbulk_512_2_alg».proof.Proof.RRun
import proofs.«119654_g2000206494441110_pallasbulk_512_2_alg».proof.Proof.KVal0
import proofs.«119654_g2000206494441110_pallasbulk_512_2_alg».proof.Proof.KVal1
import proofs.«119654_g2000206494441110_pallasbulk_512_2_alg».proof.Proof.KVal2
import proofs.«119654_g2000206494441110_pallasbulk_512_2_alg».proof.Proof.KPay2o
import proofs.«119654_g2000206494441110_pallasbulk_512_2_alg».proof.Proof.RVal0
import proofs.«119654_g2000206494441110_pallasbulk_512_2_alg».proof.Proof.RVal1
import proofs.«119654_g2000206494441110_pallasbulk_512_2_alg».proof.Proof.RVal2
import proofs.«119654_g2000206494441110_pallasbulk_512_2_alg».proof.Proof.RVal3
import proofs.«119654_g2000206494441110_pallasbulk_512_2_alg».proof.Proof.RVal4
import proofs.«119654_g2000206494441110_pallasbulk_512_2_alg».proof.Proof.Assemble

noncomputable section

namespace Cert.Proof

open Idealize.ShloMosaic Idealize.SL.Sem

/-- The kernel program as printed, at the word level: it runs and its arguments end unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference over the extended reals. -/
theorem frame_ri : Cert.frame_ReferenceIdeal (hReferenceIdeal := Cert.ReferenceIdeal.Gen.facts) (hPre_finite_inputs := Cert.Pre_finite_inputs.Gen.facts) :=
  fun m ρ _ => Cert.ReferenceIdeal.Gen.frame (F := Ideal) m ρ

/-- From memories agreeing on the eleven arguments both programs end with the same NCHW result: each region's array is its layer
    function of the arrays it was entered with, and the host operations between the regions are the same in both programs. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  Cert.Assemble.algebraic
    (fun V c => Cert.KernelIdeal.Hand.final0 V c)
    (fun V c w hw => Cert.KernelIdeal.Hand.final1 V c w hw)
    (fun V c w3 r0w1 r0w2 r1w1 r1w2 h1 h3 h4 h5 h6 =>
      Cert.KernelIdeal.Hand.final2_of Cert.KernelIdeal.Hand.out2_7_apply V c w3 r0w1 r0w2 r1w1 r1w2 h1 h3 h4 h5 h6)
    (fun V c => Cert.ReferenceIdeal.Hand.final0 V c)
    (fun V c => Cert.ReferenceIdeal.Hand.final1 V c)
    (fun V c => Cert.ReferenceIdeal.Hand.final2 V c)
    (fun V c => Cert.ReferenceIdeal.Hand.final3 V c)
    (fun V c => Cert.ReferenceIdeal.Hand.final4 V c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
